-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  IdealRules.named_const.Statement Cert.KernelIdeal.κ "inv_sqrt_d" .f32 0x3DB504F3#32 ((1048576 / 11863283 : ℝ) : EReal)
  ∧ IdealRules.named_const.Statement Cert.KernelIdeal.κ "inv_sqrt_d" .f32 0x3DB504F3#32 ((1048576 / 11863283 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x1024 : Shape := ⟨3, ![4, 4096, 1024]⟩
abbrev S128x1024 : Shape := ⟨2, ![128, 1024]⟩
abbrev S128 : Shape := ⟨1, ![128]⟩
abbrev S_ : Shape := ⟨0, ![]⟩

class Facts : Prop where
  bcast_S_S4x4096x1024 : S_.BroadcastsInDim S4x4096x1024 (![] : Fin 0 → Fin S4x4096x1024.rank)
  reducesTo_S4x4096x1024_S_d0_1_2 : S4x4096x1024.ReducesTo [0, 1, 2] S_
  h_S_ : 0 < S_.numel
  bcast_S_S128x1024 : S_.BroadcastsInDim S128x1024 (![] : Fin 0 → Fin S128x1024.rank)
  reducesTo_S128x1024_S_d0_1 : S128x1024.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg7 : FVec F S128x1024 .f32) (main_arg8 : FVec F S128 .f32) (main_v33 : IVec S_ 1) : IVec S_ 1 :=
  let main_v34 : FVec F S128x1024 .f32 := Host.absf main_arg7
  let main_cst_12 : FVec F S_ .f32 := constant S_ .f32 0x7F800000#32
  let main_v35 : FVec F S128x1024 .f32 := broadcastInDim S128x1024 ![] bcast_S_S128x1024 main_cst_12
  let main_v36 : IVec S128x1024 1 := cmpf .olt main_v34 main_v35
  let main_c_13 : IVec S_ 1 := constantI S_ 1 1#1
  let main_v37 : IVec S_ 1 := (fun x v => Host.reduce IntOp.andi x v reducesTo_S128x1024_S_d0_1 h_S_) main_v36 main_c_13
  let main_v38 : IVec S_ 1 := andi main_v33 main_v37
  let main_v39 : FVec F S128 .f32 := Host.absf main_arg8
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  main_v43

def fn_part1 {F : FTy → Type} [FloatOps F] (main_arg4 : FVec F S128 .f32) (main_arg5 : FVec F S128x1024 .f32) (main_arg6 : FVec F S128 .f32) (main_arg7 : FVec F S128x1024 .f32) (main_arg8 : FVec F S128 .f32) (main_v13 : IVec S_ 1) (main_v16 : IVec S128x1024 1) : IVec S_ 1 :=
  let main_c_5 : IVec S_ 1 := constantI S_ 1 1#1
  let main_v17 : IVec S_ 1 := (fun x v => Host.reduce IntOp.andi x v reducesTo_S128x1024_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x1024 .f32 := Host.absf main_arg5
  let main_cst_8 : FVec F S_ .f32 := constant S_ .f32 0x7F800000#32
  let main_v25 : FVec F S128x1024 .f32 := broadcastInDim S128x1024 ![] bcast_S_S128x1024 main_cst_8
  let main_v26 : IVec S128x1024 1 := cmpf .olt main_v24 main_v25
  let main_c_9 : IVec S_ 1 := constantI S_ 1 1#1
  let main_v27 : IVec S_ 1 := (fun x v => Host.reduce IntOp.andi x v reducesTo_S128x1024_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_arg8 main_v33

def fn {F : FTy → Type} [FloatOps F] (main_arg0 : FVec F S4x4096x1024 .f32) (main_arg1 : FVec F S4x4096x1024 .f32) (main_arg2 : FVec F S4x4096x1024 .f32) (main_arg3 : FVec F S128x1024 .f32) (main_arg4 : FVec F S128 .f32) (main_arg5 : FVec F S128x1024 .f32) (main_arg6 : FVec F S128 .f32) (main_arg7 : FVec F S128x1024 .f32) (main_arg8 : FVec F S128 .f32) : IVec S_ 1 :=
  let main_v0 : FVec F S4x4096x1024 .f32 := Host.absf main_arg0
  let main_cst : FVec F S_ .f32 := constant S_ .f32 0x7F800000#32
  let main_v1 : FVec F S4x4096x1024 .f32 := broadcastInDim S4x4096x1024 ![] bcast_S_S4x4096x1024 main_cst
  let main_v2 : IVec S4x4096x1024 1 := cmpf .olt main_v0 main_v1
  let main_c : IVec S_ 1 := constantI S_ 1 1#1
  let main_v3 : IVec S_ 1 := (fun x v => Host.reduce IntOp.andi x v reducesTo_S4x4096x1024_S_d0_1_2 h_S_) main_v2 main_c
  let main_v4 : FVec F S4x4096x1024 .f32 := Host.absf main_arg1
  let main_cst_0 : FVec F S_ .f32 := constant S_ .f32 0x7F800000#32
  let main_v5 : FVec F S4x4096x1024 .f32 := broadcastInDim S4x4096x1024 ![] bcast_S_S4x4096x1024 main_cst_0
  let main_v6 : IVec S4x4096x1024 1 := cmpf .olt main_v4 main_v5
  let main_c_1 : IVec S_ 1 := constantI S_ 1 1#1
  let main_v7 : IVec S_ 1 := (fun x v => Host.reduce IntOp.andi x v reducesTo_S4x4096x1024_S_d0_1_2 h_S_) main_v6 main_c_1
  let main_v8 : IVec S_ 1 := andi main_v3 main_v7
  let main_v9 : FVec F S4x4096x1024 .f32 := Host.absf main_arg2
  let main_cst_2 : FVec F S_ .f32 := constant S_ .f32 0x7F800000#32
  let main_v10 : FVec F S4x4096x1024 .f32 := broadcastInDim S4x4096x1024 ![] bcast_S_S4x4096x1024 main_cst_2
  let main_v11 : IVec S4x4096x1024 1 := cmpf .olt main_v9 main_v10
  let main_c_3 : IVec S_ 1 := constantI S_ 1 1#1
  let main_v12 : IVec S_ 1 := (fun x v => Host.reduce IntOp.andi x v reducesTo_S4x4096x1024_S_d0_1_2 h_S_) main_v11 main_c_3
  let main_v13 : IVec S_ 1 := andi main_v8 main_v12
  let main_v14 : FVec F S128x1024 .f32 := Host.absf main_arg3
  let main_cst_4 : FVec F S_ .f32 := constant S_ .f32 0x7F800000#32
  let main_v15 : FVec F S128x1024 .f32 := broadcastInDim S128x1024 ![] bcast_S_S128x1024 main_cst_4
  let main_v16 : IVec S128x1024 1 := cmpf .olt main_v14 main_v15
  fn_part1 (F := F) main_arg4 main_arg5 main_arg6 main_arg7 main_arg8 main_v13 main_v16
-- ==== Kernel.lean ====
abbrev S4x4096x1024 : Shape := ⟨3, ![4, 4096, 1024]⟩
abbrev S128x1024 : Shape := ⟨2, ![128, 1024]⟩
abbrev S128 : Shape := ⟨1, ![128]⟩
abbrev S16384x1024 : Shape := ⟨2, ![16384, 1024]⟩
abbrev S16384x128 : Shape := ⟨2, ![16384, 128]⟩
abbrev S512x1024 : Shape := ⟨2, ![512, 1024]⟩
abbrev S512x128 : Shape := ⟨2, ![512, 128]⟩
abbrev S1x128 : Shape := ⟨2, ![1, 128]⟩
abbrev S4x4096x128 : Shape := ⟨3, ![4, 4096, 128]⟩
abbrev S4x1x4096 : Shape := ⟨3, ![4, 1, 4096]⟩
abbrev S1x2048x128 : Shape := ⟨3, ![1, 2048, 128]⟩
abbrev S1x1024x128 : Shape := ⟨3, ![1, 1024, 128]⟩
abbrev S1x1x2048 : Shape := ⟨3, ![1, 1, 2048]⟩
abbrev S1x2048 : Shape := ⟨2, ![1, 2048]⟩
abbrev S2048x128 : Shape := ⟨2, ![2048, 128]⟩
abbrev S1x256x128 : Shape := ⟨3, ![1, 256, 128]⟩
abbrev S256x128 : Shape := ⟨2, ![256, 128]⟩
abbrev S256x2048 : Shape := ⟨2, ![256, 2048]⟩
abbrev S2048 : Shape := ⟨1, ![2048]⟩
abbrev S1x1x1024 : Shape := ⟨3, ![1, 1, 1024]⟩
abbrev S1x1x256 : Shape := ⟨3, ![1, 1, 256]⟩
abbrev S1x256 : Shape := ⟨2, ![1, 256]⟩
abbrev S2048x256 : Shape := ⟨2, ![2048, 256]⟩

abbrev nBuf : Space → Nat
  | .hbm => 20
  | .vmem => 37
  | .smem => 0
  | _ => 0

abbrev bufTy : (tb : Table) → Fin (tcTables nBuf tb) → BufTy
  | .hbm, ⟨0, _⟩ => ⟨S4x4096x1024, .f32⟩
  | .hbm, ⟨1, _⟩ => ⟨S4x4096x1024, .f32⟩
  | .hbm, ⟨2, _⟩ => ⟨S4x4096x1024, .f32⟩
  | .hbm, ⟨3, _⟩ => ⟨S128x1024, .f32⟩
  | .hbm, ⟨4, _⟩ => ⟨S128, .f32⟩
  | .hbm, ⟨5, _⟩ => ⟨S128x1024, .f32⟩
  | .hbm, ⟨6, _⟩ => ⟨S128, .f32⟩
  | .hbm, ⟨7, _⟩ => ⟨S128x1024, .f32⟩
  | .hbm, ⟨8, _⟩ => ⟨S128, .f32⟩
  | .hbm, ⟨9, _⟩ => ⟨S16384x1024, .f32⟩
  | .hbm, ⟨10, _⟩ => ⟨S16384x1024, .f32⟩
  | .hbm, ⟨11, _⟩ => ⟨S16384x1024, .f32⟩
  | .hbm, ⟨12, _⟩ => ⟨S16384x128, .bf16⟩
  | .hbm, ⟨13, _⟩ => ⟨S16384x128, .bf16⟩
  | .hbm, ⟨14, _⟩ => ⟨S16384x128, .bf16⟩
  | .hbm, ⟨15, _⟩ => ⟨S4x4096x128, .bf16⟩
  | .hbm, ⟨16, _⟩ => ⟨S4x4096x128, .bf16⟩
  | .hbm, ⟨17, _⟩ => ⟨S4x4096x128, .bf16⟩
  | .hbm, ⟨18, _⟩ => ⟨S4x1x4096, .f32⟩
  | .hbm, ⟨19, _⟩ => ⟨S4x4096x128, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .vmem, ⟨9, _⟩ => ⟨S128, .f32⟩
  | .local _ .vmem, ⟨10, _⟩ => ⟨S128, .f32⟩
  | .local _ .vmem, ⟨11, _⟩ => ⟨S128, .f32⟩
  | .local _ .vmem, ⟨12, _⟩ => ⟨S512x128, .bf16⟩
  | .local _ .vmem, ⟨13, _⟩ => ⟨S512x128, .bf16⟩
  | .local _ .vmem, ⟨14, _⟩ => ⟨S512x128, .bf16⟩
  | .local _ .vmem, ⟨15, _⟩ => ⟨S512x128, .bf16⟩
  | .local _ .vmem, ⟨16, _⟩ => ⟨S512x128, .bf16⟩
  | .local _ .vmem, ⟨17, _⟩ => ⟨S512x128, .bf16⟩
  | .local _ .vmem, ⟨18, _⟩ => ⟨S1x2048x128, .bf16⟩
  | .local _ .vmem, ⟨19, _⟩ => ⟨S1x2048x128, .bf16⟩
  | .local _ .vmem, ⟨20, _⟩ => ⟨S1x1024x128, .bf16⟩
  | .local _ .vmem, ⟨21, _⟩ => ⟨S1x1024x128, .bf16⟩
  | .local _ .vmem, ⟨22, _⟩ => ⟨S1x1x2048, .f32⟩
  | .local _ .vmem, ⟨23, _⟩ => ⟨S1x1x2048, .f32⟩
  | .local _ .vmem, ⟨24, _⟩ => ⟨S1x2048, .f32⟩
  | .local _ .vmem, ⟨25, _⟩ => ⟨S1x2048, .f32⟩
  | .local _ .vmem, ⟨26, _⟩ => ⟨S1x2048x128, .bf16⟩
  | .local _ .vmem, ⟨27, _⟩ => ⟨S1x2048x128, .bf16⟩
  | .local _ .vmem, ⟨28, _⟩ => ⟨S1x1024x128, .bf16⟩
  | .local _ .vmem, ⟨29, _⟩ => ⟨S1x1024x128, .bf16⟩
  | .local _ .vmem, ⟨30, _⟩ => ⟨S1x1024x128, .bf16⟩
  | .local _ .vmem, ⟨31, _⟩ => ⟨S1x1024x128, .bf16⟩
  | .local _ .vmem, ⟨32, _⟩ => ⟨S1x1x1024, .f32⟩
  | .local _ .vmem, ⟨33, _⟩ => ⟨S1x1x1024, .f32⟩
  | .local _ .vmem, ⟨34, _⟩ => ⟨S1x2048x128, .f32⟩
  | .local _ .vmem, ⟨35, _⟩ => ⟨S1x2048x128, .f32⟩
  | .local _ .vmem, ⟨36, _⟩ => ⟨S2048x128, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3_0 : Ref sig .tc := ⟨.hbm, 12, rfl⟩
abbrev main_v3_1 : Ref sig .tc := ⟨.hbm, 13, rfl⟩
abbrev main_v3_2 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc1_stg0_0 : Ref sig .tc := ⟨.vmem, 18, rfl⟩
abbrev cc1_stg0_1 : Ref sig .tc := ⟨.vmem, 19, rfl⟩
abbrev cc1_stg1_0 : Ref sig .tc := ⟨.vmem, 20, rfl⟩
abbrev cc1_stg1_1 : Ref sig .tc := ⟨.vmem, 21, rfl⟩
abbrev cc1_stg2_0 : Ref sig .tc := ⟨.vmem, 22, rfl⟩
abbrev cc1_stg2_1 : Ref sig .tc := ⟨.vmem, 23, rfl⟩
abbrev cc1_scratch0 : Ref sig .tc := ⟨.vmem, 24, rfl⟩
abbrev cc1_scratch1 : Ref sig .tc := ⟨.vmem, 25, rfl⟩
abbrev cc2_stg0_0 : Ref sig .tc := ⟨.vmem, 26, rfl⟩
abbrev cc2_stg0_1 : Ref sig .tc := ⟨.vmem, 27, rfl⟩
abbrev cc2_stg1_0 : Ref sig .tc := ⟨.vmem, 28, rfl⟩
abbrev cc2_stg1_1 : Ref sig .tc := ⟨.vmem, 29, rfl⟩
abbrev cc2_stg2_0 : Ref sig .tc := ⟨.vmem, 30, rfl⟩
abbrev cc2_stg2_1 : Ref sig .tc := ⟨.vmem, 31, rfl⟩
abbrev cc2_stg3_0 : Ref sig .tc := ⟨.vmem, 32, rfl⟩
abbrev cc2_stg3_1 : Ref sig .tc := ⟨.vmem, 33, rfl⟩
abbrev cc2_stg4_0 : Ref sig .tc := ⟨.vmem, 34, rfl⟩
abbrev cc2_stg4_1 : Ref sig .tc := ⟨.vmem, 35, rfl⟩
abbrev cc2_scratch0 : Ref sig .tc := ⟨.vmem, 36, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc1_sem0_0 : DmaSem sig := 18
abbrev cc1_sem0_1 : DmaSem sig := 19
abbrev cc1_sem1_0 : DmaSem sig := 20
abbrev cc1_sem1_1 : DmaSem sig := 21
abbrev cc1_sem2_0 : DmaSem sig := 22
abbrev cc1_sem2_1 : DmaSem sig := 23
abbrev cc2_sem0_0 : DmaSem sig := 24
abbrev cc2_sem0_1 : DmaSem sig := 25
abbrev cc2_sem1_0 : DmaSem sig := 26
abbrev cc2_sem1_1 : DmaSem sig := 27
abbrev cc2_sem2_0 : DmaSem sig := 28
abbrev cc2_sem2_1 : DmaSem sig := 29
abbrev cc2_sem3_0 : DmaSem sig := 30
abbrev cc2_sem3_1 : DmaSem sig := 31
abbrev cc2_sem4_0 : DmaSem sig := 32
abbrev cc2_sem4_1 : DmaSem sig := 33

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev grid1 : Pipeline.Grid := ⟨3, ![4, 2, 4], ![false, false, false]⟩

@[reducible] def k1_t1_loop : Scf.Loop 32 :=
  let c0_i32_3 : BitVec 32 := 0#32
  let c4_i32 : BitVec 32 := 4#32
  let v5 : BitVec 32 := Scalar.addi c0_i32_3 c4_i32
  let c1_i32 : BitVec 32 := 1#32
  ⟨c0_i32_3, v5, c1_i32⟩
def k1_mult1 (k1_t1 : Fin k1_t1_loop.trips) : BitVec 32 :=
  let c0_i32_7 : BitVec 32 := 0#32
  let c0_i32_3 : BitVec 32 := 0#32
  let c1_i32 : BitVec 32 := 1#32
  let arg8 : BitVec 32 := Scf.iv c0_i32_3 c1_i32 k1_t1
  let c1_i32_6 : BitVec 32 := 1#32
  let v9 : BitVec 32 := Scalar.muli arg8 c1_i32_6
  let v10 : BitVec 32 := Scalar.addi c0_i32_7 v9
  let c256_i32 : BitVec 32 := 256#32
  let v11 : BitVec 32 := Scalar.muli v10 c256_i32
  v11
def k1_off1 (k1_t1 : Fin k1_t1_loop.trips) : Fin 3 → Nat :=
  let c0_8 : Index := 0#32
  let c0_i32_7 : BitVec 32 := 0#32
  let c0_i32_3 : BitVec 32 := 0#32
  let c1_i32 : BitVec 32 := 1#32
  let arg8 : BitVec 32 := Scf.iv c0_i32_3 c1_i32 k1_t1
  let c1_i32_6 : BitVec 32 := 1#32
  let v9 : BitVec 32 := Scalar.muli arg8 c1_i32_6
  let v10 : BitVec 32 := Scalar.addi c0_i32_7 v9
  let c256_i32 : BitVec 32 := 256#32
  let v11 : BitVec 32 := Scalar.muli v10 c256_i32
  let v12 : BitVec 32 := v11
  let v13 : Index := Scalar.indexCast v12
  let c0_9 : Index := 0#32
  ![0, v13.toNat, 0]
def k1_cond2 (i : grid1.Coords) : BitVec 1 :=
  let arg2 : BitVec 32 := BitVec.ofNat 32 (i 2).val
  let c3_i32 : BitVec 32 := 3#32
  let v6 : BitVec 1 := Scalar.cmpi .eq arg2 c3_i32
  let v7 : BitVec 32 := Scalar.extui v6
  let c0_i32_5 : BitVec 32 := 0#32
  let v8 : BitVec 1 := Scalar.cmpi .ne v7 c0_i32_5
  v8

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

abbrev stage1_0 : Fin 2 → Memref sig .tc .vmem S1x2048x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, false]

abbrev stage1_1 : Fin 2 → Memref sig .tc .vmem S1x1024x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, true]

abbrev stage1_2 : Fin 2 → Memref sig .tc .vmem S1x1x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev grid2 : Pipeline.Grid := ⟨3, ![4, 2, 4], ![false, false, false]⟩

@[reducible] def k2_t1_loop : Scf.Loop 32 :=
  let c0_i32_3 : BitVec 32 := 0#32
  let c4_i32 : BitVec 32 := 4#32
  let v5 : BitVec 32 := Scalar.addi c0_i32_3 c4_i32
  let c1_i32 : BitVec 32 := 1#32
  ⟨c0_i32_3, v5, c1_i32⟩
def k2_mult1 (k2_t1 : Fin k2_t1_loop.trips) : BitVec 32 :=
  let c0_i32_7 : BitVec 32 := 0#32
  let c0_i32_3 : BitVec 32 := 0#32
  let c1_i32 : BitVec 32 := 1#32
  let arg9 : BitVec 32 := Scf.iv c0_i32_3 c1_i32 k2_t1
  let c1_i32_6 : BitVec 32 := 1#32
  let v9 : BitVec 32 := Scalar.muli arg9 c1_i32_6
  let v10 : BitVec 32 := Scalar.addi c0_i32_7 v9
  let c256_i32 : BitVec 32 := 256#32
  let v11 : BitVec 32 := Scalar.muli v10 c256_i32
  v11
def k2_off1 (k2_t1 : Fin k2_t1_loop.trips) : Fin 3 → Nat :=
  let c0_8 : Index := 0#32
  let c0_i32_7 : BitVec 32 := 0#32
  let c0_i32_3 : BitVec 32 := 0#32
  let c1_i32 : BitVec 32 := 1#32
  let arg9 : BitVec 32 := Scf.iv c0_i32_3 c1_i32 k2_t1
  let c1_i32_6 : BitVec 32 := 1#32
  let v9 : BitVec 32 := Scalar.muli arg9 c1_i32_6
  let v10 : BitVec 32 := Scalar.addi c0_i32_7 v9
  let c256_i32 : BitVec 32 := 256#32
  let v11 : BitVec 32 := Scalar.muli v10 c256_i32
  let v12 : BitVec 32 := v11
  let v13 : Index := Scalar.indexCast v12
  let c0_9 : Index := 0#32
  ![0, v13.toNat, 0]
def k2_off2 (k2_t1 : Fin k2_t1_loop.trips) : Fin 3 → Nat :=
  let c0_12 : Index := 0#32
  let c0_13 : Index := 0#32
  let c0_i32_7 : BitVec 32 := 0#32
  let c0_i32_3 : BitVec 32 := 0#32
  let c1_i32 : BitVec 32 := 1#32
  let arg9 : BitVec 32 := Scf.iv c0_i32_3 c1_i32 k2_t1
  let c1_i32_6 : BitVec 32 := 1#32
  let v9 : BitVec 32 := Scalar.muli arg9 c1_i32_6
  let v10 : BitVec 32 := Scalar.addi c0_i32_7 v9
  let c256_i32 : BitVec 32 := 256#32
  let v11 : BitVec 32 := Scalar.muli v10 c256_i32
  let v12 : BitVec 32 := v11
  let v19 : Index := Scalar.indexCast v12
  ![0, 0, v19.toNat]
def k2_cond2 (i : grid2.Coords) : BitVec 1 :=
  let arg2 : BitVec 32 := BitVec.ofNat 32 (i 2).val
  let c3_i32 : BitVec 32 := 3#32
  let v6 : BitVec 1 := Scalar.cmpi .eq arg2 c3_i32
  let v7 : BitVec 32 := Scalar.extui v6
  let c0_i32_5 : BitVec 32 := 0#32
  let v8 : BitVec 1 := Scalar.cmpi .ne v7 c0_i32_5
  v8

def cc2_transform_0 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc2_transform_1 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc2_transform_2 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc2_transform_3 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc2_transform_4 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage2_0 : Fin 2 → Memref sig .tc .vmem S1x2048x128 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true, false]

abbrev stage2_1 : Fin 2 → Memref sig .tc .vmem S1x1024x128 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false, true]

abbrev stage2_2 : Fin 2 → Memref sig .tc .vmem S1x1024x128 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false, true]

abbrev stage2_3 : Fin 2 → Memref sig .tc .vmem S1x1x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false, true]

abbrev stage2_4 : Fin 2 → Memref sig .tc .vmem S1x2048x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true, false]

class Facts₀ : Prop where
  shapeCasts_S4x4096x1024_S16384x1024 : S4x4096x1024.ShapeCasts S16384x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  bitsLt_bf16_f32 : FTy.bits .bf16 < FTy.bits .f32
  inb_S128x1024_S128x1024_0_0 : ∀ a, (![0, 0] : Fin 2 → Nat) a + S128x1024.size a ≤ S128x1024.size a
  h_S128x1024 : 0 < S128x1024.numel
  inb_S128_S128_0 : ∀ a, (![0] : Fin 1 → Nat) a + S128.size a ≤ S128.size a
  h_S128 : 0 < S128.numel
  shapeCasts_S128_S1x128 : S128.ShapeCasts S1x128
  broadcasts_S1x128_S512x128 : S1x128.Broadcasts S512x128
  inb_S512x128_S512x128_0_0 : ∀ a, (![0, 0] : Fin 2 → Nat) a + S512x128.size a ≤ S512x128.size a
  h_S512x128 : 0 < S512x128.numel
  packedbf16_S512x128_S512x128_0_0 : (Rect.unit (s := S512x128) ![0, 0] S512x128.size inb_S512x128_S512x128_0_0).PackedRows (EltTy.packing .bf16)
  shapeCasts_S16384x128_S4x4096x128 : S16384x128.ShapeCasts S4x4096x128
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  inb_S1x2048x128_S1x2048x128_0_0_0 : ∀ a, (![0, 0, 0] : Fin 3 → Nat) a + S1x2048x128.size a ≤ S1x2048x128.size a
  h_S1x2048x128 : 0 < S1x2048x128.numel
  shapeCasts_S1x2048x128_S2048x128 : S1x2048x128.ShapeCasts S2048x128
  h_S1x256x128 : 0 < S1x256x128.numel
  shapeCasts_S1x256x128_S256x128 : S1x256x128.ShapeCasts S256x128
  reduces_S256x2048_S2048 : S256x2048.Reduces [0] S2048
  shapeCasts_S2048_S1x2048 : S2048.ShapeCasts S1x2048
  broadcasts_S1x2048_S256x2048 : S1x2048.Broadcasts S256x2048
  inb_S1x1x2048_S1x1x2048_0_0_0 : ∀ a, (![0, 0, 0] : Fin 3 → Nat) a + S1x1x2048.size a ≤ S1x1x2048.size a
  h_S1x1x2048 : 0 < S1x1x2048.numel
  shapeCasts_S1x1x2048_S1x2048 : S1x1x2048.ShapeCasts S1x2048
  shapeCasts_S1x2048_S1x1x2048 : S1x2048.ShapeCasts S1x1x2048
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  h_S1x1x256 : 0 < S1x1x256.numel
  shapeCasts_S1x1x256_S1x256 : S1x1x256.ShapeCasts S1x256
  broadcasts_S1x256_S2048x256 : S1x256.Broadcasts S2048x256
  shapeCasts_S2048x128_S1x2048x128 : S2048x128.ShapeCasts S1x2048x128
  dot_S512x1024_S128x1024_S512x128_1_1_0_0_n_n_wf : DotDims.WF S512x1024 S128x1024 S512x128 [1] [1] [0] [0] [] []
  dot_S256x128_S2048x128_S256x2048_1_1_0_0_n_n_wf : DotDims.WF S256x128 S2048x128 S256x2048 [1] [1] [0] [0] [] []
  dot_S2048x128_S256x128_S2048x256_1_1_0_0_n_n_wf : DotDims.WF S2048x128 S256x128 S2048x256 [1] [1] [0] [0] [] []
  dot_S2048x256_S256x128_S2048x128_1_0_0_1_n_n_wf : DotDims.WF S2048x256 S256x128 S2048x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S16384x1024.size a
  hwx0_0 : ∀ i : grid0.Coords, EltTy.bits .f32 = 32 ∨ (Rect.block (s := S16384x1024) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S16384x1024.size a
  hwx0_1 : ∀ i : grid0.Coords, EltTy.bits .f32 = 32 ∨ (Rect.block (s := S16384x1024) S512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S16384x1024.size a
  hwx0_2 : ∀ i : grid0.Coords, EltTy.bits .f32 = 32 ∨ (Rect.block (s := S16384x1024) S512x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x1024.size a ≤ S128x1024.size a
  hwx0_3 : ∀ i : grid0.Coords, EltTy.bits .f32 = 32 ∨ (Rect.block (s := S128x1024) S128x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x1024.size a ≤ S128x1024.size a
  hwx0_4 : ∀ i : grid0.Coords, EltTy.bits .f32 = 32 ∨ (Rect.block (s := S128x1024) S128x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x1024.size a ≤ S128x1024.size a
  hwx0_5 : ∀ i : grid0.Coords, EltTy.bits .f32 = 32 ∨ (Rect.block (s := S128x1024) S128x1024.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128.size a ≤ S128.size a
  hwx0_6 : ∀ i : grid0.Coords, EltTy.bits .f32 = 32 ∨ (Rect.block (s := S128) S128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128.size a ≤ S128.size a
  hwx0_7 : ∀ i : grid0.Coords, EltTy.bits .f32 = 32 ∨ (Rect.block (s := S128) S128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128.size a ≤ S128.size a
  hwx0_8 : ∀ i : grid0.Coords, EltTy.bits .f32 = 32 ∨ (Rect.block (s := S128) S128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S512x128.size a ≤ S16384x128.size a
  hwx0_9 : ∀ i : grid0.Coords, EltTy.bits .bf16 = 32 ∨ (Rect.block (s := S16384x128) S512x128.size (cc0_transform_9 i) (hinb0_9 i)).WholeWords (EltTy.packing .bf16)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S512x128.size a ≤ S16384x128.size a
  hwx0_10 : ∀ i : grid0.Coords, EltTy.bits .bf16 = 32 ∨ (Rect.block (s := S16384x128) S512x128.size (cc0_transform_10 i) (hinb0_10 i)).WholeWords (EltTy.packing .bf16)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S512x128.size a ≤ S16384x128.size a
  hwx0_11 : ∀ i : grid0.Coords, EltTy.bits .bf16 = 32 ∨ (Rect.block (s := S16384x128) S512x128.size (cc0_transform_11 i) (hinb0_11 i)).WholeWords (EltTy.packing .bf16)
  hrank1 : 0 < grid1.rank
  k1_t1_ok : k1_t1_loop.OK
  k1_mult1_dvd : ∀ k1_t1 : Fin k1_t1_loop.trips, 256 ∣ (k1_mult1 k1_t1).toNat
  k1_off1_inb : ∀ k1_t1 : Fin k1_t1_loop.trips, ∀ a, (k1_off1 k1_t1) a + S1x256x128.size a ≤ S1x1024x128.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x2048x128.size a ≤ S4x4096x128.size a
  hwx1_0 : ∀ i : grid1.Coords, EltTy.bits .bf16 = 32 ∨ (Rect.block (s := S4x4096x128) S1x2048x128.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1024x128.size a ≤ S4x4096x128.size a
  hwx1_1 : ∀ i : grid1.Coords, EltTy.bits .bf16 = 32 ∨ (Rect.block (s := S4x4096x128) S1x1024x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1x2048.size a ≤ S4x1x4096.size a
  hwx1_2 : ∀ i : grid1.Coords, EltTy.bits .f32 = 32 ∨ (Rect.block (s := S4x1x4096) S1x1x2048.size (cc1_transform_2 i) (hinb1_2 i)).WholeWords (EltTy.packing .f32)
  hrank2 : 0 < grid2.rank
  k2_t1_ok : k2_t1_loop.OK
  k2_mult1_dvd : ∀ k2_t1 : Fin k2_t1_loop.trips, 256 ∣ (k2_mult1 k2_t1).toNat
  k2_off1_inb : ∀ k2_t1 : Fin k2_t1_loop.trips, ∀ a, (k2_off1 k2_t1) a + S1x256x128.size a ≤ S1x1024x128.size a
  k2_off2_inb : ∀ k2_t1 : Fin k2_t1_loop.trips, ∀ a, (k2_off2 k2_t1) a + S1x1x256.size a ≤ S1x1x1024.size a
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x2048x128.size a ≤ S4x4096x128.size a
  hwx2_0 : ∀ i : grid2.Coords, EltTy.bits .bf16 = 32 ∨ (Rect.block (s := S4x4096x128) S1x2048x128.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1x1024x128.size a ≤ S4x4096x128.size a
  hwx2_1 : ∀ i : grid2.Coords, EltTy.bits .bf16 = 32 ∨ (Rect.block (s := S4x4096x128) S1x1024x128.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x1024x128.size a ≤ S4x4096x128.size a
  hwx2_2 : ∀ i : grid2.Coords, EltTy.bits .bf16 = 32 ∨ (Rect.block (s := S4x4096x128) S1x1024x128.size (cc2_transform_2 i) (hinb2_2 i)).WholeWords (EltTy.packing .bf16)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1x1x1024.size a ≤ S4x1x4096.size a
  hwx2_3 : ∀ i : grid2.Coords, EltTy.bits .f32 = 32 ∨ (Rect.block (s := S4x1x4096) S1x1x1024.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S1x2048x128.size a ≤ S4x4096x128.size a
  hwx2_4 : ∀ i : grid2.Coords, EltTy.bits .f32 = 32 ∨ (Rect.block (s := S4x4096x128) S1x2048x128.size (cc2_transform_4 i) (hinb2_4 i)).WholeWords (EltTy.packing .f32)

variable [Facts₀]

def dot_S512x1024_S128x1024_S512x128_1_1_0_0_n_n : DotDims S512x1024 S128x1024 S512x128 where
  lhsContracting := [1]
  rhsContracting := [1]
  lhsNonContracting := [0]
  rhsNonContracting := [0]
  lhsBatch := []
  rhsBatch := []
  wf := dot_S512x1024_S128x1024_S512x128_1_1_0_0_n_n_wf
def dot_S256x128_S2048x128_S256x2048_1_1_0_0_n_n : DotDims S256x128 S2048x128 S256x2048 where
  lhsContracting := [1]
  rhsContracting := [1]
  lhsNonContracting := [0]
  rhsNonContracting := [0]
  lhsBatch := []
  rhsBatch := []
  wf := dot_S256x128_S2048x128_S256x2048_1_1_0_0_n_n_wf
def dot_S2048x128_S256x128_S2048x256_1_1_0_0_n_n : DotDims S2048x128 S256x128 S2048x256 where
  lhsContracting := [1]
  rhsContracting := [1]
  lhsNonContracting := [0]
  rhsNonContracting := [0]
  lhsBatch := []
  rhsBatch := []
  wf := dot_S2048x128_S256x128_S2048x256_1_1_0_0_n_n_wf
def dot_S2048x256_S256x128_S2048x128_1_0_0_1_n_n : DotDims S2048x256 S256x128 S2048x128 where
  lhsContracting := [1]
  rhsContracting := [0]
  lhsNonContracting := [0]
  rhsNonContracting := [1]
  lhsBatch := []
  rhsBatch := []
  wf := dot_S2048x256_S256x128_S2048x128_1_0_0_1_n_n_wf

abbrev win0_0 : Pipeline.Window sig grid0 :=
  Pipeline.Window.ofSpec (Memref.whole main_v0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S512x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S128x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg7) S128x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg4) S128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg6) S128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v3_0) S512x128.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v3_1) S512x128.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v3_2) S512x128.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

abbrev win1_0 : Pipeline.Window sig grid1 :=
  Pipeline.Window.ofSpec (Memref.whole main_v5) S1x2048x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4) S1x1024x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v7) S1x1x2048.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

abbrev win2_0 : Pipeline.Window sig grid2 :=
  Pipeline.Window.ofSpec (Memref.whole main_v4) S1x2048x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v5) S1x1024x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v6) S1x1024x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v7) S1x1x1024.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v8) S1x2048x128.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev idle2 : Fin 5 → grid2.Coords → Bool := fun | 0 => fun _ => false | 1 => fun _ => false | 2 => fun _ => false | 3 => fun _ => false | 4 => fun i => !(k2_cond2 i == 1#1) | ⟨_ + 5, h⟩ => absurd h (Nat.not_lt.2 (Nat.le_add_left _ _))

class Facts : Prop extends Facts₀ where

variable [Facts]
-- ==== ReferenceIdeal.lean ====
abbrev S4x4096x1024 : Shape := ⟨3, ![4, 4096, 1024]⟩
abbrev S128x1024 : Shape := ⟨2, ![128, 1024]⟩
abbrev S128 : Shape := ⟨1, ![128]⟩
abbrev S4x4096x128 : Shape := ⟨3, ![4, 4096, 128]⟩
abbrev S1x1x128 : Shape := ⟨3, ![1, 1, 128]⟩
abbrev S4x4096x4096 : Shape := ⟨3, ![4, 4096, 4096]⟩
abbrev S_ : Shape := ⟨0, ![]⟩
abbrev S4x4096 : Shape := ⟨2, ![4, 4096]⟩
abbrev S4x1x4096 : Shape := ⟨3, ![4, 1, 4096]⟩

abbrev nBuf : Space → Nat
  | .hbm => 40
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x4096x1024, .f32⟩
  | .hbm, ⟨2, _⟩ => ⟨S4x4096x1024, .f32⟩
  | .hbm, ⟨3, _⟩ => ⟨S128x1024, .f32⟩
  | .hbm, ⟨4, _⟩ => ⟨S128, .f32⟩
  | .hbm, ⟨5, _⟩ => ⟨S128x1024, .f32⟩
  | .hbm, ⟨6, _⟩ => ⟨S128, .f32⟩
  | .hbm, ⟨7, _⟩ => ⟨S128x1024, .f32⟩
  | .hbm, ⟨8, _⟩ => ⟨S128, .f32⟩
  | .hbm, ⟨9, _⟩ => ⟨S4x4096x128, .f32⟩
  | .hbm, ⟨10, _⟩ => ⟨S1x1x128, .f32⟩
  | .hbm, ⟨11, _⟩ => ⟨S4x4096x128, .f32⟩
  | .hbm, ⟨12, _⟩ => ⟨S4x4096x128, .f32⟩
  | .hbm, ⟨13, _⟩ => ⟨S4x4096x128, .f32⟩
  | .hbm, ⟨14, _⟩ => ⟨S1x1x128, .f32⟩
  | .hbm, ⟨15, _⟩ => ⟨S4x4096x128, .f32⟩
  | .hbm, ⟨16, _⟩ => ⟨S4x4096x128, .f32⟩
  | .hbm, ⟨17, _⟩ => ⟨S4x4096x128, .f32⟩
  | .hbm, ⟨18, _⟩ => ⟨S1x1x128, .f32⟩
  | .hbm, ⟨19, _⟩ => ⟨S4x4096x128, .f32⟩
  | .hbm, ⟨20, _⟩ => ⟨S4x4096x128, .f32⟩
  | .hbm, ⟨21, _⟩ => ⟨S4x4096x4096, .f32⟩
  | .hbm, ⟨22, _⟩ => ⟨S_, .f32⟩
  | .hbm, ⟨23, _⟩ => ⟨S4x4096x4096, .f32⟩
  | .hbm, ⟨24, _⟩ => ⟨S4x4096x4096, .f32⟩
  | .hbm, ⟨25, _⟩ => ⟨S_, .f32⟩
  | .hbm, ⟨26, _⟩ => ⟨S4x4096, .f32⟩
  | .hbm, ⟨27, _⟩ => ⟨S_, .f32⟩
  | .hbm, ⟨28, _⟩ => ⟨S4x4096, .f32⟩
  | .hbm, ⟨29, _⟩ => ⟨S4x4096, .f32⟩
  | .hbm, ⟨30, _⟩ => ⟨S4x1x4096, .f32⟩
  | .hbm, ⟨31, _⟩ => ⟨S4x4096x4096, .f32⟩
  | .hbm, ⟨32, _⟩ => ⟨S4x4096x4096, .f32⟩
  | .hbm, ⟨33, _⟩ => ⟨S4x4096x4096, .f32⟩
  | .hbm, ⟨34, _⟩ => ⟨S_, .f32⟩
  | .hbm, ⟨35, _⟩ => ⟨S4x4096, .f32⟩
  | .hbm, ⟨36, _⟩ => ⟨S4x1x4096, .f32⟩
  | .hbm, ⟨37, _⟩ => ⟨S4x4096x4096, .f32⟩
  | .hbm, ⟨38, _⟩ => ⟨S4x4096x4096, .f32⟩
  | .hbm, ⟨39, _⟩ => ⟨S4x4096x128, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst : Ref sig .tc := ⟨.hbm, 22, rfl⟩
abbrev main_v13 : Ref sig .tc := ⟨.hbm, 23, rfl⟩
abbrev main_v14 : Ref sig .tc := ⟨.hbm, 24, rfl⟩
abbrev main_cst_0 : Ref sig .tc := ⟨.hbm, 25, rfl⟩
abbrev main_v15 : Ref sig .tc := ⟨.hbm, 26, rfl⟩
abbrev main_cst_1 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_2 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]

class Facts₀ : Prop where
  bcast_S128_S1x1x128_2 : S128.BroadcastsInDim S1x1x128 (![2] : Fin 1 → Fin S1x1x128.rank)
  bcast_S1x1x128_S4x4096x128_0_1_2 : S1x1x128.BroadcastsInDim S4x4096x128 (![0, 1, 2] : Fin 3 → Fin S4x4096x128.rank)
  bcast_S_S4x4096x4096 : S_.BroadcastsInDim S4x4096x4096 (![] : Fin 0 → Fin S4x4096x4096.rank)
  reducesTo_S4x4096x4096_S4x4096_d1 : S4x4096x4096.ReducesTo [1] S4x4096
  h_S_ : 0 < S_.numel
  bcast_S_S4x4096 : S_.BroadcastsInDim S4x4096 (![] : Fin 0 → Fin S4x4096.rank)
  bcast_S4x4096_S4x1x4096_0_2 : S4x4096.BroadcastsInDim S4x1x4096 (![0, 2] : Fin 2 → Fin S4x1x4096.rank)
  bcast_S4x1x4096_S4x4096x4096_0_1_2 : S4x1x4096.BroadcastsInDim S4x4096x4096 (![0, 1, 2] : Fin 3 → Fin S4x4096x4096.rank)
  dot_S4x4096x1024_S128x1024_S4x4096x128_2_1_01_0_n_n_wf : DotDims.WF S4x4096x1024 S128x1024 S4x4096x128 [2] [1] [0, 1] [0] [] []
  dot_S4x4096x128_S4x4096x128_S4x4096x4096_2_2_1_1_0_0_wf : DotDims.WF S4x4096x128 S4x4096x128 S4x4096x4096 [2] [2] [1] [1] [0] [0]
  dot_S4x4096x4096_S4x4096x128_S4x4096x128_2_1_1_2_0_0_wf : DotDims.WF S4x4096x4096 S4x4096x128 S4x4096x128 [2] [1] [1] [2] [0] [0]

variable [Facts₀]

def dot_S4x4096x1024_S128x1024_S4x4096x128_2_1_01_0_n_n : DotDims S4x4096x1024 S128x1024 S4x4096x128 where
  lhsContracting := [2]
  rhsContracting := [1]
  lhsNonContracting := [0, 1]
  rhsNonContracting := [0]
  lhsBatch := []
  rhsBatch := []
  wf := dot_S4x4096x1024_S128x1024_S4x4096x128_2_1_01_0_n_n_wf
def dot_S4x4096x128_S4x4096x128_S4x4096x4096_2_2_1_1_0_0 : DotDims S4x4096x128 S4x4096x128 S4x4096x4096 where
  lhsContracting := [2]
  rhsContracting := [2]
  lhsNonContracting := [1]
  rhsNonContracting := [1]
  lhsBatch := [0]
  rhsBatch := [0]
  wf := dot_S4x4096x128_S4x4096x128_S4x4096x4096_2_2_1_1_0_0_wf
def dot_S4x4096x4096_S4x4096x128_S4x4096x128_2_1_1_2_0_0 : DotDims S4x4096x4096 S4x4096x128 S4x4096x128 where
  lhsContracting := [2]
  rhsContracting := [1]
  lhsNonContracting := [1]
  rhsNonContracting := [2]
  lhsBatch := [0]
  rhsBatch := [0]
  wf := dot_S4x4096x4096_S4x4096x128_S4x4096x128_2_1_1_2_0_0_wf

class Facts : Prop extends Facts₀ where

variable [Facts]
-- ==== Proof.K.Assembly.lean ====
/-
  The whole program from its three regions' halves.

  Between two items of the program a core's buffers hold: the launch memory; then what the three reshapes write;
  then, after the projection region, its three output arrays at what its write-backs leave; then three more
  reshapes; then the statistic region's output array; then the output region's.  Given, for each region, proof
  data at ANY entry contents together with its body obligation and the passage of the region invariant in and
  out, every weakly fair execution of the program terminates and the final memory holds every buffer at the
  last of these contents.
-/
import proofs.«135563_j8478265442573_2_alg».proof.Proof.Gen.Kernel.Launch
import proofs.«135563_j8478265442573_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Asm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A core's buffer contents read at the TensorCore's references. -/
abbrev Ent (F : FTy → Type) : Type := (c : Dev nD) → (b : Ref sig .tc) → Buf (Elt F) ((c : Thread nD τ).loc b)

/-- What the assembly needs of the projection region: proof data at any entry contents whose arrays are those
    contents, full shares, nothing owed, the region invariant taken in and given back, the body obligation. -/
structure Half0 where
  dat : Ent F → (c : Dev nD) → Dat τ (Elt F) Unit ℕ (UR sig nD τ) ℕ cfg0 c
  A_eq : ∀ V c w, (dat V c).A w = V c (Pipeline.arrRef spec0 w)
  q_eq : ∀ V c w, (dat V c).q w = fullShare
  owed_eq : ∀ V c t, (dat V c).owed t = 0
  rec_eq : ∀ V c t, (dat V c).recorded t = Set.univ
  Φ_in : ∀ V c, (Pipeline.ΦA spec0 c : sProp 𝕄) ⊢ (dat V c).Φ 0
  Φ_out : ∀ V c, (dat V c).Φ (Fin.last cfg0.N) ⊢ (Pipeline.ΦA spec0 c : sProp 𝕄)
  body : ∀ V c, BodyObligation (dat V c) (defs₀ (F := F)) Variants.none () Set.univ

/-- The same of the statistic region. -/
structure Half1 where
  dat : Ent F → (c : Dev nD) → Dat τ (Elt F) Unit ℕ (UR sig nD τ) ℕ cfg1 c
  A_eq : ∀ V c w, (dat V c).A w = V c (Pipeline.arrRef spec1 w)
  q_eq : ∀ V c w, (dat V c).q w = fullShare
  owed_eq : ∀ V c t, (dat V c).owed t = 0
  rec_eq : ∀ V c t, (dat V c).recorded t = Set.univ
  Φ_in : ∀ V c, (Pipeline.ΦA spec1 c : sProp 𝕄) ⊢ (dat V c).Φ 0
  Φ_out : ∀ V c, (dat V c).Φ (Fin.last cfg1.N) ⊢ (Pipeline.ΦA spec1 c : sProp 𝕄)
  body : ∀ V c, BodyObligation (dat V c) (defs₀ (F := F)) Variants.none () Set.univ

/-- The same of the output region. -/
structure Half2 where
  dat : Ent F → (c : Dev nD) → Dat τ (Elt F) Unit ℕ (UR sig nD τ) ℕ cfg2 c
  A_eq : ∀ V c w, (dat V c).A w = V c (Pipeline.arrRef spec2 w)
  q_eq : ∀ V c w, (dat V c).q w = fullShare
  owed_eq : ∀ V c t, (dat V c).owed t = 0
  rec_eq : ∀ V c t, (dat V c).recorded t = Set.univ
  Φ_in : ∀ V c, (Pipeline.ΦA spec2 c : sProp 𝕄) ⊢ (dat V c).Φ 0
  Φ_out : ∀ V c, (dat V c).Φ (Fin.last cfg2.N) ⊢ (Pipeline.ΦA spec2 c : sProp 𝕄)
  body : ∀ V c, BodyObligation (dat V c) (defs₀ (F := F)) Variants.none () Set.univ

variable (m : (ℓ : Loc nD τ sig) → Buf (Elt F) ℓ) (ρ : Dev nD → PrngReg)
variable (h0 : Half0 (F := F)) (h1 : Half1 (F := F)) (h2 : Half2 (F := F))

/-! ## The buffer contents between the items -/

/-- At launch. -/
abbrev W0 : Dev nD → Valuation τ sig (Elt F) := fun c b => m (c, b)
/-- After the first three reshapes: the projection region's entry. -/
abbrev W1 : Dev nD → Valuation τ sig (Elt F) := fun c => StableHlo.after hostOps0 (W0 m c)
abbrev E1 : Ent F := fun c b => W1 m c b
/-- After the projection region: its arrays at what its write-backs leave. -/
def W2 (c : Dev nD) : Valuation τ sig (Elt F) :=
  Pipeline.withArrays spec0 c (W1 m c) fun w => (h0.dat (E1 m) c).arrAt w cfg0.N
abbrev E2 : Ent F := fun c b => W2 m h0 c b
/-- After the second three reshapes: the statistic region's entry. -/
abbrev W3 : Dev nD → Valuation τ sig (Elt F) := fun c => StableHlo.after hostOps1 (W2 m h0 c)
abbrev E3 : Ent F := fun c b => W3 m h0 c b
/-- After the statistic region: the output region's entry. -/
def W4 (c : Dev nD) : Valuation τ sig (Elt F) :=
  Pipeline.withArrays spec1 c (W3 m h0 c) fun w => (h1.dat (E3 m h0) c).arrAt w cfg1.N
abbrev E4 : Ent F := fun c b => W4 m h0 h1 c b
/-- After the output region: the end. -/
def W5 (c : Dev nD) : Valuation τ sig (Elt F) :=
  Pipeline.withArrays spec2 c (W4 m h0 h1 c) fun w => (h2.dat (E4 m h0 h1) c).arrAt w cfg2.N
abbrev E5 : Ent F := fun c b => W5 m h0 h1 h2 c b

theorem W2_arr (c : Dev nD) (w : Fin cfg0.W) :
    W2 m h0 c (Proc.devRef .tc (Pipeline.arrRef spec0 w)) = (h0.dat (E1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m h0 c (Proc.devRef .tc b) = W1 m c (Proc.devRef .tc b) := by
  unfold W2; exact Pipeline.withArrays_of_ne spec0 c _ _ b hb
theorem W4_arr (c : Dev nD) (w : Fin cfg1.W) :
    W4 m h0 h1 c (Proc.devRef .tc (Pipeline.arrRef spec1 w)) = (h1.dat (E3 m h0) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m h0 h1 c (Proc.devRef .tc b) = W3 m h0 c (Proc.devRef .tc b) := by
  unfold W4; exact Pipeline.withArrays_of_ne spec1 c _ _ b hb
theorem W5_arr (c : Dev nD) (w : Fin cfg2.W) :
    W5 m h0 h1 h2 c (Proc.devRef .tc (Pipeline.arrRef spec2 w)) = (h2.dat (E4 m h0 h1) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m h0 h1 h2 c (Proc.devRef .tc b) = W4 m h0 h1 c (Proc.devRef .tc b) := by
  unfold W5; exact Pipeline.withArrays_of_ne spec2 c _ _ b hb

/-- At a region's exit each of its arrays holds what the pipeline leaves and every other buffer what it held. -/
theorem hF0 (c : Dev nD) (w : Fin cfg0.W) : (h0.dat (E1 m) c).arrAt w cfg0.N = E2 m h0 c (Pipeline.arrRef spec0 w) :=
  (W2_arr m h0 c w).symm
theorem hrest0 (c : Dev nD) : ∀ b, b ∉ Finset.univ.image (Pipeline.arrRef spec0) → E2 m h0 c b = E1 m c b :=
  fun b hb => W2_of_ne m h0 c b fun w e => hb (Finset.mem_image.mpr ⟨w, Finset.mem_univ _, e⟩)
theorem hF1 (c : Dev nD) (w : Fin cfg1.W) : (h1.dat (E3 m h0) c).arrAt w cfg1.N = E4 m h0 h1 c (Pipeline.arrRef spec1 w) :=
  (W4_arr m h0 h1 c w).symm
theorem hrest1 (c : Dev nD) : ∀ b, b ∉ Finset.univ.image (Pipeline.arrRef spec1) → E4 m h0 h1 c b = E3 m h0 c b :=
  fun b hb => W4_of_ne m h0 h1 c b fun w e => hb (Finset.mem_image.mpr ⟨w, Finset.mem_univ _, e⟩)
theorem hF2 (c : Dev nD) (w : Fin cfg2.W) : (h2.dat (E4 m h0 h1) c).arrAt w cfg2.N = E5 m h0 h1 h2 c (Pipeline.arrRef spec2 w) :=
  (W5_arr m h0 h1 h2 c w).symm
theorem hrest2 (c : Dev nD) : ∀ b, b ∉ Finset.univ.image (Pipeline.arrRef spec2) → E5 m h0 h1 h2 c b = E4 m h0 h1 c b :=
  fun b hb => W5_of_ne m h0 h1 h2 c b fun w e => hb (Finset.mem_image.mpr ⟨w, Finset.mem_univ _, e⟩)

/-! ## The proof data family and the thread state -/

/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => h0.dat (E1 m) c
  | ⟨1, _⟩ => fun c => h1.dat (E3 m h0) c
  | ⟨2, _⟩ => fun c => h2.dat (E4 m h0 h1) c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state and the core owing nothing. -/
abbrev R (c : Dev nD) : sProp 𝕄 := iprop((∃ r, prngReg c r) ∗ ∃ W, owes (c : Thread nD τ) (0 : CellTallies nD τ sig Unit) W)

/-- A stretch of host operations as an item, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state without the `owes`. -/
abbrev Tₙ (c : Dev nD) : sProp 𝕄 := iprop(StableHlo.held (c : Thread nD τ) (Pipeline.ucRefs τ sig) (W5 m h0 h1 h2 c) ∗ ∃ r, prngReg c r)

/-! ## The regions as items -/

set_option backward.isDefEq.respectTransparency.types false in
/-- The projection region: entered from every unscoped buffer at `W1`, left at `W2`. -/
def reg0 : Pipeline.RegionSeg (pcfgs (F := F)) adm (pdats m h0 h1 h2) () defs₀ 𝒱₀ L lv 0 where
  win := launch0.win.to₀
  block_pos := launch0.block_pos
  stage_whole := launch0.stage_whole
  K := PEmpty
  osem k := k.elim
  ho := Pipeline.OwnSemFacts.none _
  hbody c := (h0.body (E1 m) c).loose
  hwaits := Pipeline.hwaits_of_owed_zero _ _ _ _ L lv 0 fun c t => h0.owed_eq (E1 m) c t
  pre c := iprop(StableHlo.held (c : Thread nD τ) (Pipeline.ucRefs τ sig) (W1 m c) ∗ R c)
  post c := iprop(StableHlo.held (c : Thread nD τ) (Pipeline.ucRefs τ sig) (W2 m h0 c) ∗ R c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) adm (pdats m h0 h1 h2) launch0.win launch0.arr_whole c
      ((pdats m h0 h1 h2 0 c).share_full fun w => h0.q_eq (E1 m) c w) (E1 m c) fun w => h0.A_eq (E1 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats m h0 h1 h2 0 c).owed 0 = 0 from h0.owed_eq (E1 m) c 0]
      icases HO with ⟨%W, HO⟩; iexists W; isplitr; · ipureintro; exact fun _ _ => Or.inl (by rw [show (pdats m h0 h1 h2 0 c).recorded 0 = Set.univ from h0.rec_eq (E1 m) c 0]; trivial)
      iexact HO
    isplitl [Hp]; · iexact Hp
    iexact Hrest
  hin c := by
    refine BIBase.Entails.trans ?_ (h0.Φ_in (E1 m) c)
    unfold Pipeline.ΦA
    iintro ⟨Hp, -, Hr⟩
    isplitl [Hr]; · iexact Hr
    iexact Hp
  hout c := by
    rw [Pipeline.ownSems0_none]
    refine BIBase.Entails.trans (h0.Φ_out (E1 m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m h0 h1 h2) ((pdats m h0 h1 h2 0 c).share_full fun w => h0.q_eq (E1 m) c w)
      (E1 m c) (E2 m h0 c) ((pdats m h0 h1 h2 0 c).arrAt · cfg0.N) (hF0 m h0 c) (hrest0 m h0 c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W
    rw [show (pdats m h0 h1 h2 0 c).owed (Fin.last _) = 0 from h0.owed_eq (E1 m) c _]
    iexact HO

set_option backward.isDefEq.respectTransparency.types false in
/-- Region 1: entered from every unscoped buffer at `W3 m h0`, left at `W4 m h0 h1`. -/
def reg1 : Pipeline.RegionSeg (pcfgs (F := F)) adm (pdats m h0 h1 h2) () defs₀ 𝒱₀ L lv 1 where
  win := launch1.win.to₀
  block_pos := launch1.block_pos
  stage_whole := launch1.stage_whole
  K := PEmpty
  osem k := k.elim
  ho := Pipeline.OwnSemFacts.none _
  hbody c := (h1.body (E3 m h0) c).loose
  hwaits := Pipeline.hwaits_of_owed_zero _ _ _ _ L lv 1 fun c t => h1.owed_eq (E3 m h0) c t
  pre c := iprop(StableHlo.held (c : Thread nD τ) (Pipeline.ucRefs τ sig) (W3 m h0 c) ∗ R c)
  post c := iprop(StableHlo.held (c : Thread nD τ) (Pipeline.ucRefs τ sig) (W4 m h0 h1 c) ∗ R c)
  X c := iprop(∃ r, prngReg c r)
  Y c := iprop(∃ r, prngReg c r)
  Z c := Pipeline.unscopedRest (Ix := Unit) (Name := ℕ) (U := UR sig nD τ) (Lvl := ℕ) spec1 c (E3 m h0 c)
  hentry c := by
    rw [Pipeline.ownSems0_none]
    have hsplit := Pipeline.arrays_of_unscopedBufs (p := 1) (pcfgs (F := F)) adm (pdats m h0 h1 h2) launch1.win launch1.arr_whole c
      ((pdats m h0 h1 h2 1 c).share_full fun w => h1.q_eq (E3 m h0) c w) (E3 m h0 c) fun w => h1.A_eq (E3 m h0) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats m h0 h1 h2 1 c).owed 0 = 0 from h1.owed_eq (E3 m h0) c 0]
      icases HO with ⟨%W, HO⟩; iexists W; isplitr; · ipureintro; exact fun _ _ => Or.inl (by rw [show (pdats m h0 h1 h2 1 c).recorded 0 = Set.univ from h1.rec_eq (E3 m h0) c 0]; trivial)
      iexact HO
    isplitl [Hp]; · iexact Hp
    iexact Hrest
  hin c := by
    refine BIBase.Entails.trans ?_ (h1.Φ_in (E3 m h0) c)
    unfold Pipeline.ΦA
    iintro ⟨Hp, -, Hr⟩
    isplitl [Hr]; · iexact Hr
    iexact Hp
  hout c := by
    rw [Pipeline.ownSems0_none]
    refine BIBase.Entails.trans (h1.Φ_out (E3 m h0) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m h0 h1 h2) ((pdats m h0 h1 h2 1 c).share_full fun w => h1.q_eq (E3 m h0) c w)
      (E3 m h0 c) (E4 m h0 h1 c) ((pdats m h0 h1 h2 1 c).arrAt · cfg1.N) (hF1 m h0 h1 c) (hrest1 m h0 h1 c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W
    rw [show (pdats m h0 h1 h2 1 c).owed (Fin.last _) = 0 from h1.owed_eq (E3 m h0) c _]
    iexact HO

set_option backward.isDefEq.respectTransparency.types false in
/-- Region 2: entered from every unscoped buffer at `W4 m h0 h1`, left at the last contents. -/
def reg2 : Pipeline.RegionSeg (pcfgs (F := F)) adm (pdats m h0 h1 h2) () defs₀ 𝒱₀ L lv 2 where
  win := launch2.win.to₀
  block_pos := launch2.block_pos
  stage_whole := launch2.stage_whole
  K := PEmpty
  osem k := k.elim
  ho := Pipeline.OwnSemFacts.none _
  hbody c := (h2.body (E4 m h0 h1) c).loose
  hwaits := Pipeline.hwaits_of_owed_zero _ _ _ _ L lv 2 fun c t => h2.owed_eq (E4 m h0 h1) c t
  pre c := iprop(StableHlo.held (c : Thread nD τ) (Pipeline.ucRefs τ sig) (W4 m h0 h1 c) ∗ R c)
  post c := iprop(Tₙ m h0 h1 h2 c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (E4 m h0 h1 c)
  hentry c := by
    rw [Pipeline.ownSems0_none]
    have hsplit := Pipeline.arrays_of_unscopedBufs (p := 2) (pcfgs (F := F)) adm (pdats m h0 h1 h2) launch2.win launch2.arr_whole c
      ((pdats m h0 h1 h2 2 c).share_full fun w => h2.q_eq (E4 m h0 h1) c w) (E4 m h0 h1 c) fun w => h2.A_eq (E4 m h0 h1) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats m h0 h1 h2 2 c).owed 0 = 0 from h2.owed_eq (E4 m h0 h1) c 0]
      icases HO with ⟨%W, HO⟩; iexists W; isplitr; · ipureintro; exact fun _ _ => Or.inl (by rw [show (pdats m h0 h1 h2 2 c).recorded 0 = Set.univ from h2.rec_eq (E4 m h0 h1) c 0]; trivial)
      iexact HO
    isplitl [Hp]; · iexact Hp
    iexact Hrest
  hin c := by
    refine BIBase.Entails.trans ?_ (h2.Φ_in (E4 m h0 h1) c)
    unfold Pipeline.ΦA
    iintro ⟨Hp, -, Hr⟩
    isplitl [Hr]; · iexact Hr
    iexact Hp
  hout c := by
    rw [Pipeline.ownSems0_none]
    refine BIBase.Entails.trans (h2.Φ_out (E4 m h0 h1) c) ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m h0 h1 h2) ((pdats m h0 h1 h2 2 c).share_full fun w => h2.q_eq (E4 m h0 h1) c w)
      (E4 m h0 h1 c) (E5 m h0 h1 h2 c) ((pdats m h0 h1 h2 2 c).arrAt · cfg2.N) (hF2 m h0 h1 h2 c) (hrest2 m h0 h1 h2 c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W
    rw [show (pdats m h0 h1 h2 2 c).owed (Fin.last _) = 0 from h2.owed_eq (E4 m h0 h1) c _]
    iexact HO

/-! ## The program as items, and the launch -/

/-- The program's five items in order. -/
abbrev segs : List (Pipeline.Seg (pcfgs (F := F)) adm (pdats m h0 h1 h2) () defs₀ 𝒱₀ L lv) :=
  [ .host (hseg hostOps0 hostOps0_sub hostOps0_fresh (W0 m)),
    .region (reg0 m h0 h1 h2),
    .host (hseg hostOps1 hostOps1_sub hostOps1_fresh (W2 m h0)),
    .region (reg1 m h0 h1 h2),
    .region (reg2 m h0 h1 h2) ]

/-- The program is the run of its items. -/
theorem main_run (c : Dev nD) : main (F := F) c = Pipeline.Seg.run (segs m h0 h1 h2) := (main_chain c).trans (by chain_rfl)

set_option backward.isDefEq.respectTransparency.types false in
/-- From any memory with zero counters every weakly fair execution of the program terminates, nothing faulting, and
    the final memory holds every unscoped buffer at the last contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m h0 h1 h2 c b) :=
  Pipeline.θ_run_regions_kit (pcfgs (F := F)) adm (pdats m h0 h1 h2) () cellOf_inj emb₁ defs₀ 𝒱₀ L lv m ρ main (segs m h0 h1 h2)
    (fun c Q => by rw [main_run m h0 h1 h2 c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m h0 h1 h2)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m h0 h1 h2 c b)
    (hfin := fun c s' => by
      iintro ⟨⟨Hh, -⟩, HSI⟩
      unfold StableHlo.held
      imodintro
      iapply (pointsTo_read_all (Pipeline.ucRefs τ sig) (fun b => (((c : Thread nD τ)).1, b)) (W5 m h0 h1 h2 c) s')
      isplitl [Hh] <;> iassumption)
    (hQ := fun s h => h)

/-! ## The arguments end as launched -/

/-- A buffer the first three reshapes do not write keeps its launch contents. -/
theorem W1_keep (c : Dev nD) (r : Ref sig .tc) (h : r ∉ hostOps0_W) : W1 m c r = W0 m c r :=
  StableHlo.after_of_writes_sub hostOps0 _ hostOps0_writes h
/-- A buffer the second three reshapes do not write keeps what the projection region left. -/
theorem W3_keep (c : Dev nD) (r : Ref sig .tc) (h : r ∉ hostOps1_W) : W3 m h0 c r = W2 m h0 c r :=
  StableHlo.after_of_writes_sub hostOps1 _ hostOps1_writes h

theorem W5_arg0 (c : Dev nD) : W5 m h0 h1 h2 c main_arg0 = m ((c : Thread nD τ).loc main_arg0) :=
  (W5_of_ne m h0 h1 h2 c main_arg0 (by decide)).trans <| (W4_of_ne m h0 h1 c main_arg0 (by decide)).trans <|
    (W3_keep m h0 c main_arg0 (by decide)).trans <| (W2_of_ne m h0 c main_arg0 (by decide)).trans <| (W1_keep m c main_arg0 (by decide)).trans rfl

theorem W5_arg1 (c : Dev nD) : W5 m h0 h1 h2 c main_arg1 = m ((c : Thread nD τ).loc main_arg1) :=
  (W5_of_ne m h0 h1 h2 c main_arg1 (by decide)).trans <| (W4_of_ne m h0 h1 c main_arg1 (by decide)).trans <|
    (W3_keep m h0 c main_arg1 (by decide)).trans <| (W2_of_ne m h0 c main_arg1 (by decide)).trans <| (W1_keep m c main_arg1 (by decide)).trans rfl

theorem W5_arg2 (c : Dev nD) : W5 m h0 h1 h2 c main_arg2 = m ((c : Thread nD τ).loc main_arg2) :=
  (W5_of_ne m h0 h1 h2 c main_arg2 (by decide)).trans <| (W4_of_ne m h0 h1 c main_arg2 (by decide)).trans <|
    (W3_keep m h0 c main_arg2 (by decide)).trans <| (W2_of_ne m h0 c main_arg2 (by decide)).trans <| (W1_keep m c main_arg2 (by decide)).trans rfl

theorem W5_arg3 (c : Dev nD) : W5 m h0 h1 h2 c main_arg3 = m ((c : Thread nD τ).loc main_arg3) :=
  (W5_of_ne m h0 h1 h2 c main_arg3 (by decide)).trans <| (W4_of_ne m h0 h1 c main_arg3 (by decide)).trans <|
    (W3_keep m h0 c main_arg3 (by decide)).trans <| ((W2_arr m h0 c 3).trans (((h0.dat (E1 m) c).arrAt_in 3 rfl _).trans (h0.A_eq (E1 m) c 3))).trans <| (W1_keep m c main_arg3 (by decide)).trans rfl

theorem W5_arg4 (c : Dev nD) : W5 m h0 h1 h2 c main_arg4 = m ((c : Thread nD τ).loc main_arg4) :=
  (W5_of_ne m h0 h1 h2 c main_arg4 (by decide)).trans <| (W4_of_ne m h0 h1 c main_arg4 (by decide)).trans <|
    (W3_keep m h0 c main_arg4 (by decide)).trans <| ((W2_arr m h0 c 6).trans (((h0.dat (E1 m) c).arrAt_in 6 rfl _).trans (h0.A_eq (E1 m) c 6))).trans <| (W1_keep m c main_arg4 (by decide)).trans rfl

theorem W5_arg5 (c : Dev nD) : W5 m h0 h1 h2 c main_arg5 = m ((c : Thread nD τ).loc main_arg5) :=
  (W5_of_ne m h0 h1 h2 c main_arg5 (by decide)).trans <| (W4_of_ne m h0 h1 c main_arg5 (by decide)).trans <|
    (W3_keep m h0 c main_arg5 (by decide)).trans <| ((W2_arr m h0 c 4).trans (((h0.dat (E1 m) c).arrAt_in 4 rfl _).trans (h0.A_eq (E1 m) c 4))).trans <| (W1_keep m c main_arg5 (by decide)).trans rfl

theorem W5_arg6 (c : Dev nD) : W5 m h0 h1 h2 c main_arg6 = m ((c : Thread nD τ).loc main_arg6) :=
  (W5_of_ne m h0 h1 h2 c main_arg6 (by decide)).trans <| (W4_of_ne m h0 h1 c main_arg6 (by decide)).trans <|
    (W3_keep m h0 c main_arg6 (by decide)).trans <| ((W2_arr m h0 c 7).trans (((h0.dat (E1 m) c).arrAt_in 7 rfl _).trans (h0.A_eq (E1 m) c 7))).trans <| (W1_keep m c main_arg6 (by decide)).trans rfl

theorem W5_arg7 (c : Dev nD) : W5 m h0 h1 h2 c main_arg7 = m ((c : Thread nD τ).loc main_arg7) :=
  (W5_of_ne m h0 h1 h2 c main_arg7 (by decide)).trans <| (W4_of_ne m h0 h1 c main_arg7 (by decide)).trans <|
    (W3_keep m h0 c main_arg7 (by decide)).trans <| ((W2_arr m h0 c 5).trans (((h0.dat (E1 m) c).arrAt_in 5 rfl _).trans (h0.A_eq (E1 m) c 5))).trans <| (W1_keep m c main_arg7 (by decide)).trans rfl

theorem W5_arg8 (c : Dev nD) : W5 m h0 h1 h2 c main_arg8 = m ((c : Thread nD τ).loc main_arg8) :=
  (W5_of_ne m h0 h1 h2 c main_arg8 (by decide)).trans <| (W4_of_ne m h0 h1 c main_arg8 (by decide)).trans <|
    (W3_keep m h0 c main_arg8 (by decide)).trans <| ((W2_arr m h0 c 8).trans (((h0.dat (E1 m) c).arrAt_in 8 rfl _).trans (h0.A_eq (E1 m) c 8))).trans <| (W1_keep m c main_arg8 (by decide)).trans rfl

/-- The result array ends at what the output region's write-backs leave. -/
theorem W5_out (c : Dev nD) : W5 m h0 h1 h2 c main_v8 = (h2.dat (E4 m h0 h1) c).arrAt 4 cfg2.N :=
  W5_arr m h0 h1 h2 c 4

include h0 h1 h2 in
/-- THE FRAME: every weakly fair execution terminates, nothing faulting, and the nine argument arrays end as launched. -/
theorem frame_all : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨(h c _ (mem_uc main_arg0 (by decide))).trans (W5_arg0 m h0 h1 h2 c),
     (h c _ (mem_uc main_arg1 (by decide))).trans (W5_arg1 m h0 h1 h2 c),
     (h c _ (mem_uc main_arg2 (by decide))).trans (W5_arg2 m h0 h1 h2 c),
     (h c _ (mem_uc main_arg3 (by decide))).trans (W5_arg3 m h0 h1 h2 c),
     (h c _ (mem_uc main_arg4 (by decide))).trans (W5_arg4 m h0 h1 h2 c),
     (h c _ (mem_uc main_arg5 (by decide))).trans (W5_arg5 m h0 h1 h2 c),
     (h c _ (mem_uc main_arg6 (by decide))).trans (W5_arg6 m h0 h1 h2 c),
     (h c _ (mem_uc main_arg7 (by decide))).trans (W5_arg7 m h0 h1 h2 c),
     (h c _ (mem_uc main_arg8 (by decide))).trans (W5_arg8 m h0 h1 h2 c)⟩) (run_all m ρ h0 h1 h2)

/-- THE RUN WITH THE RESULT: as the frame, and the result array ends at what the output region's write-backs leave. -/
theorem run_out : θ_run defs (onTc (τ := τ) (main (F := F))) ⟨m, fun _ => 0, ρ⟩ (fun r => ∀ c : Dev nD,
      r.2.mem ((c.tc : Thread nD τ).loc main_v8) = (h2.dat (E4 m h0 h1) c).arrAt 4 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨(h c _ (mem_uc main_v8 (by decide))).trans (W5_out m h0 h1 h2 c),
     (h c _ (mem_uc main_arg0 (by decide))).trans (W5_arg0 m h0 h1 h2 c),
     (h c _ (mem_uc main_arg1 (by decide))).trans (W5_arg1 m h0 h1 h2 c),
     (h c _ (mem_uc main_arg2 (by decide))).trans (W5_arg2 m h0 h1 h2 c),
     (h c _ (mem_uc main_arg3 (by decide))).trans (W5_arg3 m h0 h1 h2 c),
     (h c _ (mem_uc main_arg4 (by decide))).trans (W5_arg4 m h0 h1 h2 c),
     (h c _ (mem_uc main_arg5 (by decide))).trans (W5_arg5 m h0 h1 h2 c),
     (h c _ (mem_uc main_arg6 (by decide))).trans (W5_arg6 m h0 h1 h2 c),
     (h c _ (mem_uc main_arg7 (by decide))).trans (W5_arg7 m h0 h1 h2 c),
     (h c _ (mem_uc main_arg8 (by decide))).trans (W5_arg8 m h0 h1 h2 c)⟩) (run_all m ρ h0 h1 h2)

end Cert.Kernel.Asm

end
-- ==== Proof.K.Region0.lean ====
import proofs.«135563_j8478265442573_2_alg».proof.Proof.Gen.Kernel.Launch
import proofs.«135563_j8478265442573_2_alg».proof.Proof.Gen.Kernel.Skeleton
import proofs.«135563_j8478265442573_2_alg».proof.Proof.Gen.Kernel.Points
import Idealize.ShloMosaic.Lib.Pipeline.FrameBody
import Idealize.ShloMosaic.Lib.Pipeline.Frame
import Idealize.ShloMosaic.Lib.Tactic

/-! # Region 0: the three projections

The first pallas_call computes, on a grid of 32 points, three independent row blocks
`x · Wᵀ + b` (512 rows of 128 columns each), one per output window, from nine input windows: three row
blocks of 512 × 1024 that move with the point, and three weight matrices and three bias vectors whose block
is the whole array at every point. Every output block is written whole at every point, so the body has one
control case and carries no state from point to point.

This module states the region's half of the frame at a parameter `V`, the buffer contents when the region
is entered: the proof data `dat`, the body's triple, and the body obligation. -/

-- membership of an index in a rectangle of these extents is checked structurally, once per coordinate
set_option maxRecDepth 16384

noncomputable section

namespace Cert.Kernel.Reg0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The windows' blocks -/

/-- The block of window `w` at point `t`: the window's rectangle of its array, read off the entry contents. -/
def blk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! An input window's current staging buffer holds its block at every point, whether the pipeline fetched it
there or not (an unfetched window's block index has not moved since the last fetch): for any proof data whose
array is the entry contents and whose body leaves the block where it found it. One statement per input
window, so that every window's configuration is a literal. -/

theorem before_of_0 {c : Dev nD} (D : Dat τ (Elt F) Unit ℕ (UR sig nD τ) ℕ cfg0 c) (hA : D.A 0 = V c (Pipeline.arrRef spec0 0))
    (hafter : ∀ t, D.after 0 t = blk V c 0 t) (t : Fin cfg0.N) (d) : D.before 0 t d = blk V c 0 t :=
  (D.before_in_eq_fetched 0 rfl (fun _ => rfl) (fun _ _ _ => rfl) (fun t => by rw [hafter]; unfold Dat.blockOf blk; rw [hA]; try rfl) t d).trans
    (by unfold Dat.fetched Dat.blockOf blk; rw [hA]; try rfl)

theorem before_of_1 {c : Dev nD} (D : Dat τ (Elt F) Unit ℕ (UR sig nD τ) ℕ cfg0 c) (hA : D.A 1 = V c (Pipeline.arrRef spec0 1))
    (hafter : ∀ t, D.after 1 t = blk V c 1 t) (t : Fin cfg0.N) (d) : D.before 1 t d = blk V c 1 t :=
  (D.before_in_eq_fetched 1 rfl (fun _ => rfl) (fun _ _ _ => rfl) (fun t => by rw [hafter]; unfold Dat.blockOf blk; rw [hA]; try rfl) t d).trans
    (by unfold Dat.fetched Dat.blockOf blk; rw [hA]; try rfl)

theorem before_of_2 {c : Dev nD} (D : Dat τ (Elt F) Unit ℕ (UR sig nD τ) ℕ cfg0 c) (hA : D.A 2 = V c (Pipeline.arrRef spec0 2))
    (hafter : ∀ t, D.after 2 t = blk V c 2 t) (t : Fin cfg0.N) (d) : D.before 2 t d = blk V c 2 t :=
  (D.before_in_eq_fetched 2 rfl (fun _ => rfl) (fun _ _ _ => rfl) (fun t => by rw [hafter]; unfold Dat.blockOf blk; rw [hA]; try rfl) t d).trans
    (by unfold Dat.fetched Dat.blockOf blk; rw [hA]; try rfl)

theorem before_of_3 {c : Dev nD} (D : Dat τ (Elt F) Unit ℕ (UR sig nD τ) ℕ cfg0 c) (hA : D.A 3 = V c (Pipeline.arrRef spec0 3))
    (hafter : ∀ t, D.after 3 t = blk V c 3 t) (t : Fin cfg0.N) (d) : D.before 3 t d = blk V c 3 t :=
  (D.before_in_eq_fetched 3 rfl (fun _ => rfl) (fun _ _ _ => rfl) (fun t => by rw [hafter]; unfold Dat.blockOf blk; rw [hA]; try rfl) t d).trans
    (by unfold Dat.fetched Dat.blockOf blk; rw [hA]; try rfl)

theorem before_of_4 {c : Dev nD} (D : Dat τ (Elt F) Unit ℕ (UR sig nD τ) ℕ cfg0 c) (hA : D.A 4 = V c (Pipeline.arrRef spec0 4))
    (hafter : ∀ t, D.after 4 t = blk V c 4 t) (t : Fin cfg0.N) (d) : D.before 4 t d = blk V c 4 t :=
  (D.before_in_eq_fetched 4 rfl (fun _ => rfl) (fun _ _ _ => rfl) (fun t => by rw [hafter]; unfold Dat.blockOf blk; rw [hA]; try rfl) t d).trans
    (by unfold Dat.fetched Dat.blockOf blk; rw [hA]; try rfl)

theorem before_of_5 {c : Dev nD} (D : Dat τ (Elt F) Unit ℕ (UR sig nD τ) ℕ cfg0 c) (hA : D.A 5 = V c (Pipeline.arrRef spec0 5))
    (hafter : ∀ t, D.after 5 t = blk V c 5 t) (t : Fin cfg0.N) (d) : D.before 5 t d = blk V c 5 t :=
  (D.before_in_eq_fetched 5 rfl (fun _ => rfl) (fun _ _ _ => rfl) (fun t => by rw [hafter]; unfold Dat.blockOf blk; rw [hA]; try rfl) t d).trans
    (by unfold Dat.fetched Dat.blockOf blk; rw [hA]; try rfl)

theorem before_of_6 {c : Dev nD} (D : Dat τ (Elt F) Unit ℕ (UR sig nD τ) ℕ cfg0 c) (hA : D.A 6 = V c (Pipeline.arrRef spec0 6))
    (hafter : ∀ t, D.after 6 t = blk V c 6 t) (t : Fin cfg0.N) (d) : D.before 6 t d = blk V c 6 t :=
  (D.before_in_eq_fetched 6 rfl (fun _ => rfl) (fun _ _ _ => rfl) (fun t => by rw [hafter]; unfold Dat.blockOf blk; rw [hA]; try rfl) t d).trans
    (by unfold Dat.fetched Dat.blockOf blk; rw [hA]; try rfl)

theorem before_of_7 {c : Dev nD} (D : Dat τ (Elt F) Unit ℕ (UR sig nD τ) ℕ cfg0 c) (hA : D.A 7 = V c (Pipeline.arrRef spec0 7))
    (hafter : ∀ t, D.after 7 t = blk V c 7 t) (t : Fin cfg0.N) (d) : D.before 7 t d = blk V c 7 t :=
  (D.before_in_eq_fetched 7 rfl (fun _ => rfl) (fun _ _ _ => rfl) (fun t => by rw [hafter]; unfold Dat.blockOf blk; rw [hA]; try rfl) t d).trans
    (by unfold Dat.fetched Dat.blockOf blk; rw [hA]; try rfl)

theorem before_of_8 {c : Dev nD} (D : Dat τ (Elt F) Unit ℕ (UR sig nD τ) ℕ cfg0 c) (hA : D.A 8 = V c (Pipeline.arrRef spec0 8))
    (hafter : ∀ t, D.after 8 t = blk V c 8 t) (t : Fin cfg0.N) (d) : D.before 8 t d = blk V c 8 t :=
  (D.before_in_eq_fetched 8 rfl (fun _ => rfl) (fun _ _ _ => rfl) (fun t => by rw [hafter]; unfold Dat.blockOf blk; rw [hA]; try rfl) t d).trans
    (by unfold Dat.fetched Dat.blockOf blk; rw [hA]; try rfl)

/-! ## The body's accesses -/

/-- The whole row block, the whole weight matrix, the whole bias vector, the whole output block. -/
abbrev rX : Rect S512x1024 := Rect.unit (s := S512x1024) ![0, 0] S512x1024.size inb_S512x1024_S512x1024_0_0
abbrev rWt : Rect S128x1024 := Rect.unit (s := S128x1024) ![0, 0] S128x1024.size inb_S128x1024_S128x1024_0_0
abbrev rB : Rect S128 := Rect.unit (s := S128) ![0] S128.size inb_S128_S128_0
abbrev rO : Rect S512x128 := Rect.unit (s := S512x128) ![0, 0] S512x128.size inb_S512x128_S512x128_0_0

/-! ## What the body leaves in each output window's buffer

Each output buffer receives one store, of the whole block: the projection of the row block by the weights,
plus the bias. -/

def left9 (x : Vec F S512x1024 .f32) (wt : Vec F S128x1024 .f32) (b : Vec F S128 .f32) : Vec F S512x128 .bf16 :=
  View.canon [⟨rO, k0_pay1 (View.ld x rX) (View.ld wt rWt) (View.ld b rB)⟩]

def left10 (x : Vec F S512x1024 .f32) (wt : Vec F S128x1024 .f32) (b : Vec F S128 .f32) : Vec F S512x128 .bf16 :=
  View.canon [⟨rO, k0_pay2 (View.ld x rX) (View.ld wt rWt) (View.ld b rB)⟩]

def left11 (x : Vec F S512x1024 .f32) (wt : Vec F S128x1024 .f32) (b : Vec F S128 .f32) : Vec F S512x128 .bf16 :=
  View.canon [⟨rO, k0_pay3 (View.ld x rX) (View.ld wt rWt) (View.ld b rB)⟩]

/-- The one store tiles the output buffer, so it covers it. -/
theorem cover_out (p : Vec F S512x128 .bf16) (y : S512x128.Idx) :
    ∃ pc ∈ ([⟨rO, p⟩] : List (View.Piece (Elt F) S512x128 .bf16)), y ∈ pc.1.set :=
  View.cover_of_tiled [⟨rO, p⟩] S512x128.size (by rfl) y

/-! ## The body's triple -/

set_option maxHeartbeats 4000000 in
/-- The kernel on whole staging memrefs — the nine inputs' at contents `x·`, `wt·`, `b·`, the three outputs' at
    anything — runs to the continuation holding the inputs' as they were and each output's at its projection. -/
theorem sound_kernel (c : Dev nD) (E : Set ℕ) (i : grid0.Coords)
    (a1 : Memref sig .tc .vmem S512x1024 .f32) (h1 : a1.IsWhole) (a2 : Memref sig .tc .vmem S512x1024 .f32) (h2 : a2.IsWhole)
    (a3 : Memref sig .tc .vmem S512x1024 .f32) (h3 : a3.IsWhole) (a4 : Memref sig .tc .vmem S128x1024 .f32) (h4 : a4.IsWhole)
    (a5 : Memref sig .tc .vmem S128x1024 .f32) (h5 : a5.IsWhole) (a6 : Memref sig .tc .vmem S128x1024 .f32) (h6 : a6.IsWhole)
    (a7 : Memref sig .tc .vmem S128 .f32) (h7 : a7.IsWhole) (a8 : Memref sig .tc .vmem S128 .f32) (h8 : a8.IsWhole)
    (a9 : Memref sig .tc .vmem S128 .f32) (h9 : a9.IsWhole) (a10 : Memref sig .tc .vmem S512x128 .bf16) (h10 : a10.IsWhole)
    (a11 : Memref sig .tc .vmem S512x128 .bf16) (h11 : a11.IsWhole) (a12 : Memref sig .tc .vmem S512x128 .bf16) (h12 : a12.IsWhole)
    (x0 x1 x2 : Vec F S512x1024 .f32) (wt0 wt1 wt2 : Vec F S128x1024 .f32) (b0 b1 b2 : Vec F S128 .f32) (K : PUnit → sProp 𝕄) :
    iprop(owns (c : Thread nD τ) a1 fullShare x0 ∗ owns (c : Thread nD τ) a2 fullShare x1 ∗ owns (c : Thread nD τ) a3 fullShare x2
        ∗ owns (c : Thread nD τ) a4 fullShare wt0 ∗ owns (c : Thread nD τ) a5 fullShare wt1 ∗ owns (c : Thread nD τ) a6 fullShare wt2
        ∗ owns (c : Thread nD τ) a7 fullShare b0 ∗ owns (c : Thread nD τ) a8 fullShare b1 ∗ owns (c : Thread nD τ) a9 fullShare b2
        ∗ (∃ d, owns (c : Thread nD τ) a10 fullShare d) ∗ (∃ d, owns (c : Thread nD τ) a11 fullShare d) ∗ (∃ d, owns (c : Thread nD τ) a12 fullShare d)
        ∗ (iprop(owns (c : Thread nD τ) a1 fullShare x0 ∗ owns (c : Thread nD τ) a2 fullShare x1 ∗ owns (c : Thread nD τ) a3 fullShare x2
            ∗ owns (c : Thread nD τ) a4 fullShare wt0 ∗ owns (c : Thread nD τ) a5 fullShare wt1 ∗ owns (c : Thread nD τ) a6 fullShare wt2
            ∗ owns (c : Thread nD τ) a7 fullShare b0 ∗ owns (c : Thread nD τ) a8 fullShare b1 ∗ owns (c : Thread nD τ) a9 fullShare b2
            ∗ owns (c : Thread nD τ) a10 fullShare (left9 x0 wt0 b0) ∗ owns (c : Thread nD τ) a11 fullShare (left10 x1 wt1 b1)
            ∗ owns (c : Thread nD τ) a12 fullShare (left11 x2 wt2 b2)) -∗ K ⟨⟩))
      ⊢ wp frame (wpE (defs₀ (F := F)) Variants.none c none) E
          (cc0__proj_kernel i a1 h1 a2 h2 a3 h3 a4 h4 a5 h5 a6 h6 a7 h7 a8 h8 a9 h9 a10 h10 a11 h11 a12 h12) K := by
  simp only [cc0__proj_kernel_eq_skeleton]; unfold cc0__proj_kernel_skel
  simp only [k0_part1_eq_skeleton]; unfold k0_part1_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩,
    ⟨%f7, %hf7, H7⟩, ⟨%f8, %hf8, H8⟩, ⟨%f9, %hf9, H9⟩, ⟨%d10, %f10, -, H10⟩, ⟨%d11, %f11, -, H11⟩, ⟨%d12, %f12, -, H12⟩, Hk⟩
  subst hf1 hf2 hf3 hf4 hf5 hf6 hf7 hf8 hf9
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists _; isplitr
    swap; · iexact H10
    ipureintro
    exact View.read_writes_eq_canon _ _ _ (cover_out _)
  isplitl [H11]
  · iexists _; isplitr
    swap; · iexact H11
    ipureintro
    exact View.read_writes_eq_canon _ _ _ (cover_out _)
  iexists _; isplitr
  swap; · iexact H12
  ipureintro
  exact View.read_writes_eq_canon _ _ _ (cover_out _)

/-! ## The pipeline's proof data -/

/-- The proof data of the region on core `c`: the arrays as the region finds them; after the body at point `t`
    each input's buffer at its block and each output's at the projection of the input blocks; the invariant the
    scoped rest and the generator register, untouched at every point; nothing owed; full shares. -/
def dat (c : Dev nD) : Dat τ (Elt F) Unit ℕ (UR sig nD τ) ℕ cfg0 c where
  A w := V c (Pipeline.arrRef spec0 w)
  after w t := match w with
    | ⟨0, _⟩ => blk V c 0 t
    | ⟨1, _⟩ => blk V c 1 t
    | ⟨2, _⟩ => blk V c 2 t
    | ⟨3, _⟩ => blk V c 3 t
    | ⟨4, _⟩ => blk V c 4 t
    | ⟨5, _⟩ => blk V c 5 t
    | ⟨6, _⟩ => blk V c 6 t
    | ⟨7, _⟩ => blk V c 7 t
    | ⟨8, _⟩ => blk V c 8 t
    | ⟨9, _⟩ => left9 (blk V c 0 t) (blk V c 3 t) (blk V c 6 t)
    | ⟨10, _⟩ => left10 (blk V c 1 t) (blk V c 4 t) (blk V c 7 t)
    | ⟨11, _⟩ => left11 (blk V c 2 t) (blk V c 5 t) (blk V c 8 t)
  Φ _ := Pipeline.ΦA spec0 c
  q _ := fullShare
  owed _ := 0

/-- The proof data's arrays are the entry contents. -/
theorem A_eq (c : Dev nD) (w : Fin cfg0.W) : (dat V c).A w = V c (Pipeline.arrRef spec0 w) := by
  dsimp only [dat]

/-! What the body leaves, window by window. -/
theorem after_0 (c : Dev nD) (t : Fin cfg0.N) : (dat V c).after 0 t = blk V c 0 t := by dsimp only [dat]
theorem after_1 (c : Dev nD) (t : Fin cfg0.N) : (dat V c).after 1 t = blk V c 1 t := by dsimp only [dat]
theorem after_2 (c : Dev nD) (t : Fin cfg0.N) : (dat V c).after 2 t = blk V c 2 t := by dsimp only [dat]
theorem after_3 (c : Dev nD) (t : Fin cfg0.N) : (dat V c).after 3 t = blk V c 3 t := by dsimp only [dat]
theorem after_4 (c : Dev nD) (t : Fin cfg0.N) : (dat V c).after 4 t = blk V c 4 t := by dsimp only [dat]
theorem after_5 (c : Dev nD) (t : Fin cfg0.N) : (dat V c).after 5 t = blk V c 5 t := by dsimp only [dat]
theorem after_6 (c : Dev nD) (t : Fin cfg0.N) : (dat V c).after 6 t = blk V c 6 t := by dsimp only [dat]
theorem after_7 (c : Dev nD) (t : Fin cfg0.N) : (dat V c).after 7 t = blk V c 7 t := by dsimp only [dat]
theorem after_8 (c : Dev nD) (t : Fin cfg0.N) : (dat V c).after 8 t = blk V c 8 t := by dsimp only [dat]
theorem after_9 (c : Dev nD) (t : Fin cfg0.N) : (dat V c).after 9 t = left9 (blk V c 0 t) (blk V c 3 t) (blk V c 6 t) := by dsimp only [dat]
theorem after_10 (c : Dev nD) (t : Fin cfg0.N) : (dat V c).after 10 t = left10 (blk V c 1 t) (blk V c 4 t) (blk V c 7 t) := by dsimp only [dat]
theorem after_11 (c : Dev nD) (t : Fin cfg0.N) : (dat V c).after 11 t = left11 (blk V c 2 t) (blk V c 5 t) (blk V c 8 t) := by dsimp only [dat]

/-! Each input's current staging buffer holds its block at every point. -/
theorem before_0 (c : Dev nD) (t : Fin cfg0.N) (d) : (dat V c).before 0 t d = blk V c 0 t :=
  before_of_0 V (dat V c) (A_eq V c 0) (after_0 V c) t d
theorem before_1 (c : Dev nD) (t : Fin cfg0.N) (d) : (dat V c).before 1 t d = blk V c 1 t :=
  before_of_1 V (dat V c) (A_eq V c 1) (after_1 V c) t d
theorem before_2 (c : Dev nD) (t : Fin cfg0.N) (d) : (dat V c).before 2 t d = blk V c 2 t :=
  before_of_2 V (dat V c) (A_eq V c 2) (after_2 V c) t d
theorem before_3 (c : Dev nD) (t : Fin cfg0.N) (d) : (dat V c).before 3 t d = blk V c 3 t :=
  before_of_3 V (dat V c) (A_eq V c 3) (after_3 V c) t d
theorem before_4 (c : Dev nD) (t : Fin cfg0.N) (d) : (dat V c).before 4 t d = blk V c 4 t :=
  before_of_4 V (dat V c) (A_eq V c 4) (after_4 V c) t d
theorem before_5 (c : Dev nD) (t : Fin cfg0.N) (d) : (dat V c).before 5 t d = blk V c 5 t :=
  before_of_5 V (dat V c) (A_eq V c 5) (after_5 V c) t d
theorem before_6 (c : Dev nD) (t : Fin cfg0.N) (d) : (dat V c).before 6 t d = blk V c 6 t :=
  before_of_6 V (dat V c) (A_eq V c 6) (after_6 V c) t d
theorem before_7 (c : Dev nD) (t : Fin cfg0.N) (d) : (dat V c).before 7 t d = blk V c 7 t :=
  before_of_7 V (dat V c) (A_eq V c 7) (after_7 V c) t d
theorem before_8 (c : Dev nD) (t : Fin cfg0.N) (d) : (dat V c).before 8 t d = blk V c 8 t :=
  before_of_8 V (dat V c) (A_eq V c 8) (after_8 V c) t d

/-! ## The invariant at the region's ends -/

theorem Φ_in (c : Dev nD) : (Pipeline.ΦA spec0 c : sProp 𝕄) ⊢ (dat (F := F) V c).Φ 0 := .rfl

theorem Φ_out (c : Dev nD) : (dat (F := F) V c).Φ (Fin.last cfg0.N) ⊢ (Pipeline.ΦA spec0 c : sProp 𝕄) := .rfl

/-! ## The body obligation, at a generic point -/

/-- What the body is called with at point `t`, the windows one by one, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d))
    ∗ (∃ d, owns (c : Thread nD τ) (st0_4 t) fullShare ((dat V c).before 4 t d))
    ∗ (∃ d, owns (c : Thread nD τ) (st0_5 t) fullShare ((dat V c).before 5 t d))
    ∗ (∃ d, owns (c : Thread nD τ) (st0_6 t) fullShare ((dat V c).before 6 t d))
    ∗ (∃ d, owns (c : Thread nD τ) (st0_7 t) fullShare ((dat V c).before 7 t d))
    ∗ (∃ d, owns (c : Thread nD τ) (st0_8 t) fullShare ((dat V c).before 8 t d))
    ∗ (∃ d, owns (c : Thread nD τ) (st0_9 t) fullShare ((dat V c).before 9 t d))
    ∗ (∃ d, owns (c : Thread nD τ) (st0_10 t) fullShare ((dat V c).before 10 t d))
    ∗ (∃ d, owns (c : Thread nD τ) (st0_11 t) fullShare ((dat V c).before 11 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t)
    ∗ owns (c : Thread nD τ) (st0_4 t) fullShare ((dat V c).after 4 t)
    ∗ owns (c : Thread nD τ) (st0_5 t) fullShare ((dat V c).after 5 t)
    ∗ owns (c : Thread nD τ) (st0_6 t) fullShare ((dat V c).after 6 t)
    ∗ owns (c : Thread nD τ) (st0_7 t) fullShare ((dat V c).after 7 t)
    ∗ owns (c : Thread nD τ) (st0_8 t) fullShare ((dat V c).after 8 t)
    ∗ owns (c : Thread nD τ) (st0_9 t) fullShare ((dat V c).after 9 t)
    ∗ owns (c : Thread nD τ) (st0_10 t) fullShare ((dat V c).after 10 t)
    ∗ owns (c : Thread nD τ) (st0_11 t) fullShare ((dat V c).after 11 t))

set_option maxHeartbeats 4000000 in
/-- The body at any point: the inputs' memrefs hold their blocks, so the kernel's triple applies; the invariant
    and what the core owes pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2, before_3, before_4, before_5, before_6, before_7, before_8]
  rw [show (dat V c).Φ t.succ = (dat V c).Φ t.castSucc from rfl,
    show (dat V c).owesAt () t.succ = (dat V c).owesAt () t.castSucc from rfl,
    after_0, after_1, after_2, after_3, after_4, after_5, after_6, after_7, after_8, after_9, after_10, after_11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (sound_kernel c Set.univ _ _ _ _ _ _ _ _ _ _ _ _ _ _ _ _ _ _ _ _ _ _ _ _ _
    (blk V c 0 t) (blk V c 1 t) (blk V c 2 t) (blk V c 3 t) (blk V c 4 t) (blk V c 5 t) (blk V c 6 t) (blk V c 7 t) (blk V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The library's body obligation, at every point. -/
theorem body_obligation (c : Dev nD) : BodyObligation (dat (F := F) V c) (defs₀ (F := F)) Variants.none () Set.univ := fun t => by
  rw [bigSep_W0, bigSep_W0]
  exact sound_body V c t

end Cert.Kernel.Reg0

end
-- ==== Proof.K.Region1Runs.lean ====
import proofs.«135563_j8478265442573_2_alg».proof.Proof.Gen.Kernel.Launch
import proofs.«135563_j8478265442573_2_alg».proof.Proof.Gen.Kernel.Skeleton
import proofs.«135563_j8478265442573_2_alg».proof.Proof.Gen.Kernel.Points
import proofs.«135563_j8478265442573_2_alg».proof.Proof.Gen.Kernel.Loops
import Idealize.ShloMosaic.Lib.Pipeline.FrameBody
import Idealize.ShloMosaic.Lib.Pipeline.Frame
import Idealize.ShloMosaic.Lib.Pipeline.Kit
import Idealize.ShloMosaic.Lib.Ring
import Idealize.ShloMosaic.Lib.Tactic

set_option maxRecDepth 16384

noncomputable section

namespace Cert.Kernel.Reg1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Pass 1 (the per-key column statistic): the body's control and its three runs

The third grid axis is the reduction axis.  At its first index the two running buffers (the running
maximum and the running denominator) are reset; at every index the four chunks of the query block are
folded in; at its last index the statistic is written into the output block. -/

/-- The reset condition, as the body computes it from the third coordinate. -/
abbrev atFirst (i : grid1.Coords) : Prop :=
  (Scalar.cmpi .ne (Scalar.extui (Scalar.cmpi .eq (BitVec.ofNat 32 (i 2).val) 0#32)) 0#32) = 1#1

/-- The write-out condition. -/
abbrev atLast (i : grid1.Coords) : Prop := k1_cond2 i = 1#1

/-- The reset happens exactly at the points whose position is a multiple of four. -/
theorem atFirst_iff : ∀ t : Fin cfg1.N, atFirst (grid1.coords t) ↔ t.val % 4 = 0 :=
  (by decide +kernel : ∀ t : Fin grid1.N, atFirst (grid1.coords t) ↔ t.val % 4 = 0)

/-- The write-out happens exactly at the points whose position is three modulo four. -/
theorem atLast_iff : ∀ t : Fin cfg1.N, atLast (grid1.coords t) ↔ t.val % 4 = 3 :=
  (by decide +kernel : ∀ t : Fin grid1.N, atLast (grid1.coords t) ↔ t.val % 4 = 3)

/-- The two input windows are never idle. -/
theorem live_K : ∀ t : Fin cfg1.N, cfg1.idle 0 (grid1.coords t) = false := by decide +kernel
theorem live_Q : ∀ t : Fin cfg1.N, cfg1.idle 1 (grid1.coords t) = false := by decide +kernel
/-- Away from the write-out points the output window is idle and is not written back. -/
theorem idle_out : ∀ t : Fin cfg1.N, ¬atLast (grid1.coords t) → cfg1.idle 2 (grid1.coords t) = true := by decide +kernel
theorem noFlush_out : ∀ t : Fin cfg1.N, ¬atLast (grid1.coords t) → (cfg1.win 2).flush t = false := by decide +kernel
/-- At the write-out points it is live. -/
theorem live_out : ∀ t : Fin cfg1.N, atLast (grid1.coords t) → cfg1.idle 2 (grid1.coords t) = false := by decide +kernel

/-- The running maximum and the running denominator, as memrefs and as views. -/
abbrev mxM : Memref sig .tc .vmem S1x2048 .f32 := Memref.whole cc1_scratch0
abbrev dnM : Memref sig .tc .vmem S1x2048 .f32 := Memref.whole cc1_scratch1
abbrev mxV : View sig .tc .vmem S1x2048 .f32 := mxM.view
abbrev dnV : View sig .tc .vmem S1x2048 .f32 := dnM.view
/-- One staging buffer of the output window, through which its contents are stated. -/
abbrev outV : View sig .tc .vmem S1x1x2048 .f32 := (Memref.whole cc1_stg2_0 : Memref sig .tc .vmem S1x1x2048 .f32).view

set_option maxHeartbeats 4000000 in
/-- THE RESET RUN (first index of the reduction axis): both running buffers are overwritten, then the four
    chunks are folded in; the output buffer is handed back as found.  The pieces each running buffer ends
    with are found by the run. -/
noncomputable def runFirst (c : Dev nD) (i : grid1.Coords)
    (arg3 : Memref sig .tc .vmem S1x2048x128 .bf16) (harg3 : arg3.IsWhole) (arg4 : Memref sig .tc .vmem S1x1024x128 .bf16) (harg4 : arg4.IsWhole)
    (arg5 : Memref sig .tc .vmem S1x1x2048 .f32) (harg5 : arg5.IsWhole) (arg6 : Memref sig .tc .vmem S1x2048 .f32) (harg6 : arg6.IsWhole)
    (arg7 : Memref sig .tc .vmem S1x2048 .f32) (harg7 : arg7.IsWhole) (h1 : atFirst i) (h2 : ¬atLast i)
    (xk : Vec F S1x2048x128 .bf16) (xq : Vec F S1x1024x128 .bf16) :
    Σ' (Lm : List (View.Piece (Elt F) S1x2048 .f32)), { Ld : List (View.Piece (Elt F) S1x2048 .f32) //
      ∀ (xo : Vec F S1x1x2048 .f32) (E : Set ℕ) (K : PUnit → sProp 𝕄),
        iprop(owns (c : Thread nD τ) arg3 fullShare xk ∗ owns (c : Thread nD τ) arg4 fullShare xq ∗ owns (c : Thread nD τ) arg5 fullShare xo
            ∗ (∃ d, owns (c : Thread nD τ) arg6 fullShare d) ∗ (∃ d, owns (c : Thread nD τ) arg7 fullShare d)
            ∗ (iprop(owns (c : Thread nD τ) arg3 fullShare xk ∗ owns (c : Thread nD τ) arg4 fullShare xq ∗ owns (c : Thread nD τ) arg5 fullShare xo
                ∗ (∃ f, arg6.view.loc (c : Thread nD τ) ↦[arg6.view.set]{fullShare} arg6.view.writes (Elt F) f Lm)
                ∗ (∃ f, arg7.view.loc (c : Thread nD τ) ↦[arg7.view.set]{fullShare} arg7.view.writes (Elt F) f Ld)) -∗ K ⟨⟩))
          ⊢ wp frame (wpE (defs₀ (F := F)) Variants.none c none) E (cc1__pass1_kernel i arg3 harg3 arg4 harg4 arg5 harg5 arg6 harg6 arg7 harg7) K } := by
  refine ⟨?_, ?_, fun xo E K => ?run⟩
  case run =>
    simp only [cc1__pass1_kernel_eq_skeleton]; unfold cc1__pass1_kernel_skel
    unfold owns
    iintro ⟨⟨%f3, %hf3, H3⟩, ⟨%f4, %hf4, H4⟩, ⟨%f5, %hf5, H5⟩, ⟨%d6, %f6, -, H6⟩, ⟨%d7, %f7, -, H7⟩, Hk⟩
    obtain rfl := harg3.eq_unread hf3; obtain rfl := harg4.eq_unread hf4; obtain rfl := harg5.eq_unread hf5
    sl_exec (disch := first | exact h1 | exact h2)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; iexact H6
    iexists _; iexact H7

set_option maxHeartbeats 4000000 in
/-- THE MIDDLE RUN (neither the first nor the last index of the reduction axis): the running buffers are found
    at `xm`, `xd` — what the point before left — and the four chunks are folded in; the output buffer is handed
    back as found. -/
noncomputable def runMid (c : Dev nD) (i : grid1.Coords)
    (arg3 : Memref sig .tc .vmem S1x2048x128 .bf16) (harg3 : arg3.IsWhole) (arg4 : Memref sig .tc .vmem S1x1024x128 .bf16) (harg4 : arg4.IsWhole)
    (arg5 : Memref sig .tc .vmem S1x1x2048 .f32) (harg5 : arg5.IsWhole) (arg6 : Memref sig .tc .vmem S1x2048 .f32) (harg6 : arg6.IsWhole)
    (arg7 : Memref sig .tc .vmem S1x2048 .f32) (harg7 : arg7.IsWhole) (h1 : ¬atFirst i) (h2 : ¬atLast i)
    (xk : Vec F S1x2048x128 .bf16) (xq : Vec F S1x1024x128 .bf16) (xm xd : Vec F S1x2048 .f32) :
    Σ' (Lm : List (View.Piece (Elt F) S1x2048 .f32)), { Ld : List (View.Piece (Elt F) S1x2048 .f32) //
      ∀ (xo : Vec F S1x1x2048 .f32) (E : Set ℕ) (K : PUnit → sProp 𝕄),
        iprop(owns (c : Thread nD τ) arg3 fullShare xk ∗ owns (c : Thread nD τ) arg4 fullShare xq ∗ owns (c : Thread nD τ) arg5 fullShare xo
            ∗ owns (c : Thread nD τ) arg6 fullShare xm ∗ owns (c : Thread nD τ) arg7 fullShare xd
            ∗ (iprop(owns (c : Thread nD τ) arg3 fullShare xk ∗ owns (c : Thread nD τ) arg4 fullShare xq ∗ owns (c : Thread nD τ) arg5 fullShare xo
                ∗ (∃ f, arg6.view.loc (c : Thread nD τ) ↦[arg6.view.set]{fullShare} arg6.view.writes (Elt F) f Lm)
                ∗ (∃ f, arg7.view.loc (c : Thread nD τ) ↦[arg7.view.set]{fullShare} arg7.view.writes (Elt F) f Ld)) -∗ K ⟨⟩))
          ⊢ wp frame (wpE (defs₀ (F := F)) Variants.none c none) E (cc1__pass1_kernel i arg3 harg3 arg4 harg4 arg5 harg5 arg6 harg6 arg7 harg7) K } := by
  refine ⟨?_, ?_, fun xo E K => ?run⟩
  case run =>
    simp only [cc1__pass1_kernel_eq_skeleton]; unfold cc1__pass1_kernel_skel
    unfold owns
    iintro ⟨⟨%f3, %hf3, H3⟩, ⟨%f4, %hf4, H4⟩, ⟨%f5, %hf5, H5⟩, ⟨%f6, %hf6, H6⟩, ⟨%f7, %hf7, H7⟩, Hk⟩
    obtain rfl := harg3.eq_unread hf3; obtain rfl := harg4.eq_unread hf4; obtain rfl := harg5.eq_unread hf5
    obtain rfl := harg6.eq_unread hf6; obtain rfl := harg7.eq_unread hf7
    sl_exec (disch := first | exact h1 | exact h2)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; iexact H6
    iexists _; iexact H7

set_option maxHeartbeats 4000000 in
/-- THE WRITE-OUT RUN (last index of the reduction axis): as the middle run, and then the statistic — running
    maximum plus the logarithm of the running denominator — is stored over the whole output buffer. -/
noncomputable def runLast (c : Dev nD) (i : grid1.Coords)
    (arg3 : Memref sig .tc .vmem S1x2048x128 .bf16) (harg3 : arg3.IsWhole) (arg4 : Memref sig .tc .vmem S1x1024x128 .bf16) (harg4 : arg4.IsWhole)
    (arg5 : Memref sig .tc .vmem S1x1x2048 .f32) (harg5 : arg5.IsWhole) (arg6 : Memref sig .tc .vmem S1x2048 .f32) (harg6 : arg6.IsWhole)
    (arg7 : Memref sig .tc .vmem S1x2048 .f32) (harg7 : arg7.IsWhole) (h1 : ¬atFirst i) (h2 : atLast i)
    (xk : Vec F S1x2048x128 .bf16) (xq : Vec F S1x1024x128 .bf16) (xm xd : Vec F S1x2048 .f32) :
    Σ' (Lo : List (View.Piece (Elt F) S1x1x2048 .f32)) (Lm : List (View.Piece (Elt F) S1x2048 .f32)), { Ld : List (View.Piece (Elt F) S1x2048 .f32) //
      ∀ (E : Set ℕ) (K : PUnit → sProp 𝕄),
        iprop(owns (c : Thread nD τ) arg3 fullShare xk ∗ owns (c : Thread nD τ) arg4 fullShare xq ∗ (∃ d, owns (c : Thread nD τ) arg5 fullShare d)
            ∗ owns (c : Thread nD τ) arg6 fullShare xm ∗ owns (c : Thread nD τ) arg7 fullShare xd
            ∗ (iprop(owns (c : Thread nD τ) arg3 fullShare xk ∗ owns (c : Thread nD τ) arg4 fullShare xq
                ∗ (∃ f, arg5.view.loc (c : Thread nD τ) ↦[arg5.view.set]{fullShare} arg5.view.writes (Elt F) f Lo)
                ∗ (∃ f, arg6.view.loc (c : Thread nD τ) ↦[arg6.view.set]{fullShare} arg6.view.writes (Elt F) f Lm)
                ∗ (∃ f, arg7.view.loc (c : Thread nD τ) ↦[arg7.view.set]{fullShare} arg7.view.writes (Elt F) f Ld)) -∗ K ⟨⟩))
          ⊢ wp frame (wpE (defs₀ (F := F)) Variants.none c none) E (cc1__pass1_kernel i arg3 harg3 arg4 harg4 arg5 harg5 arg6 harg6 arg7 harg7) K } := by
  refine ⟨?_, ?_, ?_, fun E K => ?run⟩
  case run =>
    simp only [cc1__pass1_kernel_eq_skeleton]; unfold cc1__pass1_kernel_skel
    unfold owns
    iintro ⟨⟨%f3, %hf3, H3⟩, ⟨%f4, %hf4, H4⟩, ⟨%d5, %f5, -, H5⟩, ⟨%f6, %hf6, H6⟩, ⟨%f7, %hf7, H7⟩, Hk⟩
    obtain rfl := harg3.eq_unread hf3; obtain rfl := harg4.eq_unread hf4
    obtain rfl := harg6.eq_unread hf6; obtain rfl := harg7.eq_unread hf7
    sl_exec (disch := first | exact h1 | exact h2)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; iexact H5
    isplitl [H6]
    · iexists _; iexact H6
    iexists _; iexact H7

end Cert.Kernel.Reg1

end
-- ==== Proof.K.Region1.lean ====
import proofs.«135563_j8478265442573_2_alg».proof.Proof.Gen.Kernel.Launch
import proofs.«135563_j8478265442573_2_alg».proof.Proof.Gen.Kernel.Skeleton
import proofs.«135563_j8478265442573_2_alg».proof.Proof.Gen.Kernel.Points
import proofs.«135563_j8478265442573_2_alg».proof.Proof.Gen.Kernel.Loops
import proofs.«135563_j8478265442573_2_alg».proof.Proof.K.Region1Runs
import Idealize.ShloMosaic.Lib.Pipeline.FrameBody
import Idealize.ShloMosaic.Lib.Pipeline.Frame
import Idealize.ShloMosaic.Lib.Pipeline.Kit
import Idealize.ShloMosaic.Lib.Ring
import Idealize.ShloMosaic.Lib.Tactic

set_option maxRecDepth 16384

noncomputable section

namespace Cert.Kernel.Reg1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents of the core when the region is entered: the parameter the region's half is stated at
variable (V : (c : Dev nD) → (b : Ref sig .tc) → Buf (Elt F) ((c : Thread nD τ).loc b))

/-! # Pass 1 at the entry contents `V`: the proof data, the invariant and the body obligation -/

/-! ## The windows' blocks -/

/-- Window `w`'s block at point `t`, read off its array as the region finds it. -/
def blk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The key window's current staging buffer holds its block at every point, fetched there or not (where it is not
    fetched the block index has not moved), for any proof data over `V` whose body leaves the block in place. -/
theorem before_K_of {c : Dev nD} (dat : Dat τ (Elt F) Unit ℕ (UR sig nD τ) ℕ cfg1 c) (hA : dat.A 0 = V c (Pipeline.arrRef spec1 0))
    (hafter : ∀ t, dat.after 0 t = blk V c 0 t) (t : Fin cfg1.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)

/-- The same for the query window. -/
theorem before_Q_of {c : Dev nD} (dat : Dat τ (Elt F) Unit ℕ (UR sig nD τ) ℕ cfg1 c) (hA : dat.A 1 = V c (Pipeline.arrRef spec1 1))
    (hafter : ∀ t, dat.after 1 t = blk V c 1 t) (t : Fin cfg1.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)

/-- Each window's current staging memref at point `t`, as the pipeline passes it, and its wholeness. -/
abbrev sK (t : Fin cfg1.N) : Memref sig .tc .vmem S1x2048x128 .bf16 := win1_0.stage (cfg1.slots t 0)
abbrev hK (t : Fin cfg1.N) : (sK t).IsWhole := hstage1_0 ((cfg1.slots t 0).cast nbuf1_0)
abbrev sQ (t : Fin cfg1.N) : Memref sig .tc .vmem S1x1024x128 .bf16 := win1_1.stage (cfg1.slots t 1)
abbrev hQ (t : Fin cfg1.N) : (sQ t).IsWhole := hstage1_1 ((cfg1.slots t 1).cast nbuf1_1)
abbrev sO (t : Fin cfg1.N) : Memref sig .tc .vmem S1x1x2048 .f32 := win1_2.stage (cfg1.slots t 2)
abbrev hO (t : Fin cfg1.N) : (sO t).IsWhole := hstage1_2 ((cfg1.slots t 2).cast nbuf1_2)

/-! ## What each run leaves: the pieces cover the buffers, so the contents do not depend on what was there -/

theorem cover_first_m (c : Dev nD) (i : grid1.Coords)
    (arg3 : Memref sig .tc .vmem S1x2048x128 .bf16) (harg3 : arg3.IsWhole) (arg4 : Memref sig .tc .vmem S1x1024x128 .bf16) (harg4 : arg4.IsWhole)
    (arg5 : Memref sig .tc .vmem S1x1x2048 .f32) (harg5 : arg5.IsWhole) (arg6 : Memref sig .tc .vmem S1x2048 .f32) (harg6 : arg6.IsWhole)
    (arg7 : Memref sig .tc .vmem S1x2048 .f32) (harg7 : arg7.IsWhole) (h1 : atFirst i) (h2 : ¬atLast i) (xk : Vec F S1x2048x128 .bf16) (xq : Vec F S1x1024x128 .bf16) (y : S1x2048.Idx) :
    ∃ pc ∈ (runFirst c i arg3 harg3 arg4 harg4 arg5 harg5 arg6 harg6 arg7 harg7 h1 h2 xk xq).1, y ∈ pc.1.set :=
  View.cover_of_tiledL (runFirst c i arg3 harg3 arg4 harg4 arg5 harg5 arg6 harg6 arg7 harg7 h1 h2 xk xq).1 S1x2048.size (by sl_kernel_rfl) y
theorem cover_first_d (c : Dev nD) (i : grid1.Coords)
    (arg3 : Memref sig .tc .vmem S1x2048x128 .bf16) (harg3 : arg3.IsWhole) (arg4 : Memref sig .tc .vmem S1x1024x128 .bf16) (harg4 : arg4.IsWhole)
    (arg5 : Memref sig .tc .vmem S1x1x2048 .f32) (harg5 : arg5.IsWhole) (arg6 : Memref sig .tc .vmem S1x2048 .f32) (harg6 : arg6.IsWhole)
    (arg7 : Memref sig .tc .vmem S1x2048 .f32) (harg7 : arg7.IsWhole) (h1 : atFirst i) (h2 : ¬atLast i) (xk : Vec F S1x2048x128 .bf16) (xq : Vec F S1x1024x128 .bf16) (y : S1x2048.Idx) :
    ∃ pc ∈ (runFirst c i arg3 harg3 arg4 harg4 arg5 harg5 arg6 harg6 arg7 harg7 h1 h2 xk xq).2.1, y ∈ pc.1.set :=
  View.cover_of_tiledL (runFirst c i arg3 harg3 arg4 harg4 arg5 harg5 arg6 harg6 arg7 harg7 h1 h2 xk xq).2.1 S1x2048.size (by sl_kernel_rfl) y
/-- The running maximum and denominator after a reset point. -/
def mFirst (c : Dev nD) (i : grid1.Coords)
    (arg3 : Memref sig .tc .vmem S1x2048x128 .bf16) (harg3 : arg3.IsWhole) (arg4 : Memref sig .tc .vmem S1x1024x128 .bf16) (harg4 : arg4.IsWhole)
    (arg5 : Memref sig .tc .vmem S1x1x2048 .f32) (harg5 : arg5.IsWhole) (arg6 : Memref sig .tc .vmem S1x2048 .f32) (harg6 : arg6.IsWhole)
    (arg7 : Memref sig .tc .vmem S1x2048 .f32) (harg7 : arg7.IsWhole) (h1 : atFirst i) (h2 : ¬atLast i) (xk : Vec F S1x2048x128 .bf16) (xq : Vec F S1x1024x128 .bf16) : Vec F S1x2048 .f32 :=
  mxV.read (Elt F) (mxV.writes (Elt F) mxV.junk (runFirst c i arg3 harg3 arg4 harg4 arg5 harg5 arg6 harg6 arg7 harg7 h1 h2 xk xq).1)
def dFirst (c : Dev nD) (i : grid1.Coords)
    (arg3 : Memref sig .tc .vmem S1x2048x128 .bf16) (harg3 : arg3.IsWhole) (arg4 : Memref sig .tc .vmem S1x1024x128 .bf16) (harg4 : arg4.IsWhole)
    (arg5 : Memref sig .tc .vmem S1x1x2048 .f32) (harg5 : arg5.IsWhole) (arg6 : Memref sig .tc .vmem S1x2048 .f32) (harg6 : arg6.IsWhole)
    (arg7 : Memref sig .tc .vmem S1x2048 .f32) (harg7 : arg7.IsWhole) (h1 : atFirst i) (h2 : ¬atLast i) (xk : Vec F S1x2048x128 .bf16) (xq : Vec F S1x1024x128 .bf16) : Vec F S1x2048 .f32 :=
  dnV.read (Elt F) (dnV.writes (Elt F) dnV.junk (runFirst c i arg3 harg3 arg4 harg4 arg5 harg5 arg6 harg6 arg7 harg7 h1 h2 xk xq).2.1)

theorem cover_mid_m (c : Dev nD) (i : grid1.Coords)
    (arg3 : Memref sig .tc .vmem S1x2048x128 .bf16) (harg3 : arg3.IsWhole) (arg4 : Memref sig .tc .vmem S1x1024x128 .bf16) (harg4 : arg4.IsWhole)
    (arg5 : Memref sig .tc .vmem S1x1x2048 .f32) (harg5 : arg5.IsWhole) (arg6 : Memref sig .tc .vmem S1x2048 .f32) (harg6 : arg6.IsWhole)
    (arg7 : Memref sig .tc .vmem S1x2048 .f32) (harg7 : arg7.IsWhole) (h1 : ¬atFirst i) (h2 : ¬atLast i) (xk : Vec F S1x2048x128 .bf16) (xq : Vec F S1x1024x128 .bf16) (xm xd : Vec F S1x2048 .f32) (y : S1x2048.Idx) :
    ∃ pc ∈ (runMid c i arg3 harg3 arg4 harg4 arg5 harg5 arg6 harg6 arg7 harg7 h1 h2 xk xq xm xd).1, y ∈ pc.1.set :=
  View.cover_of_tiledL (runMid c i arg3 harg3 arg4 harg4 arg5 harg5 arg6 harg6 arg7 harg7 h1 h2 xk xq xm xd).1 S1x2048.size (by sl_kernel_rfl) y
theorem cover_mid_d (c : Dev nD) (i : grid1.Coords)
    (arg3 : Memref sig .tc .vmem S1x2048x128 .bf16) (harg3 : arg3.IsWhole) (arg4 : Memref sig .tc .vmem S1x1024x128 .bf16) (harg4 : arg4.IsWhole)
    (arg5 : Memref sig .tc .vmem S1x1x2048 .f32) (harg5 : arg5.IsWhole) (arg6 : Memref sig .tc .vmem S1x2048 .f32) (harg6 : arg6.IsWhole)
    (arg7 : Memref sig .tc .vmem S1x2048 .f32) (harg7 : arg7.IsWhole) (h1 : ¬atFirst i) (h2 : ¬atLast i) (xk : Vec F S1x2048x128 .bf16) (xq : Vec F S1x1024x128 .bf16) (xm xd : Vec F S1x2048 .f32) (y : S1x2048.Idx) :
    ∃ pc ∈ (runMid c i arg3 harg3 arg4 harg4 arg5 harg5 arg6 harg6 arg7 harg7 h1 h2 xk xq xm xd).2.1, y ∈ pc.1.set :=
  View.cover_of_tiledL (runMid c i arg3 harg3 arg4 harg4 arg5 harg5 arg6 harg6 arg7 harg7 h1 h2 xk xq xm xd).2.1 S1x2048.size (by sl_kernel_rfl) y
/-- The running maximum and denominator after a middle point, from what the point before left. -/
def mMid (c : Dev nD) (i : grid1.Coords)
    (arg3 : Memref sig .tc .vmem S1x2048x128 .bf16) (harg3 : arg3.IsWhole) (arg4 : Memref sig .tc .vmem S1x1024x128 .bf16) (harg4 : arg4.IsWhole)
    (arg5 : Memref sig .tc .vmem S1x1x2048 .f32) (harg5 : arg5.IsWhole) (arg6 : Memref sig .tc .vmem S1x2048 .f32) (harg6 : arg6.IsWhole)
    (arg7 : Memref sig .tc .vmem S1x2048 .f32) (harg7 : arg7.IsWhole) (h1 : ¬atFirst i) (h2 : ¬atLast i) (xk : Vec F S1x2048x128 .bf16) (xq : Vec F S1x1024x128 .bf16) (xm xd : Vec F S1x2048 .f32) : Vec F S1x2048 .f32 :=
  mxV.read (Elt F) (mxV.writes (Elt F) mxV.junk (runMid c i arg3 harg3 arg4 harg4 arg5 harg5 arg6 harg6 arg7 harg7 h1 h2 xk xq xm xd).1)
def dMid (c : Dev nD) (i : grid1.Coords)
    (arg3 : Memref sig .tc .vmem S1x2048x128 .bf16) (harg3 : arg3.IsWhole) (arg4 : Memref sig .tc .vmem S1x1024x128 .bf16) (harg4 : arg4.IsWhole)
    (arg5 : Memref sig .tc .vmem S1x1x2048 .f32) (harg5 : arg5.IsWhole) (arg6 : Memref sig .tc .vmem S1x2048 .f32) (harg6 : arg6.IsWhole)
    (arg7 : Memref sig .tc .vmem S1x2048 .f32) (harg7 : arg7.IsWhole) (h1 : ¬atFirst i) (h2 : ¬atLast i) (xk : Vec F S1x2048x128 .bf16) (xq : Vec F S1x1024x128 .bf16) (xm xd : Vec F S1x2048 .f32) : Vec F S1x2048 .f32 :=
  dnV.read (Elt F) (dnV.writes (Elt F) dnV.junk (runMid c i arg3 harg3 arg4 harg4 arg5 harg5 arg6 harg6 arg7 harg7 h1 h2 xk xq xm xd).2.1)

theorem cover_last_o (c : Dev nD) (i : grid1.Coords)
    (arg3 : Memref sig .tc .vmem S1x2048x128 .bf16) (harg3 : arg3.IsWhole) (arg4 : Memref sig .tc .vmem S1x1024x128 .bf16) (harg4 : arg4.IsWhole)
    (arg5 : Memref sig .tc .vmem S1x1x2048 .f32) (harg5 : arg5.IsWhole) (arg6 : Memref sig .tc .vmem S1x2048 .f32) (harg6 : arg6.IsWhole)
    (arg7 : Memref sig .tc .vmem S1x2048 .f32) (harg7 : arg7.IsWhole) (h1 : ¬atFirst i) (h2 : atLast i) (xk : Vec F S1x2048x128 .bf16) (xq : Vec F S1x1024x128 .bf16) (xm xd : Vec F S1x2048 .f32) (y : S1x1x2048.Idx) :
    ∃ pc ∈ (runLast c i arg3 harg3 arg4 harg4 arg5 harg5 arg6 harg6 arg7 harg7 h1 h2 xk xq xm xd).1, y ∈ pc.1.set :=
  View.cover_of_tiledL (runLast c i arg3 harg3 arg4 harg4 arg5 harg5 arg6 harg6 arg7 harg7 h1 h2 xk xq xm xd).1 S1x1x2048.size (by sl_kernel_rfl) y
theorem cover_last_m (c : Dev nD) (i : grid1.Coords)
    (arg3 : Memref sig .tc .vmem S1x2048x128 .bf16) (harg3 : arg3.IsWhole) (arg4 : Memref sig .tc .vmem S1x1024x128 .bf16) (harg4 : arg4.IsWhole)
    (arg5 : Memref sig .tc .vmem S1x1x2048 .f32) (harg5 : arg5.IsWhole) (arg6 : Memref sig .tc .vmem S1x2048 .f32) (harg6 : arg6.IsWhole)
    (arg7 : Memref sig .tc .vmem S1x2048 .f32) (harg7 : arg7.IsWhole) (h1 : ¬atFirst i) (h2 : atLast i) (xk : Vec F S1x2048x128 .bf16) (xq : Vec F S1x1024x128 .bf16) (xm xd : Vec F S1x2048 .f32) (y : S1x2048.Idx) :
    ∃ pc ∈ (runLast c i arg3 harg3 arg4 harg4 arg5 harg5 arg6 harg6 arg7 harg7 h1 h2 xk xq xm xd).2.1, y ∈ pc.1.set :=
  View.cover_of_tiledL (runLast c i arg3 harg3 arg4 harg4 arg5 harg5 arg6 harg6 arg7 harg7 h1 h2 xk xq xm xd).2.1 S1x2048.size (by sl_kernel_rfl) y
theorem cover_last_d (c : Dev nD) (i : grid1.Coords)
    (arg3 : Memref sig .tc .vmem S1x2048x128 .bf16) (harg3 : arg3.IsWhole) (arg4 : Memref sig .tc .vmem S1x1024x128 .bf16) (harg4 : arg4.IsWhole)
    (arg5 : Memref sig .tc .vmem S1x1x2048 .f32) (harg5 : arg5.IsWhole) (arg6 : Memref sig .tc .vmem S1x2048 .f32) (harg6 : arg6.IsWhole)
    (arg7 : Memref sig .tc .vmem S1x2048 .f32) (harg7 : arg7.IsWhole) (h1 : ¬atFirst i) (h2 : atLast i) (xk : Vec F S1x2048x128 .bf16) (xq : Vec F S1x1024x128 .bf16) (xm xd : Vec F S1x2048 .f32) (y : S1x2048.Idx) :
    ∃ pc ∈ (runLast c i arg3 harg3 arg4 harg4 arg5 harg5 arg6 harg6 arg7 harg7 h1 h2 xk xq xm xd).2.2.1, y ∈ pc.1.set :=
  View.cover_of_tiledL (runLast c i arg3 harg3 arg4 harg4 arg5 harg5 arg6 harg6 arg7 harg7 h1 h2 xk xq xm xd).2.2.1 S1x2048.size (by sl_kernel_rfl) y
/-- The output buffer, the running maximum and the denominator after a write-out point. -/
def oLast (c : Dev nD) (i : grid1.Coords)
    (arg3 : Memref sig .tc .vmem S1x2048x128 .bf16) (harg3 : arg3.IsWhole) (arg4 : Memref sig .tc .vmem S1x1024x128 .bf16) (harg4 : arg4.IsWhole)
    (arg5 : Memref sig .tc .vmem S1x1x2048 .f32) (harg5 : arg5.IsWhole) (arg6 : Memref sig .tc .vmem S1x2048 .f32) (harg6 : arg6.IsWhole)
    (arg7 : Memref sig .tc .vmem S1x2048 .f32) (harg7 : arg7.IsWhole) (h1 : ¬atFirst i) (h2 : atLast i) (xk : Vec F S1x2048x128 .bf16) (xq : Vec F S1x1024x128 .bf16) (xm xd : Vec F S1x2048 .f32) : Vec F S1x1x2048 .f32 :=
  outV.read (Elt F) (outV.writes (Elt F) outV.junk (runLast c i arg3 harg3 arg4 harg4 arg5 harg5 arg6 harg6 arg7 harg7 h1 h2 xk xq xm xd).1)
def mLast (c : Dev nD) (i : grid1.Coords)
    (arg3 : Memref sig .tc .vmem S1x2048x128 .bf16) (harg3 : arg3.IsWhole) (arg4 : Memref sig .tc .vmem S1x1024x128 .bf16) (harg4 : arg4.IsWhole)
    (arg5 : Memref sig .tc .vmem S1x1x2048 .f32) (harg5 : arg5.IsWhole) (arg6 : Memref sig .tc .vmem S1x2048 .f32) (harg6 : arg6.IsWhole)
    (arg7 : Memref sig .tc .vmem S1x2048 .f32) (harg7 : arg7.IsWhole) (h1 : ¬atFirst i) (h2 : atLast i) (xk : Vec F S1x2048x128 .bf16) (xq : Vec F S1x1024x128 .bf16) (xm xd : Vec F S1x2048 .f32) : Vec F S1x2048 .f32 :=
  mxV.read (Elt F) (mxV.writes (Elt F) mxV.junk (runLast c i arg3 harg3 arg4 harg4 arg5 harg5 arg6 harg6 arg7 harg7 h1 h2 xk xq xm xd).2.1)
def dLast (c : Dev nD) (i : grid1.Coords)
    (arg3 : Memref sig .tc .vmem S1x2048x128 .bf16) (harg3 : arg3.IsWhole) (arg4 : Memref sig .tc .vmem S1x1024x128 .bf16) (harg4 : arg4.IsWhole)
    (arg5 : Memref sig .tc .vmem S1x1x2048 .f32) (harg5 : arg5.IsWhole) (arg6 : Memref sig .tc .vmem S1x2048 .f32) (harg6 : arg6.IsWhole)
    (arg7 : Memref sig .tc .vmem S1x2048 .f32) (harg7 : arg7.IsWhole) (h1 : ¬atFirst i) (h2 : atLast i) (xk : Vec F S1x2048x128 .bf16) (xq : Vec F S1x1024x128 .bf16) (xm xd : Vec F S1x2048 .f32) : Vec F S1x2048 .f32 :=
  dnV.read (Elt F) (dnV.writes (Elt F) dnV.junk (runLast c i arg3 harg3 arg4 harg4 arg5 harg5 arg6 harg6 arg7 harg7 h1 h2 xk xq xm xd).2.2.1)

/-! ## The running pair, point by point -/

theorem notLast_of_zero (t : Fin cfg1.N) (h0 : t.val % 4 = 0) : ¬atLast (grid1.coords t) :=
  fun h => by have := (atLast_iff t).mp h; omega
theorem notFirst_of (t : Fin cfg1.N) (h0 : ¬t.val % 4 = 0) : ¬atFirst (grid1.coords t) :=
  fun h => h0 ((atFirst_iff t).mp h)
theorem notLast_of (t : Fin cfg1.N) (h3 : ¬t.val % 4 = 3) : ¬atLast (grid1.coords t) :=
  fun h => h3 ((atLast_iff t).mp h)

/-- The pair (running maximum, running denominator) after a reset point `t`. -/
def firstAt (c : Dev nD) (t : Fin cfg1.N) (h0 : t.val % 4 = 0) : Vec F S1x2048 .f32 × Vec F S1x2048 .f32 :=
  (mFirst c (grid1.coords t) (sK t) (hK t) (sQ t) (hQ t) (sO t) (hO t) mxM (Memref.isWhole_whole _) dnM (Memref.isWhole_whole _) ((atFirst_iff t).mpr h0) (notLast_of_zero t h0) (blk V c 0 t) (blk V c 1 t),
   dFirst c (grid1.coords t) (sK t) (hK t) (sQ t) (hQ t) (sO t) (hO t) mxM (Memref.isWhole_whole _) dnM (Memref.isWhole_whole _) ((atFirst_iff t).mpr h0) (notLast_of_zero t h0) (blk V c 0 t) (blk V c 1 t))
/-- After a middle point, from the pair `s` the point before left. -/
def midAt (c : Dev nD) (t : Fin cfg1.N) (h0 : ¬t.val % 4 = 0) (h3 : ¬t.val % 4 = 3) (s : Vec F S1x2048 .f32 × Vec F S1x2048 .f32) : Vec F S1x2048 .f32 × Vec F S1x2048 .f32 :=
  (mMid c (grid1.coords t) (sK t) (hK t) (sQ t) (hQ t) (sO t) (hO t) mxM (Memref.isWhole_whole _) dnM (Memref.isWhole_whole _) (notFirst_of t h0) (notLast_of t h3) (blk V c 0 t) (blk V c 1 t) s.1 s.2,
   dMid c (grid1.coords t) (sK t) (hK t) (sQ t) (hQ t) (sO t) (hO t) mxM (Memref.isWhole_whole _) dnM (Memref.isWhole_whole _) (notFirst_of t h0) (notLast_of t h3) (blk V c 0 t) (blk V c 1 t) s.1 s.2)
/-- After a write-out point, from the pair `s` the point before left; -/
def lastAt (c : Dev nD) (t : Fin cfg1.N) (h0 : ¬t.val % 4 = 0) (h3 : t.val % 4 = 3) (s : Vec F S1x2048 .f32 × Vec F S1x2048 .f32) : Vec F S1x2048 .f32 × Vec F S1x2048 .f32 :=
  (mLast c (grid1.coords t) (sK t) (hK t) (sQ t) (hQ t) (sO t) (hO t) mxM (Memref.isWhole_whole _) dnM (Memref.isWhole_whole _) (notFirst_of t h0) ((atLast_iff t).mpr h3) (blk V c 0 t) (blk V c 1 t) s.1 s.2,
   dLast c (grid1.coords t) (sK t) (hK t) (sQ t) (hQ t) (sO t) (hO t) mxM (Memref.isWhole_whole _) dnM (Memref.isWhole_whole _) (notFirst_of t h0) ((atLast_iff t).mpr h3) (blk V c 0 t) (blk V c 1 t) s.1 s.2)
/-- and the output buffer there. -/
def outLastAt (c : Dev nD) (t : Fin cfg1.N) (h0 : ¬t.val % 4 = 0) (h3 : t.val % 4 = 3) (s : Vec F S1x2048 .f32 × Vec F S1x2048 .f32) : Vec F S1x1x2048 .f32 :=
  oLast c (grid1.coords t) (sK t) (hK t) (sQ t) (hQ t) (sO t) (hO t) mxM (Memref.isWhole_whole _) dnM (Memref.isWhole_whole _) (notFirst_of t h0) ((atLast_iff t).mpr h3) (blk V c 0 t) (blk V c 1 t) s.1 s.2

/-- THE CARRIED PAIR after the body at position `n`: the case the position selects, a later point of a sweep
    over what the point before left. -/
def carry (c : Dev nD) : (n : ℕ) → n < cfg1.N → Vec F S1x2048 .f32 × Vec F S1x2048 .f32
  | 0, hn => firstAt V c ⟨0, hn⟩ (Nat.zero_mod _)
  | n + 1, hn =>
    if h0 : (n + 1) % 4 = 0 then firstAt V c ⟨n + 1, hn⟩ h0
    else if h3 : (n + 1) % 4 = 3 then lastAt V c ⟨n + 1, hn⟩ h0 h3 (carry c n (Nat.lt_of_succ_lt hn))
    else midAt V c ⟨n + 1, hn⟩ h0 h3 (carry c n (Nat.lt_of_succ_lt hn))

theorem carry_first (c : Dev nD) (t : Fin cfg1.N) (h0 : t.val % 4 = 0) : carry V c t.val t.isLt = firstAt V c t h0 := by
  obtain ⟨n, hn⟩ := t
  cases n with
  | zero => exact rfl
  | succ n => exact (dif_pos h0).trans rfl

theorem carry_mid (c : Dev nD) (t : Fin cfg1.N) (h0 : ¬t.val % 4 = 0) (h3 : ¬t.val % 4 = 3) :
    carry V c t.val t.isLt = midAt V c t h0 h3 (carry V c (t.val - 1) (Nat.lt_of_le_of_lt (Nat.sub_le _ _) t.isLt)) := by
  obtain ⟨n, hn⟩ := t
  cases n with
  | zero => exact absurd (Nat.zero_mod _) h0
  | succ n => exact (dif_neg h0).trans ((dif_neg h3).trans rfl)

theorem carry_last (c : Dev nD) (t : Fin cfg1.N) (h0 : ¬t.val % 4 = 0) (h3 : t.val % 4 = 3) :
    carry V c t.val t.isLt = lastAt V c t h0 h3 (carry V c (t.val - 1) (Nat.lt_of_le_of_lt (Nat.sub_le _ _) t.isLt)) := by
  obtain ⟨n, hn⟩ := t
  cases n with
  | zero => exact absurd (Nat.zero_mod _) h0
  | succ n => exact (dif_neg h0).trans ((dif_pos h3).trans rfl)

/-- The output window's staging buffer after the body at point `t`: at a write-out point the statistic of the
    pair the point before left, folded with this point's chunks; elsewhere the window is idle and this is not read. -/
def outAt (c : Dev nD) (t : Fin cfg1.N) : Vec F S1x1x2048 .f32 :=
  if h3 : t.val % 4 = 3 then
    outLastAt V c t (fun h0 => by omega) h3 (carry V c (t.val - 1) (Nat.lt_of_le_of_lt (Nat.sub_le _ _) t.isLt))
  else outV.read (Elt F) outV.junk

theorem outAt_last (c : Dev nD) (t : Fin cfg1.N) (h0 : ¬t.val % 4 = 0) (h3 : t.val % 4 = 3) :
    outAt V c t = outLastAt V c t h0 h3 (carry V c (t.val - 1) (Nat.lt_of_le_of_lt (Nat.sub_le _ _) t.isLt)) := by
  unfold outAt; rw [dif_pos h3]

/-! ## The invariant -/

/-- The class invariant with the two running buffers opened: each owned at some contents, the remaining scoped
    buffers unopened, the generator register at some state. -/
theorem PhiA_eq (c : Dev nD) :
    (Pipeline.ΦA spec1 c : sProp 𝕄)
      = iprop(iprop(iprop((∃ d, owns (c : Thread nD τ) mxM fullShare d) ∗ (∃ d, owns (c : Thread nD τ) dnM fullShare d))
          ∗ Pipeline.scopedRestBut (Ix := Unit) (Name := ℕ) (U := UR sig nD τ) (Lvl := ℕ) (Val := Elt F) spec1 c [cc1_scratch0, cc1_scratch1])
          ∗ (∃ r, prngReg c r)) := by
  unfold Pipeline.ΦA; rw [scopedRest1_split]; simp only [mxM, dnM, owns_whole]; try rfl

/-- THE INVARIANT before position `n`: before the first point the class's; afterwards the two running buffers at
    the carried pair the point before left, the remaining scoped buffers unopened, the generator register at some state. -/
def Phi (c : Dev nD) : (n : ℕ) → n ≤ cfg1.N → sProp 𝕄
  | 0, _ => Pipeline.ΦA spec1 c
  | n + 1, hn => iprop(iprop(iprop(owns (c : Thread nD τ) mxM fullShare (carry V c n hn).1 ∗ owns (c : Thread nD τ) dnM fullShare (carry V c n hn).2)
      ∗ Pipeline.scopedRestBut (Ix := Unit) (Name := ℕ) (U := UR sig nD τ) (Lvl := ℕ) (Val := Elt F) spec1 c [cc1_scratch0, cc1_scratch1])
      ∗ (∃ r, prngReg c r))

theorem Phi_succ (c : Dev nD) (n : ℕ) (hn : n < cfg1.N) :
    Phi V c (n + 1) hn = iprop(iprop(iprop(owns (c : Thread nD τ) mxM fullShare (carry V c n hn).1 ∗ owns (c : Thread nD τ) dnM fullShare (carry V c n hn).2)
      ∗ Pipeline.scopedRestBut (Ix := Unit) (Name := ℕ) (U := UR sig nD τ) (Lvl := ℕ) (Val := Elt F) spec1 c [cc1_scratch0, cc1_scratch1])
      ∗ (∃ r, prngReg c r)) := rfl

theorem Phi_pos (c : Dev nD) (n : ℕ) (h : n ≤ cfg1.N) (hz : n ≠ 0) :
    Phi V c n h = iprop(iprop(iprop(owns (c : Thread nD τ) mxM fullShare (carry V c (n - 1) (by omega)).1 ∗ owns (c : Thread nD τ) dnM fullShare (carry V c (n - 1) (by omega)).2)
      ∗ Pipeline.scopedRestBut (Ix := Unit) (Name := ℕ) (U := UR sig nD τ) (Lvl := ℕ) (Val := Elt F) spec1 c [cc1_scratch0, cc1_scratch1])
      ∗ (∃ r, prngReg c r)) := by
  cases n with
  | zero => exact absurd rfl hz
  | succ n => rfl

/-- At any position the invariant gives the class's back: the named contents are forgotten. -/
theorem Phi_forget (c : Dev nD) (n : ℕ) (h : n ≤ cfg1.N) : Phi V c n h ⊢ (Pipeline.ΦA spec1 c : sProp 𝕄) := by
  cases n with
  | zero => exact Idealize.SL.BI.Entails.refl _
  | succ n =>
    rw [Phi_succ, PhiA_eq]
    iintro ⟨⟨⟨Hm, Hd⟩, Hr⟩, Hg⟩
    isplitl [Hm Hd Hr]
    · isplitl [Hm Hd]
      · isplitl [Hm]
        · iexists _; iexact Hm
        iexists _; iexact Hd
      iexact Hr
    iexact Hg

/-! ## The proof data -/

/-- The proof data of pass 1 on core `c`: the arrays as the region finds them; after the body each input's buffer
    at its block and the output's at `outAt`; the invariant `Phi`; nothing owed; full shares. -/
def dat (c : Dev nD) : Dat τ (Elt F) Unit ℕ (UR sig nD τ) ℕ cfg1 c where
  A w := V c (Pipeline.arrRef spec1 w)
  after w t := match w with
    | ⟨0, _⟩ => blk V c 0 t
    | ⟨1, _⟩ => blk V c 1 t
    | ⟨2, _⟩ => outAt V c t
  Φ t := Phi V c t.val (Nat.le_of_lt_succ t.isLt)
  q _ := fullShare
  owed _ := 0

theorem A_eq (c : Dev nD) (w : Fin cfg1.W) : (dat V c).A w = V c (Pipeline.arrRef spec1 w) := by
  dsimp only [dat]

theorem after_K (c : Dev nD) (t : Fin cfg1.N) : (dat V c).after 0 t = blk V c 0 t := by dsimp only [dat]
theorem after_Q (c : Dev nD) (t : Fin cfg1.N) : (dat V c).after 1 t = blk V c 1 t := by dsimp only [dat]
theorem after_O (c : Dev nD) (t : Fin cfg1.N) : (dat V c).after 2 t = outAt V c t := by dsimp only [dat]

theorem before_K (c : Dev nD) (t : Fin cfg1.N) (d) : (dat V c).before 0 t d = blk V c 0 t :=
  before_K_of V (dat V c) (A_eq V c 0) (after_K V c) t d
theorem before_Q (c : Dev nD) (t : Fin cfg1.N) (d) : (dat V c).before 1 t d = blk V c 1 t :=
  before_Q_of V (dat V c) (A_eq V c 1) (after_Q V c) t d

theorem Phi_castSucc (c : Dev nD) (t : Fin cfg1.N) :
    (dat V c).Φ t.castSucc = Phi V c t.val (Nat.le_of_lt t.isLt) := by
  dsimp only [dat]; simp only [Fin.coe_castSucc]

/-- What the launch hands the region is the invariant before the first point. -/
theorem Φ_in (c : Dev nD) : (Pipeline.ΦA spec1 c : sProp 𝕄) ⊢ (dat (F := F) V c).Φ 0 :=
  Idealize.SL.BI.Entails.refl _

/-- After the last point the invariant gives the class's back. -/
theorem Φ_out (c : Dev nD) : (dat (F := F) V c).Φ (Fin.last cfg1.N) ⊢ (Pipeline.ΦA spec1 c : sProp 𝕄) := by
  rw [show (dat V c).Φ (Fin.last cfg1.N) = Phi V c (Fin.last cfg1.N).val (Nat.le_of_lt_succ (Fin.last cfg1.N).isLt) from rfl]
  exact Phi_forget V c _ _

/-- The invariant opened at any position: the two running buffers at some contents. -/
theorem Phi_open (c : Dev nD) (n : ℕ) (h : n ≤ cfg1.N) :
    Phi V c n h ⊢ (iprop(iprop(iprop((∃ d, owns (c : Thread nD τ) mxM fullShare d) ∗ (∃ d, owns (c : Thread nD τ) dnM fullShare d))
          ∗ Pipeline.scopedRestBut (Ix := Unit) (Name := ℕ) (U := UR sig nD τ) (Lvl := ℕ) (Val := Elt F) spec1 c [cc1_scratch0, cc1_scratch1])
          ∗ (∃ r, prngReg c r)) : sProp 𝕄) :=
by
  rw [← PhiA_eq]; exact Phi_forget V c n h

/-! ## The body obligation, at a generic point -/

/-- What the body is called with at point `t`, the windows one by one, -/
def bodyPre (c : Dev nD) (t : Fin cfg1.N) : sProp 𝕄 :=
  iprop((dat V c).Φ t.castSucc ∗ (dat V c).owesAt () t.castSucc
    ∗ (∃ d, owns (c : Thread nD τ) (sK t) fullShare ((dat V c).before 0 t d))
    ∗ (∃ d, owns (c : Thread nD τ) (sQ t) fullShare ((dat V c).before 1 t d))
    ∗ (∃ d, owns (c : Thread nD τ) (sO t) fullShare ((dat V c).before 2 t d)))

/-- and what it returns. -/
def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t)

set_option maxHeartbeats 4000000 in
/-- The body at any point.  The inputs' buffers hold their blocks; the position says which of the three runs
    applies; the invariant hands the run the two running buffers — at anything before a reset, at the carried
    pair otherwise — and takes them back at this point's pair; the output buffer is handed back as found except at
    a write-out point, where it holds the statistic; the core owes nothing throughout. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_K, before_Q]
  rw [show (dat V c).owesAt () t.succ = (dat V c).owesAt () t.castSucc from rfl]
  rw [show (dat V c).Φ t.succ = Phi V c (t.val + 1) t.isLt from rfl, Phi_succ]
  rw [show (dat V c).leavesExact 0 t = owns (c : Thread nD τ) (sK t) fullShare ((dat V c).after 0 t) from by
    unfold Dat.leavesExact; rw [live_K t], after_K]
  rw [show (dat V c).leavesExact 1 t = owns (c : Thread nD τ) (sQ t) fullShare ((dat V c).after 1 t) from by
    unfold Dat.leavesExact; rw [live_Q t], after_Q]
  rw [Phi_castSucc]
  have hN : t.val < 32 := lt_of_lt_of_eq t.isLt (show cfg1.N = 32 from N_1)
  by_cases h0 : t.val % 4 = 0
  · have h3 : ¬t.val % 4 = 3 := by omega
    rw [Dat.leavesExact_idle (dat V c) 2 t (idle_out t (notLast_of t h3)) (noFlush_out t (notLast_of t h3))]
    rw [carry_first V c t h0]
    unfold firstAt mFirst dFirst; (try dsimp only)
    iintro ⟨HΦ, Ho, ⟨%d0, H0⟩, ⟨%d1, H1⟩, ⟨%d2, H2⟩⟩
    icases (Phi_open V c _ _) $$ HΦ with ⟨⟨⟨Hm, Hd⟩, Hr⟩, Hg⟩
    iapply ((runFirst c (grid1.coords t) _ _ _ _ _ _ _ _ _ _ ((atFirst_iff t).mpr h0) (notLast_of_zero t h0) (blk V c 0 t) (blk V c 1 t)).2.2 _ Set.univ _)
    isplitl [H0]; · iexact H0
    isplitl [H1]; · iexact H1
    isplitl [H2]; · iexact H2
    isplitl [Hm]; · iexact Hm
    isplitl [Hd]; · iexact Hd
    iintro ⟨H0, H1, H2, ⟨%em, Hm⟩, ⟨%ed, Hd⟩⟩
    isplitl [Hm Hd Hr Hg]
    · isplitl [Hm Hd Hr]
      · isplitl [Hm Hd]
        · isplitl [Hm]
          · unfold owns; iexists _; isplitr
            swap; · iexact Hm
            ipureintro; exact View.read_writes_of_cover _ _ _ _ _ (cover_first_m c _ _ _ _ _ _ _ _ _ _ _ _ _ _ _)
          unfold owns; iexists _; isplitr
          swap; · iexact Hd
          ipureintro; exact View.read_writes_of_cover _ _ _ _ _ (cover_first_d c _ _ _ _ _ _ _ _ _ _ _ _ _ _ _)
        iexact Hr
      iexact Hg
    isplitl [Ho]; · iexact Ho
    isplitl [H0]; · iexact H0
    isplitl [H1]; · iexact H1
    iexists _; iexact H2
  · have hz : t.val ≠ 0 := fun h => h0 (by rw [h])
    rw [Phi_pos V c _ _ hz]
    by_cases h3 : t.val % 4 = 3
    · rw [show (dat V c).leavesExact 2 t = owns (c : Thread nD τ) (sO t) fullShare ((dat V c).after 2 t) from by
        unfold Dat.leavesExact; rw [live_out t ((atLast_iff t).mpr h3)], after_O, outAt_last V c t h0 h3]
      rw [carry_last V c t h0 h3]
      unfold lastAt outLastAt mLast dLast oLast; (try dsimp only)
      iintro ⟨⟨⟨⟨Hm, Hd⟩, Hr⟩, Hg⟩, Ho, ⟨%d0, H0⟩, ⟨%d1, H1⟩, ⟨%d2, H2⟩⟩
      iapply ((runLast c (grid1.coords t) _ _ _ _ _ _ _ _ _ _ (notFirst_of t h0) ((atLast_iff t).mpr h3) (blk V c 0 t) (blk V c 1 t) _ _).2.2.2 Set.univ _)
      isplitl [H0]; · iexact H0
      isplitl [H1]; · iexact H1
      isplitl [H2]; · iexists _; iexact H2
      isplitl [Hm]; · iexact Hm
      isplitl [Hd]; · iexact Hd
      iintro ⟨H0, H1, ⟨%eo, H2⟩, ⟨%em, Hm⟩, ⟨%ed, Hd⟩⟩
      isplitl [Hm Hd Hr Hg]
      · isplitl [Hm Hd Hr]
        · isplitl [Hm Hd]
          · isplitl [Hm]
            · unfold owns; iexists _; isplitr
              swap; · iexact Hm
              ipureintro; exact View.read_writes_of_cover _ _ _ _ _ (cover_last_m c _ _ _ _ _ _ _ _ _ _ _ _ _ _ _ _ _)
            unfold owns; iexists _; isplitr
            swap; · iexact Hd
            ipureintro; exact View.read_writes_of_cover _ _ _ _ _ (cover_last_d c _ _ _ _ _ _ _ _ _ _ _ _ _ _ _ _ _)
          iexact Hr
        iexact Hg
      isplitl [Ho]; · iexact Ho
      isplitl [H0]; · iexact H0
      isplitl [H1]; · iexact H1
      unfold owns; iexists _; isplitr
      swap; · iexact H2
      ipureintro; exact View.read_writes_of_cover _ _ _ _ _ (cover_last_o c _ _ _ _ _ _ _ _ _ _ _ _ _ _ _ _ _)
    · rw [Dat.leavesExact_idle (dat V c) 2 t (idle_out t (notLast_of t h3)) (noFlush_out t (notLast_of t h3))]
      rw [carry_mid V c t h0 h3]
      unfold midAt mMid dMid; (try dsimp only)
      iintro ⟨⟨⟨⟨Hm, Hd⟩, Hr⟩, Hg⟩, Ho, ⟨%d0, H0⟩, ⟨%d1, H1⟩, ⟨%d2, H2⟩⟩
      iapply ((runMid c (grid1.coords t) _ _ _ _ _ _ _ _ _ _ (notFirst_of t h0) (notLast_of t h3) (blk V c 0 t) (blk V c 1 t) _ _).2.2 _ Set.univ _)
      isplitl [H0]; · iexact H0
      isplitl [H1]; · iexact H1
      isplitl [H2]; · iexact H2
      isplitl [Hm]; · iexact Hm
      isplitl [Hd]; · iexact Hd
      iintro ⟨H0, H1, H2, ⟨%em, Hm⟩, ⟨%ed, Hd⟩⟩
      isplitl [Hm Hd Hr Hg]
      · isplitl [Hm Hd Hr]
        · isplitl [Hm Hd]
          · isplitl [Hm]
            · unfold owns; iexists _; isplitr
              swap; · iexact Hm
              ipureintro; exact View.read_writes_of_cover _ _ _ _ _ (cover_mid_m c _ _ _ _ _ _ _ _ _ _ _ _ _ _ _ _ _)
            unfold owns; iexists _; isplitr
            swap; · iexact Hd
            ipureintro; exact View.read_writes_of_cover _ _ _ _ _ (cover_mid_d c _ _ _ _ _ _ _ _ _ _ _ _ _ _ _ _ _)
          iexact Hr
        iexact Hg
      isplitl [Ho]; · iexact Ho
      isplitl [H0]; · iexact H0
      isplitl [H1]; · iexact H1
      iexists _; iexact H2

/-- The library's body obligation, at every point. -/
theorem body_obligation (c : Dev nD) : BodyObligation (dat (F := F) V c) (defs₀ (F := F)) Variants.none () Set.univ := fun t => by
  rw [bigSep_W1, bigSep_W1]
  exact sound_body V c t

end Cert.Kernel.Reg1

end
-- ==== Proof.K.Region2.lean ====
import proofs.«135563_j8478265442573_2_alg».proof.Proof.Gen.Kernel.Launch
import proofs.«135563_j8478265442573_2_alg».proof.Proof.Gen.Kernel.Skeleton
import proofs.«135563_j8478265442573_2_alg».proof.Proof.Gen.Kernel.Points
import proofs.«135563_j8478265442573_2_alg».proof.Proof.Gen.Kernel.Loops
import Idealize.ShloMosaic.Lib.Pipeline.FrameBody
import Idealize.ShloMosaic.Lib.Pipeline.Frame
import Idealize.ShloMosaic.Lib.Pipeline.Kit
import Idealize.ShloMosaic.Lib.Ring
import Idealize.ShloMosaic.Lib.Tactic

set_option maxRecDepth 16384

noncomputable section

namespace Cert.Kernel.Reg2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the region's half of the frame is stated at a parameter: the TensorCore's buffer contents when the
-- region is entered
variable (V : (c : Dev nD) → (b : Ref sig .tc) → Buf (Elt F) ((c : Thread nD τ).loc b))

/-! # Region 2: the second attention pass, at the contents `V` its region is entered with

The kernel visits the grid points `t = (b * 2 + qi) * 4 + ki`. Its accumulator (a scratch buffer) is
zeroed where `ki = 0`, added to by the four trips of the key-chunk loop at every point, and copied
to the output block where `ki = 3`. So there are three control cases, and the accumulator's contents
after a point are defined by recursion over the points. -/

/-! ## The two branch conditions, in closed form over the grid -/

/-- The reset branch's condition (the reduction coordinate is 0), as the kernel's scalar chain. -/
abbrev condZ (i : grid2.Coords) : Prop :=
  (Scalar.cmpi .ne (Scalar.extui (Scalar.cmpi .eq (BitVec.ofNat 32 (i 2).val) 0#32)) 0#32) = 1#1
theorem condZ_iff : ∀ t : Fin cfg2.N, condZ (grid2.coords t) ↔ t.val % 4 = 0 :=
  (by decide +kernel : ∀ t : Fin grid2.N, condZ (grid2.coords t) ↔ t.val % 4 = 0)

/-- The output branch's condition (the reduction coordinate is 3). -/
abbrev condL (i : grid2.Coords) : Prop := k2_cond2 i = 1#1
theorem condL_iff : ∀ t : Fin cfg2.N, condL (grid2.coords t) ↔ t.val % 4 = 3 :=
  (by decide +kernel : ∀ t : Fin grid2.N, condL (grid2.coords t) ↔ t.val % 4 = 3)

/-- The four input windows are never idle; the output window is idle, and not written back, exactly
    where the output branch is not taken. -/
theorem live0 : ∀ t : Fin cfg2.N, cfg2.idle 0 (grid2.coords t) = false := by decide +kernel
theorem live1 : ∀ t : Fin cfg2.N, cfg2.idle 1 (grid2.coords t) = false := by decide +kernel
theorem live2 : ∀ t : Fin cfg2.N, cfg2.idle 2 (grid2.coords t) = false := by decide +kernel
theorem live3 : ∀ t : Fin cfg2.N, cfg2.idle 3 (grid2.coords t) = false := by decide +kernel
theorem idle4 : ∀ t : Fin cfg2.N, ¬condL (grid2.coords t) → cfg2.idle 4 (grid2.coords t) = true := by decide +kernel
theorem noFlush4 : ∀ t : Fin cfg2.N, ¬condL (grid2.coords t) → (cfg2.win 4).flush t = false := by decide +kernel
theorem live4 : ∀ t : Fin cfg2.N, condL (grid2.coords t) → cfg2.idle 4 (grid2.coords t) = false := by decide +kernel

/-! ## The memrefs of a point -/

abbrev mw0 (t : Fin cfg2.N) : Memref sig .tc .vmem S1x2048x128 .bf16 := win2_0.stage (cfg2.slots t 0)
abbrev hw0 (t : Fin cfg2.N) : (mw0 t).IsWhole := hstage2_0 ((cfg2.slots t 0).cast nbuf2_0)
abbrev mw1 (t : Fin cfg2.N) : Memref sig .tc .vmem S1x1024x128 .bf16 := win2_1.stage (cfg2.slots t 1)
abbrev hw1 (t : Fin cfg2.N) : (mw1 t).IsWhole := hstage2_1 ((cfg2.slots t 1).cast nbuf2_1)
abbrev mw2 (t : Fin cfg2.N) : Memref sig .tc .vmem S1x1024x128 .bf16 := win2_2.stage (cfg2.slots t 2)
abbrev hw2 (t : Fin cfg2.N) : (mw2 t).IsWhole := hstage2_2 ((cfg2.slots t 2).cast nbuf2_2)
abbrev mw3 (t : Fin cfg2.N) : Memref sig .tc .vmem S1x1x1024 .f32 := win2_3.stage (cfg2.slots t 3)
abbrev hw3 (t : Fin cfg2.N) : (mw3 t).IsWhole := hstage2_3 ((cfg2.slots t 3).cast nbuf2_3)
abbrev mw4 (t : Fin cfg2.N) : Memref sig .tc .vmem S1x2048x128 .f32 := win2_4.stage (cfg2.slots t 4)
abbrev hw4 (t : Fin cfg2.N) : (mw4 t).IsWhole := hstage2_4 ((cfg2.slots t 4).cast nbuf2_4)
/-- The accumulator: a whole scoped buffer of the kernel's own. -/
abbrev scM : Memref sig .tc .vmem S2048x128 .f32 := Memref.whole cc2_scratch0
/-- The views through which the accumulator's and the output block's contents are stated. -/
abbrev VS : View sig .tc .vmem S2048x128 .f32 := scM.view
abbrev VO : View sig .tc .vmem S1x2048x128 .f32 := (Memref.whole cc2_stg4_0 : Memref sig .tc .vmem S1x2048x128 .f32).view

/-- The class invariant with the accumulator split off as a memref owned at some contents. -/
theorem PhiA_eq (c : Dev nD) :
    (Pipeline.ΦA spec2 c : sProp 𝕄)
      = iprop(iprop(iprop((∃ d, owns (c : Thread nD τ) scM fullShare d))
          ∗ Pipeline.scopedRestBut (Ix := Unit) (Name := ℕ) (U := UR sig nD τ) (Lvl := ℕ) (Val := Elt F) spec2 c [cc2_scratch0])
          ∗ (∃ r, prngReg c r)) := by
  unfold Pipeline.ΦA; rw [scopedRest2_split]; simp only [scM, owns_whole]; try rfl

/-! ## The windows' blocks -/

/-- Window `w`'s block at point `t`, read off its array as the region finds it. -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current buffer holds its block at every point, fetched there or not: where it
    is not fetched its block index has not moved. -/
theorem before_in0 {c : Dev nD} (dat : Dat τ (Elt F) Unit ℕ (UR sig nD τ) ℕ cfg2 c) (hA : dat.A 0 = V c (Pipeline.arrRef spec2 0))
    (hafter : ∀ t, dat.after 0 t = iblk V c 0 t) (t : Fin cfg2.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1 {c : Dev nD} (dat : Dat τ (Elt F) Unit ℕ (UR sig nD τ) ℕ cfg2 c) (hA : dat.A 1 = V c (Pipeline.arrRef spec2 1))
    (hafter : ∀ t, dat.after 1 t = iblk V c 1 t) (t : Fin cfg2.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in2 {c : Dev nD} (dat : Dat τ (Elt F) Unit ℕ (UR sig nD τ) ℕ cfg2 c) (hA : dat.A 2 = V c (Pipeline.arrRef spec2 2))
    (hafter : ∀ t, dat.after 2 t = iblk V c 2 t) (t : Fin cfg2.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_in3 {c : Dev nD} (dat : Dat τ (Elt F) Unit ℕ (UR sig nD τ) ℕ cfg2 c) (hA : dat.A 3 = V c (Pipeline.arrRef spec2 3))
    (hafter : ∀ t, dat.after 3 t = iblk V c 3 t) (t : Fin cfg2.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body's triple, one per control case

Each is a subtype: the lists of pieces the case's stores leave in the accumulator (and, in the last
case, in the output block), with the proof that the body runs from the inputs at their contents to
the continuation holding those pieces written. The lists are what the run itself finds. -/

set_option maxHeartbeats 4000000 in
/-- First point of a reduction: the accumulator is zeroed, then the loop adds its four chunks. -/
noncomputable def runFirst (c : Dev nD) (i : grid2.Coords)
    (a3 : Memref sig .tc .vmem S1x2048x128 .bf16) (h3 : a3.IsWhole)
    (a4 : Memref sig .tc .vmem S1x1024x128 .bf16) (h4 : a4.IsWhole)
    (a5 : Memref sig .tc .vmem S1x1024x128 .bf16) (h5 : a5.IsWhole)
    (a6 : Memref sig .tc .vmem S1x1x1024 .f32) (h6 : a6.IsWhole)
    (a7 : Memref sig .tc .vmem S1x2048x128 .f32) (h7 : a7.IsWhole)
    (a8 : Memref sig .tc .vmem S2048x128 .f32) (h8 : a8.IsWhole)
    (hz : condZ i) (hl : ¬condL i) (xq : Vec F S1x2048x128 .bf16) (xk xv : Vec F S1x1024x128 .bf16) (xc : Vec F S1x1x1024 .f32) :
    { LS : List (View.Piece (Elt F) S2048x128 .f32) //
      ∀ (xo : Vec F S1x2048x128 .f32) (E : Set ℕ) (K : PUnit → sProp 𝕄),
        iprop(owns (c : Thread nD τ) a3 fullShare xq ∗ owns (c : Thread nD τ) a4 fullShare xk ∗ owns (c : Thread nD τ) a5 fullShare xv
            ∗ owns (c : Thread nD τ) a6 fullShare xc ∗ owns (c : Thread nD τ) a7 fullShare xo ∗ (∃ d, owns (c : Thread nD τ) a8 fullShare d)
            ∗ (iprop(owns (c : Thread nD τ) a3 fullShare xq ∗ owns (c : Thread nD τ) a4 fullShare xk ∗ owns (c : Thread nD τ) a5 fullShare xv
            ∗ owns (c : Thread nD τ) a6 fullShare xc ∗ owns (c : Thread nD τ) a7 fullShare xo
                ∗ (∃ f, a8.view.loc (c : Thread nD τ) ↦[a8.view.set]{fullShare} a8.view.writes (Elt F) f LS)) -∗ K ⟨⟩))
          ⊢ wp frame (wpE (defs₀ (F := F)) Variants.none c none) E (cc2__pass2_kernel i a3 h3 a4 h4 a5 h5 a6 h6 a7 h7 a8 h8) K } := by
  refine ⟨?_, fun xo E K => ?run⟩
  case run =>
    simp only [cc2__pass2_kernel_eq_skeleton]; unfold cc2__pass2_kernel_skel
    unfold owns
    iintro ⟨⟨%f3, %hf3, H3⟩, ⟨%f4, %hf4, H4⟩, ⟨%f5, %hf5, H5⟩, ⟨%f6, %hf6, H6⟩, ⟨%f7, %hf7, H7⟩, ⟨%d8, %f8, -, H8⟩, Hk⟩
    obtain rfl := h3.eq_unread hf3; obtain rfl := h4.eq_unread hf4; obtain rfl := h5.eq_unread hf5
    obtain rfl := h6.eq_unread hf6; obtain rfl := h7.eq_unread hf7
    sl_exec (disch := first | exact hz | exact hl)
    sl_step
    iapply Hk
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H6]
    · iexists _; isplitr; · ipureintro; exact h6.read_unread _
      iexact H6
    isplitl [H7]
    · iexists _; isplitr; · ipureintro; exact h7.read_unread _
      iexact H7
    iexists _; iexact H8

set_option maxHeartbeats 4000000 in
/-- A middle point: the loop adds its four chunks to what the point before left. -/
noncomputable def runMid (c : Dev nD) (i : grid2.Coords)
    (a3 : Memref sig .tc .vmem S1x2048x128 .bf16) (h3 : a3.IsWhole)
    (a4 : Memref sig .tc .vmem S1x1024x128 .bf16) (h4 : a4.IsWhole)
    (a5 : Memref sig .tc .vmem S1x1024x128 .bf16) (h5 : a5.IsWhole)
    (a6 : Memref sig .tc .vmem S1x1x1024 .f32) (h6 : a6.IsWhole)
    (a7 : Memref sig .tc .vmem S1x2048x128 .f32) (h7 : a7.IsWhole)
    (a8 : Memref sig .tc .vmem S2048x128 .f32) (h8 : a8.IsWhole)
    (hz : ¬condZ i) (hl : ¬condL i) (xq : Vec F S1x2048x128 .bf16) (xk xv : Vec F S1x1024x128 .bf16) (xc : Vec F S1x1x1024 .f32) (xs : Vec F S2048x128 .f32) :
    { LS : List (View.Piece (Elt F) S2048x128 .f32) //
      ∀ (xo : Vec F S1x2048x128 .f32) (E : Set ℕ) (K : PUnit → sProp 𝕄),
        iprop(owns (c : Thread nD τ) a3 fullShare xq ∗ owns (c : Thread nD τ) a4 fullShare xk ∗ owns (c : Thread nD τ) a5 fullShare xv
            ∗ owns (c : Thread nD τ) a6 fullShare xc ∗ owns (c : Thread nD τ) a7 fullShare xo ∗ owns (c : Thread nD τ) a8 fullShare xs
            ∗ (iprop(owns (c : Thread nD τ) a3 fullShare xq ∗ owns (c : Thread nD τ) a4 fullShare xk ∗ owns (c : Thread nD τ) a5 fullShare xv
            ∗ owns (c : Thread nD τ) a6 fullShare xc ∗ owns (c : Thread nD τ) a7 fullShare xo
                ∗ (∃ f, a8.view.loc (c : Thread nD τ) ↦[a8.view.set]{fullShare} a8.view.writes (Elt F) f LS)) -∗ K ⟨⟩))
          ⊢ wp frame (wpE (defs₀ (F := F)) Variants.none c none) E (cc2__pass2_kernel i a3 h3 a4 h4 a5 h5 a6 h6 a7 h7 a8 h8) K } := by
  refine ⟨?_, fun xo E K => ?run⟩
  case run =>
    simp only [cc2__pass2_kernel_eq_skeleton]; unfold cc2__pass2_kernel_skel
    unfold owns
    iintro ⟨⟨%f3, %hf3, H3⟩, ⟨%f4, %hf4, H4⟩, ⟨%f5, %hf5, H5⟩, ⟨%f6, %hf6, H6⟩, ⟨%f7, %hf7, H7⟩, ⟨%f8, %hf8, H8⟩, Hk⟩
    obtain rfl := h3.eq_unread hf3; obtain rfl := h4.eq_unread hf4; obtain rfl := h5.eq_unread hf5
    obtain rfl := h6.eq_unread hf6; obtain rfl := h7.eq_unread hf7; obtain rfl := h8.eq_unread hf8
    sl_exec (disch := first | exact hz | exact hl)
    sl_step
    iapply Hk
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H6]
    · iexists _; isplitr; · ipureintro; exact h6.read_unread _
      iexact H6
    isplitl [H7]
    · iexists _; isplitr; · ipureintro; exact h7.read_unread _
      iexact H7
    iexists _; iexact H8

set_option maxHeartbeats 4000000 in
/-- Last point of a reduction: the loop adds its four chunks, then the accumulator is copied to the
    output block. -/
noncomputable def runLast (c : Dev nD) (i : grid2.Coords)
    (a3 : Memref sig .tc .vmem S1x2048x128 .bf16) (h3 : a3.IsWhole)
    (a4 : Memref sig .tc .vmem S1x1024x128 .bf16) (h4 : a4.IsWhole)
    (a5 : Memref sig .tc .vmem S1x1024x128 .bf16) (h5 : a5.IsWhole)
    (a6 : Memref sig .tc .vmem S1x1x1024 .f32) (h6 : a6.IsWhole)
    (a7 : Memref sig .tc .vmem S1x2048x128 .f32) (h7 : a7.IsWhole)
    (a8 : Memref sig .tc .vmem S2048x128 .f32) (h8 : a8.IsWhole)
    (hz : ¬condZ i) (hl : condL i) (xq : Vec F S1x2048x128 .bf16) (xk xv : Vec F S1x1024x128 .bf16) (xc : Vec F S1x1x1024 .f32) (xs : Vec F S2048x128 .f32) :
    Σ' (LO : List (View.Piece (Elt F) S1x2048x128 .f32)), { LS : List (View.Piece (Elt F) S2048x128 .f32) //
      ∀ (E : Set ℕ) (K : PUnit → sProp 𝕄),
        iprop(owns (c : Thread nD τ) a3 fullShare xq ∗ owns (c : Thread nD τ) a4 fullShare xk ∗ owns (c : Thread nD τ) a5 fullShare xv
            ∗ owns (c : Thread nD τ) a6 fullShare xc ∗ (∃ d, owns (c : Thread nD τ) a7 fullShare d) ∗ owns (c : Thread nD τ) a8 fullShare xs
            ∗ (iprop(owns (c : Thread nD τ) a3 fullShare xq ∗ owns (c : Thread nD τ) a4 fullShare xk ∗ owns (c : Thread nD τ) a5 fullShare xv
            ∗ owns (c : Thread nD τ) a6 fullShare xc
                ∗ (∃ f, a7.view.loc (c : Thread nD τ) ↦[a7.view.set]{fullShare} a7.view.writes (Elt F) f LO)
                ∗ (∃ f, a8.view.loc (c : Thread nD τ) ↦[a8.view.set]{fullShare} a8.view.writes (Elt F) f LS)) -∗ K ⟨⟩))
          ⊢ wp frame (wpE (defs₀ (F := F)) Variants.none c none) E (cc2__pass2_kernel i a3 h3 a4 h4 a5 h5 a6 h6 a7 h7 a8 h8) K } := by
  refine ⟨?_, ?_, fun E K => ?run⟩
  case run =>
    simp only [cc2__pass2_kernel_eq_skeleton]; unfold cc2__pass2_kernel_skel
    unfold owns
    iintro ⟨⟨%f3, %hf3, H3⟩, ⟨%f4, %hf4, H4⟩, ⟨%f5, %hf5, H5⟩, ⟨%f6, %hf6, H6⟩, ⟨%d7, %f7, -, H7⟩, ⟨%f8, %hf8, H8⟩, Hk⟩
    obtain rfl := h3.eq_unread hf3; obtain rfl := h4.eq_unread hf4; obtain rfl := h5.eq_unread hf5
    obtain rfl := h6.eq_unread hf6; obtain rfl := h8.eq_unread hf8
    sl_exec (disch := first | exact hz | exact hl)
    sl_step
    iapply Hk
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H6]
    · iexists _; isplitr; · ipureintro; exact h6.read_unread _
      iexact H6
    isplitl [H7]
    · iexists _; iexact H7
    iexists _; iexact H8

/-! ## What each case leaves, as named contents

Every store into the accumulator (the reset, and each trip's) is of the whole block, so each case's
pieces cover it, and reading them back over anything names what the case leaves. -/

theorem coverFirst (c : Dev nD) (i : grid2.Coords)
    (a3 : Memref sig .tc .vmem S1x2048x128 .bf16) (h3 : a3.IsWhole)
    (a4 : Memref sig .tc .vmem S1x1024x128 .bf16) (h4 : a4.IsWhole)
    (a5 : Memref sig .tc .vmem S1x1024x128 .bf16) (h5 : a5.IsWhole)
    (a6 : Memref sig .tc .vmem S1x1x1024 .f32) (h6 : a6.IsWhole)
    (a7 : Memref sig .tc .vmem S1x2048x128 .f32) (h7 : a7.IsWhole)
    (a8 : Memref sig .tc .vmem S2048x128 .f32) (h8 : a8.IsWhole)
    (hz : condZ i) (hl : ¬condL i) (xq : Vec F S1x2048x128 .bf16) (xk xv : Vec F S1x1024x128 .bf16) (xc : Vec F S1x1x1024 .f32) (y : S2048x128.Idx) :
    ∃ pc ∈ (runFirst c i a3 h3 a4 h4 a5 h5 a6 h6 a7 h7 a8 h8 hz hl xq xk xv xc).1, y ∈ pc.1.set :=
  View.cover_of_tiledL (runFirst c i a3 h3 a4 h4 a5 h5 a6 h6 a7 h7 a8 h8 hz hl xq xk xv xc).1 S2048x128.size (by sl_kernel_rfl) y

def sFirst (c : Dev nD) (i : grid2.Coords)
    (a3 : Memref sig .tc .vmem S1x2048x128 .bf16) (h3 : a3.IsWhole)
    (a4 : Memref sig .tc .vmem S1x1024x128 .bf16) (h4 : a4.IsWhole)
    (a5 : Memref sig .tc .vmem S1x1024x128 .bf16) (h5 : a5.IsWhole)
    (a6 : Memref sig .tc .vmem S1x1x1024 .f32) (h6 : a6.IsWhole)
    (a7 : Memref sig .tc .vmem S1x2048x128 .f32) (h7 : a7.IsWhole)
    (a8 : Memref sig .tc .vmem S2048x128 .f32) (h8 : a8.IsWhole)
    (hz : condZ i) (hl : ¬condL i) (xq : Vec F S1x2048x128 .bf16) (xk xv : Vec F S1x1024x128 .bf16) (xc : Vec F S1x1x1024 .f32) : Vec F S2048x128 .f32 :=
  VS.read (Elt F) (VS.writes (Elt F) VS.junk (runFirst c i a3 h3 a4 h4 a5 h5 a6 h6 a7 h7 a8 h8 hz hl xq xk xv xc).1)

theorem coverMid (c : Dev nD) (i : grid2.Coords)
    (a3 : Memref sig .tc .vmem S1x2048x128 .bf16) (h3 : a3.IsWhole)
    (a4 : Memref sig .tc .vmem S1x1024x128 .bf16) (h4 : a4.IsWhole)
    (a5 : Memref sig .tc .vmem S1x1024x128 .bf16) (h5 : a5.IsWhole)
    (a6 : Memref sig .tc .vmem S1x1x1024 .f32) (h6 : a6.IsWhole)
    (a7 : Memref sig .tc .vmem S1x2048x128 .f32) (h7 : a7.IsWhole)
    (a8 : Memref sig .tc .vmem S2048x128 .f32) (h8 : a8.IsWhole)
    (hz : ¬condZ i) (hl : ¬condL i) (xq : Vec F S1x2048x128 .bf16) (xk xv : Vec F S1x1024x128 .bf16) (xc : Vec F S1x1x1024 .f32) (xs : Vec F S2048x128 .f32) (y : S2048x128.Idx) :
    ∃ pc ∈ (runMid c i a3 h3 a4 h4 a5 h5 a6 h6 a7 h7 a8 h8 hz hl xq xk xv xc xs).1, y ∈ pc.1.set :=
  View.cover_of_tiledL (runMid c i a3 h3 a4 h4 a5 h5 a6 h6 a7 h7 a8 h8 hz hl xq xk xv xc xs).1 S2048x128.size (by sl_kernel_rfl) y

def sMid (c : Dev nD) (i : grid2.Coords)
    (a3 : Memref sig .tc .vmem S1x2048x128 .bf16) (h3 : a3.IsWhole)
    (a4 : Memref sig .tc .vmem S1x1024x128 .bf16) (h4 : a4.IsWhole)
    (a5 : Memref sig .tc .vmem S1x1024x128 .bf16) (h5 : a5.IsWhole)
    (a6 : Memref sig .tc .vmem S1x1x1024 .f32) (h6 : a6.IsWhole)
    (a7 : Memref sig .tc .vmem S1x2048x128 .f32) (h7 : a7.IsWhole)
    (a8 : Memref sig .tc .vmem S2048x128 .f32) (h8 : a8.IsWhole)
    (hz : ¬condZ i) (hl : ¬condL i) (xq : Vec F S1x2048x128 .bf16) (xk xv : Vec F S1x1024x128 .bf16) (xc : Vec F S1x1x1024 .f32) (xs : Vec F S2048x128 .f32) : Vec F S2048x128 .f32 :=
  VS.read (Elt F) (VS.writes (Elt F) VS.junk (runMid c i a3 h3 a4 h4 a5 h5 a6 h6 a7 h7 a8 h8 hz hl xq xk xv xc xs).1)

theorem coverLastS (c : Dev nD) (i : grid2.Coords)
    (a3 : Memref sig .tc .vmem S1x2048x128 .bf16) (h3 : a3.IsWhole)
    (a4 : Memref sig .tc .vmem S1x1024x128 .bf16) (h4 : a4.IsWhole)
    (a5 : Memref sig .tc .vmem S1x1024x128 .bf16) (h5 : a5.IsWhole)
    (a6 : Memref sig .tc .vmem S1x1x1024 .f32) (h6 : a6.IsWhole)
    (a7 : Memref sig .tc .vmem S1x2048x128 .f32) (h7 : a7.IsWhole)
    (a8 : Memref sig .tc .vmem S2048x128 .f32) (h8 : a8.IsWhole)
    (hz : ¬condZ i) (hl : condL i) (xq : Vec F S1x2048x128 .bf16) (xk xv : Vec F S1x1024x128 .bf16) (xc : Vec F S1x1x1024 .f32) (xs : Vec F S2048x128 .f32) (y : S2048x128.Idx) :
    ∃ pc ∈ (runLast c i a3 h3 a4 h4 a5 h5 a6 h6 a7 h7 a8 h8 hz hl xq xk xv xc xs).2.1, y ∈ pc.1.set :=
  View.cover_of_tiledL (runLast c i a3 h3 a4 h4 a5 h5 a6 h6 a7 h7 a8 h8 hz hl xq xk xv xc xs).2.1 S2048x128.size (by sl_kernel_rfl) y

def sLast (c : Dev nD) (i : grid2.Coords)
    (a3 : Memref sig .tc .vmem S1x2048x128 .bf16) (h3 : a3.IsWhole)
    (a4 : Memref sig .tc .vmem S1x1024x128 .bf16) (h4 : a4.IsWhole)
    (a5 : Memref sig .tc .vmem S1x1024x128 .bf16) (h5 : a5.IsWhole)
    (a6 : Memref sig .tc .vmem S1x1x1024 .f32) (h6 : a6.IsWhole)
    (a7 : Memref sig .tc .vmem S1x2048x128 .f32) (h7 : a7.IsWhole)
    (a8 : Memref sig .tc .vmem S2048x128 .f32) (h8 : a8.IsWhole)
    (hz : ¬condZ i) (hl : condL i) (xq : Vec F S1x2048x128 .bf16) (xk xv : Vec F S1x1024x128 .bf16) (xc : Vec F S1x1x1024 .f32) (xs : Vec F S2048x128 .f32) : Vec F S2048x128 .f32 :=
  VS.read (Elt F) (VS.writes (Elt F) VS.junk (runLast c i a3 h3 a4 h4 a5 h5 a6 h6 a7 h7 a8 h8 hz hl xq xk xv xc xs).2.1)

theorem coverLastO (c : Dev nD) (i : grid2.Coords)
    (a3 : Memref sig .tc .vmem S1x2048x128 .bf16) (h3 : a3.IsWhole)
    (a4 : Memref sig .tc .vmem S1x1024x128 .bf16) (h4 : a4.IsWhole)
    (a5 : Memref sig .tc .vmem S1x1024x128 .bf16) (h5 : a5.IsWhole)
    (a6 : Memref sig .tc .vmem S1x1x1024 .f32) (h6 : a6.IsWhole)
    (a7 : Memref sig .tc .vmem S1x2048x128 .f32) (h7 : a7.IsWhole)
    (a8 : Memref sig .tc .vmem S2048x128 .f32) (h8 : a8.IsWhole)
    (hz : ¬condZ i) (hl : condL i) (xq : Vec F S1x2048x128 .bf16) (xk xv : Vec F S1x1024x128 .bf16) (xc : Vec F S1x1x1024 .f32) (xs : Vec F S2048x128 .f32) (y : S1x2048x128.Idx) :
    ∃ pc ∈ (runLast c i a3 h3 a4 h4 a5 h5 a6 h6 a7 h7 a8 h8 hz hl xq xk xv xc xs).1, y ∈ pc.1.set :=
  View.cover_of_tiledL (runLast c i a3 h3 a4 h4 a5 h5 a6 h6 a7 h7 a8 h8 hz hl xq xk xv xc xs).1 S1x2048x128.size (by sl_kernel_rfl) y

def oLast (c : Dev nD) (i : grid2.Coords)
    (a3 : Memref sig .tc .vmem S1x2048x128 .bf16) (h3 : a3.IsWhole)
    (a4 : Memref sig .tc .vmem S1x1024x128 .bf16) (h4 : a4.IsWhole)
    (a5 : Memref sig .tc .vmem S1x1024x128 .bf16) (h5 : a5.IsWhole)
    (a6 : Memref sig .tc .vmem S1x1x1024 .f32) (h6 : a6.IsWhole)
    (a7 : Memref sig .tc .vmem S1x2048x128 .f32) (h7 : a7.IsWhole)
    (a8 : Memref sig .tc .vmem S2048x128 .f32) (h8 : a8.IsWhole)
    (hz : ¬condZ i) (hl : condL i) (xq : Vec F S1x2048x128 .bf16) (xk xv : Vec F S1x1024x128 .bf16) (xc : Vec F S1x1x1024 .f32) (xs : Vec F S2048x128 .f32) : Vec F S1x2048x128 .f32 :=
  VO.read (Elt F) (VO.writes (Elt F) VO.junk (runLast c i a3 h3 a4 h4 a5 h5 a6 h6 a7 h7 a8 h8 hz hl xq xk xv xc xs).1)

/-- Where the output branch is not taken nothing is stored into the output block; its buffer is
    neither written back nor named there, and this placeholder stands for it. -/
def oIdle : Vec F S1x2048x128 .f32 := VO.read (Elt F) VO.junk

/-! ## The accumulation, point by point -/

/-- What the output block's buffer and the accumulator hold after the body at position `n`: the case
    the closed forms select there, run at the point's memrefs and input blocks, the accumulator taken
    (in the two later cases) at what position `n - 1` left. -/
def stAt (c : Dev nD) : (n : ℕ) → n < cfg2.N → Vec F S1x2048x128 .f32 × Vec F S2048x128 .f32
  | 0, hn => (oIdle, sFirst c (grid2.coords ⟨0, hn⟩) (mw0 ⟨0, hn⟩) (hw0 ⟨0, hn⟩) (mw1 ⟨0, hn⟩) (hw1 ⟨0, hn⟩) (mw2 ⟨0, hn⟩) (hw2 ⟨0, hn⟩) (mw3 ⟨0, hn⟩) (hw3 ⟨0, hn⟩) (mw4 ⟨0, hn⟩) (hw4 ⟨0, hn⟩) scM (Memref.isWhole_whole _)
      ((condZ_iff ⟨0, hn⟩).mpr (Nat.zero_mod _)) (fun h => absurd ((condL_iff ⟨0, hn⟩).mp h) (by show ¬ (0 : ℕ) % 4 = 3; decide)) (iblk V c 0 ⟨0, hn⟩) (iblk V c 1 ⟨0, hn⟩) (iblk V c 2 ⟨0, hn⟩) (iblk V c 3 ⟨0, hn⟩))
  | n + 1, hn =>
    if h0 : (n + 1) % 4 = 0 then
      (oIdle, sFirst c (grid2.coords ⟨n + 1, hn⟩) (mw0 ⟨n + 1, hn⟩) (hw0 ⟨n + 1, hn⟩) (mw1 ⟨n + 1, hn⟩) (hw1 ⟨n + 1, hn⟩) (mw2 ⟨n + 1, hn⟩) (hw2 ⟨n + 1, hn⟩) (mw3 ⟨n + 1, hn⟩) (hw3 ⟨n + 1, hn⟩) (mw4 ⟨n + 1, hn⟩) (hw4 ⟨n + 1, hn⟩) scM (Memref.isWhole_whole _)
        ((condZ_iff ⟨n + 1, hn⟩).mpr h0) (fun h => absurd ((condL_iff ⟨n + 1, hn⟩).mp h) (by show ¬ (n + 1) % 4 = 3; omega)) (iblk V c 0 ⟨n + 1, hn⟩) (iblk V c 1 ⟨n + 1, hn⟩) (iblk V c 2 ⟨n + 1, hn⟩) (iblk V c 3 ⟨n + 1, hn⟩))
    else if h3 : (n + 1) % 4 = 3 then
      (oLast c (grid2.coords ⟨n + 1, hn⟩) (mw0 ⟨n + 1, hn⟩) (hw0 ⟨n + 1, hn⟩) (mw1 ⟨n + 1, hn⟩) (hw1 ⟨n + 1, hn⟩) (mw2 ⟨n + 1, hn⟩) (hw2 ⟨n + 1, hn⟩) (mw3 ⟨n + 1, hn⟩) (hw3 ⟨n + 1, hn⟩) (mw4 ⟨n + 1, hn⟩) (hw4 ⟨n + 1, hn⟩) scM (Memref.isWhole_whole _)
          (fun h => h0 ((condZ_iff ⟨n + 1, hn⟩).mp h)) ((condL_iff ⟨n + 1, hn⟩).mpr h3) (iblk V c 0 ⟨n + 1, hn⟩) (iblk V c 1 ⟨n + 1, hn⟩) (iblk V c 2 ⟨n + 1, hn⟩) (iblk V c 3 ⟨n + 1, hn⟩) (stAt c n (Nat.lt_of_succ_lt hn)).2,
        sLast c (grid2.coords ⟨n + 1, hn⟩) (mw0 ⟨n + 1, hn⟩) (hw0 ⟨n + 1, hn⟩) (mw1 ⟨n + 1, hn⟩) (hw1 ⟨n + 1, hn⟩) (mw2 ⟨n + 1, hn⟩) (hw2 ⟨n + 1, hn⟩) (mw3 ⟨n + 1, hn⟩) (hw3 ⟨n + 1, hn⟩) (mw4 ⟨n + 1, hn⟩) (hw4 ⟨n + 1, hn⟩) scM (Memref.isWhole_whole _)
          (fun h => h0 ((condZ_iff ⟨n + 1, hn⟩).mp h)) ((condL_iff ⟨n + 1, hn⟩).mpr h3) (iblk V c 0 ⟨n + 1, hn⟩) (iblk V c 1 ⟨n + 1, hn⟩) (iblk V c 2 ⟨n + 1, hn⟩) (iblk V c 3 ⟨n + 1, hn⟩) (stAt c n (Nat.lt_of_succ_lt hn)).2)
    else
      (oIdle, sMid c (grid2.coords ⟨n + 1, hn⟩) (mw0 ⟨n + 1, hn⟩) (hw0 ⟨n + 1, hn⟩) (mw1 ⟨n + 1, hn⟩) (hw1 ⟨n + 1, hn⟩) (mw2 ⟨n + 1, hn⟩) (hw2 ⟨n + 1, hn⟩) (mw3 ⟨n + 1, hn⟩) (hw3 ⟨n + 1, hn⟩) (mw4 ⟨n + 1, hn⟩) (hw4 ⟨n + 1, hn⟩) scM (Memref.isWhole_whole _)
        (fun h => h0 ((condZ_iff ⟨n + 1, hn⟩).mp h)) (fun h => h3 ((condL_iff ⟨n + 1, hn⟩).mp h)) (iblk V c 0 ⟨n + 1, hn⟩) (iblk V c 1 ⟨n + 1, hn⟩) (iblk V c 2 ⟨n + 1, hn⟩) (iblk V c 3 ⟨n + 1, hn⟩) (stAt c n (Nat.lt_of_succ_lt hn)).2)

theorem stAt_first (c : Dev nD) (t : Fin cfg2.N) (h0 : t.val % 4 = 0) :
    stAt V c t.val t.isLt = (oIdle, sFirst c (grid2.coords t) (mw0 t) (hw0 t) (mw1 t) (hw1 t) (mw2 t) (hw2 t) (mw3 t) (hw3 t) (mw4 t) (hw4 t) scM (Memref.isWhole_whole _)
      ((condZ_iff t).mpr h0) (fun h => absurd ((condL_iff t).mp h) (by omega)) (iblk V c 0 t) (iblk V c 1 t) (iblk V c 2 t) (iblk V c 3 t)) := by
  obtain ⟨n, hn⟩ := t
  cases n with
  | zero => exact rfl
  | succ n => exact (dif_pos h0).trans rfl

theorem stAt_last (c : Dev nD) (t : Fin cfg2.N) (h0 : ¬t.val % 4 = 0) (h3 : t.val % 4 = 3) :
    stAt V c t.val t.isLt =
      (oLast c (grid2.coords t) (mw0 t) (hw0 t) (mw1 t) (hw1 t) (mw2 t) (hw2 t) (mw3 t) (hw3 t) (mw4 t) (hw4 t) scM (Memref.isWhole_whole _)
          (fun h => h0 ((condZ_iff t).mp h)) ((condL_iff t).mpr h3) (iblk V c 0 t) (iblk V c 1 t) (iblk V c 2 t) (iblk V c 3 t) (stAt V c (t.val - 1) (Nat.lt_of_le_of_lt (Nat.sub_le _ _) t.isLt)).2,
        sLast c (grid2.coords t) (mw0 t) (hw0 t) (mw1 t) (hw1 t) (mw2 t) (hw2 t) (mw3 t) (hw3 t) (mw4 t) (hw4 t) scM (Memref.isWhole_whole _)
          (fun h => h0 ((condZ_iff t).mp h)) ((condL_iff t).mpr h3) (iblk V c 0 t) (iblk V c 1 t) (iblk V c 2 t) (iblk V c 3 t) (stAt V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_pos h3).trans rfl)

theorem stAt_mid (c : Dev nD) (t : Fin cfg2.N) (h0 : ¬t.val % 4 = 0) (h3 : ¬t.val % 4 = 3) :
    stAt V c t.val t.isLt =
      (oIdle, sMid c (grid2.coords t) (mw0 t) (hw0 t) (mw1 t) (hw1 t) (mw2 t) (hw2 t) (mw3 t) (hw3 t) (mw4 t) (hw4 t) scM (Memref.isWhole_whole _)
        (fun h => h0 ((condZ_iff t).mp h)) (fun h => h3 ((condL_iff t).mp h)) (iblk V c 0 t) (iblk V c 1 t) (iblk V c 2 t) (iblk V c 3 t) (stAt V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h3).trans rfl)

/-- The invariant before position `n`: before the first point the class's (the accumulator at
    anything); afterwards the accumulator at what the point before left, the rest of the scoped
    buffers unopened, and the generator register at some state. -/
def PhiS (c : Dev nD) : (n : ℕ) → n ≤ cfg2.N → sProp 𝕄
  | 0, _ => Pipeline.ΦA spec2 c
  | n + 1, hn => iprop(iprop(owns (c : Thread nD τ) scM fullShare ((stAt V c n hn).2)
      ∗ Pipeline.scopedRestBut (Ix := Unit) (Name := ℕ) (U := UR sig nD τ) (Lvl := ℕ) (Val := Elt F) spec2 c [cc2_scratch0])
      ∗ (∃ r, prngReg c r))

theorem PhiS_zero (c : Dev nD) (n : ℕ) (h : n ≤ cfg2.N) (hz : n = 0) : PhiS V c n h = Pipeline.ΦA spec2 c := by
  subst hz; rfl

theorem PhiS_succ (c : Dev nD) (n : ℕ) (hn : n < cfg2.N) :
    PhiS V c (n + 1) hn = iprop(iprop(owns (c : Thread nD τ) scM fullShare ((stAt V c n hn).2)
      ∗ Pipeline.scopedRestBut (Ix := Unit) (Name := ℕ) (U := UR sig nD τ) (Lvl := ℕ) (Val := Elt F) spec2 c [cc2_scratch0])
      ∗ (∃ r, prngReg c r)) := rfl

theorem PhiS_pos (c : Dev nD) (n : ℕ) (h : n ≤ cfg2.N) (hz : n ≠ 0) :
    PhiS V c n h = iprop(iprop(owns (c : Thread nD τ) scM fullShare ((stAt V c (n - 1) (by omega)).2)
      ∗ Pipeline.scopedRestBut (Ix := Unit) (Name := ℕ) (U := UR sig nD τ) (Lvl := ℕ) (Val := Elt F) spec2 c [cc2_scratch0])
      ∗ (∃ r, prngReg c r)) := by
  cases n with
  | zero => exact absurd rfl hz
  | succ n => rfl

/-! ## The proof data -/

/-- The proof data of the region on core `c`: the arrays as the region finds them; after the body
    each input's buffer at its block and the output's at `stAt`'s first component; the invariant
    `PhiS`; nothing owed; full shares. -/
def dat (c : Dev nD) : Dat τ (Elt F) Unit ℕ (UR sig nD τ) ℕ cfg2 c where
  A w := V c (Pipeline.arrRef spec2 w)
  after w t := match w with
    | ⟨0, _⟩ => iblk V c 0 t
    | ⟨1, _⟩ => iblk V c 1 t
    | ⟨2, _⟩ => iblk V c 2 t
    | ⟨3, _⟩ => iblk V c 3 t
    | ⟨4, _⟩ => (stAt V c t.val t.isLt).1
  Φ t := PhiS V c t.val (Nat.le_of_lt_succ t.isLt)
  q _ := fullShare
  owed _ := 0

theorem A_eq (c : Dev nD) (w : Fin cfg2.W) : (dat V c).A w = V c (Pipeline.arrRef spec2 w) := by
  dsimp only [dat]

theorem PhiS_castSucc (c : Dev nD) (t : Fin cfg2.N) :
    (dat V c).Φ t.castSucc = PhiS V c t.val (Nat.le_of_lt t.isLt) := by
  dsimp only [dat]; simp only [Fin.coe_castSucc]

theorem after0 (c : Dev nD) (t : Fin cfg2.N) : (dat V c).after 0 t = iblk V c 0 t := by dsimp only [dat]
theorem after1 (c : Dev nD) (t : Fin cfg2.N) : (dat V c).after 1 t = iblk V c 1 t := by dsimp only [dat]
theorem after2 (c : Dev nD) (t : Fin cfg2.N) : (dat V c).after 2 t = iblk V c 2 t := by dsimp only [dat]
theorem after3 (c : Dev nD) (t : Fin cfg2.N) : (dat V c).after 3 t = iblk V c 3 t := by dsimp only [dat]
theorem after4 (c : Dev nD) (t : Fin cfg2.N) : (dat V c).after 4 t = (stAt V c t.val t.isLt).1 := by dsimp only [dat]

theorem before0 (c : Dev nD) (t : Fin cfg2.N) (d) : (dat V c).before 0 t d = iblk V c 0 t :=
  before_in0 V (dat V c) (A_eq V c 0) (after0 V c) t d
theorem before1 (c : Dev nD) (t : Fin cfg2.N) (d) : (dat V c).before 1 t d = iblk V c 1 t :=
  before_in1 V (dat V c) (A_eq V c 1) (after1 V c) t d
theorem before2 (c : Dev nD) (t : Fin cfg2.N) (d) : (dat V c).before 2 t d = iblk V c 2 t :=
  before_in2 V (dat V c) (A_eq V c 2) (after2 V c) t d
theorem before3 (c : Dev nD) (t : Fin cfg2.N) (d) : (dat V c).before 3 t d = iblk V c 3 t :=
  before_in3 V (dat V c) (A_eq V c 3) (after3 V c) t d

/-! ## The body obligation, at a generic point -/

/-- What the body is called with at point `t`, the windows one by one, -/
def bodyPre (c : Dev nD) (t : Fin cfg2.N) : sProp 𝕄 :=
  iprop((dat V c).Φ t.castSucc ∗ (dat V c).owesAt () t.castSucc
    ∗ (∃ d, owns (c : Thread nD τ) (mw0 t) fullShare ((dat V c).before 0 t d))
    ∗ (∃ d, owns (c : Thread nD τ) (mw1 t) fullShare ((dat V c).before 1 t d))
    ∗ (∃ d, owns (c : Thread nD τ) (mw2 t) fullShare ((dat V c).before 2 t d))
    ∗ (∃ d, owns (c : Thread nD τ) (mw3 t) fullShare ((dat V c).before 3 t d))
    ∗ (∃ d, owns (c : Thread nD τ) (mw4 t) fullShare ((dat V c).before 4 t d)))

/-- and what it returns. -/
def bodyPost (c : Dev nD) (t : Fin cfg2.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t)

set_option maxHeartbeats 8000000 in
/-- The body at any point. The inputs' buffers hold their blocks; the closed forms say which case
    the point is in; the invariant hands the body the accumulator at what the point before left (at
    anything at the very first point) and takes it back at this point's contents, each case's pieces
    covering it; the output block's buffer passes through untouched except in the last case, whose
    one store covers it. -/
theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before0, before1, before2, before3]
  rw [show (dat V c).owesAt () t.succ = (dat V c).owesAt () t.castSucc from rfl]
  rw [show (dat V c).Φ t.succ = PhiS V c (t.val + 1) t.isLt from rfl, PhiS_succ]
  rw [show (dat V c).leavesExact 0 t = owns (c : Thread nD τ) (mw0 t) fullShare ((dat V c).after 0 t) from by
    unfold Dat.leavesExact; rw [live0 t], after0]
  rw [show (dat V c).leavesExact 1 t = owns (c : Thread nD τ) (mw1 t) fullShare ((dat V c).after 1 t) from by
    unfold Dat.leavesExact; rw [live1 t], after1]
  rw [show (dat V c).leavesExact 2 t = owns (c : Thread nD τ) (mw2 t) fullShare ((dat V c).after 2 t) from by
    unfold Dat.leavesExact; rw [live2 t], after2]
  rw [show (dat V c).leavesExact 3 t = owns (c : Thread nD τ) (mw3 t) fullShare ((dat V c).after 3 t) from by
    unfold Dat.leavesExact; rw [live3 t], after3]
  have hN : t.val < 32 := lt_of_lt_of_eq t.isLt (show cfg2.N = 32 from N_2)
  by_cases h0 : t.val % 4 = 0
  · have hl : ¬condL (grid2.coords t) := fun h => absurd ((condL_iff t).mp h) (by omega)
    rw [Dat.leavesExact_idle (dat V c) 4 t (idle4 t hl) (noFlush4 t hl)]
    rw [stAt_first V c t h0]
    unfold sFirst; (try dsimp only)
    by_cases hz : t.val = 0
    · rw [PhiS_castSucc V c t, PhiS_zero V c _ _ hz, PhiA_eq]
      iintro ⟨⟨⟨HS, HR⟩, Hg⟩, Ho, ⟨%d0, H0⟩, ⟨%d1, H1⟩, ⟨%d2, H2⟩, ⟨%d3, H3⟩, ⟨%d4, H4⟩⟩
      iapply ((runFirst c (grid2.coords t) _ _ _ _ _ _ _ _ _ _ _ _ ((condZ_iff t).mpr h0) hl (iblk V c 0 t) (iblk V c 1 t) (iblk V c 2 t) (iblk V c 3 t)).2 _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, ⟨%es, HS⟩⟩
      isplitl [HS HR Hg]
      · isplitl [HS HR]
        · isplitl [HS]
          · unfold owns; iexists _; isplitr
            swap; · iexact HS
            ipureintro; exact View.read_writes_of_cover _ _ _ _ _ (coverFirst c _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      iexists _; iexact H4
    · rw [PhiS_castSucc V c t, PhiS_pos V c _ _ hz]
      iintro ⟨⟨⟨HS, HR⟩, Hg⟩, Ho, ⟨%d0, H0⟩, ⟨%d1, H1⟩, ⟨%d2, H2⟩, ⟨%d3, H3⟩, ⟨%d4, H4⟩⟩
      iapply ((runFirst c (grid2.coords t) _ _ _ _ _ _ _ _ _ _ _ _ ((condZ_iff t).mpr h0) hl (iblk V c 0 t) (iblk V c 1 t) (iblk V c 2 t) (iblk V c 3 t)).2 _ Set.univ _)
      isplitl [H0]; · iexact H0
      isplitl [H1]; · iexact H1
      isplitl [H2]; · iexact H2
      isplitl [H3]; · iexact H3
      isplitl [H4]; · iexact H4
      isplitl [HS]; · iexists _; iexact HS
      iintro ⟨H0, H1, H2, H3, H4, ⟨%es, HS⟩⟩
      isplitl [HS HR Hg]
      · isplitl [HS HR]
        · isplitl [HS]
          · unfold owns; iexists _; isplitr
            swap; · iexact HS
            ipureintro; exact View.read_writes_of_cover _ _ _ _ _ (coverFirst c _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      iexists _; iexact H4
  · have hz : t.val ≠ 0 := fun h => h0 (by rw [h])
    have hZ : ¬condZ (grid2.coords t) := fun h => h0 ((condZ_iff t).mp h)
    by_cases h3 : t.val % 4 = 3
    · have hl : condL (grid2.coords t) := (condL_iff t).mpr h3
      rw [show (dat V c).leavesExact 4 t = owns (c : Thread nD τ) (mw4 t) fullShare ((dat V c).after 4 t) from by
        unfold Dat.leavesExact; rw [live4 t hl], after4]
      rw [stAt_last V c t h0 h3]
      unfold oLast sLast; (try dsimp only)
      rw [PhiS_castSucc V c t, PhiS_pos V c _ _ hz]
      iintro ⟨⟨⟨HS, HR⟩, Hg⟩, Ho, ⟨%d0, H0⟩, ⟨%d1, H1⟩, ⟨%d2, H2⟩, ⟨%d3, H3⟩, ⟨%d4, H4⟩⟩
      iapply ((runLast c (grid2.coords t) _ _ _ _ _ _ _ _ _ _ _ _ hZ hl (iblk V c 0 t) (iblk V c 1 t) (iblk V c 2 t) (iblk V c 3 t) _).2.2 Set.univ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, ⟨%eo, H4⟩, ⟨%es, HS⟩⟩
      isplitl [HS HR Hg]
      · isplitl [HS HR]
        · isplitl [HS]
          · unfold owns; iexists _; isplitr
            swap; · iexact HS
            ipureintro; exact View.read_writes_of_cover _ _ _ _ _ (coverLastS c _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (coverLastO c _ _ _ _ _ _ _ _ _ _ _ _ _ _ _ _ _ _ _ _)
    · have hl : ¬condL (grid2.coords t) := fun h => h3 ((condL_iff t).mp h)
      rw [Dat.leavesExact_idle (dat V c) 4 t (idle4 t hl) (noFlush4 t hl)]
      rw [stAt_mid V c t h0 h3]
      unfold sMid; (try dsimp only)
      rw [PhiS_castSucc V c t, PhiS_pos V c _ _ hz]
      iintro ⟨⟨⟨HS, HR⟩, Hg⟩, Ho, ⟨%d0, H0⟩, ⟨%d1, H1⟩, ⟨%d2, H2⟩, ⟨%d3, H3⟩, ⟨%d4, H4⟩⟩
      iapply ((runMid c (grid2.coords t) _ _ _ _ _ _ _ _ _ _ _ _ hZ hl (iblk V c 0 t) (iblk V c 1 t) (iblk V c 2 t) (iblk V c 3 t) _).2 _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, ⟨%es, HS⟩⟩
      isplitl [HS HR Hg]
      · isplitl [HS HR]
        · isplitl [HS]
          · unfold owns; iexists _; isplitr
            swap; · iexact HS
            ipureintro; exact View.read_writes_of_cover _ _ _ _ _ (coverMid c _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation (c : Dev nD) : BodyObligation (dat (F := F) V c) (defs₀ (F := F)) Variants.none () Set.univ := fun t => by
  rw [bigSep_W2, bigSep_W2]
  exact sound_body V c t

/-- What the launch hands the region is the invariant before the first point. -/
theorem Φ_in (c : Dev nD) : (Pipeline.ΦA spec2 c : sProp 𝕄) ⊢ (dat (F := F) V c).Φ 0 := by
  rw [show (dat V c).Φ 0 = PhiS V c 0 (Nat.zero_le _) from rfl, PhiS_zero V c 0 _ rfl]

/-- After the last point the invariant gives the class's back: the accumulator's named contents are
    forgotten. -/
theorem Φ_out (c : Dev nD) : (dat (F := F) V c).Φ (Fin.last cfg2.N) ⊢ (Pipeline.ΦA spec2 c : sProp 𝕄) := by
  rw [show (dat V c).Φ (Fin.last cfg2.N) = PhiS V c (Fin.last cfg2.N).val (Nat.le_of_lt_succ (Fin.last cfg2.N).isLt) from rfl,
    PhiS_pos V c _ _ (by rw [Fin.val_last]; have : cfg2.N = 32 := N_2; omega), PhiA_eq]
  iintro ⟨⟨HS, HR⟩, Hg⟩
  isplitl [HS HR]
  · isplitl [HS]
    · iexists _; iexact HS
    iexact HR
  iexact Hg

end Cert.Kernel.Reg2

end
-- ==== Proof.K.Frame.lean ====
/-
  The three regions' halves put into the assembly: the program's frame, and its run with the result array named.
-/
import proofs.«135563_j8478265442573_2_alg».proof.Proof.K.Assembly
import proofs.«135563_j8478265442573_2_alg».proof.Proof.K.Region0
import proofs.«135563_j8478265442573_2_alg».proof.Proof.K.Region1
import proofs.«135563_j8478265442573_2_alg».proof.Proof.K.Region2

noncomputable section

namespace Cert.Kernel.Whole

open Cert.Kernel Cert.Kernel.Gen Cert.Kernel.Asm
open Idealize.ShloMosaic Idealize.ShloMosaic.TcCoe Idealize.SL.Sem

variable {F : FTy → Type} [FloatOps F]

/-- The projection region's half. -/
def half0 : Half0 (F := F) where
  dat := Reg0.dat
  A_eq := Reg0.A_eq
  q_eq _ _ _ := rfl
  owed_eq _ _ _ := rfl
  rec_eq _ _ _ := rfl
  Φ_in := Reg0.Φ_in
  Φ_out := Reg0.Φ_out
  body := Reg0.body_obligation

/-- The statistic region's half. -/
def half1 : Half1 (F := F) where
  dat := Reg1.dat
  A_eq := Reg1.A_eq
  q_eq _ _ _ := rfl
  owed_eq _ _ _ := rfl
  rec_eq _ _ _ := rfl
  Φ_in := Reg1.Φ_in
  Φ_out := Reg1.Φ_out
  body := Reg1.body_obligation

/-- The output region's half. -/
def half2 : Half2 (F := F) where
  dat := Reg2.dat
  A_eq := Reg2.A_eq
  q_eq _ _ _ := rfl
  owed_eq _ _ _ := rfl
  rec_eq _ _ _ := rfl
  Φ_in := Reg2.Φ_in
  Φ_out := Reg2.Φ_out
  body := Reg2.body_obligation

variable (m : (ℓ : Loc nD τ sig) → Buf (Elt F) ℓ) (ρ : Dev nD → PrngReg)

/-- The program terminates on every weakly fair execution, faults nowhere, and leaves its nine arguments as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_all m ρ half0 half1 half2

end Cert.Kernel.Whole

end
-- ==== Proof.KI.Assembly.lean ====
/-
  The whole program from its three regions' halves.

  Between two items of the program a core's buffers hold: the launch memory; then what the three reshapes write;
  then, after the projection region, its three output arrays at what its write-backs leave; then three more
  reshapes; then the statistic region's output array; then the output region's.  Given, for each region, proof
  data at ANY entry contents together with its body obligation and the passage of the region invariant in and
  out, every weakly fair execution of the program terminates and the final memory holds every buffer at the
  last of these contents.
-/
import proofs.«135563_j8478265442573_2_alg».proof.Proof.Gen.KernelIdeal.Launch
import proofs.«135563_j8478265442573_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Asm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- A core's buffer contents read at the TensorCore's references. -/
abbrev Ent (F : FTy → Type) : Type := (c : Dev nD) → (b : Ref sig .tc) → Buf (Elt F) ((c : Thread nD τ).loc b)

/-- What the assembly needs of the projection region: proof data at any entry contents whose arrays are those
    contents, full shares, nothing owed, the region invariant taken in and given back, the body obligation. -/
structure Half0 where
  dat : Ent F → (c : Dev nD) → Dat τ (Elt F) Unit ℕ (UR sig nD τ) ℕ cfg0 c
  A_eq : ∀ V c w, (dat V c).A w = V c (Pipeline.arrRef spec0 w)
  q_eq : ∀ V c w, (dat V c).q w = fullShare
  owed_eq : ∀ V c t, (dat V c).owed t = 0
  rec_eq : ∀ V c t, (dat V c).recorded t = Set.univ
  Φ_in : ∀ V c, (Pipeline.ΦA spec0 c : sProp 𝕄) ⊢ (dat V c).Φ 0
  Φ_out : ∀ V c, (dat V c).Φ (Fin.last cfg0.N) ⊢ (Pipeline.ΦA spec0 c : sProp 𝕄)
  body : ∀ V c, BodyObligation (dat V c) (defs₀ (F := F)) Variants.none () Set.univ

/-- The same of the statistic region. -/
structure Half1 where
  dat : Ent F → (c : Dev nD) → Dat τ (Elt F) Unit ℕ (UR sig nD τ) ℕ cfg1 c
  A_eq : ∀ V c w, (dat V c).A w = V c (Pipeline.arrRef spec1 w)
  q_eq : ∀ V c w, (dat V c).q w = fullShare
  owed_eq : ∀ V c t, (dat V c).owed t = 0
  rec_eq : ∀ V c t, (dat V c).recorded t = Set.univ
  Φ_in : ∀ V c, (Pipeline.ΦA spec1 c : sProp 𝕄) ⊢ (dat V c).Φ 0
  Φ_out : ∀ V c, (dat V c).Φ (Fin.last cfg1.N) ⊢ (Pipeline.ΦA spec1 c : sProp 𝕄)
  body : ∀ V c, BodyObligation (dat V c) (defs₀ (F := F)) Variants.none () Set.univ

/-- The same of the output region. -/
structure Half2 where
  dat : Ent F → (c : Dev nD) → Dat τ (Elt F) Unit ℕ (UR sig nD τ) ℕ cfg2 c
  A_eq : ∀ V c w, (dat V c).A w = V c (Pipeline.arrRef spec2 w)
  q_eq : ∀ V c w, (dat V c).q w = fullShare
  owed_eq : ∀ V c t, (dat V c).owed t = 0
  rec_eq : ∀ V c t, (dat V c).recorded t = Set.univ
  Φ_in : ∀ V c, (Pipeline.ΦA spec2 c : sProp 𝕄) ⊢ (dat V c).Φ 0
  Φ_out : ∀ V c, (dat V c).Φ (Fin.last cfg2.N) ⊢ (Pipeline.ΦA spec2 c : sProp 𝕄)
  body : ∀ V c, BodyObligation (dat V c) (defs₀ (F := F)) Variants.none () Set.univ

variable (m : (ℓ : Loc nD τ sig) → Buf (Elt F) ℓ) (ρ : Dev nD → PrngReg)
variable (h0 : Half0 (F := F)) (h1 : Half1 (F := F)) (h2 : Half2 (F := F))

/-! ## The buffer contents between the items -/

/-- At launch. -/
abbrev W0 : Dev nD → Valuation τ sig (Elt F) := fun c b => m (c, b)
/-- After the first three reshapes: the projection region's entry. -/
abbrev W1 : Dev nD → Valuation τ sig (Elt F) := fun c => StableHlo.after hostOps0 (W0 m c)
abbrev E1 : Ent F := fun c b => W1 m c b
/-- After the projection region: its arrays at what its write-backs leave. -/
def W2 (c : Dev nD) : Valuation τ sig (Elt F) :=
  Pipeline.withArrays spec0 c (W1 m c) fun w => (h0.dat (E1 m) c).arrAt w cfg0.N
abbrev E2 : Ent F := fun c b => W2 m h0 c b
/-- After the second three reshapes: the statistic region's entry. -/
abbrev W3 : Dev nD → Valuation τ sig (Elt F) := fun c => StableHlo.after hostOps1 (W2 m h0 c)
abbrev E3 : Ent F := fun c b => W3 m h0 c b
/-- After the statistic region: the output region's entry. -/
def W4 (c : Dev nD) : Valuation τ sig (Elt F) :=
  Pipeline.withArrays spec1 c (W3 m h0 c) fun w => (h1.dat (E3 m h0) c).arrAt w cfg1.N
abbrev E4 : Ent F := fun c b => W4 m h0 h1 c b
/-- After the output region: the end. -/
def W5 (c : Dev nD) : Valuation τ sig (Elt F) :=
  Pipeline.withArrays spec2 c (W4 m h0 h1 c) fun w => (h2.dat (E4 m h0 h1) c).arrAt w cfg2.N
abbrev E5 : Ent F := fun c b => W5 m h0 h1 h2 c b

theorem W2_arr (c : Dev nD) (w : Fin cfg0.W) :
    W2 m h0 c (Proc.devRef .tc (Pipeline.arrRef spec0 w)) = (h0.dat (E1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m h0 c (Proc.devRef .tc b) = W1 m c (Proc.devRef .tc b) := by
  unfold W2; exact Pipeline.withArrays_of_ne spec0 c _ _ b hb
theorem W4_arr (c : Dev nD) (w : Fin cfg1.W) :
    W4 m h0 h1 c (Proc.devRef .tc (Pipeline.arrRef spec1 w)) = (h1.dat (E3 m h0) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m h0 h1 c (Proc.devRef .tc b) = W3 m h0 c (Proc.devRef .tc b) := by
  unfold W4; exact Pipeline.withArrays_of_ne spec1 c _ _ b hb
theorem W5_arr (c : Dev nD) (w : Fin cfg2.W) :
    W5 m h0 h1 h2 c (Proc.devRef .tc (Pipeline.arrRef spec2 w)) = (h2.dat (E4 m h0 h1) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m h0 h1 h2 c (Proc.devRef .tc b) = W4 m h0 h1 c (Proc.devRef .tc b) := by
  unfold W5; exact Pipeline.withArrays_of_ne spec2 c _ _ b hb

/-- At a region's exit each of its arrays holds what the pipeline leaves and every other buffer what it held. -/
theorem hF0 (c : Dev nD) (w : Fin cfg0.W) : (h0.dat (E1 m) c).arrAt w cfg0.N = E2 m h0 c (Pipeline.arrRef spec0 w) :=
  (W2_arr m h0 c w).symm
theorem hrest0 (c : Dev nD) : ∀ b, b ∉ Finset.univ.image (Pipeline.arrRef spec0) → E2 m h0 c b = E1 m c b :=
  fun b hb => W2_of_ne m h0 c b fun w e => hb (Finset.mem_image.mpr ⟨w, Finset.mem_univ _, e⟩)
theorem hF1 (c : Dev nD) (w : Fin cfg1.W) : (h1.dat (E3 m h0) c).arrAt w cfg1.N = E4 m h0 h1 c (Pipeline.arrRef spec1 w) :=
  (W4_arr m h0 h1 c w).symm
theorem hrest1 (c : Dev nD) : ∀ b, b ∉ Finset.univ.image (Pipeline.arrRef spec1) → E4 m h0 h1 c b = E3 m h0 c b :=
  fun b hb => W4_of_ne m h0 h1 c b fun w e => hb (Finset.mem_image.mpr ⟨w, Finset.mem_univ _, e⟩)
theorem hF2 (c : Dev nD) (w : Fin cfg2.W) : (h2.dat (E4 m h0 h1) c).arrAt w cfg2.N = E5 m h0 h1 h2 c (Pipeline.arrRef spec2 w) :=
  (W5_arr m h0 h1 h2 c w).symm
theorem hrest2 (c : Dev nD) : ∀ b, b ∉ Finset.univ.image (Pipeline.arrRef spec2) → E5 m h0 h1 h2 c b = E4 m h0 h1 c b :=
  fun b hb => W5_of_ne m h0 h1 h2 c b fun w e => hb (Finset.mem_image.mpr ⟨w, Finset.mem_univ _, e⟩)

/-! ## The proof data family and the thread state -/

/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => h0.dat (E1 m) c
  | ⟨1, _⟩ => fun c => h1.dat (E3 m h0) c
  | ⟨2, _⟩ => fun c => h2.dat (E4 m h0 h1) c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state and the core owing nothing. -/
abbrev R (c : Dev nD) : sProp 𝕄 := iprop((∃ r, prngReg c r) ∗ ∃ W, owes (c : Thread nD τ) (0 : CellTallies nD τ sig Unit) W)

/-- A stretch of host operations as an item, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state without the `owes`. -/
abbrev Tₙ (c : Dev nD) : sProp 𝕄 := iprop(StableHlo.held (c : Thread nD τ) (Pipeline.ucRefs τ sig) (W5 m h0 h1 h2 c) ∗ ∃ r, prngReg c r)

/-! ## The regions as items -/

set_option backward.isDefEq.respectTransparency.types false in
/-- The projection region: entered from every unscoped buffer at `W1`, left at `W2`. -/
def reg0 : Pipeline.RegionSeg (pcfgs (F := F)) adm (pdats m h0 h1 h2) () defs₀ 𝒱₀ L lv 0 where
  win := launch0.win.to₀
  block_pos := launch0.block_pos
  stage_whole := launch0.stage_whole
  K := PEmpty
  osem k := k.elim
  ho := Pipeline.OwnSemFacts.none _
  hbody c := (h0.body (E1 m) c).loose
  hwaits := Pipeline.hwaits_of_owed_zero _ _ _ _ L lv 0 fun c t => h0.owed_eq (E1 m) c t
  pre c := iprop(StableHlo.held (c : Thread nD τ) (Pipeline.ucRefs τ sig) (W1 m c) ∗ R c)
  post c := iprop(StableHlo.held (c : Thread nD τ) (Pipeline.ucRefs τ sig) (W2 m h0 c) ∗ R c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) adm (pdats m h0 h1 h2) launch0.win launch0.arr_whole c
      ((pdats m h0 h1 h2 0 c).share_full fun w => h0.q_eq (E1 m) c w) (E1 m c) fun w => h0.A_eq (E1 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats m h0 h1 h2 0 c).owed 0 = 0 from h0.owed_eq (E1 m) c 0]
      icases HO with ⟨%W, HO⟩; iexists W; isplitr; · ipureintro; exact fun _ _ => Or.inl (by rw [show (pdats m h0 h1 h2 0 c).recorded 0 = Set.univ from h0.rec_eq (E1 m) c 0]; trivial)
      iexact HO
    isplitl [Hp]; · iexact Hp
    iexact Hrest
  hin c := by
    refine BIBase.Entails.trans ?_ (h0.Φ_in (E1 m) c)
    unfold Pipeline.ΦA
    iintro ⟨Hp, -, Hr⟩
    isplitl [Hr]; · iexact Hr
    iexact Hp
  hout c := by
    rw [Pipeline.ownSems0_none]
    refine BIBase.Entails.trans (h0.Φ_out (E1 m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m h0 h1 h2) ((pdats m h0 h1 h2 0 c).share_full fun w => h0.q_eq (E1 m) c w)
      (E1 m c) (E2 m h0 c) ((pdats m h0 h1 h2 0 c).arrAt · cfg0.N) (hF0 m h0 c) (hrest0 m h0 c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W
    rw [show (pdats m h0 h1 h2 0 c).owed (Fin.last _) = 0 from h0.owed_eq (E1 m) c _]
    iexact HO

set_option backward.isDefEq.respectTransparency.types false in
/-- Region 1: entered from every unscoped buffer at `W3 m h0`, left at `W4 m h0 h1`. -/
def reg1 : Pipeline.RegionSeg (pcfgs (F := F)) adm (pdats m h0 h1 h2) () defs₀ 𝒱₀ L lv 1 where
  win := launch1.win.to₀
  block_pos := launch1.block_pos
  stage_whole := launch1.stage_whole
  K := PEmpty
  osem k := k.elim
  ho := Pipeline.OwnSemFacts.none _
  hbody c := (h1.body (E3 m h0) c).loose
  hwaits := Pipeline.hwaits_of_owed_zero _ _ _ _ L lv 1 fun c t => h1.owed_eq (E3 m h0) c t
  pre c := iprop(StableHlo.held (c : Thread nD τ) (Pipeline.ucRefs τ sig) (W3 m h0 c) ∗ R c)
  post c := iprop(StableHlo.held (c : Thread nD τ) (Pipeline.ucRefs τ sig) (W4 m h0 h1 c) ∗ R c)
  X c := iprop(∃ r, prngReg c r)
  Y c := iprop(∃ r, prngReg c r)
  Z c := Pipeline.unscopedRest (Ix := Unit) (Name := ℕ) (U := UR sig nD τ) (Lvl := ℕ) spec1 c (E3 m h0 c)
  hentry c := by
    rw [Pipeline.ownSems0_none]
    have hsplit := Pipeline.arrays_of_unscopedBufs (p := 1) (pcfgs (F := F)) adm (pdats m h0 h1 h2) launch1.win launch1.arr_whole c
      ((pdats m h0 h1 h2 1 c).share_full fun w => h1.q_eq (E3 m h0) c w) (E3 m h0 c) fun w => h1.A_eq (E3 m h0) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats m h0 h1 h2 1 c).owed 0 = 0 from h1.owed_eq (E3 m h0) c 0]
      icases HO with ⟨%W, HO⟩; iexists W; isplitr; · ipureintro; exact fun _ _ => Or.inl (by rw [show (pdats m h0 h1 h2 1 c).recorded 0 = Set.univ from h1.rec_eq (E3 m h0) c 0]; trivial)
      iexact HO
    isplitl [Hp]; · iexact Hp
    iexact Hrest
  hin c := by
    refine BIBase.Entails.trans ?_ (h1.Φ_in (E3 m h0) c)
    unfold Pipeline.ΦA
    iintro ⟨Hp, -, Hr⟩
    isplitl [Hr]; · iexact Hr
    iexact Hp
  hout c := by
    rw [Pipeline.ownSems0_none]
    refine BIBase.Entails.trans (h1.Φ_out (E3 m h0) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m h0 h1 h2) ((pdats m h0 h1 h2 1 c).share_full fun w => h1.q_eq (E3 m h0) c w)
      (E3 m h0 c) (E4 m h0 h1 c) ((pdats m h0 h1 h2 1 c).arrAt · cfg1.N) (hF1 m h0 h1 c) (hrest1 m h0 h1 c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W
    rw [show (pdats m h0 h1 h2 1 c).owed (Fin.last _) = 0 from h1.owed_eq (E3 m h0) c _]
    iexact HO

set_option backward.isDefEq.respectTransparency.types false in
/-- Region 2: entered from every unscoped buffer at `W4 m h0 h1`, left at the last contents. -/
def reg2 : Pipeline.RegionSeg (pcfgs (F := F)) adm (pdats m h0 h1 h2) () defs₀ 𝒱₀ L lv 2 where
  win := launch2.win.to₀
  block_pos := launch2.block_pos
  stage_whole := launch2.stage_whole
  K := PEmpty
  osem k := k.elim
  ho := Pipeline.OwnSemFacts.none _
  hbody c := (h2.body (E4 m h0 h1) c).loose
  hwaits := Pipeline.hwaits_of_owed_zero _ _ _ _ L lv 2 fun c t => h2.owed_eq (E4 m h0 h1) c t
  pre c := iprop(StableHlo.held (c : Thread nD τ) (Pipeline.ucRefs τ sig) (W4 m h0 h1 c) ∗ R c)
  post c := iprop(Tₙ m h0 h1 h2 c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (E4 m h0 h1 c)
  hentry c := by
    rw [Pipeline.ownSems0_none]
    have hsplit := Pipeline.arrays_of_unscopedBufs (p := 2) (pcfgs (F := F)) adm (pdats m h0 h1 h2) launch2.win launch2.arr_whole c
      ((pdats m h0 h1 h2 2 c).share_full fun w => h2.q_eq (E4 m h0 h1) c w) (E4 m h0 h1 c) fun w => h2.A_eq (E4 m h0 h1) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats m h0 h1 h2 2 c).owed 0 = 0 from h2.owed_eq (E4 m h0 h1) c 0]
      icases HO with ⟨%W, HO⟩; iexists W; isplitr; · ipureintro; exact fun _ _ => Or.inl (by rw [show (pdats m h0 h1 h2 2 c).recorded 0 = Set.univ from h2.rec_eq (E4 m h0 h1) c 0]; trivial)
      iexact HO
    isplitl [Hp]; · iexact Hp
    iexact Hrest
  hin c := by
    refine BIBase.Entails.trans ?_ (h2.Φ_in (E4 m h0 h1) c)
    unfold Pipeline.ΦA
    iintro ⟨Hp, -, Hr⟩
    isplitl [Hr]; · iexact Hr
    iexact Hp
  hout c := by
    rw [Pipeline.ownSems0_none]
    refine BIBase.Entails.trans (h2.Φ_out (E4 m h0 h1) c) ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m h0 h1 h2) ((pdats m h0 h1 h2 2 c).share_full fun w => h2.q_eq (E4 m h0 h1) c w)
      (E4 m h0 h1 c) (E5 m h0 h1 h2 c) ((pdats m h0 h1 h2 2 c).arrAt · cfg2.N) (hF2 m h0 h1 h2 c) (hrest2 m h0 h1 h2 c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W
    rw [show (pdats m h0 h1 h2 2 c).owed (Fin.last _) = 0 from h2.owed_eq (E4 m h0 h1) c _]
    iexact HO

/-! ## The program as items, and the launch -/

/-- The program's five items in order. -/
abbrev segs : List (Pipeline.Seg (pcfgs (F := F)) adm (pdats m h0 h1 h2) () defs₀ 𝒱₀ L lv) :=
  [ .host (hseg hostOps0 hostOps0_sub hostOps0_fresh (W0 m)),
    .region (reg0 m h0 h1 h2),
    .host (hseg hostOps1 hostOps1_sub hostOps1_fresh (W2 m h0)),
    .region (reg1 m h0 h1 h2),
    .region (reg2 m h0 h1 h2) ]

/-- The program is the run of its items. -/
theorem main_run (c : Dev nD) : main (F := F) c = Pipeline.Seg.run (segs m h0 h1 h2) := (main_chain c).trans (by chain_rfl)

set_option backward.isDefEq.respectTransparency.types false in
/-- From any memory with zero counters every weakly fair execution of the program terminates, nothing faulting, and
    the final memory holds every unscoped buffer at the last contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m h0 h1 h2 c b) :=
  Pipeline.θ_run_regions_kit (pcfgs (F := F)) adm (pdats m h0 h1 h2) () cellOf_inj emb₁ defs₀ 𝒱₀ L lv m ρ main (segs m h0 h1 h2)
    (fun c Q => by rw [main_run m h0 h1 h2 c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m h0 h1 h2)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m h0 h1 h2 c b)
    (hfin := fun c s' => by
      iintro ⟨⟨Hh, -⟩, HSI⟩
      unfold StableHlo.held
      imodintro
      iapply (pointsTo_read_all (Pipeline.ucRefs τ sig) (fun b => (((c : Thread nD τ)).1, b)) (W5 m h0 h1 h2 c) s')
      isplitl [Hh] <;> iassumption)
    (hQ := fun s h => h)

/-! ## The arguments end as launched -/

/-- A buffer the first three reshapes do not write keeps its launch contents. -/
theorem W1_keep (c : Dev nD) (r : Ref sig .tc) (h : r ∉ hostOps0_W) : W1 m c r = W0 m c r :=
  StableHlo.after_of_writes_sub hostOps0 _ hostOps0_writes h
/-- A buffer the second three reshapes do not write keeps what the projection region left. -/
theorem W3_keep (c : Dev nD) (r : Ref sig .tc) (h : r ∉ hostOps1_W) : W3 m h0 c r = W2 m h0 c r :=
  StableHlo.after_of_writes_sub hostOps1 _ hostOps1_writes h

theorem W5_arg0 (c : Dev nD) : W5 m h0 h1 h2 c main_arg0 = m ((c : Thread nD τ).loc main_arg0) :=
  (W5_of_ne m h0 h1 h2 c main_arg0 (by decide)).trans <| (W4_of_ne m h0 h1 c main_arg0 (by decide)).trans <|
    (W3_keep m h0 c main_arg0 (by decide)).trans <| (W2_of_ne m h0 c main_arg0 (by decide)).trans <| (W1_keep m c main_arg0 (by decide)).trans rfl

theorem W5_arg1 (c : Dev nD) : W5 m h0 h1 h2 c main_arg1 = m ((c : Thread nD τ).loc main_arg1) :=
  (W5_of_ne m h0 h1 h2 c main_arg1 (by decide)).trans <| (W4_of_ne m h0 h1 c main_arg1 (by decide)).trans <|
    (W3_keep m h0 c main_arg1 (by decide)).trans <| (W2_of_ne m h0 c main_arg1 (by decide)).trans <| (W1_keep m c main_arg1 (by decide)).trans rfl

theorem W5_arg2 (c : Dev nD) : W5 m h0 h1 h2 c main_arg2 = m ((c : Thread nD τ).loc main_arg2) :=
  (W5_of_ne m h0 h1 h2 c main_arg2 (by decide)).trans <| (W4_of_ne m h0 h1 c main_arg2 (by decide)).trans <|
    (W3_keep m h0 c main_arg2 (by decide)).trans <| (W2_of_ne m h0 c main_arg2 (by decide)).trans <| (W1_keep m c main_arg2 (by decide)).trans rfl

theorem W5_arg3 (c : Dev nD) : W5 m h0 h1 h2 c main_arg3 = m ((c : Thread nD τ).loc main_arg3) :=
  (W5_of_ne m h0 h1 h2 c main_arg3 (by decide)).trans <| (W4_of_ne m h0 h1 c main_arg3 (by decide)).trans <|
    (W3_keep m h0 c main_arg3 (by decide)).trans <| ((W2_arr m h0 c 3).trans (((h0.dat (E1 m) c).arrAt_in 3 rfl _).trans (h0.A_eq (E1 m) c 3))).trans <| (W1_keep m c main_arg3 (by decide)).trans rfl

theorem W5_arg4 (c : Dev nD) : W5 m h0 h1 h2 c main_arg4 = m ((c : Thread nD τ).loc main_arg4) :=
  (W5_of_ne m h0 h1 h2 c main_arg4 (by decide)).trans <| (W4_of_ne m h0 h1 c main_arg4 (by decide)).trans <|
    (W3_keep m h0 c main_arg4 (by decide)).trans <| ((W2_arr m h0 c 6).trans (((h0.dat (E1 m) c).arrAt_in 6 rfl _).trans (h0.A_eq (E1 m) c 6))).trans <| (W1_keep m c main_arg4 (by decide)).trans rfl

theorem W5_arg5 (c : Dev nD) : W5 m h0 h1 h2 c main_arg5 = m ((c : Thread nD τ).loc main_arg5) :=
  (W5_of_ne m h0 h1 h2 c main_arg5 (by decide)).trans <| (W4_of_ne m h0 h1 c main_arg5 (by decide)).trans <|
    (W3_keep m h0 c main_arg5 (by decide)).trans <| ((W2_arr m h0 c 4).trans (((h0.dat (E1 m) c).arrAt_in 4 rfl _).trans (h0.A_eq (E1 m) c 4))).trans <| (W1_keep m c main_arg5 (by decide)).trans rfl

theorem W5_arg6 (c : Dev nD) : W5 m h0 h1 h2 c main_arg6 = m ((c : Thread nD τ).loc main_arg6) :=
  (W5_of_ne m h0 h1 h2 c main_arg6 (by decide)).trans <| (W4_of_ne m h0 h1 c main_arg6 (by decide)).trans <|
    (W3_keep m h0 c main_arg6 (by decide)).trans <| ((W2_arr m h0 c 7).trans (((h0.dat (E1 m) c).arrAt_in 7 rfl _).trans (h0.A_eq (E1 m) c 7))).trans <| (W1_keep m c main_arg6 (by decide)).trans rfl

theorem W5_arg7 (c : Dev nD) : W5 m h0 h1 h2 c main_arg7 = m ((c : Thread nD τ).loc main_arg7) :=
  (W5_of_ne m h0 h1 h2 c main_arg7 (by decide)).trans <| (W4_of_ne m h0 h1 c main_arg7 (by decide)).trans <|
    (W3_keep m h0 c main_arg7 (by decide)).trans <| ((W2_arr m h0 c 5).trans (((h0.dat (E1 m) c).arrAt_in 5 rfl _).trans (h0.A_eq (E1 m) c 5))).trans <| (W1_keep m c main_arg7 (by decide)).trans rfl

theorem W5_arg8 (c : Dev nD) : W5 m h0 h1 h2 c main_arg8 = m ((c : Thread nD τ).loc main_arg8) :=
  (W5_of_ne m h0 h1 h2 c main_arg8 (by decide)).trans <| (W4_of_ne m h0 h1 c main_arg8 (by decide)).trans <|
    (W3_keep m h0 c main_arg8 (by decide)).trans <| ((W2_arr m h0 c 8).trans (((h0.dat (E1 m) c).arrAt_in 8 rfl _).trans (h0.A_eq (E1 m) c 8))).trans <| (W1_keep m c main_arg8 (by decide)).trans rfl

/-- The result array ends at what the output region's write-backs leave. -/
theorem W5_out (c : Dev nD) : W5 m h0 h1 h2 c main_v8 = (h2.dat (E4 m h0 h1) c).arrAt 4 cfg2.N :=
  W5_arr m h0 h1 h2 c 4

include h0 h1 h2 in
/-- THE FRAME: every weakly fair execution terminates, nothing faulting, and the nine argument arrays end as launched. -/
theorem frame_all : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨(h c _ (mem_uc main_arg0 (by decide))).trans (W5_arg0 m h0 h1 h2 c),
     (h c _ (mem_uc main_arg1 (by decide))).trans (W5_arg1 m h0 h1 h2 c),
     (h c _ (mem_uc main_arg2 (by decide))).trans (W5_arg2 m h0 h1 h2 c),
     (h c _ (mem_uc main_arg3 (by decide))).trans (W5_arg3 m h0 h1 h2 c),
     (h c _ (mem_uc main_arg4 (by decide))).trans (W5_arg4 m h0 h1 h2 c),
     (h c _ (mem_uc main_arg5 (by decide))).trans (W5_arg5 m h0 h1 h2 c),
     (h c _ (mem_uc main_arg6 (by decide))).trans (W5_arg6 m h0 h1 h2 c),
     (h c _ (mem_uc main_arg7 (by decide))).trans (W5_arg7 m h0 h1 h2 c),
     (h c _ (mem_uc main_arg8 (by decide))).trans (W5_arg8 m h0 h1 h2 c)⟩) (run_all m ρ h0 h1 h2)

/-- THE RUN WITH THE RESULT: as the frame, and the result array ends at what the output region's write-backs leave. -/
theorem run_out : θ_run defs (onTc (τ := τ) (main (F := F))) ⟨m, fun _ => 0, ρ⟩ (fun r => ∀ c : Dev nD,
      r.2.mem ((c.tc : Thread nD τ).loc main_v8) = (h2.dat (E4 m h0 h1) c).arrAt 4 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨(h c _ (mem_uc main_v8 (by decide))).trans (W5_out m h0 h1 h2 c),
     (h c _ (mem_uc main_arg0 (by decide))).trans (W5_arg0 m h0 h1 h2 c),
     (h c _ (mem_uc main_arg1 (by decide))).trans (W5_arg1 m h0 h1 h2 c),
     (h c _ (mem_uc main_arg2 (by decide))).trans (W5_arg2 m h0 h1 h2 c),
     (h c _ (mem_uc main_arg3 (by decide))).trans (W5_arg3 m h0 h1 h2 c),
     (h c _ (mem_uc main_arg4 (by decide))).trans (W5_arg4 m h0 h1 h2 c),
     (h c _ (mem_uc main_arg5 (by decide))).trans (W5_arg5 m h0 h1 h2 c),
     (h c _ (mem_uc main_arg6 (by decide))).trans (W5_arg6 m h0 h1 h2 c),
     (h c _ (mem_uc main_arg7 (by decide))).trans (W5_arg7 m h0 h1 h2 c),
     (h c _ (mem_uc main_arg8 (by decide))).trans (W5_arg8 m h0 h1 h2 c)⟩) (run_all m ρ h0 h1 h2)

end Cert.KernelIdeal.Asm

end
-- ==== Proof.KI.Region0.lean ====
import proofs.«135563_j8478265442573_2_alg».proof.Proof.Gen.KernelIdeal.Launch
import proofs.«135563_j8478265442573_2_alg».proof.Proof.Gen.KernelIdeal.Skeleton
import proofs.«135563_j8478265442573_2_alg».proof.Proof.Gen.KernelIdeal.Points
import Idealize.ShloMosaic.Lib.Pipeline.FrameBody
import Idealize.ShloMosaic.Lib.Pipeline.Frame
import Idealize.ShloMosaic.Lib.Tactic

/-! # Region 0: the three projections

The first pallas_call computes, on a grid of 32 points, three independent row blocks
`x · Wᵀ + b` (512 rows of 128 columns each), one per output window, from nine input windows: three row
blocks of 512 × 1024 that move with the point, and three weight matrices and three bias vectors whose block
is the whole array at every point. Every output block is written whole at every point, so the body has one
control case and carries no state from point to point.

This module states the region's half of the frame at a parameter `V`, the buffer contents when the region
is entered: the proof data `dat`, the body's triple, and the body obligation. -/

-- membership of an index in a rectangle of these extents is checked structurally, once per coordinate
set_option maxRecDepth 16384

noncomputable section

namespace Cert.KernelIdeal.Reg0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The windows' blocks -/

/-- The block of window `w` at point `t`: the window's rectangle of its array, read off the entry contents. -/
def blk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! An input window's current staging buffer holds its block at every point, whether the pipeline fetched it
there or not (an unfetched window's block index has not moved since the last fetch): for any proof data whose
array is the entry contents and whose body leaves the block where it found it. One statement per input
window, so that every window's configuration is a literal. -/

theorem before_of_0 {c : Dev nD} (D : Dat τ (Elt F) Unit ℕ (UR sig nD τ) ℕ cfg0 c) (hA : D.A 0 = V c (Pipeline.arrRef spec0 0))
    (hafter : ∀ t, D.after 0 t = blk V c 0 t) (t : Fin cfg0.N) (d) : D.before 0 t d = blk V c 0 t :=
  (D.before_in_eq_fetched 0 rfl (fun _ => rfl) (fun _ _ _ => rfl) (fun t => by rw [hafter]; unfold Dat.blockOf blk; rw [hA]; try rfl) t d).trans
    (by unfold Dat.fetched Dat.blockOf blk; rw [hA]; try rfl)

theorem before_of_1 {c : Dev nD} (D : Dat τ (Elt F) Unit ℕ (UR sig nD τ) ℕ cfg0 c) (hA : D.A 1 = V c (Pipeline.arrRef spec0 1))
    (hafter : ∀ t, D.after 1 t = blk V c 1 t) (t : Fin cfg0.N) (d) : D.before 1 t d = blk V c 1 t :=
  (D.before_in_eq_fetched 1 rfl (fun _ => rfl) (fun _ _ _ => rfl) (fun t => by rw [hafter]; unfold Dat.blockOf blk; rw [hA]; try rfl) t d).trans
    (by unfold Dat.fetched Dat.blockOf blk; rw [hA]; try rfl)

theorem before_of_2 {c : Dev nD} (D : Dat τ (Elt F) Unit ℕ (UR sig nD τ) ℕ cfg0 c) (hA : D.A 2 = V c (Pipeline.arrRef spec0 2))
    (hafter : ∀ t, D.after 2 t = blk V c 2 t) (t : Fin cfg0.N) (d) : D.before 2 t d = blk V c 2 t :=
  (D.before_in_eq_fetched 2 rfl (fun _ => rfl) (fun _ _ _ => rfl) (fun t => by rw [hafter]; unfold Dat.blockOf blk; rw [hA]; try rfl) t d).trans
    (by unfold Dat.fetched Dat.blockOf blk; rw [hA]; try rfl)

theorem before_of_3 {c : Dev nD} (D : Dat τ (Elt F) Unit ℕ (UR sig nD τ) ℕ cfg0 c) (hA : D.A 3 = V c (Pipeline.arrRef spec0 3))
    (hafter : ∀ t, D.after 3 t = blk V c 3 t) (t : Fin cfg0.N) (d) : D.before 3 t d = blk V c 3 t :=
  (D.before_in_eq_fetched 3 rfl (fun _ => rfl) (fun _ _ _ => rfl) (fun t => by rw [hafter]; unfold Dat.blockOf blk; rw [hA]; try rfl) t d).trans
    (by unfold Dat.fetched Dat.blockOf blk; rw [hA]; try rfl)

theorem before_of_4 {c : Dev nD} (D : Dat τ (Elt F) Unit ℕ (UR sig nD τ) ℕ cfg0 c) (hA : D.A 4 = V c (Pipeline.arrRef spec0 4))
    (hafter : ∀ t, D.after 4 t = blk V c 4 t) (t : Fin cfg0.N) (d) : D.before 4 t d = blk V c 4 t :=
  (D.before_in_eq_fetched 4 rfl (fun _ => rfl) (fun _ _ _ => rfl) (fun t => by rw [hafter]; unfold Dat.blockOf blk; rw [hA]; try rfl) t d).trans
    (by unfold Dat.fetched Dat.blockOf blk; rw [hA]; try rfl)

theorem before_of_5 {c : Dev nD} (D : Dat τ (Elt F) Unit ℕ (UR sig nD τ) ℕ cfg0 c) (hA : D.A 5 = V c (Pipeline.arrRef spec0 5))
    (hafter : ∀ t, D.after 5 t = blk V c 5 t) (t : Fin cfg0.N) (d) : D.before 5 t d = blk V c 5 t :=
  (D.before_in_eq_fetched 5 rfl (fun _ => rfl) (fun _ _ _ => rfl) (fun t => by rw [hafter]; unfold Dat.blockOf blk; rw [hA]; try rfl) t d).trans
    (by unfold Dat.fetched Dat.blockOf blk; rw [hA]; try rfl)

theorem before_of_6 {c : Dev nD} (D : Dat τ (Elt F) Unit ℕ (UR sig nD τ) ℕ cfg0 c) (hA : D.A 6 = V c (Pipeline.arrRef spec0 6))
    (hafter : ∀ t, D.after 6 t = blk V c 6 t) (t : Fin cfg0.N) (d) : D.before 6 t d = blk V c 6 t :=
  (D.before_in_eq_fetched 6 rfl (fun _ => rfl) (fun _ _ _ => rfl) (fun t => by rw [hafter]; unfold Dat.blockOf blk; rw [hA]; try rfl) t d).trans
    (by unfold Dat.fetched Dat.blockOf blk; rw [hA]; try rfl)

theorem before_of_7 {c : Dev nD} (D : Dat τ (Elt F) Unit ℕ (UR sig nD τ) ℕ cfg0 c) (hA : D.A 7 = V c (Pipeline.arrRef spec0 7))
    (hafter : ∀ t, D.after 7 t = blk V c 7 t) (t : Fin cfg0.N) (d) : D.before 7 t d = blk V c 7 t :=
  (D.before_in_eq_fetched 7 rfl (fun _ => rfl) (fun _ _ _ => rfl) (fun t => by rw [hafter]; unfold Dat.blockOf blk; rw [hA]; try rfl) t d).trans
    (by unfold Dat.fetched Dat.blockOf blk; rw [hA]; try rfl)

theorem before_of_8 {c : Dev nD} (D : Dat τ (Elt F) Unit ℕ (UR sig nD τ) ℕ cfg0 c) (hA : D.A 8 = V c (Pipeline.arrRef spec0 8))
    (hafter : ∀ t, D.after 8 t = blk V c 8 t) (t : Fin cfg0.N) (d) : D.before 8 t d = blk V c 8 t :=
  (D.before_in_eq_fetched 8 rfl (fun _ => rfl) (fun _ _ _ => rfl) (fun t => by rw [hafter]; unfold Dat.blockOf blk; rw [hA]; try rfl) t d).trans
    (by unfold Dat.fetched Dat.blockOf blk; rw [hA]; try rfl)

/-! ## The body's accesses -/

/-- The whole row block, the whole weight matrix, the whole bias vector, the whole output block. -/
abbrev rX : Rect S512x1024 := Rect.unit (s := S512x1024) ![0, 0] S512x1024.size inb_S512x1024_S512x1024_0_0
abbrev rWt : Rect S128x1024 := Rect.unit (s := S128x1024) ![0, 0] S128x1024.size inb_S128x1024_S128x1024_0_0
abbrev rB : Rect S128 := Rect.unit (s := S128) ![0] S128.size inb_S128_S128_0
abbrev rO : Rect S512x128 := Rect.unit (s := S512x128) ![0, 0] S512x128.size inb_S512x128_S512x128_0_0

/-! ## What the body leaves in each output window's buffer

Each output buffer receives one store, of the whole block: the projection of the row block by the weights,
plus the bias. -/

def left9 (x : Vec F S512x1024 .f32) (wt : Vec F S128x1024 .f32) (b : Vec F S128 .f32) : Vec F S512x128 .bf16 :=
  View.canon [⟨rO, k0_pay1 (View.ld x rX) (View.ld wt rWt) (View.ld b rB)⟩]

def left10 (x : Vec F S512x1024 .f32) (wt : Vec F S128x1024 .f32) (b : Vec F S128 .f32) : Vec F S512x128 .bf16 :=
  View.canon [⟨rO, k0_pay2 (View.ld x rX) (View.ld wt rWt) (View.ld b rB)⟩]

def left11 (x : Vec F S512x1024 .f32) (wt : Vec F S128x1024 .f32) (b : Vec F S128 .f32) : Vec F S512x128 .bf16 :=
  View.canon [⟨rO, k0_pay3 (View.ld x rX) (View.ld wt rWt) (View.ld b rB)⟩]

/-- The one store tiles the output buffer, so it covers it. -/
theorem cover_out (p : Vec F S512x128 .bf16) (y : S512x128.Idx) :
    ∃ pc ∈ ([⟨rO, p⟩] : List (View.Piece (Elt F) S512x128 .bf16)), y ∈ pc.1.set :=
  View.cover_of_tiled [⟨rO, p⟩] S512x128.size (by rfl) y

/-! ## The body's triple -/

set_option maxHeartbeats 4000000 in
/-- The kernel on whole staging memrefs — the nine inputs' at contents `x·`, `wt·`, `b·`, the three outputs' at
    anything — runs to the continuation holding the inputs' as they were and each output's at its projection. -/
theorem sound_kernel (c : Dev nD) (E : Set ℕ) (i : grid0.Coords)
    (a1 : Memref sig .tc .vmem S512x1024 .f32) (h1 : a1.IsWhole) (a2 : Memref sig .tc .vmem S512x1024 .f32) (h2 : a2.IsWhole)
    (a3 : Memref sig .tc .vmem S512x1024 .f32) (h3 : a3.IsWhole) (a4 : Memref sig .tc .vmem S128x1024 .f32) (h4 : a4.IsWhole)
    (a5 : Memref sig .tc .vmem S128x1024 .f32) (h5 : a5.IsWhole) (a6 : Memref sig .tc .vmem S128x1024 .f32) (h6 : a6.IsWhole)
    (a7 : Memref sig .tc .vmem S128 .f32) (h7 : a7.IsWhole) (a8 : Memref sig .tc .vmem S128 .f32) (h8 : a8.IsWhole)
    (a9 : Memref sig .tc .vmem S128 .f32) (h9 : a9.IsWhole) (a10 : Memref sig .tc .vmem S512x128 .bf16) (h10 : a10.IsWhole)
    (a11 : Memref sig .tc .vmem S512x128 .bf16) (h11 : a11.IsWhole) (a12 : Memref sig .tc .vmem S512x128 .bf16) (h12 : a12.IsWhole)
    (x0 x1 x2 : Vec F S512x1024 .f32) (wt0 wt1 wt2 : Vec F S128x1024 .f32) (b0 b1 b2 : Vec F S128 .f32) (K : PUnit → sProp 𝕄) :
    iprop(owns (c : Thread nD τ) a1 fullShare x0 ∗ owns (c : Thread nD τ) a2 fullShare x1 ∗ owns (c : Thread nD τ) a3 fullShare x2
        ∗ owns (c : Thread nD τ) a4 fullShare wt0 ∗ owns (c : Thread nD τ) a5 fullShare wt1 ∗ owns (c : Thread nD τ) a6 fullShare wt2
        ∗ owns (c : Thread nD τ) a7 fullShare b0 ∗ owns (c : Thread nD τ) a8 fullShare b1 ∗ owns (c : Thread nD τ) a9 fullShare b2
        ∗ (∃ d, owns (c : Thread nD τ) a10 fullShare d) ∗ (∃ d, owns (c : Thread nD τ) a11 fullShare d) ∗ (∃ d, owns (c : Thread nD τ) a12 fullShare d)
        ∗ (iprop(owns (c : Thread nD τ) a1 fullShare x0 ∗ owns (c : Thread nD τ) a2 fullShare x1 ∗ owns (c : Thread nD τ) a3 fullShare x2
            ∗ owns (c : Thread nD τ) a4 fullShare wt0 ∗ owns (c : Thread nD τ) a5 fullShare wt1 ∗ owns (c : Thread nD τ) a6 fullShare wt2
            ∗ owns (c : Thread nD τ) a7 fullShare b0 ∗ owns (c : Thread nD τ) a8 fullShare b1 ∗ owns (c : Thread nD τ) a9 fullShare b2
            ∗ owns (c : Thread nD τ) a10 fullShare (left9 x0 wt0 b0) ∗ owns (c : Thread nD τ) a11 fullShare (left10 x1 wt1 b1)
            ∗ owns (c : Thread nD τ) a12 fullShare (left11 x2 wt2 b2)) -∗ K ⟨⟩))
      ⊢ wp frame (wpE (defs₀ (F := F)) Variants.none c none) E
          (cc0__proj_kernel i a1 h1 a2 h2 a3 h3 a4 h4 a5 h5 a6 h6 a7 h7 a8 h8 a9 h9 a10 h10 a11 h11 a12 h12) K := by
  simp only [cc0__proj_kernel_eq_skeleton]; unfold cc0__proj_kernel_skel
  simp only [k0_part1_eq_skeleton]; unfold k0_part1_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩,
    ⟨%f7, %hf7, H7⟩, ⟨%f8, %hf8, H8⟩, ⟨%f9, %hf9, H9⟩, ⟨%d10, %f10, -, H10⟩, ⟨%d11, %f11, -, H11⟩, ⟨%d12, %f12, -, H12⟩, Hk⟩
  subst hf1 hf2 hf3 hf4 hf5 hf6 hf7 hf8 hf9
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists _; isplitr
    swap; · iexact H10
    ipureintro
    exact View.read_writes_eq_canon _ _ _ (cover_out _)
  isplitl [H11]
  · iexists _; isplitr
    swap; · iexact H11
    ipureintro
    exact View.read_writes_eq_canon _ _ _ (cover_out _)
  iexists _; isplitr
  swap; · iexact H12
  ipureintro
  exact View.read_writes_eq_canon _ _ _ (cover_out _)

/-! ## The pipeline's proof data -/

/-- The proof data of the region on core `c`: the arrays as the region finds them; after the body at point `t`
    each input's buffer at its block and each output's at the projection of the input blocks; the invariant the
    scoped rest and the generator register, untouched at every point; nothing owed; full shares. -/
def dat (c : Dev nD) : Dat τ (Elt F) Unit ℕ (UR sig nD τ) ℕ cfg0 c where
  A w := V c (Pipeline.arrRef spec0 w)
  after w t := match w with
    | ⟨0, _⟩ => blk V c 0 t
    | ⟨1, _⟩ => blk V c 1 t
    | ⟨2, _⟩ => blk V c 2 t
    | ⟨3, _⟩ => blk V c 3 t
    | ⟨4, _⟩ => blk V c 4 t
    | ⟨5, _⟩ => blk V c 5 t
    | ⟨6, _⟩ => blk V c 6 t
    | ⟨7, _⟩ => blk V c 7 t
    | ⟨8, _⟩ => blk V c 8 t
    | ⟨9, _⟩ => left9 (blk V c 0 t) (blk V c 3 t) (blk V c 6 t)
    | ⟨10, _⟩ => left10 (blk V c 1 t) (blk V c 4 t) (blk V c 7 t)
    | ⟨11, _⟩ => left11 (blk V c 2 t) (blk V c 5 t) (blk V c 8 t)
  Φ _ := Pipeline.ΦA spec0 c
  q _ := fullShare
  owed _ := 0

/-- The proof data's arrays are the entry contents. -/
theorem A_eq (c : Dev nD) (w : Fin cfg0.W) : (dat V c).A w = V c (Pipeline.arrRef spec0 w) := by
  dsimp only [dat]

/-! What the body leaves, window by window. -/
theorem after_0 (c : Dev nD) (t : Fin cfg0.N) : (dat V c).after 0 t = blk V c 0 t := by dsimp only [dat]
theorem after_1 (c : Dev nD) (t : Fin cfg0.N) : (dat V c).after 1 t = blk V c 1 t := by dsimp only [dat]
theorem after_2 (c : Dev nD) (t : Fin cfg0.N) : (dat V c).after 2 t = blk V c 2 t := by dsimp only [dat]
theorem after_3 (c : Dev nD) (t : Fin cfg0.N) : (dat V c).after 3 t = blk V c 3 t := by dsimp only [dat]
theorem after_4 (c : Dev nD) (t : Fin cfg0.N) : (dat V c).after 4 t = blk V c 4 t := by dsimp only [dat]
theorem after_5 (c : Dev nD) (t : Fin cfg0.N) : (dat V c).after 5 t = blk V c 5 t := by dsimp only [dat]
theorem after_6 (c : Dev nD) (t : Fin cfg0.N) : (dat V c).after 6 t = blk V c 6 t := by dsimp only [dat]
theorem after_7 (c : Dev nD) (t : Fin cfg0.N) : (dat V c).after 7 t = blk V c 7 t := by dsimp only [dat]
theorem after_8 (c : Dev nD) (t : Fin cfg0.N) : (dat V c).after 8 t = blk V c 8 t := by dsimp only [dat]
theorem after_9 (c : Dev nD) (t : Fin cfg0.N) : (dat V c).after 9 t = left9 (blk V c 0 t) (blk V c 3 t) (blk V c 6 t) := by dsimp only [dat]
theorem after_10 (c : Dev nD) (t : Fin cfg0.N) : (dat V c).after 10 t = left10 (blk V c 1 t) (blk V c 4 t) (blk V c 7 t) := by dsimp only [dat]
theorem after_11 (c : Dev nD) (t : Fin cfg0.N) : (dat V c).after 11 t = left11 (blk V c 2 t) (blk V c 5 t) (blk V c 8 t) := by dsimp only [dat]

/-! Each input's current staging buffer holds its block at every point. -/
theorem before_0 (c : Dev nD) (t : Fin cfg0.N) (d) : (dat V c).before 0 t d = blk V c 0 t :=
  before_of_0 V (dat V c) (A_eq V c 0) (after_0 V c) t d
theorem before_1 (c : Dev nD) (t : Fin cfg0.N) (d) : (dat V c).before 1 t d = blk V c 1 t :=
  before_of_1 V (dat V c) (A_eq V c 1) (after_1 V c) t d
theorem before_2 (c : Dev nD) (t : Fin cfg0.N) (d) : (dat V c).before 2 t d = blk V c 2 t :=
  before_of_2 V (dat V c) (A_eq V c 2) (after_2 V c) t d
theorem before_3 (c : Dev nD) (t : Fin cfg0.N) (d) : (dat V c).before 3 t d = blk V c 3 t :=
  before_of_3 V (dat V c) (A_eq V c 3) (after_3 V c) t d
theorem before_4 (c : Dev nD) (t : Fin cfg0.N) (d) : (dat V c).before 4 t d = blk V c 4 t :=
  before_of_4 V (dat V c) (A_eq V c 4) (after_4 V c) t d
theorem before_5 (c : Dev nD) (t : Fin cfg0.N) (d) : (dat V c).before 5 t d = blk V c 5 t :=
  before_of_5 V (dat V c) (A_eq V c 5) (after_5 V c) t d
theorem before_6 (c : Dev nD) (t : Fin cfg0.N) (d) : (dat V c).before 6 t d = blk V c 6 t :=
  before_of_6 V (dat V c) (A_eq V c 6) (after_6 V c) t d
theorem before_7 (c : Dev nD) (t : Fin cfg0.N) (d) : (dat V c).before 7 t d = blk V c 7 t :=
  before_of_7 V (dat V c) (A_eq V c 7) (after_7 V c) t d
theorem before_8 (c : Dev nD) (t : Fin cfg0.N) (d) : (dat V c).before 8 t d = blk V c 8 t :=
  before_of_8 V (dat V c) (A_eq V c 8) (after_8 V c) t d

/-! ## The invariant at the region's ends -/

theorem Φ_in (c : Dev nD) : (Pipeline.ΦA spec0 c : sProp 𝕄) ⊢ (dat (F := F) V c).Φ 0 := .rfl

theorem Φ_out (c : Dev nD) : (dat (F := F) V c).Φ (Fin.last cfg0.N) ⊢ (Pipeline.ΦA spec0 c : sProp 𝕄) := .rfl

/-! ## The body obligation, at a generic point -/

/-- What the body is called with at point `t`, the windows one by one, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d))
    ∗ (∃ d, owns (c : Thread nD τ) (st0_4 t) fullShare ((dat V c).before 4 t d))
    ∗ (∃ d, owns (c : Thread nD τ) (st0_5 t) fullShare ((dat V c).before 5 t d))
    ∗ (∃ d, owns (c : Thread nD τ) (st0_6 t) fullShare ((dat V c).before 6 t d))
    ∗ (∃ d, owns (c : Thread nD τ) (st0_7 t) fullShare ((dat V c).before 7 t d))
    ∗ (∃ d, owns (c : Thread nD τ) (st0_8 t) fullShare ((dat V c).before 8 t d))
    ∗ (∃ d, owns (c : Thread nD τ) (st0_9 t) fullShare ((dat V c).before 9 t d))
    ∗ (∃ d, owns (c : Thread nD τ) (st0_10 t) fullShare ((dat V c).before 10 t d))
    ∗ (∃ d, owns (c : Thread nD τ) (st0_11 t) fullShare ((dat V c).before 11 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t)
    ∗ owns (c : Thread nD τ) (st0_4 t) fullShare ((dat V c).after 4 t)
    ∗ owns (c : Thread nD τ) (st0_5 t) fullShare ((dat V c).after 5 t)
    ∗ owns (c : Thread nD τ) (st0_6 t) fullShare ((dat V c).after 6 t)
    ∗ owns (c : Thread nD τ) (st0_7 t) fullShare ((dat V c).after 7 t)
    ∗ owns (c : Thread nD τ) (st0_8 t) fullShare ((dat V c).after 8 t)
    ∗ owns (c : Thread nD τ) (st0_9 t) fullShare ((dat V c).after 9 t)
    ∗ owns (c : Thread nD τ) (st0_10 t) fullShare ((dat V c).after 10 t)
    ∗ owns (c : Thread nD τ) (st0_11 t) fullShare ((dat V c).after 11 t))

set_option maxHeartbeats 4000000 in
/-- The body at any point: the inputs' memrefs hold their blocks, so the kernel's triple applies; the invariant
    and what the core owes pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2, before_3, before_4, before_5, before_6, before_7, before_8]
  rw [show (dat V c).Φ t.succ = (dat V c).Φ t.castSucc from rfl,
    show (dat V c).owesAt () t.succ = (dat V c).owesAt () t.castSucc from rfl,
    after_0, after_1, after_2, after_3, after_4, after_5, after_6, after_7, after_8, after_9, after_10, after_11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (sound_kernel c Set.univ _ _ _ _ _ _ _ _ _ _ _ _ _ _ _ _ _ _ _ _ _ _ _ _ _
    (blk V c 0 t) (blk V c 1 t) (blk V c 2 t) (blk V c 3 t) (blk V c 4 t) (blk V c 5 t) (blk V c 6 t) (blk V c 7 t) (blk V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The library's body obligation, at every point. -/
theorem body_obligation (c : Dev nD) : BodyObligation (dat (F := F) V c) (defs₀ (F := F)) Variants.none () Set.univ := fun t => by
  rw [bigSep_W0, bigSep_W0]
  exact sound_body V c t

end Cert.KernelIdeal.Reg0

end
-- ==== Proof.KI.Region1Runs.lean ====
import proofs.«135563_j8478265442573_2_alg».proof.Proof.Gen.KernelIdeal.Launch
import proofs.«135563_j8478265442573_2_alg».proof.Proof.Gen.KernelIdeal.Skeleton
import proofs.«135563_j8478265442573_2_alg».proof.Proof.Gen.KernelIdeal.Points
import proofs.«135563_j8478265442573_2_alg».proof.Proof.Gen.KernelIdeal.Loops
import Idealize.ShloMosaic.Lib.Pipeline.FrameBody
import Idealize.ShloMosaic.Lib.Pipeline.Frame
import Idealize.ShloMosaic.Lib.Pipeline.Kit
import Idealize.ShloMosaic.Lib.Ring
import Idealize.ShloMosaic.Lib.Tactic

set_option maxRecDepth 16384

noncomputable section

namespace Cert.KernelIdeal.Reg1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! # Pass 1 (the per-key column statistic): the body's control and its three runs

The third grid axis is the reduction axis.  At its first index the two running buffers (the running
maximum and the running denominator) are reset; at every index the four chunks of the query block are
folded in; at its last index the statistic is written into the output block. -/

/-- The reset condition, as the body computes it from the third coordinate. -/
abbrev atFirst (i : grid1.Coords) : Prop :=
  (Scalar.cmpi .ne (Scalar.extui (Scalar.cmpi .eq (BitVec.ofNat 32 (i 2).val) 0#32)) 0#32) = 1#1

/-- The write-out condition. -/
abbrev atLast (i : grid1.Coords) : Prop := k1_cond2 i = 1#1

/-- The reset happens exactly at the points whose position is a multiple of four. -/
theorem atFirst_iff : ∀ t : Fin cfg1.N, atFirst (grid1.coords t) ↔ t.val % 4 = 0 :=
  (by decide +kernel : ∀ t : Fin grid1.N, atFirst (grid1.coords t) ↔ t.val % 4 = 0)

/-- The write-out happens exactly at the points whose position is three modulo four. -/
theorem atLast_iff : ∀ t : Fin cfg1.N, atLast (grid1.coords t) ↔ t.val % 4 = 3 :=
  (by decide +kernel : ∀ t : Fin grid1.N, atLast (grid1.coords t) ↔ t.val % 4 = 3)

/-- The two input windows are never idle. -/
theorem live_K : ∀ t : Fin cfg1.N, cfg1.idle 0 (grid1.coords t) = false := by decide +kernel
theorem live_Q : ∀ t : Fin cfg1.N, cfg1.idle 1 (grid1.coords t) = false := by decide +kernel
/-- Away from the write-out points the output window is idle and is not written back. -/
theorem idle_out : ∀ t : Fin cfg1.N, ¬atLast (grid1.coords t) → cfg1.idle 2 (grid1.coords t) = true := by decide +kernel
theorem noFlush_out : ∀ t : Fin cfg1.N, ¬atLast (grid1.coords t) → (cfg1.win 2).flush t = false := by decide +kernel
/-- At the write-out points it is live. -/
theorem live_out : ∀ t : Fin cfg1.N, atLast (grid1.coords t) → cfg1.idle 2 (grid1.coords t) = false := by decide +kernel

/-- The running maximum and the running denominator, as memrefs and as views. -/
abbrev mxM : Memref sig .tc .vmem S1x2048 .f32 := Memref.whole cc1_scratch0
abbrev dnM : Memref sig .tc .vmem S1x2048 .f32 := Memref.whole cc1_scratch1
abbrev mxV : View sig .tc .vmem S1x2048 .f32 := mxM.view
abbrev dnV : View sig .tc .vmem S1x2048 .f32 := dnM.view
/-- One staging buffer of the output window, through which its contents are stated. -/
abbrev outV : View sig .tc .vmem S1x1x2048 .f32 := (Memref.whole cc1_stg2_0 : Memref sig .tc .vmem S1x1x2048 .f32).view

set_option maxHeartbeats 4000000 in
/-- THE RESET RUN (first index of the reduction axis): both running buffers are overwritten, then the four
    chunks are folded in; the output buffer is handed back as found.  The pieces each running buffer ends
    with are found by the run. -/
noncomputable def runFirst (c : Dev nD) (i : grid1.Coords)
    (arg3 : Memref sig .tc .vmem S1x2048x128 .bf16) (harg3 : arg3.IsWhole) (arg4 : Memref sig .tc .vmem S1x1024x128 .bf16) (harg4 : arg4.IsWhole)
    (arg5 : Memref sig .tc .vmem S1x1x2048 .f32) (harg5 : arg5.IsWhole) (arg6 : Memref sig .tc .vmem S1x2048 .f32) (harg6 : arg6.IsWhole)
    (arg7 : Memref sig .tc .vmem S1x2048 .f32) (harg7 : arg7.IsWhole) (h1 : atFirst i) (h2 : ¬atLast i)
    (xk : Vec F S1x2048x128 .bf16) (xq : Vec F S1x1024x128 .bf16) :
    Σ' (Lm : List (View.Piece (Elt F) S1x2048 .f32)), { Ld : List (View.Piece (Elt F) S1x2048 .f32) //
      ∀ (xo : Vec F S1x1x2048 .f32) (E : Set ℕ) (K : PUnit → sProp 𝕄),
        iprop(owns (c : Thread nD τ) arg3 fullShare xk ∗ owns (c : Thread nD τ) arg4 fullShare xq ∗ owns (c : Thread nD τ) arg5 fullShare xo
            ∗ (∃ d, owns (c : Thread nD τ) arg6 fullShare d) ∗ (∃ d, owns (c : Thread nD τ) arg7 fullShare d)
            ∗ (iprop(owns (c : Thread nD τ) arg3 fullShare xk ∗ owns (c : Thread nD τ) arg4 fullShare xq ∗ owns (c : Thread nD τ) arg5 fullShare xo
                ∗ (∃ f, arg6.view.loc (c : Thread nD τ) ↦[arg6.view.set]{fullShare} arg6.view.writes (Elt F) f Lm)
                ∗ (∃ f, arg7.view.loc (c : Thread nD τ) ↦[arg7.view.set]{fullShare} arg7.view.writes (Elt F) f Ld)) -∗ K ⟨⟩))
          ⊢ wp frame (wpE (defs₀ (F := F)) Variants.none c none) E (cc1__pass1_kernel i arg3 harg3 arg4 harg4 arg5 harg5 arg6 harg6 arg7 harg7) K } := by
  refine ⟨?_, ?_, fun xo E K => ?run⟩
  case run =>
    simp only [cc1__pass1_kernel_eq_skeleton]; unfold cc1__pass1_kernel_skel
    unfold owns
    iintro ⟨⟨%f3, %hf3, H3⟩, ⟨%f4, %hf4, H4⟩, ⟨%f5, %hf5, H5⟩, ⟨%d6, %f6, -, H6⟩, ⟨%d7, %f7, -, H7⟩, Hk⟩
    obtain rfl := harg3.eq_unread hf3; obtain rfl := harg4.eq_unread hf4; obtain rfl := harg5.eq_unread hf5
    sl_exec (disch := first | exact h1 | exact h2)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; iexact H6
    iexists _; iexact H7

set_option maxHeartbeats 4000000 in
/-- THE MIDDLE RUN (neither the first nor the last index of the reduction axis): the running buffers are found
    at `xm`, `xd` — what the point before left — and the four chunks are folded in; the output buffer is handed
    back as found. -/
noncomputable def runMid (c : Dev nD) (i : grid1.Coords)
    (arg3 : Memref sig .tc .vmem S1x2048x128 .bf16) (harg3 : arg3.IsWhole) (arg4 : Memref sig .tc .vmem S1x1024x128 .bf16) (harg4 : arg4.IsWhole)
    (arg5 : Memref sig .tc .vmem S1x1x2048 .f32) (harg5 : arg5.IsWhole) (arg6 : Memref sig .tc .vmem S1x2048 .f32) (harg6 : arg6.IsWhole)
    (arg7 : Memref sig .tc .vmem S1x2048 .f32) (harg7 : arg7.IsWhole) (h1 : ¬atFirst i) (h2 : ¬atLast i)
    (xk : Vec F S1x2048x128 .bf16) (xq : Vec F S1x1024x128 .bf16) (xm xd : Vec F S1x2048 .f32) :
    Σ' (Lm : List (View.Piece (Elt F) S1x2048 .f32)), { Ld : List (View.Piece (Elt F) S1x2048 .f32) //
      ∀ (xo : Vec F S1x1x2048 .f32) (E : Set ℕ) (K : PUnit → sProp 𝕄),
        iprop(owns (c : Thread nD τ) arg3 fullShare xk ∗ owns (c : Thread nD τ) arg4 fullShare xq ∗ owns (c : Thread nD τ) arg5 fullShare xo
            ∗ owns (c : Thread nD τ) arg6 fullShare xm ∗ owns (c : Thread nD τ) arg7 fullShare xd
            ∗ (iprop(owns (c : Thread nD τ) arg3 fullShare xk ∗ owns (c : Thread nD τ) arg4 fullShare xq ∗ owns (c : Thread nD τ) arg5 fullShare xo
                ∗ (∃ f, arg6.view.loc (c : Thread nD τ) ↦[arg6.view.set]{fullShare} arg6.view.writes (Elt F) f Lm)
                ∗ (∃ f, arg7.view.loc (c : Thread nD τ) ↦[arg7.view.set]{fullShare} arg7.view.writes (Elt F) f Ld)) -∗ K ⟨⟩))
          ⊢ wp frame (wpE (defs₀ (F := F)) Variants.none c none) E (cc1__pass1_kernel i arg3 harg3 arg4 harg4 arg5 harg5 arg6 harg6 arg7 harg7) K } := by
  refine ⟨?_, ?_, fun xo E K => ?run⟩
  case run =>
    simp only [cc1__pass1_kernel_eq_skeleton]; unfold cc1__pass1_kernel_skel
    unfold owns
    iintro ⟨⟨%f3, %hf3, H3⟩, ⟨%f4, %hf4, H4⟩, ⟨%f5, %hf5, H5⟩, ⟨%f6, %hf6, H6⟩, ⟨%f7, %hf7, H7⟩, Hk⟩
    obtain rfl := harg3.eq_unread hf3; obtain rfl := harg4.eq_unread hf4; obtain rfl := harg5.eq_unread hf5
    obtain rfl := harg6.eq_unread hf6; obtain rfl := harg7.eq_unread hf7
    sl_exec (disch := first | exact h1 | exact h2)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; iexact H6
    iexists _; iexact H7

set_option maxHeartbeats 4000000 in
/-- THE WRITE-OUT RUN (last index of the reduction axis): as the middle run, and then the statistic — running
    maximum plus the logarithm of the running denominator — is stored over the whole output buffer. -/
noncomputable def runLast (c : Dev nD) (i : grid1.Coords)
    (arg3 : Memref sig .tc .vmem S1x2048x128 .bf16) (harg3 : arg3.IsWhole) (arg4 : Memref sig .tc .vmem S1x1024x128 .bf16) (harg4 : arg4.IsWhole)
    (arg5 : Memref sig .tc .vmem S1x1x2048 .f32) (harg5 : arg5.IsWhole) (arg6 : Memref sig .tc .vmem S1x2048 .f32) (harg6 : arg6.IsWhole)
    (arg7 : Memref sig .tc .vmem S1x2048 .f32) (harg7 : arg7.IsWhole) (h1 : ¬atFirst i) (h2 : atLast i)
    (xk : Vec F S1x2048x128 .bf16) (xq : Vec F S1x1024x128 .bf16) (xm xd : Vec F S1x2048 .f32) :
    Σ' (Lo : List (View.Piece (Elt F) S1x1x2048 .f32)) (Lm : List (View.Piece (Elt F) S1x2048 .f32)), { Ld : List (View.Piece (Elt F) S1x2048 .f32) //
      ∀ (E : Set ℕ) (K : PUnit → sProp 𝕄),
        iprop(owns (c : Thread nD τ) arg3 fullShare xk ∗ owns (c : Thread nD τ) arg4 fullShare xq ∗ (∃ d, owns (c : Thread nD τ) arg5 fullShare d)
            ∗ owns (c : Thread nD τ) arg6 fullShare xm ∗ owns (c : Thread nD τ) arg7 fullShare xd
            ∗ (iprop(owns (c : Thread nD τ) arg3 fullShare xk ∗ owns (c : Thread nD τ) arg4 fullShare xq
                ∗ (∃ f, arg5.view.loc (c : Thread nD τ) ↦[arg5.view.set]{fullShare} arg5.view.writes (Elt F) f Lo)
                ∗ (∃ f, arg6.view.loc (c : Thread nD τ) ↦[arg6.view.set]{fullShare} arg6.view.writes (Elt F) f Lm)
                ∗ (∃ f, arg7.view.loc (c : Thread nD τ) ↦[arg7.view.set]{fullShare} arg7.view.writes (Elt F) f Ld)) -∗ K ⟨⟩))
          ⊢ wp frame (wpE (defs₀ (F := F)) Variants.none c none) E (cc1__pass1_kernel i arg3 harg3 arg4 harg4 arg5 harg5 arg6 harg6 arg7 harg7) K } := by
  refine ⟨?_, ?_, ?_, fun E K => ?run⟩
  case run =>
    simp only [cc1__pass1_kernel_eq_skeleton]; unfold cc1__pass1_kernel_skel
    unfold owns
    iintro ⟨⟨%f3, %hf3, H3⟩, ⟨%f4, %hf4, H4⟩, ⟨%d5, %f5, -, H5⟩, ⟨%f6, %hf6, H6⟩, ⟨%f7, %hf7, H7⟩, Hk⟩
    obtain rfl := harg3.eq_unread hf3; obtain rfl := harg4.eq_unread hf4
    obtain rfl := harg6.eq_unread hf6; obtain rfl := harg7.eq_unread hf7
    sl_exec (disch := first | exact h1 | exact h2)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; iexact H5
    isplitl [H6]
    · iexists _; iexact H6
    iexists _; iexact H7

end Cert.KernelIdeal.Reg1

end
-- ==== Proof.KI.Region1.lean ====
import proofs.«135563_j8478265442573_2_alg».proof.Proof.Gen.KernelIdeal.Launch
import proofs.«135563_j8478265442573_2_alg».proof.Proof.Gen.KernelIdeal.Skeleton
import proofs.«135563_j8478265442573_2_alg».proof.Proof.Gen.KernelIdeal.Points
import proofs.«135563_j8478265442573_2_alg».proof.Proof.Gen.KernelIdeal.Loops
import proofs.«135563_j8478265442573_2_alg».proof.Proof.KI.Region1Runs
import Idealize.ShloMosaic.Lib.Pipeline.FrameBody
import Idealize.ShloMosaic.Lib.Pipeline.Frame
import Idealize.ShloMosaic.Lib.Pipeline.Kit
import Idealize.ShloMosaic.Lib.Ring
import Idealize.ShloMosaic.Lib.Tactic

set_option maxRecDepth 16384

noncomputable section

namespace Cert.KernelIdeal.Reg1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the buffer contents of the core when the region is entered: the parameter the region's half is stated at
variable (V : (c : Dev nD) → (b : Ref sig .tc) → Buf (Elt F) ((c : Thread nD τ).loc b))

/-! # Pass 1 at the entry contents `V`: the proof data, the invariant and the body obligation -/

/-! ## The windows' blocks -/

/-- Window `w`'s block at point `t`, read off its array as the region finds it. -/
def blk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The key window's current staging buffer holds its block at every point, fetched there or not (where it is not
    fetched the block index has not moved), for any proof data over `V` whose body leaves the block in place. -/
theorem before_K_of {c : Dev nD} (dat : Dat τ (Elt F) Unit ℕ (UR sig nD τ) ℕ cfg1 c) (hA : dat.A 0 = V c (Pipeline.arrRef spec1 0))
    (hafter : ∀ t, dat.after 0 t = blk V c 0 t) (t : Fin cfg1.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)

/-- The same for the query window. -/
theorem before_Q_of {c : Dev nD} (dat : Dat τ (Elt F) Unit ℕ (UR sig nD τ) ℕ cfg1 c) (hA : dat.A 1 = V c (Pipeline.arrRef spec1 1))
    (hafter : ∀ t, dat.after 1 t = blk V c 1 t) (t : Fin cfg1.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)

/-- Each window's current staging memref at point `t`, as the pipeline passes it, and its wholeness. -/
abbrev sK (t : Fin cfg1.N) : Memref sig .tc .vmem S1x2048x128 .bf16 := win1_0.stage (cfg1.slots t 0)
abbrev hK (t : Fin cfg1.N) : (sK t).IsWhole := hstage1_0 ((cfg1.slots t 0).cast nbuf1_0)
abbrev sQ (t : Fin cfg1.N) : Memref sig .tc .vmem S1x1024x128 .bf16 := win1_1.stage (cfg1.slots t 1)
abbrev hQ (t : Fin cfg1.N) : (sQ t).IsWhole := hstage1_1 ((cfg1.slots t 1).cast nbuf1_1)
abbrev sO (t : Fin cfg1.N) : Memref sig .tc .vmem S1x1x2048 .f32 := win1_2.stage (cfg1.slots t 2)
abbrev hO (t : Fin cfg1.N) : (sO t).IsWhole := hstage1_2 ((cfg1.slots t 2).cast nbuf1_2)

/-! ## What each run leaves: the pieces cover the buffers, so the contents do not depend on what was there -/

theorem cover_first_m (c : Dev nD) (i : grid1.Coords)
    (arg3 : Memref sig .tc .vmem S1x2048x128 .bf16) (harg3 : arg3.IsWhole) (arg4 : Memref sig .tc .vmem S1x1024x128 .bf16) (harg4 : arg4.IsWhole)
    (arg5 : Memref sig .tc .vmem S1x1x2048 .f32) (harg5 : arg5.IsWhole) (arg6 : Memref sig .tc .vmem S1x2048 .f32) (harg6 : arg6.IsWhole)
    (arg7 : Memref sig .tc .vmem S1x2048 .f32) (harg7 : arg7.IsWhole) (h1 : atFirst i) (h2 : ¬atLast i) (xk : Vec F S1x2048x128 .bf16) (xq : Vec F S1x1024x128 .bf16) (y : S1x2048.Idx) :
    ∃ pc ∈ (runFirst c i arg3 harg3 arg4 harg4 arg5 harg5 arg6 harg6 arg7 harg7 h1 h2 xk xq).1, y ∈ pc.1.set :=
  View.cover_of_tiledL (runFirst c i arg3 harg3 arg4 harg4 arg5 harg5 arg6 harg6 arg7 harg7 h1 h2 xk xq).1 S1x2048.size (by sl_kernel_rfl) y
theorem cover_first_d (c : Dev nD) (i : grid1.Coords)
    (arg3 : Memref sig .tc .vmem S1x2048x128 .bf16) (harg3 : arg3.IsWhole) (arg4 : Memref sig .tc .vmem S1x1024x128 .bf16) (harg4 : arg4.IsWhole)
    (arg5 : Memref sig .tc .vmem S1x1x2048 .f32) (harg5 : arg5.IsWhole) (arg6 : Memref sig .tc .vmem S1x2048 .f32) (harg6 : arg6.IsWhole)
    (arg7 : Memref sig .tc .vmem S1x2048 .f32) (harg7 : arg7.IsWhole) (h1 : atFirst i) (h2 : ¬atLast i) (xk : Vec F S1x2048x128 .bf16) (xq : Vec F S1x1024x128 .bf16) (y : S1x2048.Idx) :
    ∃ pc ∈ (runFirst c i arg3 harg3 arg4 harg4 arg5 harg5 arg6 harg6 arg7 harg7 h1 h2 xk xq).2.1, y ∈ pc.1.set :=
  View.cover_of_tiledL (runFirst c i arg3 harg3 arg4 harg4 arg5 harg5 arg6 harg6 arg7 harg7 h1 h2 xk xq).2.1 S1x2048.size (by sl_kernel_rfl) y
/-- The running maximum and denominator after a reset point. -/
def mFirst (c : Dev nD) (i : grid1.Coords)
    (arg3 : Memref sig .tc .vmem S1x2048x128 .bf16) (harg3 : arg3.IsWhole) (arg4 : Memref sig .tc .vmem S1x1024x128 .bf16) (harg4 : arg4.IsWhole)
    (arg5 : Memref sig .tc .vmem S1x1x2048 .f32) (harg5 : arg5.IsWhole) (arg6 : Memref sig .tc .vmem S1x2048 .f32) (harg6 : arg6.IsWhole)
    (arg7 : Memref sig .tc .vmem S1x2048 .f32) (harg7 : arg7.IsWhole) (h1 : atFirst i) (h2 : ¬atLast i) (xk : Vec F S1x2048x128 .bf16) (xq : Vec F S1x1024x128 .bf16) : Vec F S1x2048 .f32 :=
  mxV.read (Elt F) (mxV.writes (Elt F) mxV.junk (runFirst c i arg3 harg3 arg4 harg4 arg5 harg5 arg6 harg6 arg7 harg7 h1 h2 xk xq).1)
def dFirst (c : Dev nD) (i : grid1.Coords)
    (arg3 : Memref sig .tc .vmem S1x2048x128 .bf16) (harg3 : arg3.IsWhole) (arg4 : Memref sig .tc .vmem S1x1024x128 .bf16) (harg4 : arg4.IsWhole)
    (arg5 : Memref sig .tc .vmem S1x1x2048 .f32) (harg5 : arg5.IsWhole) (arg6 : Memref sig .tc .vmem S1x2048 .f32) (harg6 : arg6.IsWhole)
    (arg7 : Memref sig .tc .vmem S1x2048 .f32) (harg7 : arg7.IsWhole) (h1 : atFirst i) (h2 : ¬atLast i) (xk : Vec F S1x2048x128 .bf16) (xq : Vec F S1x1024x128 .bf16) : Vec F S1x2048 .f32 :=
  dnV.read (Elt F) (dnV.writes (Elt F) dnV.junk (runFirst c i arg3 harg3 arg4 harg4 arg5 harg5 arg6 harg6 arg7 harg7 h1 h2 xk xq).2.1)

theorem cover_mid_m (c : Dev nD) (i : grid1.Coords)
    (arg3 : Memref sig .tc .vmem S1x2048x128 .bf16) (harg3 : arg3.IsWhole) (arg4 : Memref sig .tc .vmem S1x1024x128 .bf16) (harg4 : arg4.IsWhole)
    (arg5 : Memref sig .tc .vmem S1x1x2048 .f32) (harg5 : arg5.IsWhole) (arg6 : Memref sig .tc .vmem S1x2048 .f32) (harg6 : arg6.IsWhole)
    (arg7 : Memref sig .tc .vmem S1x2048 .f32) (harg7 : arg7.IsWhole) (h1 : ¬atFirst i) (h2 : ¬atLast i) (xk : Vec F S1x2048x128 .bf16) (xq : Vec F S1x1024x128 .bf16) (xm xd : Vec F S1x2048 .f32) (y : S1x2048.Idx) :
    ∃ pc ∈ (runMid c i arg3 harg3 arg4 harg4 arg5 harg5 arg6 harg6 arg7 harg7 h1 h2 xk xq xm xd).1, y ∈ pc.1.set :=
  View.cover_of_tiledL (runMid c i arg3 harg3 arg4 harg4 arg5 harg5 arg6 harg6 arg7 harg7 h1 h2 xk xq xm xd).1 S1x2048.size (by sl_kernel_rfl) y
theorem cover_mid_d (c : Dev nD) (i : grid1.Coords)
    (arg3 : Memref sig .tc .vmem S1x2048x128 .bf16) (harg3 : arg3.IsWhole) (arg4 : Memref sig .tc .vmem S1x1024x128 .bf16) (harg4 : arg4.IsWhole)
    (arg5 : Memref sig .tc .vmem S1x1x2048 .f32) (harg5 : arg5.IsWhole) (arg6 : Memref sig .tc .vmem S1x2048 .f32) (harg6 : arg6.IsWhole)
    (arg7 : Memref sig .tc .vmem S1x2048 .f32) (harg7 : arg7.IsWhole) (h1 : ¬atFirst i) (h2 : ¬atLast i) (xk : Vec F S1x2048x128 .bf16) (xq : Vec F S1x1024x128 .bf16) (xm xd : Vec F S1x2048 .f32) (y : S1x2048.Idx) :
    ∃ pc ∈ (runMid c i arg3 harg3 arg4 harg4 arg5 harg5 arg6 harg6 arg7 harg7 h1 h2 xk xq xm xd).2.1, y ∈ pc.1.set :=
  View.cover_of_tiledL (runMid c i arg3 harg3 arg4 harg4 arg5 harg5 arg6 harg6 arg7 harg7 h1 h2 xk xq xm xd).2.1 S1x2048.size (by sl_kernel_rfl) y
/-- The running maximum and denominator after a middle point, from what the point before left. -/
def mMid (c : Dev nD) (i : grid1.Coords)
    (arg3 : Memref sig .tc .vmem S1x2048x128 .bf16) (harg3 : arg3.IsWhole) (arg4 : Memref sig .tc .vmem S1x1024x128 .bf16) (harg4 : arg4.IsWhole)
    (arg5 : Memref sig .tc .vmem S1x1x2048 .f32) (harg5 : arg5.IsWhole) (arg6 : Memref sig .tc .vmem S1x2048 .f32) (harg6 : arg6.IsWhole)
    (arg7 : Memref sig .tc .vmem S1x2048 .f32) (harg7 : arg7.IsWhole) (h1 : ¬atFirst i) (h2 : ¬atLast i) (xk : Vec F S1x2048x128 .bf16) (xq : Vec F S1x1024x128 .bf16) (xm xd : Vec F S1x2048 .f32) : Vec F S1x2048 .f32 :=
  mxV.read (Elt F) (mxV.writes (Elt F) mxV.junk (runMid c i arg3 harg3 arg4 harg4 arg5 harg5 arg6 harg6 arg7 harg7 h1 h2 xk xq xm xd).1)
def dMid (c : Dev nD) (i : grid1.Coords)
    (arg3 : Memref sig .tc .vmem S1x2048x128 .bf16) (harg3 : arg3.IsWhole) (arg4 : Memref sig .tc .vmem S1x1024x128 .bf16) (harg4 : arg4.IsWhole)
    (arg5 : Memref sig .tc .vmem S1x1x2048 .f32) (harg5 : arg5.IsWhole) (arg6 : Memref sig .tc .vmem S1x2048 .f32) (harg6 : arg6.IsWhole)
    (arg7 : Memref sig .tc .vmem S1x2048 .f32) (harg7 : arg7.IsWhole) (h1 : ¬atFirst i) (h2 : ¬atLast i) (xk : Vec F S1x2048x128 .bf16) (xq : Vec F S1x1024x128 .bf16) (xm xd : Vec F S1x2048 .f32) : Vec F S1x2048 .f32 :=
  dnV.read (Elt F) (dnV.writes (Elt F) dnV.junk (runMid c i arg3 harg3 arg4 harg4 arg5 harg5 arg6 harg6 arg7 harg7 h1 h2 xk xq xm xd).2.1)

theorem cover_last_o (c : Dev nD) (i : grid1.Coords)
    (arg3 : Memref sig .tc .vmem S1x2048x128 .bf16) (harg3 : arg3.IsWhole) (arg4 : Memref sig .tc .vmem S1x1024x128 .bf16) (harg4 : arg4.IsWhole)
    (arg5 : Memref sig .tc .vmem S1x1x2048 .f32) (harg5 : arg5.IsWhole) (arg6 : Memref sig .tc .vmem S1x2048 .f32) (harg6 : arg6.IsWhole)
    (arg7 : Memref sig .tc .vmem S1x2048 .f32) (harg7 : arg7.IsWhole) (h1 : ¬atFirst i) (h2 : atLast i) (xk : Vec F S1x2048x128 .bf16) (xq : Vec F S1x1024x128 .bf16) (xm xd : Vec F S1x2048 .f32) (y : S1x1x2048.Idx) :
    ∃ pc ∈ (runLast c i arg3 harg3 arg4 harg4 arg5 harg5 arg6 harg6 arg7 harg7 h1 h2 xk xq xm xd).1, y ∈ pc.1.set :=
  View.cover_of_tiledL (runLast c i arg3 harg3 arg4 harg4 arg5 harg5 arg6 harg6 arg7 harg7 h1 h2 xk xq xm xd).1 S1x1x2048.size (by sl_kernel_rfl) y
theorem cover_last_m (c : Dev nD) (i : grid1.Coords)
    (arg3 : Memref sig .tc .vmem S1x2048x128 .bf16) (harg3 : arg3.IsWhole) (arg4 : Memref sig .tc .vmem S1x1024x128 .bf16) (harg4 : arg4.IsWhole)
    (arg5 : Memref sig .tc .vmem S1x1x2048 .f32) (harg5 : arg5.IsWhole) (arg6 : Memref sig .tc .vmem S1x2048 .f32) (harg6 : arg6.IsWhole)
    (arg7 : Memref sig .tc .vmem S1x2048 .f32) (harg7 : arg7.IsWhole) (h1 : ¬atFirst i) (h2 : atLast i) (xk : Vec F S1x2048x128 .bf16) (xq : Vec F S1x1024x128 .bf16) (xm xd : Vec F S1x2048 .f32) (y : S1x2048.Idx) :
    ∃ pc ∈ (runLast c i arg3 harg3 arg4 harg4 arg5 harg5 arg6 harg6 arg7 harg7 h1 h2 xk xq xm xd).2.1, y ∈ pc.1.set :=
  View.cover_of_tiledL (runLast c i arg3 harg3 arg4 harg4 arg5 harg5 arg6 harg6 arg7 harg7 h1 h2 xk xq xm xd).2.1 S1x2048.size (by sl_kernel_rfl) y
theorem cover_last_d (c : Dev nD) (i : grid1.Coords)
    (arg3 : Memref sig .tc .vmem S1x2048x128 .bf16) (harg3 : arg3.IsWhole) (arg4 : Memref sig .tc .vmem S1x1024x128 .bf16) (harg4 : arg4.IsWhole)
    (arg5 : Memref sig .tc .vmem S1x1x2048 .f32) (harg5 : arg5.IsWhole) (arg6 : Memref sig .tc .vmem S1x2048 .f32) (harg6 : arg6.IsWhole)
    (arg7 : Memref sig .tc .vmem S1x2048 .f32) (harg7 : arg7.IsWhole) (h1 : ¬atFirst i) (h2 : atLast i) (xk : Vec F S1x2048x128 .bf16) (xq : Vec F S1x1024x128 .bf16) (xm xd : Vec F S1x2048 .f32) (y : S1x2048.Idx) :
    ∃ pc ∈ (runLast c i arg3 harg3 arg4 harg4 arg5 harg5 arg6 harg6 arg7 harg7 h1 h2 xk xq xm xd).2.2.1, y ∈ pc.1.set :=
  View.cover_of_tiledL (runLast c i arg3 harg3 arg4 harg4 arg5 harg5 arg6 harg6 arg7 harg7 h1 h2 xk xq xm xd).2.2.1 S1x2048.size (by sl_kernel_rfl) y
/-- The output buffer, the running maximum and the denominator after a write-out point. -/
def oLast (c : Dev nD) (i : grid1.Coords)
    (arg3 : Memref sig .tc .vmem S1x2048x128 .bf16) (harg3 : arg3.IsWhole) (arg4 : Memref sig .tc .vmem S1x1024x128 .bf16) (harg4 : arg4.IsWhole)
    (arg5 : Memref sig .tc .vmem S1x1x2048 .f32) (harg5 : arg5.IsWhole) (arg6 : Memref sig .tc .vmem S1x2048 .f32) (harg6 : arg6.IsWhole)
    (arg7 : Memref sig .tc .vmem S1x2048 .f32) (harg7 : arg7.IsWhole) (h1 : ¬atFirst i) (h2 : atLast i) (xk : Vec F S1x2048x128 .bf16) (xq : Vec F S1x1024x128 .bf16) (xm xd : Vec F S1x2048 .f32) : Vec F S1x1x2048 .f32 :=
  outV.read (Elt F) (outV.writes (Elt F) outV.junk (runLast c i arg3 harg3 arg4 harg4 arg5 harg5 arg6 harg6 arg7 harg7 h1 h2 xk xq xm xd).1)
def mLast (c : Dev nD) (i : grid1.Coords)
    (arg3 : Memref sig .tc .vmem S1x2048x128 .bf16) (harg3 : arg3.IsWhole) (arg4 : Memref sig .tc .vmem S1x1024x128 .bf16) (harg4 : arg4.IsWhole)
    (arg5 : Memref sig .tc .vmem S1x1x2048 .f32) (harg5 : arg5.IsWhole) (arg6 : Memref sig .tc .vmem S1x2048 .f32) (harg6 : arg6.IsWhole)
    (arg7 : Memref sig .tc .vmem S1x2048 .f32) (harg7 : arg7.IsWhole) (h1 : ¬atFirst i) (h2 : atLast i) (xk : Vec F S1x2048x128 .bf16) (xq : Vec F S1x1024x128 .bf16) (xm xd : Vec F S1x2048 .f32) : Vec F S1x2048 .f32 :=
  mxV.read (Elt F) (mxV.writes (Elt F) mxV.junk (runLast c i arg3 harg3 arg4 harg4 arg5 harg5 arg6 harg6 arg7 harg7 h1 h2 xk xq xm xd).2.1)
def dLast (c : Dev nD) (i : grid1.Coords)
    (arg3 : Memref sig .tc .vmem S1x2048x128 .bf16) (harg3 : arg3.IsWhole) (arg4 : Memref sig .tc .vmem S1x1024x128 .bf16) (harg4 : arg4.IsWhole)
    (arg5 : Memref sig .tc .vmem S1x1x2048 .f32) (harg5 : arg5.IsWhole) (arg6 : Memref sig .tc .vmem S1x2048 .f32) (harg6 : arg6.IsWhole)
    (arg7 : Memref sig .tc .vmem S1x2048 .f32) (harg7 : arg7.IsWhole) (h1 : ¬atFirst i) (h2 : atLast i) (xk : Vec F S1x2048x128 .bf16) (xq : Vec F S1x1024x128 .bf16) (xm xd : Vec F S1x2048 .f32) : Vec F S1x2048 .f32 :=
  dnV.read (Elt F) (dnV.writes (Elt F) dnV.junk (runLast c i arg3 harg3 arg4 harg4 arg5 harg5 arg6 harg6 arg7 harg7 h1 h2 xk xq xm xd).2.2.1)

/-! ## The running pair, point by point -/

theorem notLast_of_zero (t : Fin cfg1.N) (h0 : t.val % 4 = 0) : ¬atLast (grid1.coords t) :=
  fun h => by have := (atLast_iff t).mp h; omega
theorem notFirst_of (t : Fin cfg1.N) (h0 : ¬t.val % 4 = 0) : ¬atFirst (grid1.coords t) :=
  fun h => h0 ((atFirst_iff t).mp h)
theorem notLast_of (t : Fin cfg1.N) (h3 : ¬t.val % 4 = 3) : ¬atLast (grid1.coords t) :=
  fun h => h3 ((atLast_iff t).mp h)

/-- The pair (running maximum, running denominator) after a reset point `t`. -/
def firstAt (c : Dev nD) (t : Fin cfg1.N) (h0 : t.val % 4 = 0) : Vec F S1x2048 .f32 × Vec F S1x2048 .f32 :=
  (mFirst c (grid1.coords t) (sK t) (hK t) (sQ t) (hQ t) (sO t) (hO t) mxM (Memref.isWhole_whole _) dnM (Memref.isWhole_whole _) ((atFirst_iff t).mpr h0) (notLast_of_zero t h0) (blk V c 0 t) (blk V c 1 t),
   dFirst c (grid1.coords t) (sK t) (hK t) (sQ t) (hQ t) (sO t) (hO t) mxM (Memref.isWhole_whole _) dnM (Memref.isWhole_whole _) ((atFirst_iff t).mpr h0) (notLast_of_zero t h0) (blk V c 0 t) (blk V c 1 t))
/-- After a middle point, from the pair `s` the point before left. -/
def midAt (c : Dev nD) (t : Fin cfg1.N) (h0 : ¬t.val % 4 = 0) (h3 : ¬t.val % 4 = 3) (s : Vec F S1x2048 .f32 × Vec F S1x2048 .f32) : Vec F S1x2048 .f32 × Vec F S1x2048 .f32 :=
  (mMid c (grid1.coords t) (sK t) (hK t) (sQ t) (hQ t) (sO t) (hO t) mxM (Memref.isWhole_whole _) dnM (Memref.isWhole_whole _) (notFirst_of t h0) (notLast_of t h3) (blk V c 0 t) (blk V c 1 t) s.1 s.2,
   dMid c (grid1.coords t) (sK t) (hK t) (sQ t) (hQ t) (sO t) (hO t) mxM (Memref.isWhole_whole _) dnM (Memref.isWhole_whole _) (notFirst_of t h0) (notLast_of t h3) (blk V c 0 t) (blk V c 1 t) s.1 s.2)
/-- After a write-out point, from the pair `s` the point before left; -/
def lastAt (c : Dev nD) (t : Fin cfg1.N) (h0 : ¬t.val % 4 = 0) (h3 : t.val % 4 = 3) (s : Vec F S1x2048 .f32 × Vec F S1x2048 .f32) : Vec F S1x2048 .f32 × Vec F S1x2048 .f32 :=
  (mLast c (grid1.coords t) (sK t) (hK t) (sQ t) (hQ t) (sO t) (hO t) mxM (Memref.isWhole_whole _) dnM (Memref.isWhole_whole _) (notFirst_of t h0) ((atLast_iff t).mpr h3) (blk V c 0 t) (blk V c 1 t) s.1 s.2,
   dLast c (grid1.coords t) (sK t) (hK t) (sQ t) (hQ t) (sO t) (hO t) mxM (Memref.isWhole_whole _) dnM (Memref.isWhole_whole _) (notFirst_of t h0) ((atLast_iff t).mpr h3) (blk V c 0 t) (blk V c 1 t) s.1 s.2)
/-- and the output buffer there. -/
def outLastAt (c : Dev nD) (t : Fin cfg1.N) (h0 : ¬t.val % 4 = 0) (h3 : t.val % 4 = 3) (s : Vec F S1x2048 .f32 × Vec F S1x2048 .f32) : Vec F S1x1x2048 .f32 :=
  oLast c (grid1.coords t) (sK t) (hK t) (sQ t) (hQ t) (sO t) (hO t) mxM (Memref.isWhole_whole _) dnM (Memref.isWhole_whole _) (notFirst_of t h0) ((atLast_iff t).mpr h3) (blk V c 0 t) (blk V c 1 t) s.1 s.2

/-- THE CARRIED PAIR after the body at position `n`: the case the position selects, a later point of a sweep
    over what the point before left. -/
def carry (c : Dev nD) : (n : ℕ) → n < cfg1.N → Vec F S1x2048 .f32 × Vec F S1x2048 .f32
  | 0, hn => firstAt V c ⟨0, hn⟩ (Nat.zero_mod _)
  | n + 1, hn =>
    if h0 : (n + 1) % 4 = 0 then firstAt V c ⟨n + 1, hn⟩ h0
    else if h3 : (n + 1) % 4 = 3 then lastAt V c ⟨n + 1, hn⟩ h0 h3 (carry c n (Nat.lt_of_succ_lt hn))
    else midAt V c ⟨n + 1, hn⟩ h0 h3 (carry c n (Nat.lt_of_succ_lt hn))

theorem carry_first (c : Dev nD) (t : Fin cfg1.N) (h0 : t.val % 4 = 0) : carry V c t.val t.isLt = firstAt V c t h0 := by
  obtain ⟨n, hn⟩ := t
  cases n with
  | zero => exact rfl
  | succ n => exact (dif_pos h0).trans rfl

theorem carry_mid (c : Dev nD) (t : Fin cfg1.N) (h0 : ¬t.val % 4 = 0) (h3 : ¬t.val % 4 = 3) :
    carry V c t.val t.isLt = midAt V c t h0 h3 (carry V c (t.val - 1) (Nat.lt_of_le_of_lt (Nat.sub_le _ _) t.isLt)) := by
  obtain ⟨n, hn⟩ := t
  cases n with
  | zero => exact absurd (Nat.zero_mod _) h0
  | succ n => exact (dif_neg h0).trans ((dif_neg h3).trans rfl)

theorem carry_last (c : Dev nD) (t : Fin cfg1.N) (h0 : ¬t.val % 4 = 0) (h3 : t.val % 4 = 3) :
    carry V c t.val t.isLt = lastAt V c t h0 h3 (carry V c (t.val - 1) (Nat.lt_of_le_of_lt (Nat.sub_le _ _) t.isLt)) := by
  obtain ⟨n, hn⟩ := t
  cases n with
  | zero => exact absurd (Nat.zero_mod _) h0
  | succ n => exact (dif_neg h0).trans ((dif_pos h3).trans rfl)

/-- The output window's staging buffer after the body at point `t`: at a write-out point the statistic of the
    pair the point before left, folded with this point's chunks; elsewhere the window is idle and this is not read. -/
def outAt (c : Dev nD) (t : Fin cfg1.N) : Vec F S1x1x2048 .f32 :=
  if h3 : t.val % 4 = 3 then
    outLastAt V c t (fun h0 => by omega) h3 (carry V c (t.val - 1) (Nat.lt_of_le_of_lt (Nat.sub_le _ _) t.isLt))
  else outV.read (Elt F) outV.junk

theorem outAt_last (c : Dev nD) (t : Fin cfg1.N) (h0 : ¬t.val % 4 = 0) (h3 : t.val % 4 = 3) :
    outAt V c t = outLastAt V c t h0 h3 (carry V c (t.val - 1) (Nat.lt_of_le_of_lt (Nat.sub_le _ _) t.isLt)) := by
  unfold outAt; rw [dif_pos h3]

/-! ## The invariant -/

/-- The class invariant with the two running buffers opened: each owned at some contents, the remaining scoped
    buffers unopened, the generator register at some state. -/
theorem PhiA_eq (c : Dev nD) :
    (Pipeline.ΦA spec1 c : sProp 𝕄)
      = iprop(iprop(iprop((∃ d, owns (c : Thread nD τ) mxM fullShare d) ∗ (∃ d, owns (c : Thread nD τ) dnM fullShare d))
          ∗ Pipeline.scopedRestBut (Ix := Unit) (Name := ℕ) (U := UR sig nD τ) (Lvl := ℕ) (Val := Elt F) spec1 c [cc1_scratch0, cc1_scratch1])
          ∗ (∃ r, prngReg c r)) := by
  unfold Pipeline.ΦA; rw [scopedRest1_split]; simp only [mxM, dnM, owns_whole]; try rfl

/-- THE INVARIANT before position `n`: before the first point the class's; afterwards the two running buffers at
    the carried pair the point before left, the remaining scoped buffers unopened, the generator register at some state. -/
def Phi (c : Dev nD) : (n : ℕ) → n ≤ cfg1.N → sProp 𝕄
  | 0, _ => Pipeline.ΦA spec1 c
  | n + 1, hn => iprop(iprop(iprop(owns (c : Thread nD τ) mxM fullShare (carry V c n hn).1 ∗ owns (c : Thread nD τ) dnM fullShare (carry V c n hn).2)
      ∗ Pipeline.scopedRestBut (Ix := Unit) (Name := ℕ) (U := UR sig nD τ) (Lvl := ℕ) (Val := Elt F) spec1 c [cc1_scratch0, cc1_scratch1])
      ∗ (∃ r, prngReg c r))

theorem Phi_succ (c : Dev nD) (n : ℕ) (hn : n < cfg1.N) :
    Phi V c (n + 1) hn = iprop(iprop(iprop(owns (c : Thread nD τ) mxM fullShare (carry V c n hn).1 ∗ owns (c : Thread nD τ) dnM fullShare (carry V c n hn).2)
      ∗ Pipeline.scopedRestBut (Ix := Unit) (Name := ℕ) (U := UR sig nD τ) (Lvl := ℕ) (Val := Elt F) spec1 c [cc1_scratch0, cc1_scratch1])
      ∗ (∃ r, prngReg c r)) := rfl

theorem Phi_pos (c : Dev nD) (n : ℕ) (h : n ≤ cfg1.N) (hz : n ≠ 0) :
    Phi V c n h = iprop(iprop(iprop(owns (c : Thread nD τ) mxM fullShare (carry V c (n - 1) (by omega)).1 ∗ owns (c : Thread nD τ) dnM fullShare (carry V c (n - 1) (by omega)).2)
      ∗ Pipeline.scopedRestBut (Ix := Unit) (Name := ℕ) (U := UR sig nD τ) (Lvl := ℕ) (Val := Elt F) spec1 c [cc1_scratch0, cc1_scratch1])
      ∗ (∃ r, prngReg c r)) := by
  cases n with
  | zero => exact absurd rfl hz
  | succ n => rfl

/-- At any position the invariant gives the class's back: the named contents are forgotten. -/
theorem Phi_forget (c : Dev nD) (n : ℕ) (h : n ≤ cfg1.N) : Phi V c n h ⊢ (Pipeline.ΦA spec1 c : sProp 𝕄) := by
  cases n with
  | zero => exact Idealize.SL.BI.Entails.refl _
  | succ n =>
    rw [Phi_succ, PhiA_eq]
    iintro ⟨⟨⟨Hm, Hd⟩, Hr⟩, Hg⟩
    isplitl [Hm Hd Hr]
    · isplitl [Hm Hd]
      · isplitl [Hm]
        · iexists _; iexact Hm
        iexists _; iexact Hd
      iexact Hr
    iexact Hg

/-! ## The proof data -/

/-- The proof data of pass 1 on core `c`: the arrays as the region finds them; after the body each input's buffer
    at its block and the output's at `outAt`; the invariant `Phi`; nothing owed; full shares. -/
def dat (c : Dev nD) : Dat τ (Elt F) Unit ℕ (UR sig nD τ) ℕ cfg1 c where
  A w := V c (Pipeline.arrRef spec1 w)
  after w t := match w with
    | ⟨0, _⟩ => blk V c 0 t
    | ⟨1, _⟩ => blk V c 1 t
    | ⟨2, _⟩ => outAt V c t
  Φ t := Phi V c t.val (Nat.le_of_lt_succ t.isLt)
  q _ := fullShare
  owed _ := 0

theorem A_eq (c : Dev nD) (w : Fin cfg1.W) : (dat V c).A w = V c (Pipeline.arrRef spec1 w) := by
  dsimp only [dat]

theorem after_K (c : Dev nD) (t : Fin cfg1.N) : (dat V c).after 0 t = blk V c 0 t := by dsimp only [dat]
theorem after_Q (c : Dev nD) (t : Fin cfg1.N) : (dat V c).after 1 t = blk V c 1 t := by dsimp only [dat]
theorem after_O (c : Dev nD) (t : Fin cfg1.N) : (dat V c).after 2 t = outAt V c t := by dsimp only [dat]

theorem before_K (c : Dev nD) (t : Fin cfg1.N) (d) : (dat V c).before 0 t d = blk V c 0 t :=
  before_K_of V (dat V c) (A_eq V c 0) (after_K V c) t d
theorem before_Q (c : Dev nD) (t : Fin cfg1.N) (d) : (dat V c).before 1 t d = blk V c 1 t :=
  before_Q_of V (dat V c) (A_eq V c 1) (after_Q V c) t d

theorem Phi_castSucc (c : Dev nD) (t : Fin cfg1.N) :
    (dat V c).Φ t.castSucc = Phi V c t.val (Nat.le_of_lt t.isLt) := by
  dsimp only [dat]; simp only [Fin.coe_castSucc]

/-- What the launch hands the region is the invariant before the first point. -/
theorem Φ_in (c : Dev nD) : (Pipeline.ΦA spec1 c : sProp 𝕄) ⊢ (dat (F := F) V c).Φ 0 :=
  Idealize.SL.BI.Entails.refl _

/-- After the last point the invariant gives the class's back. -/
theorem Φ_out (c : Dev nD) : (dat (F := F) V c).Φ (Fin.last cfg1.N) ⊢ (Pipeline.ΦA spec1 c : sProp 𝕄) := by
  rw [show (dat V c).Φ (Fin.last cfg1.N) = Phi V c (Fin.last cfg1.N).val (Nat.le_of_lt_succ (Fin.last cfg1.N).isLt) from rfl]
  exact Phi_forget V c _ _

/-- The invariant opened at any position: the two running buffers at some contents. -/
theorem Phi_open (c : Dev nD) (n : ℕ) (h : n ≤ cfg1.N) :
    Phi V c n h ⊢ (iprop(iprop(iprop((∃ d, owns (c : Thread nD τ) mxM fullShare d) ∗ (∃ d, owns (c : Thread nD τ) dnM fullShare d))
          ∗ Pipeline.scopedRestBut (Ix := Unit) (Name := ℕ) (U := UR sig nD τ) (Lvl := ℕ) (Val := Elt F) spec1 c [cc1_scratch0, cc1_scratch1])
          ∗ (∃ r, prngReg c r)) : sProp 𝕄) :=
by
  rw [← PhiA_eq]; exact Phi_forget V c n h

/-! ## The body obligation, at a generic point -/

/-- What the body is called with at point `t`, the windows one by one, -/
def bodyPre (c : Dev nD) (t : Fin cfg1.N) : sProp 𝕄 :=
  iprop((dat V c).Φ t.castSucc ∗ (dat V c).owesAt () t.castSucc
    ∗ (∃ d, owns (c : Thread nD τ) (sK t) fullShare ((dat V c).before 0 t d))
    ∗ (∃ d, owns (c : Thread nD τ) (sQ t) fullShare ((dat V c).before 1 t d))
    ∗ (∃ d, owns (c : Thread nD τ) (sO t) fullShare ((dat V c).before 2 t d)))

/-- and what it returns. -/
def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t)

set_option maxHeartbeats 4000000 in
/-- The body at any point.  The inputs' buffers hold their blocks; the position says which of the three runs
    applies; the invariant hands the run the two running buffers — at anything before a reset, at the carried
    pair otherwise — and takes them back at this point's pair; the output buffer is handed back as found except at
    a write-out point, where it holds the statistic; the core owes nothing throughout. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_K, before_Q]
  rw [show (dat V c).owesAt () t.succ = (dat V c).owesAt () t.castSucc from rfl]
  rw [show (dat V c).Φ t.succ = Phi V c (t.val + 1) t.isLt from rfl, Phi_succ]
  rw [show (dat V c).leavesExact 0 t = owns (c : Thread nD τ) (sK t) fullShare ((dat V c).after 0 t) from by
    unfold Dat.leavesExact; rw [live_K t], after_K]
  rw [show (dat V c).leavesExact 1 t = owns (c : Thread nD τ) (sQ t) fullShare ((dat V c).after 1 t) from by
    unfold Dat.leavesExact; rw [live_Q t], after_Q]
  rw [Phi_castSucc]
  have hN : t.val < 32 := lt_of_lt_of_eq t.isLt (show cfg1.N = 32 from N_1)
  by_cases h0 : t.val % 4 = 0
  · have h3 : ¬t.val % 4 = 3 := by omega
    rw [Dat.leavesExact_idle (dat V c) 2 t (idle_out t (notLast_of t h3)) (noFlush_out t (notLast_of t h3))]
    rw [carry_first V c t h0]
    unfold firstAt mFirst dFirst; (try dsimp only)
    iintro ⟨HΦ, Ho, ⟨%d0, H0⟩, ⟨%d1, H1⟩, ⟨%d2, H2⟩⟩
    icases (Phi_open V c _ _) $$ HΦ with ⟨⟨⟨Hm, Hd⟩, Hr⟩, Hg⟩
    iapply ((runFirst c (grid1.coords t) _ _ _ _ _ _ _ _ _ _ ((atFirst_iff t).mpr h0) (notLast_of_zero t h0) (blk V c 0 t) (blk V c 1 t)).2.2 _ Set.univ _)
    isplitl [H0]; · iexact H0
    isplitl [H1]; · iexact H1
    isplitl [H2]; · iexact H2
    isplitl [Hm]; · iexact Hm
    isplitl [Hd]; · iexact Hd
    iintro ⟨H0, H1, H2, ⟨%em, Hm⟩, ⟨%ed, Hd⟩⟩
    isplitl [Hm Hd Hr Hg]
    · isplitl [Hm Hd Hr]
      · isplitl [Hm Hd]
        · isplitl [Hm]
          · unfold owns; iexists _; isplitr
            swap; · iexact Hm
            ipureintro; exact View.read_writes_of_cover _ _ _ _ _ (cover_first_m c _ _ _ _ _ _ _ _ _ _ _ _ _ _ _)
          unfold owns; iexists _; isplitr
          swap; · iexact Hd
          ipureintro; exact View.read_writes_of_cover _ _ _ _ _ (cover_first_d c _ _ _ _ _ _ _ _ _ _ _ _ _ _ _)
        iexact Hr
      iexact Hg
    isplitl [Ho]; · iexact Ho
    isplitl [H0]; · iexact H0
    isplitl [H1]; · iexact H1
    iexists _; iexact H2
  · have hz : t.val ≠ 0 := fun h => h0 (by rw [h])
    rw [Phi_pos V c _ _ hz]
    by_cases h3 : t.val % 4 = 3
    · rw [show (dat V c).leavesExact 2 t = owns (c : Thread nD τ) (sO t) fullShare ((dat V c).after 2 t) from by
        unfold Dat.leavesExact; rw [live_out t ((atLast_iff t).mpr h3)], after_O, outAt_last V c t h0 h3]
      rw [carry_last V c t h0 h3]
      unfold lastAt outLastAt mLast dLast oLast; (try dsimp only)
      iintro ⟨⟨⟨⟨Hm, Hd⟩, Hr⟩, Hg⟩, Ho, ⟨%d0, H0⟩, ⟨%d1, H1⟩, ⟨%d2, H2⟩⟩
      iapply ((runLast c (grid1.coords t) _ _ _ _ _ _ _ _ _ _ (notFirst_of t h0) ((atLast_iff t).mpr h3) (blk V c 0 t) (blk V c 1 t) _ _).2.2.2 Set.univ _)
      isplitl [H0]; · iexact H0
      isplitl [H1]; · iexact H1
      isplitl [H2]; · iexists _; iexact H2
      isplitl [Hm]; · iexact Hm
      isplitl [Hd]; · iexact Hd
      iintro ⟨H0, H1, ⟨%eo, H2⟩, ⟨%em, Hm⟩, ⟨%ed, Hd⟩⟩
      isplitl [Hm Hd Hr Hg]
      · isplitl [Hm Hd Hr]
        · isplitl [Hm Hd]
          · isplitl [Hm]
            · unfold owns; iexists _; isplitr
              swap; · iexact Hm
              ipureintro; exact View.read_writes_of_cover _ _ _ _ _ (cover_last_m c _ _ _ _ _ _ _ _ _ _ _ _ _ _ _ _ _)
            unfold owns; iexists _; isplitr
            swap; · iexact Hd
            ipureintro; exact View.read_writes_of_cover _ _ _ _ _ (cover_last_d c _ _ _ _ _ _ _ _ _ _ _ _ _ _ _ _ _)
          iexact Hr
        iexact Hg
      isplitl [Ho]; · iexact Ho
      isplitl [H0]; · iexact H0
      isplitl [H1]; · iexact H1
      unfold owns; iexists _; isplitr
      swap; · iexact H2
      ipureintro; exact View.read_writes_of_cover _ _ _ _ _ (cover_last_o c _ _ _ _ _ _ _ _ _ _ _ _ _ _ _ _ _)
    · rw [Dat.leavesExact_idle (dat V c) 2 t (idle_out t (notLast_of t h3)) (noFlush_out t (notLast_of t h3))]
      rw [carry_mid V c t h0 h3]
      unfold midAt mMid dMid; (try dsimp only)
      iintro ⟨⟨⟨⟨Hm, Hd⟩, Hr⟩, Hg⟩, Ho, ⟨%d0, H0⟩, ⟨%d1, H1⟩, ⟨%d2, H2⟩⟩
      iapply ((runMid c (grid1.coords t) _ _ _ _ _ _ _ _ _ _ (notFirst_of t h0) (notLast_of t h3) (blk V c 0 t) (blk V c 1 t) _ _).2.2 _ Set.univ _)
      isplitl [H0]; · iexact H0
      isplitl [H1]; · iexact H1
      isplitl [H2]; · iexact H2
      isplitl [Hm]; · iexact Hm
      isplitl [Hd]; · iexact Hd
      iintro ⟨H0, H1, H2, ⟨%em, Hm⟩, ⟨%ed, Hd⟩⟩
      isplitl [Hm Hd Hr Hg]
      · isplitl [Hm Hd Hr]
        · isplitl [Hm Hd]
          · isplitl [Hm]
            · unfold owns; iexists _; isplitr
              swap; · iexact Hm
              ipureintro; exact View.read_writes_of_cover _ _ _ _ _ (cover_mid_m c _ _ _ _ _ _ _ _ _ _ _ _ _ _ _ _ _)
            unfold owns; iexists _; isplitr
            swap; · iexact Hd
            ipureintro; exact View.read_writes_of_cover _ _ _ _ _ (cover_mid_d c _ _ _ _ _ _ _ _ _ _ _ _ _ _ _ _ _)
          iexact Hr
        iexact Hg
      isplitl [Ho]; · iexact Ho
      isplitl [H0]; · iexact H0
      isplitl [H1]; · iexact H1
      iexists _; iexact H2

/-- The library's body obligation, at every point. -/
theorem body_obligation (c : Dev nD) : BodyObligation (dat (F := F) V c) (defs₀ (F := F)) Variants.none () Set.univ := fun t => by
  rw [bigSep_W1, bigSep_W1]
  exact sound_body V c t

end Cert.KernelIdeal.Reg1

end
-- ==== Proof.KI.Region2.lean ====
import proofs.«135563_j8478265442573_2_alg».proof.Proof.Gen.KernelIdeal.Launch
import proofs.«135563_j8478265442573_2_alg».proof.Proof.Gen.KernelIdeal.Skeleton
import proofs.«135563_j8478265442573_2_alg».proof.Proof.Gen.KernelIdeal.Points
import proofs.«135563_j8478265442573_2_alg».proof.Proof.Gen.KernelIdeal.Loops
import Idealize.ShloMosaic.Lib.Pipeline.FrameBody
import Idealize.ShloMosaic.Lib.Pipeline.Frame
import Idealize.ShloMosaic.Lib.Pipeline.Kit
import Idealize.ShloMosaic.Lib.Ring
import Idealize.ShloMosaic.Lib.Tactic

set_option maxRecDepth 16384

noncomputable section

namespace Cert.KernelIdeal.Reg2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the region's half of the frame is stated at a parameter: the TensorCore's buffer contents when the
-- region is entered
variable (V : (c : Dev nD) → (b : Ref sig .tc) → Buf (Elt F) ((c : Thread nD τ).loc b))

/-! # Region 2: the second attention pass, at the contents `V` its region is entered with

The kernel visits the grid points `t = (b * 2 + qi) * 4 + ki`. Its accumulator (a scratch buffer) is
zeroed where `ki = 0`, added to by the four trips of the key-chunk loop at every point, and copied
to the output block where `ki = 3`. So there are three control cases, and the accumulator's contents
after a point are defined by recursion over the points. -/

/-! ## The two branch conditions, in closed form over the grid -/

/-- The reset branch's condition (the reduction coordinate is 0), as the kernel's scalar chain. -/
abbrev condZ (i : grid2.Coords) : Prop :=
  (Scalar.cmpi .ne (Scalar.extui (Scalar.cmpi .eq (BitVec.ofNat 32 (i 2).val) 0#32)) 0#32) = 1#1
theorem condZ_iff : ∀ t : Fin cfg2.N, condZ (grid2.coords t) ↔ t.val % 4 = 0 :=
  (by decide +kernel : ∀ t : Fin grid2.N, condZ (grid2.coords t) ↔ t.val % 4 = 0)

/-- The output branch's condition (the reduction coordinate is 3). -/
abbrev condL (i : grid2.Coords) : Prop := k2_cond2 i = 1#1
theorem condL_iff : ∀ t : Fin cfg2.N, condL (grid2.coords t) ↔ t.val % 4 = 3 :=
  (by decide +kernel : ∀ t : Fin grid2.N, condL (grid2.coords t) ↔ t.val % 4 = 3)

/-- The four input windows are never idle; the output window is idle, and not written back, exactly
    where the output branch is not taken. -/
theorem live0 : ∀ t : Fin cfg2.N, cfg2.idle 0 (grid2.coords t) = false := by decide +kernel
theorem live1 : ∀ t : Fin cfg2.N, cfg2.idle 1 (grid2.coords t) = false := by decide +kernel
theorem live2 : ∀ t : Fin cfg2.N, cfg2.idle 2 (grid2.coords t) = false := by decide +kernel
theorem live3 : ∀ t : Fin cfg2.N, cfg2.idle 3 (grid2.coords t) = false := by decide +kernel
theorem idle4 : ∀ t : Fin cfg2.N, ¬condL (grid2.coords t) → cfg2.idle 4 (grid2.coords t) = true := by decide +kernel
theorem noFlush4 : ∀ t : Fin cfg2.N, ¬condL (grid2.coords t) → (cfg2.win 4).flush t = false := by decide +kernel
theorem live4 : ∀ t : Fin cfg2.N, condL (grid2.coords t) → cfg2.idle 4 (grid2.coords t) = false := by decide +kernel

/-! ## The memrefs of a point -/

abbrev mw0 (t : Fin cfg2.N) : Memref sig .tc .vmem S1x2048x128 .bf16 := win2_0.stage (cfg2.slots t 0)
abbrev hw0 (t : Fin cfg2.N) : (mw0 t).IsWhole := hstage2_0 ((cfg2.slots t 0).cast nbuf2_0)
abbrev mw1 (t : Fin cfg2.N) : Memref sig .tc .vmem S1x1024x128 .bf16 := win2_1.stage (cfg2.slots t 1)
abbrev hw1 (t : Fin cfg2.N) : (mw1 t).IsWhole := hstage2_1 ((cfg2.slots t 1).cast nbuf2_1)
abbrev mw2 (t : Fin cfg2.N) : Memref sig .tc .vmem S1x1024x128 .bf16 := win2_2.stage (cfg2.slots t 2)
abbrev hw2 (t : Fin cfg2.N) : (mw2 t).IsWhole := hstage2_2 ((cfg2.slots t 2).cast nbuf2_2)
abbrev mw3 (t : Fin cfg2.N) : Memref sig .tc .vmem S1x1x1024 .f32 := win2_3.stage (cfg2.slots t 3)
abbrev hw3 (t : Fin cfg2.N) : (mw3 t).IsWhole := hstage2_3 ((cfg2.slots t 3).cast nbuf2_3)
abbrev mw4 (t : Fin cfg2.N) : Memref sig .tc .vmem S1x2048x128 .f32 := win2_4.stage (cfg2.slots t 4)
abbrev hw4 (t : Fin cfg2.N) : (mw4 t).IsWhole := hstage2_4 ((cfg2.slots t 4).cast nbuf2_4)
/-- The accumulator: a whole scoped buffer of the kernel's own. -/
abbrev scM : Memref sig .tc .vmem S2048x128 .f32 := Memref.whole cc2_scratch0
/-- The views through which the accumulator's and the output block's contents are stated. -/
abbrev VS : View sig .tc .vmem S2048x128 .f32 := scM.view
abbrev VO : View sig .tc .vmem S1x2048x128 .f32 := (Memref.whole cc2_stg4_0 : Memref sig .tc .vmem S1x2048x128 .f32).view

/-- The class invariant with the accumulator split off as a memref owned at some contents. -/
theorem PhiA_eq (c : Dev nD) :
    (Pipeline.ΦA spec2 c : sProp 𝕄)
      = iprop(iprop(iprop((∃ d, owns (c : Thread nD τ) scM fullShare d))
          ∗ Pipeline.scopedRestBut (Ix := Unit) (Name := ℕ) (U := UR sig nD τ) (Lvl := ℕ) (Val := Elt F) spec2 c [cc2_scratch0])
          ∗ (∃ r, prngReg c r)) := by
  unfold Pipeline.ΦA; rw [scopedRest2_split]; simp only [scM, owns_whole]; try rfl

/-! ## The windows' blocks -/

/-- Window `w`'s block at point `t`, read off its array as the region finds it. -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current buffer holds its block at every point, fetched there or not: where it
    is not fetched its block index has not moved. -/
theorem before_in0 {c : Dev nD} (dat : Dat τ (Elt F) Unit ℕ (UR sig nD τ) ℕ cfg2 c) (hA : dat.A 0 = V c (Pipeline.arrRef spec2 0))
    (hafter : ∀ t, dat.after 0 t = iblk V c 0 t) (t : Fin cfg2.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1 {c : Dev nD} (dat : Dat τ (Elt F) Unit ℕ (UR sig nD τ) ℕ cfg2 c) (hA : dat.A 1 = V c (Pipeline.arrRef spec2 1))
    (hafter : ∀ t, dat.after 1 t = iblk V c 1 t) (t : Fin cfg2.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in2 {c : Dev nD} (dat : Dat τ (Elt F) Unit ℕ (UR sig nD τ) ℕ cfg2 c) (hA : dat.A 2 = V c (Pipeline.arrRef spec2 2))
    (hafter : ∀ t, dat.after 2 t = iblk V c 2 t) (t : Fin cfg2.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_in3 {c : Dev nD} (dat : Dat τ (Elt F) Unit ℕ (UR sig nD τ) ℕ cfg2 c) (hA : dat.A 3 = V c (Pipeline.arrRef spec2 3))
    (hafter : ∀ t, dat.after 3 t = iblk V c 3 t) (t : Fin cfg2.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body's triple, one per control case

Each is a subtype: the lists of pieces the case's stores leave in the accumulator (and, in the last
case, in the output block), with the proof that the body runs from the inputs at their contents to
the continuation holding those pieces written. The lists are what the run itself finds. -/

set_option maxHeartbeats 4000000 in
/-- First point of a reduction: the accumulator is zeroed, then the loop adds its four chunks. -/
noncomputable def runFirst (c : Dev nD) (i : grid2.Coords)
    (a3 : Memref sig .tc .vmem S1x2048x128 .bf16) (h3 : a3.IsWhole)
    (a4 : Memref sig .tc .vmem S1x1024x128 .bf16) (h4 : a4.IsWhole)
    (a5 : Memref sig .tc .vmem S1x1024x128 .bf16) (h5 : a5.IsWhole)
    (a6 : Memref sig .tc .vmem S1x1x1024 .f32) (h6 : a6.IsWhole)
    (a7 : Memref sig .tc .vmem S1x2048x128 .f32) (h7 : a7.IsWhole)
    (a8 : Memref sig .tc .vmem S2048x128 .f32) (h8 : a8.IsWhole)
    (hz : condZ i) (hl : ¬condL i) (xq : Vec F S1x2048x128 .bf16) (xk xv : Vec F S1x1024x128 .bf16) (xc : Vec F S1x1x1024 .f32) :
    { LS : List (View.Piece (Elt F) S2048x128 .f32) //
      ∀ (xo : Vec F S1x2048x128 .f32) (E : Set ℕ) (K : PUnit → sProp 𝕄),
        iprop(owns (c : Thread nD τ) a3 fullShare xq ∗ owns (c : Thread nD τ) a4 fullShare xk ∗ owns (c : Thread nD τ) a5 fullShare xv
            ∗ owns (c : Thread nD τ) a6 fullShare xc ∗ owns (c : Thread nD τ) a7 fullShare xo ∗ (∃ d, owns (c : Thread nD τ) a8 fullShare d)
            ∗ (iprop(owns (c : Thread nD τ) a3 fullShare xq ∗ owns (c : Thread nD τ) a4 fullShare xk ∗ owns (c : Thread nD τ) a5 fullShare xv
            ∗ owns (c : Thread nD τ) a6 fullShare xc ∗ owns (c : Thread nD τ) a7 fullShare xo
                ∗ (∃ f, a8.view.loc (c : Thread nD τ) ↦[a8.view.set]{fullShare} a8.view.writes (Elt F) f LS)) -∗ K ⟨⟩))
          ⊢ wp frame (wpE (defs₀ (F := F)) Variants.none c none) E (cc2__pass2_kernel i a3 h3 a4 h4 a5 h5 a6 h6 a7 h7 a8 h8) K } := by
  refine ⟨?_, fun xo E K => ?run⟩
  case run =>
    simp only [cc2__pass2_kernel_eq_skeleton]; unfold cc2__pass2_kernel_skel
    unfold owns
    iintro ⟨⟨%f3, %hf3, H3⟩, ⟨%f4, %hf4, H4⟩, ⟨%f5, %hf5, H5⟩, ⟨%f6, %hf6, H6⟩, ⟨%f7, %hf7, H7⟩, ⟨%d8, %f8, -, H8⟩, Hk⟩
    obtain rfl := h3.eq_unread hf3; obtain rfl := h4.eq_unread hf4; obtain rfl := h5.eq_unread hf5
    obtain rfl := h6.eq_unread hf6; obtain rfl := h7.eq_unread hf7
    sl_exec (disch := first | exact hz | exact hl)
    sl_step
    iapply Hk
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H6]
    · iexists _; isplitr; · ipureintro; exact h6.read_unread _
      iexact H6
    isplitl [H7]
    · iexists _; isplitr; · ipureintro; exact h7.read_unread _
      iexact H7
    iexists _; iexact H8

set_option maxHeartbeats 4000000 in
/-- A middle point: the loop adds its four chunks to what the point before left. -/
noncomputable def runMid (c : Dev nD) (i : grid2.Coords)
    (a3 : Memref sig .tc .vmem S1x2048x128 .bf16) (h3 : a3.IsWhole)
    (a4 : Memref sig .tc .vmem S1x1024x128 .bf16) (h4 : a4.IsWhole)
    (a5 : Memref sig .tc .vmem S1x1024x128 .bf16) (h5 : a5.IsWhole)
    (a6 : Memref sig .tc .vmem S1x1x1024 .f32) (h6 : a6.IsWhole)
    (a7 : Memref sig .tc .vmem S1x2048x128 .f32) (h7 : a7.IsWhole)
    (a8 : Memref sig .tc .vmem S2048x128 .f32) (h8 : a8.IsWhole)
    (hz : ¬condZ i) (hl : ¬condL i) (xq : Vec F S1x2048x128 .bf16) (xk xv : Vec F S1x1024x128 .bf16) (xc : Vec F S1x1x1024 .f32) (xs : Vec F S2048x128 .f32) :
    { LS : List (View.Piece (Elt F) S2048x128 .f32) //
      ∀ (xo : Vec F S1x2048x128 .f32) (E : Set ℕ) (K : PUnit → sProp 𝕄),
        iprop(owns (c : Thread nD τ) a3 fullShare xq ∗ owns (c : Thread nD τ) a4 fullShare xk ∗ owns (c : Thread nD τ) a5 fullShare xv
            ∗ owns (c : Thread nD τ) a6 fullShare xc ∗ owns (c : Thread nD τ) a7 fullShare xo ∗ owns (c : Thread nD τ) a8 fullShare xs
            ∗ (iprop(owns (c : Thread nD τ) a3 fullShare xq ∗ owns (c : Thread nD τ) a4 fullShare xk ∗ owns (c : Thread nD τ) a5 fullShare xv
            ∗ owns (c : Thread nD τ) a6 fullShare xc ∗ owns (c : Thread nD τ) a7 fullShare xo
                ∗ (∃ f, a8.view.loc (c : Thread nD τ) ↦[a8.view.set]{fullShare} a8.view.writes (Elt F) f LS)) -∗ K ⟨⟩))
          ⊢ wp frame (wpE (defs₀ (F := F)) Variants.none c none) E (cc2__pass2_kernel i a3 h3 a4 h4 a5 h5 a6 h6 a7 h7 a8 h8) K } := by
  refine ⟨?_, fun xo E K => ?run⟩
  case run =>
    simp only [cc2__pass2_kernel_eq_skeleton]; unfold cc2__pass2_kernel_skel
    unfold owns
    iintro ⟨⟨%f3, %hf3, H3⟩, ⟨%f4, %hf4, H4⟩, ⟨%f5, %hf5, H5⟩, ⟨%f6, %hf6, H6⟩, ⟨%f7, %hf7, H7⟩, ⟨%f8, %hf8, H8⟩, Hk⟩
    obtain rfl := h3.eq_unread hf3; obtain rfl := h4.eq_unread hf4; obtain rfl := h5.eq_unread hf5
    obtain rfl := h6.eq_unread hf6; obtain rfl := h7.eq_unread hf7; obtain rfl := h8.eq_unread hf8
    sl_exec (disch := first | exact hz | exact hl)
    sl_step
    iapply Hk
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H6]
    · iexists _; isplitr; · ipureintro; exact h6.read_unread _
      iexact H6
    isplitl [H7]
    · iexists _; isplitr; · ipureintro; exact h7.read_unread _
      iexact H7
    iexists _; iexact H8

set_option maxHeartbeats 4000000 in
/-- Last point of a reduction: the loop adds its four chunks, then the accumulator is copied to the
    output block. -/
noncomputable def runLast (c : Dev nD) (i : grid2.Coords)
    (a3 : Memref sig .tc .vmem S1x2048x128 .bf16) (h3 : a3.IsWhole)
    (a4 : Memref sig .tc .vmem S1x1024x128 .bf16) (h4 : a4.IsWhole)
    (a5 : Memref sig .tc .vmem S1x1024x128 .bf16) (h5 : a5.IsWhole)
    (a6 : Memref sig .tc .vmem S1x1x1024 .f32) (h6 : a6.IsWhole)
    (a7 : Memref sig .tc .vmem S1x2048x128 .f32) (h7 : a7.IsWhole)
    (a8 : Memref sig .tc .vmem S2048x128 .f32) (h8 : a8.IsWhole)
    (hz : ¬condZ i) (hl : condL i) (xq : Vec F S1x2048x128 .bf16) (xk xv : Vec F S1x1024x128 .bf16) (xc : Vec F S1x1x1024 .f32) (xs : Vec F S2048x128 .f32) :
    Σ' (LO : List (View.Piece (Elt F) S1x2048x128 .f32)), { LS : List (View.Piece (Elt F) S2048x128 .f32) //
      ∀ (E : Set ℕ) (K : PUnit → sProp 𝕄),
        iprop(owns (c : Thread nD τ) a3 fullShare xq ∗ owns (c : Thread nD τ) a4 fullShare xk ∗ owns (c : Thread nD τ) a5 fullShare xv
            ∗ owns (c : Thread nD τ) a6 fullShare xc ∗ (∃ d, owns (c : Thread nD τ) a7 fullShare d) ∗ owns (c : Thread nD τ) a8 fullShare xs
            ∗ (iprop(owns (c : Thread nD τ) a3 fullShare xq ∗ owns (c : Thread nD τ) a4 fullShare xk ∗ owns (c : Thread nD τ) a5 fullShare xv
            ∗ owns (c : Thread nD τ) a6 fullShare xc
                ∗ (∃ f, a7.view.loc (c : Thread nD τ) ↦[a7.view.set]{fullShare} a7.view.writes (Elt F) f LO)
                ∗ (∃ f, a8.view.loc (c : Thread nD τ) ↦[a8.view.set]{fullShare} a8.view.writes (Elt F) f LS)) -∗ K ⟨⟩))
          ⊢ wp frame (wpE (defs₀ (F := F)) Variants.none c none) E (cc2__pass2_kernel i a3 h3 a4 h4 a5 h5 a6 h6 a7 h7 a8 h8) K } := by
  refine ⟨?_, ?_, fun E K => ?run⟩
  case run =>
    simp only [cc2__pass2_kernel_eq_skeleton]; unfold cc2__pass2_kernel_skel
    unfold owns
    iintro ⟨⟨%f3, %hf3, H3⟩, ⟨%f4, %hf4, H4⟩, ⟨%f5, %hf5, H5⟩, ⟨%f6, %hf6, H6⟩, ⟨%d7, %f7, -, H7⟩, ⟨%f8, %hf8, H8⟩, Hk⟩
    obtain rfl := h3.eq_unread hf3; obtain rfl := h4.eq_unread hf4; obtain rfl := h5.eq_unread hf5
    obtain rfl := h6.eq_unread hf6; obtain rfl := h8.eq_unread hf8
    sl_exec (disch := first | exact hz | exact hl)
    sl_step
    iapply Hk
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H6]
    · iexists _; isplitr; · ipureintro; exact h6.read_unread _
      iexact H6
    isplitl [H7]
    · iexists _; iexact H7
    iexists _; iexact H8

/-! ## What each case leaves, as named contents

Every store into the accumulator (the reset, and each trip's) is of the whole block, so each case's
pieces cover it, and reading them back over anything names what the case leaves. -/

theorem coverFirst (c : Dev nD) (i : grid2.Coords)
    (a3 : Memref sig .tc .vmem S1x2048x128 .bf16) (h3 : a3.IsWhole)
    (a4 : Memref sig .tc .vmem S1x1024x128 .bf16) (h4 : a4.IsWhole)
    (a5 : Memref sig .tc .vmem S1x1024x128 .bf16) (h5 : a5.IsWhole)
    (a6 : Memref sig .tc .vmem S1x1x1024 .f32) (h6 : a6.IsWhole)
    (a7 : Memref sig .tc .vmem S1x2048x128 .f32) (h7 : a7.IsWhole)
    (a8 : Memref sig .tc .vmem S2048x128 .f32) (h8 : a8.IsWhole)
    (hz : condZ i) (hl : ¬condL i) (xq : Vec F S1x2048x128 .bf16) (xk xv : Vec F S1x1024x128 .bf16) (xc : Vec F S1x1x1024 .f32) (y : S2048x128.Idx) :
    ∃ pc ∈ (runFirst c i a3 h3 a4 h4 a5 h5 a6 h6 a7 h7 a8 h8 hz hl xq xk xv xc).1, y ∈ pc.1.set :=
  View.cover_of_tiledL (runFirst c i a3 h3 a4 h4 a5 h5 a6 h6 a7 h7 a8 h8 hz hl xq xk xv xc).1 S2048x128.size (by sl_kernel_rfl) y

def sFirst (c : Dev nD) (i : grid2.Coords)
    (a3 : Memref sig .tc .vmem S1x2048x128 .bf16) (h3 : a3.IsWhole)
    (a4 : Memref sig .tc .vmem S1x1024x128 .bf16) (h4 : a4.IsWhole)
    (a5 : Memref sig .tc .vmem S1x1024x128 .bf16) (h5 : a5.IsWhole)
    (a6 : Memref sig .tc .vmem S1x1x1024 .f32) (h6 : a6.IsWhole)
    (a7 : Memref sig .tc .vmem S1x2048x128 .f32) (h7 : a7.IsWhole)
    (a8 : Memref sig .tc .vmem S2048x128 .f32) (h8 : a8.IsWhole)
    (hz : condZ i) (hl : ¬condL i) (xq : Vec F S1x2048x128 .bf16) (xk xv : Vec F S1x1024x128 .bf16) (xc : Vec F S1x1x1024 .f32) : Vec F S2048x128 .f32 :=
  VS.read (Elt F) (VS.writes (Elt F) VS.junk (runFirst c i a3 h3 a4 h4 a5 h5 a6 h6 a7 h7 a8 h8 hz hl xq xk xv xc).1)

theorem coverMid (c : Dev nD) (i : grid2.Coords)
    (a3 : Memref sig .tc .vmem S1x2048x128 .bf16) (h3 : a3.IsWhole)
    (a4 : Memref sig .tc .vmem S1x1024x128 .bf16) (h4 : a4.IsWhole)
    (a5 : Memref sig .tc .vmem S1x1024x128 .bf16) (h5 : a5.IsWhole)
    (a6 : Memref sig .tc .vmem S1x1x1024 .f32) (h6 : a6.IsWhole)
    (a7 : Memref sig .tc .vmem S1x2048x128 .f32) (h7 : a7.IsWhole)
    (a8 : Memref sig .tc .vmem S2048x128 .f32) (h8 : a8.IsWhole)
    (hz : ¬condZ i) (hl : ¬condL i) (xq : Vec F S1x2048x128 .bf16) (xk xv : Vec F S1x1024x128 .bf16) (xc : Vec F S1x1x1024 .f32) (xs : Vec F S2048x128 .f32) (y : S2048x128.Idx) :
    ∃ pc ∈ (runMid c i a3 h3 a4 h4 a5 h5 a6 h6 a7 h7 a8 h8 hz hl xq xk xv xc xs).1, y ∈ pc.1.set :=
  View.cover_of_tiledL (runMid c i a3 h3 a4 h4 a5 h5 a6 h6 a7 h7 a8 h8 hz hl xq xk xv xc xs).1 S2048x128.size (by sl_kernel_rfl) y

def sMid (c : Dev nD) (i : grid2.Coords)
    (a3 : Memref sig .tc .vmem S1x2048x128 .bf16) (h3 : a3.IsWhole)
    (a4 : Memref sig .tc .vmem S1x1024x128 .bf16) (h4 : a4.IsWhole)
    (a5 : Memref sig .tc .vmem S1x1024x128 .bf16) (h5 : a5.IsWhole)
    (a6 : Memref sig .tc .vmem S1x1x1024 .f32) (h6 : a6.IsWhole)
    (a7 : Memref sig .tc .vmem S1x2048x128 .f32) (h7 : a7.IsWhole)
    (a8 : Memref sig .tc .vmem S2048x128 .f32) (h8 : a8.IsWhole)
    (hz : ¬condZ i) (hl : ¬condL i) (xq : Vec F S1x2048x128 .bf16) (xk xv : Vec F S1x1024x128 .bf16) (xc : Vec F S1x1x1024 .f32) (xs : Vec F S2048x128 .f32) : Vec F S2048x128 .f32 :=
  VS.read (Elt F) (VS.writes (Elt F) VS.junk (runMid c i a3 h3 a4 h4 a5 h5 a6 h6 a7 h7 a8 h8 hz hl xq xk xv xc xs).1)

theorem coverLastS (c : Dev nD) (i : grid2.Coords)
    (a3 : Memref sig .tc .vmem S1x2048x128 .bf16) (h3 : a3.IsWhole)
    (a4 : Memref sig .tc .vmem S1x1024x128 .bf16) (h4 : a4.IsWhole)
    (a5 : Memref sig .tc .vmem S1x1024x128 .bf16) (h5 : a5.IsWhole)
    (a6 : Memref sig .tc .vmem S1x1x1024 .f32) (h6 : a6.IsWhole)
    (a7 : Memref sig .tc .vmem S1x2048x128 .f32) (h7 : a7.IsWhole)
    (a8 : Memref sig .tc .vmem S2048x128 .f32) (h8 : a8.IsWhole)
    (hz : ¬condZ i) (hl : condL i) (xq : Vec F S1x2048x128 .bf16) (xk xv : Vec F S1x1024x128 .bf16) (xc : Vec F S1x1x1024 .f32) (xs : Vec F S2048x128 .f32) (y : S2048x128.Idx) :
    ∃ pc ∈ (runLast c i a3 h3 a4 h4 a5 h5 a6 h6 a7 h7 a8 h8 hz hl xq xk xv xc xs).2.1, y ∈ pc.1.set :=
  View.cover_of_tiledL (runLast c i a3 h3 a4 h4 a5 h5 a6 h6 a7 h7 a8 h8 hz hl xq xk xv xc xs).2.1 S2048x128.size (by sl_kernel_rfl) y

def sLast (c : Dev nD) (i : grid2.Coords)
    (a3 : Memref sig .tc .vmem S1x2048x128 .bf16) (h3 : a3.IsWhole)
    (a4 : Memref sig .tc .vmem S1x1024x128 .bf16) (h4 : a4.IsWhole)
    (a5 : Memref sig .tc .vmem S1x1024x128 .bf16) (h5 : a5.IsWhole)
    (a6 : Memref sig .tc .vmem S1x1x1024 .f32) (h6 : a6.IsWhole)
    (a7 : Memref sig .tc .vmem S1x2048x128 .f32) (h7 : a7.IsWhole)
    (a8 : Memref sig .tc .vmem S2048x128 .f32) (h8 : a8.IsWhole)
    (hz : ¬condZ i) (hl : condL i) (xq : Vec F S1x2048x128 .bf16) (xk xv : Vec F S1x1024x128 .bf16) (xc : Vec F S1x1x1024 .f32) (xs : Vec F S2048x128 .f32) : Vec F S2048x128 .f32 :=
  VS.read (Elt F) (VS.writes (Elt F) VS.junk (runLast c i a3 h3 a4 h4 a5 h5 a6 h6 a7 h7 a8 h8 hz hl xq xk xv xc xs).2.1)

theorem coverLastO (c : Dev nD) (i : grid2.Coords)
    (a3 : Memref sig .tc .vmem S1x2048x128 .bf16) (h3 : a3.IsWhole)
    (a4 : Memref sig .tc .vmem S1x1024x128 .bf16) (h4 : a4.IsWhole)
    (a5 : Memref sig .tc .vmem S1x1024x128 .bf16) (h5 : a5.IsWhole)
    (a6 : Memref sig .tc .vmem S1x1x1024 .f32) (h6 : a6.IsWhole)
    (a7 : Memref sig .tc .vmem S1x2048x128 .f32) (h7 : a7.IsWhole)
    (a8 : Memref sig .tc .vmem S2048x128 .f32) (h8 : a8.IsWhole)
    (hz : ¬condZ i) (hl : condL i) (xq : Vec F S1x2048x128 .bf16) (xk xv : Vec F S1x1024x128 .bf16) (xc : Vec F S1x1x1024 .f32) (xs : Vec F S2048x128 .f32) (y : S1x2048x128.Idx) :
    ∃ pc ∈ (runLast c i a3 h3 a4 h4 a5 h5 a6 h6 a7 h7 a8 h8 hz hl xq xk xv xc xs).1, y ∈ pc.1.set :=
  View.cover_of_tiledL (runLast c i a3 h3 a4 h4 a5 h5 a6 h6 a7 h7 a8 h8 hz hl xq xk xv xc xs).1 S1x2048x128.size (by sl_kernel_rfl) y

def oLast (c : Dev nD) (i : grid2.Coords)
    (a3 : Memref sig .tc .vmem S1x2048x128 .bf16) (h3 : a3.IsWhole)
    (a4 : Memref sig .tc .vmem S1x1024x128 .bf16) (h4 : a4.IsWhole)
    (a5 : Memref sig .tc .vmem S1x1024x128 .bf16) (h5 : a5.IsWhole)
    (a6 : Memref sig .tc .vmem S1x1x1024 .f32) (h6 : a6.IsWhole)
    (a7 : Memref sig .tc .vmem S1x2048x128 .f32) (h7 : a7.IsWhole)
    (a8 : Memref sig .tc .vmem S2048x128 .f32) (h8 : a8.IsWhole)
    (hz : ¬condZ i) (hl : condL i) (xq : Vec F S1x2048x128 .bf16) (xk xv : Vec F S1x1024x128 .bf16) (xc : Vec F S1x1x1024 .f32) (xs : Vec F S2048x128 .f32) : Vec F S1x2048x128 .f32 :=
  VO.read (Elt F) (VO.writes (Elt F) VO.junk (runLast c i a3 h3 a4 h4 a5 h5 a6 h6 a7 h7 a8 h8 hz hl xq xk xv xc xs).1)

/-- Where the output branch is not taken nothing is stored into the output block; its buffer is
    neither written back nor named there, and this placeholder stands for it. -/
def oIdle : Vec F S1x2048x128 .f32 := VO.read (Elt F) VO.junk

/-! ## The accumulation, point by point -/

/-- What the output block's buffer and the accumulator hold after the body at position `n`: the case
    the closed forms select there, run at the point's memrefs and input blocks, the accumulator taken
    (in the two later cases) at what position `n - 1` left. -/
def stAt (c : Dev nD) : (n : ℕ) → n < cfg2.N → Vec F S1x2048x128 .f32 × Vec F S2048x128 .f32
  | 0, hn => (oIdle, sFirst c (grid2.coords ⟨0, hn⟩) (mw0 ⟨0, hn⟩) (hw0 ⟨0, hn⟩) (mw1 ⟨0, hn⟩) (hw1 ⟨0, hn⟩) (mw2 ⟨0, hn⟩) (hw2 ⟨0, hn⟩) (mw3 ⟨0, hn⟩) (hw3 ⟨0, hn⟩) (mw4 ⟨0, hn⟩) (hw4 ⟨0, hn⟩) scM (Memref.isWhole_whole _)
      ((condZ_iff ⟨0, hn⟩).mpr (Nat.zero_mod _)) (fun h => absurd ((condL_iff ⟨0, hn⟩).mp h) (by show ¬ (0 : ℕ) % 4 = 3; decide)) (iblk V c 0 ⟨0, hn⟩) (iblk V c 1 ⟨0, hn⟩) (iblk V c 2 ⟨0, hn⟩) (iblk V c 3 ⟨0, hn⟩))
  | n + 1, hn =>
    if h0 : (n + 1) % 4 = 0 then
      (oIdle, sFirst c (grid2.coords ⟨n + 1, hn⟩) (mw0 ⟨n + 1, hn⟩) (hw0 ⟨n + 1, hn⟩) (mw1 ⟨n + 1, hn⟩) (hw1 ⟨n + 1, hn⟩) (mw2 ⟨n + 1, hn⟩) (hw2 ⟨n + 1, hn⟩) (mw3 ⟨n + 1, hn⟩) (hw3 ⟨n + 1, hn⟩) (mw4 ⟨n + 1, hn⟩) (hw4 ⟨n + 1, hn⟩) scM (Memref.isWhole_whole _)
        ((condZ_iff ⟨n + 1, hn⟩).mpr h0) (fun h => absurd ((condL_iff ⟨n + 1, hn⟩).mp h) (by show ¬ (n + 1) % 4 = 3; omega)) (iblk V c 0 ⟨n + 1, hn⟩) (iblk V c 1 ⟨n + 1, hn⟩) (iblk V c 2 ⟨n + 1, hn⟩) (iblk V c 3 ⟨n + 1, hn⟩))
    else if h3 : (n + 1) % 4 = 3 then
      (oLast c (grid2.coords ⟨n + 1, hn⟩) (mw0 ⟨n + 1, hn⟩) (hw0 ⟨n + 1, hn⟩) (mw1 ⟨n + 1, hn⟩) (hw1 ⟨n + 1, hn⟩) (mw2 ⟨n + 1, hn⟩) (hw2 ⟨n + 1, hn⟩) (mw3 ⟨n + 1, hn⟩) (hw3 ⟨n + 1, hn⟩) (mw4 ⟨n + 1, hn⟩) (hw4 ⟨n + 1, hn⟩) scM (Memref.isWhole_whole _)
          (fun h => h0 ((condZ_iff ⟨n + 1, hn⟩).mp h)) ((condL_iff ⟨n + 1, hn⟩).mpr h3) (iblk V c 0 ⟨n + 1, hn⟩) (iblk V c 1 ⟨n + 1, hn⟩) (iblk V c 2 ⟨n + 1, hn⟩) (iblk V c 3 ⟨n + 1, hn⟩) (stAt c n (Nat.lt_of_succ_lt hn)).2,
        sLast c (grid2.coords ⟨n + 1, hn⟩) (mw0 ⟨n + 1, hn⟩) (hw0 ⟨n + 1, hn⟩) (mw1 ⟨n + 1, hn⟩) (hw1 ⟨n + 1, hn⟩) (mw2 ⟨n + 1, hn⟩) (hw2 ⟨n + 1, hn⟩) (mw3 ⟨n + 1, hn⟩) (hw3 ⟨n + 1, hn⟩) (mw4 ⟨n + 1, hn⟩) (hw4 ⟨n + 1, hn⟩) scM (Memref.isWhole_whole _)
          (fun h => h0 ((condZ_iff ⟨n + 1, hn⟩).mp h)) ((condL_iff ⟨n + 1, hn⟩).mpr h3) (iblk V c 0 ⟨n + 1, hn⟩) (iblk V c 1 ⟨n + 1, hn⟩) (iblk V c 2 ⟨n + 1, hn⟩) (iblk V c 3 ⟨n + 1, hn⟩) (stAt c n (Nat.lt_of_succ_lt hn)).2)
    else
      (oIdle, sMid c (grid2.coords ⟨n + 1, hn⟩) (mw0 ⟨n + 1, hn⟩) (hw0 ⟨n + 1, hn⟩) (mw1 ⟨n + 1, hn⟩) (hw1 ⟨n + 1, hn⟩) (mw2 ⟨n + 1, hn⟩) (hw2 ⟨n + 1, hn⟩) (mw3 ⟨n + 1, hn⟩) (hw3 ⟨n + 1, hn⟩) (mw4 ⟨n + 1, hn⟩) (hw4 ⟨n + 1, hn⟩) scM (Memref.isWhole_whole _)
        (fun h => h0 ((condZ_iff ⟨n + 1, hn⟩).mp h)) (fun h => h3 ((condL_iff ⟨n + 1, hn⟩).mp h)) (iblk V c 0 ⟨n + 1, hn⟩) (iblk V c 1 ⟨n + 1, hn⟩) (iblk V c 2 ⟨n + 1, hn⟩) (iblk V c 3 ⟨n + 1, hn⟩) (stAt c n (Nat.lt_of_succ_lt hn)).2)

theorem stAt_first (c : Dev nD) (t : Fin cfg2.N) (h0 : t.val % 4 = 0) :
    stAt V c t.val t.isLt = (oIdle, sFirst c (grid2.coords t) (mw0 t) (hw0 t) (mw1 t) (hw1 t) (mw2 t) (hw2 t) (mw3 t) (hw3 t) (mw4 t) (hw4 t) scM (Memref.isWhole_whole _)
      ((condZ_iff t).mpr h0) (fun h => absurd ((condL_iff t).mp h) (by omega)) (iblk V c 0 t) (iblk V c 1 t) (iblk V c 2 t) (iblk V c 3 t)) := by
  obtain ⟨n, hn⟩ := t
  cases n with
  | zero => exact rfl
  | succ n => exact (dif_pos h0).trans rfl

theorem stAt_last (c : Dev nD) (t : Fin cfg2.N) (h0 : ¬t.val % 4 = 0) (h3 : t.val % 4 = 3) :
    stAt V c t.val t.isLt =
      (oLast c (grid2.coords t) (mw0 t) (hw0 t) (mw1 t) (hw1 t) (mw2 t) (hw2 t) (mw3 t) (hw3 t) (mw4 t) (hw4 t) scM (Memref.isWhole_whole _)
          (fun h => h0 ((condZ_iff t).mp h)) ((condL_iff t).mpr h3) (iblk V c 0 t) (iblk V c 1 t) (iblk V c 2 t) (iblk V c 3 t) (stAt V c (t.val - 1) (Nat.lt_of_le_of_lt (Nat.sub_le _ _) t.isLt)).2,
        sLast c (grid2.coords t) (mw0 t) (hw0 t) (mw1 t) (hw1 t) (mw2 t) (hw2 t) (mw3 t) (hw3 t) (mw4 t) (hw4 t) scM (Memref.isWhole_whole _)
          (fun h => h0 ((condZ_iff t).mp h)) ((condL_iff t).mpr h3) (iblk V c 0 t) (iblk V c 1 t) (iblk V c 2 t) (iblk V c 3 t) (stAt V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_pos h3).trans rfl)

theorem stAt_mid (c : Dev nD) (t : Fin cfg2.N) (h0 : ¬t.val % 4 = 0) (h3 : ¬t.val % 4 = 3) :
    stAt V c t.val t.isLt =
      (oIdle, sMid c (grid2.coords t) (mw0 t) (hw0 t) (mw1 t) (hw1 t) (mw2 t) (hw2 t) (mw3 t) (hw3 t) (mw4 t) (hw4 t) scM (Memref.isWhole_whole _)
        (fun h => h0 ((condZ_iff t).mp h)) (fun h => h3 ((condL_iff t).mp h)) (iblk V c 0 t) (iblk V c 1 t) (iblk V c 2 t) (iblk V c 3 t) (stAt V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h3).trans rfl)

/-- The invariant before position `n`: before the first point the class's (the accumulator at
    anything); afterwards the accumulator at what the point before left, the rest of the scoped
    buffers unopened, and the generator register at some state. -/
def PhiS (c : Dev nD) : (n : ℕ) → n ≤ cfg2.N → sProp 𝕄
  | 0, _ => Pipeline.ΦA spec2 c
  | n + 1, hn => iprop(iprop(owns (c : Thread nD τ) scM fullShare ((stAt V c n hn).2)
      ∗ Pipeline.scopedRestBut (Ix := Unit) (Name := ℕ) (U := UR sig nD τ) (Lvl := ℕ) (Val := Elt F) spec2 c [cc2_scratch0])
      ∗ (∃ r, prngReg c r))

theorem PhiS_zero (c : Dev nD) (n : ℕ) (h : n ≤ cfg2.N) (hz : n = 0) : PhiS V c n h = Pipeline.ΦA spec2 c := by
  subst hz; rfl

theorem PhiS_succ (c : Dev nD) (n : ℕ) (hn : n < cfg2.N) :
    PhiS V c (n + 1) hn = iprop(iprop(owns (c : Thread nD τ) scM fullShare ((stAt V c n hn).2)
      ∗ Pipeline.scopedRestBut (Ix := Unit) (Name := ℕ) (U := UR sig nD τ) (Lvl := ℕ) (Val := Elt F) spec2 c [cc2_scratch0])
      ∗ (∃ r, prngReg c r)) := rfl

theorem PhiS_pos (c : Dev nD) (n : ℕ) (h : n ≤ cfg2.N) (hz : n ≠ 0) :
    PhiS V c n h = iprop(iprop(owns (c : Thread nD τ) scM fullShare ((stAt V c (n - 1) (by omega)).2)
      ∗ Pipeline.scopedRestBut (Ix := Unit) (Name := ℕ) (U := UR sig nD τ) (Lvl := ℕ) (Val := Elt F) spec2 c [cc2_scratch0])
      ∗ (∃ r, prngReg c r)) := by
  cases n with
  | zero => exact absurd rfl hz
  | succ n => rfl

/-! ## The proof data -/

/-- The proof data of the region on core `c`: the arrays as the region finds them; after the body
    each input's buffer at its block and the output's at `stAt`'s first component; the invariant
    `PhiS`; nothing owed; full shares. -/
def dat (c : Dev nD) : Dat τ (Elt F) Unit ℕ (UR sig nD τ) ℕ cfg2 c where
  A w := V c (Pipeline.arrRef spec2 w)
  after w t := match w with
    | ⟨0, _⟩ => iblk V c 0 t
    | ⟨1, _⟩ => iblk V c 1 t
    | ⟨2, _⟩ => iblk V c 2 t
    | ⟨3, _⟩ => iblk V c 3 t
    | ⟨4, _⟩ => (stAt V c t.val t.isLt).1
  Φ t := PhiS V c t.val (Nat.le_of_lt_succ t.isLt)
  q _ := fullShare
  owed _ := 0

theorem A_eq (c : Dev nD) (w : Fin cfg2.W) : (dat V c).A w = V c (Pipeline.arrRef spec2 w) := by
  dsimp only [dat]

theorem PhiS_castSucc (c : Dev nD) (t : Fin cfg2.N) :
    (dat V c).Φ t.castSucc = PhiS V c t.val (Nat.le_of_lt t.isLt) := by
  dsimp only [dat]; simp only [Fin.coe_castSucc]

theorem after0 (c : Dev nD) (t : Fin cfg2.N) : (dat V c).after 0 t = iblk V c 0 t := by dsimp only [dat]
theorem after1 (c : Dev nD) (t : Fin cfg2.N) : (dat V c).after 1 t = iblk V c 1 t := by dsimp only [dat]
theorem after2 (c : Dev nD) (t : Fin cfg2.N) : (dat V c).after 2 t = iblk V c 2 t := by dsimp only [dat]
theorem after3 (c : Dev nD) (t : Fin cfg2.N) : (dat V c).after 3 t = iblk V c 3 t := by dsimp only [dat]
theorem after4 (c : Dev nD) (t : Fin cfg2.N) : (dat V c).after 4 t = (stAt V c t.val t.isLt).1 := by dsimp only [dat]

theorem before0 (c : Dev nD) (t : Fin cfg2.N) (d) : (dat V c).before 0 t d = iblk V c 0 t :=
  before_in0 V (dat V c) (A_eq V c 0) (after0 V c) t d
theorem before1 (c : Dev nD) (t : Fin cfg2.N) (d) : (dat V c).before 1 t d = iblk V c 1 t :=
  before_in1 V (dat V c) (A_eq V c 1) (after1 V c) t d
theorem before2 (c : Dev nD) (t : Fin cfg2.N) (d) : (dat V c).before 2 t d = iblk V c 2 t :=
  before_in2 V (dat V c) (A_eq V c 2) (after2 V c) t d
theorem before3 (c : Dev nD) (t : Fin cfg2.N) (d) : (dat V c).before 3 t d = iblk V c 3 t :=
  before_in3 V (dat V c) (A_eq V c 3) (after3 V c) t d

/-! ## The body obligation, at a generic point -/

/-- What the body is called with at point `t`, the windows one by one, -/
def bodyPre (c : Dev nD) (t : Fin cfg2.N) : sProp 𝕄 :=
  iprop((dat V c).Φ t.castSucc ∗ (dat V c).owesAt () t.castSucc
    ∗ (∃ d, owns (c : Thread nD τ) (mw0 t) fullShare ((dat V c).before 0 t d))
    ∗ (∃ d, owns (c : Thread nD τ) (mw1 t) fullShare ((dat V c).before 1 t d))
    ∗ (∃ d, owns (c : Thread nD τ) (mw2 t) fullShare ((dat V c).before 2 t d))
    ∗ (∃ d, owns (c : Thread nD τ) (mw3 t) fullShare ((dat V c).before 3 t d))
    ∗ (∃ d, owns (c : Thread nD τ) (mw4 t) fullShare ((dat V c).before 4 t d)))

/-- and what it returns. -/
def bodyPost (c : Dev nD) (t : Fin cfg2.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t)

set_option maxHeartbeats 8000000 in
/-- The body at any point. The inputs' buffers hold their blocks; the closed forms say which case
    the point is in; the invariant hands the body the accumulator at what the point before left (at
    anything at the very first point) and takes it back at this point's contents, each case's pieces
    covering it; the output block's buffer passes through untouched except in the last case, whose
    one store covers it. -/
theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before0, before1, before2, before3]
  rw [show (dat V c).owesAt () t.succ = (dat V c).owesAt () t.castSucc from rfl]
  rw [show (dat V c).Φ t.succ = PhiS V c (t.val + 1) t.isLt from rfl, PhiS_succ]
  rw [show (dat V c).leavesExact 0 t = owns (c : Thread nD τ) (mw0 t) fullShare ((dat V c).after 0 t) from by
    unfold Dat.leavesExact; rw [live0 t], after0]
  rw [show (dat V c).leavesExact 1 t = owns (c : Thread nD τ) (mw1 t) fullShare ((dat V c).after 1 t) from by
    unfold Dat.leavesExact; rw [live1 t], after1]
  rw [show (dat V c).leavesExact 2 t = owns (c : Thread nD τ) (mw2 t) fullShare ((dat V c).after 2 t) from by
    unfold Dat.leavesExact; rw [live2 t], after2]
  rw [show (dat V c).leavesExact 3 t = owns (c : Thread nD τ) (mw3 t) fullShare ((dat V c).after 3 t) from by
    unfold Dat.leavesExact; rw [live3 t], after3]
  have hN : t.val < 32 := lt_of_lt_of_eq t.isLt (show cfg2.N = 32 from N_2)
  by_cases h0 : t.val % 4 = 0
  · have hl : ¬condL (grid2.coords t) := fun h => absurd ((condL_iff t).mp h) (by omega)
    rw [Dat.leavesExact_idle (dat V c) 4 t (idle4 t hl) (noFlush4 t hl)]
    rw [stAt_first V c t h0]
    unfold sFirst; (try dsimp only)
    by_cases hz : t.val = 0
    · rw [PhiS_castSucc V c t, PhiS_zero V c _ _ hz, PhiA_eq]
      iintro ⟨⟨⟨HS, HR⟩, Hg⟩, Ho, ⟨%d0, H0⟩, ⟨%d1, H1⟩, ⟨%d2, H2⟩, ⟨%d3, H3⟩, ⟨%d4, H4⟩⟩
      iapply ((runFirst c (grid2.coords t) _ _ _ _ _ _ _ _ _ _ _ _ ((condZ_iff t).mpr h0) hl (iblk V c 0 t) (iblk V c 1 t) (iblk V c 2 t) (iblk V c 3 t)).2 _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, ⟨%es, HS⟩⟩
      isplitl [HS HR Hg]
      · isplitl [HS HR]
        · isplitl [HS]
          · unfold owns; iexists _; isplitr
            swap; · iexact HS
            ipureintro; exact View.read_writes_of_cover _ _ _ _ _ (coverFirst c _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      iexists _; iexact H4
    · rw [PhiS_castSucc V c t, PhiS_pos V c _ _ hz]
      iintro ⟨⟨⟨HS, HR⟩, Hg⟩, Ho, ⟨%d0, H0⟩, ⟨%d1, H1⟩, ⟨%d2, H2⟩, ⟨%d3, H3⟩, ⟨%d4, H4⟩⟩
      iapply ((runFirst c (grid2.coords t) _ _ _ _ _ _ _ _ _ _ _ _ ((condZ_iff t).mpr h0) hl (iblk V c 0 t) (iblk V c 1 t) (iblk V c 2 t) (iblk V c 3 t)).2 _ Set.univ _)
      isplitl [H0]; · iexact H0
      isplitl [H1]; · iexact H1
      isplitl [H2]; · iexact H2
      isplitl [H3]; · iexact H3
      isplitl [H4]; · iexact H4
      isplitl [HS]; · iexists _; iexact HS
      iintro ⟨H0, H1, H2, H3, H4, ⟨%es, HS⟩⟩
      isplitl [HS HR Hg]
      · isplitl [HS HR]
        · isplitl [HS]
          · unfold owns; iexists _; isplitr
            swap; · iexact HS
            ipureintro; exact View.read_writes_of_cover _ _ _ _ _ (coverFirst c _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      iexists _; iexact H4
  · have hz : t.val ≠ 0 := fun h => h0 (by rw [h])
    have hZ : ¬condZ (grid2.coords t) := fun h => h0 ((condZ_iff t).mp h)
    by_cases h3 : t.val % 4 = 3
    · have hl : condL (grid2.coords t) := (condL_iff t).mpr h3
      rw [show (dat V c).leavesExact 4 t = owns (c : Thread nD τ) (mw4 t) fullShare ((dat V c).after 4 t) from by
        unfold Dat.leavesExact; rw [live4 t hl], after4]
      rw [stAt_last V c t h0 h3]
      unfold oLast sLast; (try dsimp only)
      rw [PhiS_castSucc V c t, PhiS_pos V c _ _ hz]
      iintro ⟨⟨⟨HS, HR⟩, Hg⟩, Ho, ⟨%d0, H0⟩, ⟨%d1, H1⟩, ⟨%d2, H2⟩, ⟨%d3, H3⟩, ⟨%d4, H4⟩⟩
      iapply ((runLast c (grid2.coords t) _ _ _ _ _ _ _ _ _ _ _ _ hZ hl (iblk V c 0 t) (iblk V c 1 t) (iblk V c 2 t) (iblk V c 3 t) _).2.2 Set.univ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, ⟨%eo, H4⟩, ⟨%es, HS⟩⟩
      isplitl [HS HR Hg]
      · isplitl [HS HR]
        · isplitl [HS]
          · unfold owns; iexists _; isplitr
            swap; · iexact HS
            ipureintro; exact View.read_writes_of_cover _ _ _ _ _ (coverLastS c _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (coverLastO c _ _ _ _ _ _ _ _ _ _ _ _ _ _ _ _ _ _ _ _)
    · have hl : ¬condL (grid2.coords t) := fun h => h3 ((condL_iff t).mp h)
      rw [Dat.leavesExact_idle (dat V c) 4 t (idle4 t hl) (noFlush4 t hl)]
      rw [stAt_mid V c t h0 h3]
      unfold sMid; (try dsimp only)
      rw [PhiS_castSucc V c t, PhiS_pos V c _ _ hz]
      iintro ⟨⟨⟨HS, HR⟩, Hg⟩, Ho, ⟨%d0, H0⟩, ⟨%d1, H1⟩, ⟨%d2, H2⟩, ⟨%d3, H3⟩, ⟨%d4, H4⟩⟩
      iapply ((runMid c (grid2.coords t) _ _ _ _ _ _ _ _ _ _ _ _ hZ hl (iblk V c 0 t) (iblk V c 1 t) (iblk V c 2 t) (iblk V c 3 t) _).2 _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, ⟨%es, HS⟩⟩
      isplitl [HS HR Hg]
      · isplitl [HS HR]
        · isplitl [HS]
          · unfold owns; iexists _; isplitr
            swap; · iexact HS
            ipureintro; exact View.read_writes_of_cover _ _ _ _ _ (coverMid c _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation (c : Dev nD) : BodyObligation (dat (F := F) V c) (defs₀ (F := F)) Variants.none () Set.univ := fun t => by
  rw [bigSep_W2, bigSep_W2]
  exact sound_body V c t

/-- What the launch hands the region is the invariant before the first point. -/
theorem Φ_in (c : Dev nD) : (Pipeline.ΦA spec2 c : sProp 𝕄) ⊢ (dat (F := F) V c).Φ 0 := by
  rw [show (dat V c).Φ 0 = PhiS V c 0 (Nat.zero_le _) from rfl, PhiS_zero V c 0 _ rfl]

/-- After the last point the invariant gives the class's back: the accumulator's named contents are
    forgotten. -/
theorem Φ_out (c : Dev nD) : (dat (F := F) V c).Φ (Fin.last cfg2.N) ⊢ (Pipeline.ΦA spec2 c : sProp 𝕄) := by
  rw [show (dat V c).Φ (Fin.last cfg2.N) = PhiS V c (Fin.last cfg2.N).val (Nat.le_of_lt_succ (Fin.last cfg2.N).isLt) from rfl,
    PhiS_pos V c _ _ (by rw [Fin.val_last]; have : cfg2.N = 32 := N_2; omega), PhiA_eq]
  iintro ⟨⟨HS, HR⟩, Hg⟩
  isplitl [HS HR]
  · isplitl [HS]
    · iexists _; iexact HS
    iexact HR
  iexact Hg

end Cert.KernelIdeal.Reg2

end
-- ==== Proof.KI.Frame.lean ====
/-
  The three regions' halves put into the assembly: the program's frame, and its run with the result array named.
-/
import proofs.«135563_j8478265442573_2_alg».proof.Proof.KI.Assembly
import proofs.«135563_j8478265442573_2_alg».proof.Proof.KI.Region0
import proofs.«135563_j8478265442573_2_alg».proof.Proof.KI.Region1
import proofs.«135563_j8478265442573_2_alg».proof.Proof.KI.Region2

noncomputable section

namespace Cert.KernelIdeal.Whole

open Cert.KernelIdeal Cert.KernelIdeal.Gen Cert.KernelIdeal.Asm
open Idealize.ShloMosaic Idealize.ShloMosaic.TcCoe Idealize.SL.Sem

variable {F : FTy → Type} [FloatOps F] [Named F]

/-- The projection region's half. -/
def half0 : Half0 (F := F) where
  dat := Reg0.dat
  A_eq := Reg0.A_eq
  q_eq _ _ _ := rfl
  owed_eq _ _ _ := rfl
  rec_eq _ _ _ := rfl
  Φ_in := Reg0.Φ_in
  Φ_out := Reg0.Φ_out
  body := Reg0.body_obligation

/-- The statistic region's half. -/
def half1 : Half1 (F := F) where
  dat := Reg1.dat
  A_eq := Reg1.A_eq
  q_eq _ _ _ := rfl
  owed_eq _ _ _ := rfl
  rec_eq _ _ _ := rfl
  Φ_in := Reg1.Φ_in
  Φ_out := Reg1.Φ_out
  body := Reg1.body_obligation

/-- The output region's half. -/
def half2 : Half2 (F := F) where
  dat := Reg2.dat
  A_eq := Reg2.A_eq
  q_eq _ _ _ := rfl
  owed_eq _ _ _ := rfl
  rec_eq _ _ _ := rfl
  Φ_in := Reg2.Φ_in
  Φ_out := Reg2.Φ_out
  body := Reg2.body_obligation

variable (m : (ℓ : Loc nD τ sig) → Buf (Elt F) ℓ) (ρ : Dev nD → PrngReg)

/-- The program terminates on every weakly fair execution, faults nowhere, and leaves its nine arguments as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_all m ρ half0 half1 half2

end Cert.KernelIdeal.Whole

end
-- ==== Proof.Spec.lean ====
/-
  The mathematics both programs compute, over the extended reals, stated over literal index types.

  A column of 4096 scores s(q) (one key against every query) is summarised by its statistic
  max_q s(q) + log (sum_q exp (s(q) - max_q s(q))).  The kernel reaches it sixteen chunks of 256 queries at a
  time, carrying a running maximum and a denominator taken relative to that maximum (`chunks`); the output row
  is then a sum over all 4096 keys, again accumulated sixteen chunks at a time (`chunkSum`).
-/
import Idealize.ShloMosaic.PureOps.Ideal

noncomputable section

namespace Cert.Spec

open Idealize.ShloMosaic
open scoped BigOperators

/-- The exact value the kernel's folded scale denotes: the reciprocal of the reference's divisor. -/
def scale : EReal := ((1048576 / 11863283 : ℝ) : EReal)

/-- The largest of 256 scores (`⊥` is the neutral element of `max`). -/
def chunkMax (s : Fin 256 → EReal) : EReal := (Finset.univ : Finset (Fin 256)).fold max ⊥ s

/-- One chunk of 256 scores folded into the running maximum `st.1` and the running denominator `st.2`,
    which is kept relative to the running maximum. -/
def chunkStep (s : Fin 256 → EReal) (st : EReal × EReal) : EReal × EReal :=
  (max st.1 (chunkMax s),
   Ideal.exp (st.1 - max st.1 (chunkMax s)) * st.2 + ∑ i : Fin 256, Ideal.exp (s i - max st.1 (chunkMax s)))

/-- Chunk `n` of a column of 4096 scores: entries `256 n .. 256 n + 255`. -/
def chunkOf (s : Fin 4096 → EReal) (n : ℕ) (h : n < 16) : Fin 256 → EReal :=
  fun i => s ⟨256 * n + i.val, by have := i.isLt; omega⟩

/-- The running pair after the first `n` chunks of a column, from `(⊥, 0)`; past the sixteenth chunk nothing is read. -/
def chunks (s : Fin 4096 → EReal) : ℕ → EReal × EReal
  | 0 => (⊥, 0)
  | n + 1 => if h : n < 16 then chunkStep (chunkOf s n h) (chunks s n) else chunks s n

/-- The column statistic as the kernel forms it: running maximum plus the logarithm of the running denominator,
    after all sixteen chunks. -/
def stat (s : Fin 4096 → EReal) : EReal := (chunks s 16).1 + Ideal.log (chunks s 16).2

/-- A sum over 4096 terms accumulated sixteen chunks of 256 at a time, from 0. -/
def chunkSum (f : Fin 4096 → EReal) : ℕ → EReal
  | 0 => 0
  | n + 1 => if h : n < 16 then chunkSum f n + ∑ i : Fin 256, chunkOf f n h i else chunkSum f n

end Cert.Spec

end
-- ==== Proof.KI.Region0Value.lean ====
import proofs.«135563_j8478265442573_2_alg».proof.Proof.KI.Region0
import proofs.«135563_j8478265442573_2_alg».proof.Proof.Spec
import Idealize.ShloMosaic.Lib.Pipeline.Value
import Idealize.ShloMosaic.Lib.ValueIdx
import Idealize.ShloMosaic.PureOps.Ideal.Laws

/-! # Region 0 at the extended reals: what the three projections leave

Read at the extended reals, rounding to bf16 is the identity and the product accumulates into zero, so each
output block is `x · Wᵀ + b` of its row block exactly. Point `t` of the 32 writes rows `512 t … 512 t + 511`
of each output, and these blocks cover the 16384 rows: after the region, row `r` and column `n` of output
`k` is `Σ_d x_k[r, d] · W_k[n, d] + b_k[n]`, the operands as the region found them. -/

set_option maxRecDepth 16384

noncomputable section

namespace Cert.KernelIdeal.Reg0

open Cert.KernelIdeal Cert.KernelIdeal.Gen
open Idealize.ShloMosaic Idealize.ShloMosaic.TcCoe Idealize.ShloMosaic.ValueIdx
open Idealize.SL.Sem
open scoped BigOperators

/-- The projection's product, read at row `a` and column `n`: the sum over the 1024 contracted coordinates. -/
theorem proj_matmul_apply {φ₁ φ₂ : FTy} (A : FVec Ideal S512x1024 φ₁) (B : FVec Ideal S128x1024 φ₂) (a : Fin 512) (n : Fin 128) :
    FloatOps.matmul dot_S512x1024_S128x1024_S512x128_1_1_0_0_n_n none A B (constant S512x128 .f32 0x00000000#32) (ix2 a n)
      = ∑ k : Fin 1024, A (ix2 a k) * B (ix2 n k) := by
  rw [Ideal.matmul_constant_zero_apply,
    ← Equiv.sum_comp (contrEquiv1 dot_S512x1024_S128x1024_S512x128_1_1_0_0_n_n 1024 rfl rfl).symm]
  refine Finset.sum_congr rfl fun k _ => ?_
  have ck := contrEquiv1_symm_val dot_S512x1024_S128x1024_S512x128_1_1_0_0_n_n 1024 rfl rfl k
  have hl : dot_S512x1024_S128x1024_S512x128_1_1_0_0_n_n.lhsIdx (ix2 a n) ((contrEquiv1 _ 1024 rfl rfl).symm k) = ix2 a k := by
    funext ax; apply Fin.ext
    match ax with
    | ⟨0, _⟩ => simp [DotDims.lhsIdx, dot_S512x1024_S128x1024_S512x128_1_1_0_0_n_n]; rfl
    | ⟨1, _⟩ => simp [DotDims.lhsIdx, dot_S512x1024_S128x1024_S512x128_1_1_0_0_n_n]; exact ck
  have hr : dot_S512x1024_S128x1024_S512x128_1_1_0_0_n_n.rhsIdx (ix2 a n) ((contrEquiv1 _ 1024 rfl rfl).symm k) = ix2 n k := by
    funext ax; apply Fin.ext
    match ax with
    | ⟨0, _⟩ => simp [DotDims.rhsIdx, dot_S512x1024_S128x1024_S512x128_1_1_0_0_n_n]; rfl
    | ⟨1, _⟩ => simp [DotDims.rhsIdx, dot_S512x1024_S128x1024_S512x128_1_1_0_0_n_n]; exact ck
  rw [hl, hr]

/-- The bias, viewed as one row and repeated down the 512 rows, read at row `a` and column `n`. -/
theorem bias_apply (b : FVec Ideal S128 .f32) (a : Fin 512) (n : Fin 128) :
    broadcastTo S512x128 (shapeCast S1x128 b shapeCasts_S128_S1x128) broadcasts_S1x128_S512x128 (ix2 a n) = b (ix1 n) := by
  rw [broadcastTo_apply _ _ (ix2 a n) (ix2 (0 : Fin 1) n) (fun ax => by
    match ax with
    | ⟨0, _⟩ => rfl
    | ⟨1, _⟩ => rfl)]
  rw [shapeCast_addUnit_apply ![128] b shapeCasts_S128_S1x128 (ix2 (0 : Fin 1) n)]
  exact congrArg b (funext fun ax => by match ax with | ⟨0, _⟩ => rfl)

/-- The first payload at row `a`, column `n`: rounding to bf16 is the identity on the extended reals. -/
theorem pay1_apply (x : Vec Ideal S512x1024 .f32) (wt : Vec Ideal S128x1024 .f32) (b : Vec Ideal S128 .f32) (a : Fin 512) (n : Fin 128) :
    k0_pay1 x wt b (ix2 a n) = (∑ k : Fin 1024, x (ix2 a k) * wt (ix2 n k)) + b (ix1 n) := by
  refine (congrArg₂ (· + ·)
    (proj_matmul_apply (φ₁ := .bf16) (φ₂ := .bf16)
      (truncf (F := Ideal) .bf16 (shapeCast S512x1024 x shapeCasts_S512x1024_S512x1024) bitsLt_bf16_f32)
      (truncf (F := Ideal) .bf16 wt bitsLt_bf16_f32) a n)
    (bias_apply b a n)).trans ?_
  rw [shapeCast_self]
  rfl

theorem pay2_apply (x : Vec Ideal S512x1024 .f32) (wt : Vec Ideal S128x1024 .f32) (b : Vec Ideal S128 .f32) (a : Fin 512) (n : Fin 128) :
    k0_pay2 x wt b (ix2 a n) = (∑ k : Fin 1024, x (ix2 a k) * wt (ix2 n k)) + b (ix1 n) := by
  refine (congrArg₂ (· + ·)
    (proj_matmul_apply (φ₁ := .bf16) (φ₂ := .bf16)
      (truncf (F := Ideal) .bf16 (shapeCast S512x1024 x shapeCasts_S512x1024_S512x1024) bitsLt_bf16_f32)
      (truncf (F := Ideal) .bf16 wt bitsLt_bf16_f32) a n)
    (bias_apply b a n)).trans ?_
  rw [shapeCast_self]
  rfl

theorem pay3_apply (x : Vec Ideal S512x1024 .f32) (wt : Vec Ideal S128x1024 .f32) (b : Vec Ideal S128 .f32) (a : Fin 512) (n : Fin 128) :
    k0_pay3 x wt b (ix2 a n) = (∑ k : Fin 1024, x (ix2 a k) * wt (ix2 n k)) + b (ix1 n) := by
  refine (congrArg₂ (· + ·)
    (proj_matmul_apply (φ₁ := .bf16) (φ₂ := .bf16)
      (truncf (F := Ideal) .bf16 (shapeCast S512x1024 x shapeCasts_S512x1024_S512x1024) bitsLt_bf16_f32)
      (truncf (F := Ideal) .bf16 wt bitsLt_bf16_f32) a n)
    (bias_apply b a n)).trans ?_
  rw [shapeCast_self]
  rfl

/-! ## Where the windows' blocks sit

The region is entered at contents `V`, read here at the extended reals. -/

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The grid has 32 points. -/
theorem point_lt (t : Fin cfg0.N) : t.val < 32 := lt_of_lt_of_eq t.isLt N_0

/-- The array row of row `a` of the block at point `t`. -/
def rowAt (t : Fin cfg0.N) (a : Fin 512) : Fin 16384 := ⟨512 * t.val + a.val, by have := point_lt t; have := a.isLt; omega⟩

/-- The row windows (inputs 0, 1, 2 and outputs 9, 10, 11) are at block row `t`, block column 0, at point `t`;
    the weights and the biases are at block 0 at every point. Decided over the 32 points. -/
theorem idx_facts : ∀ t : Fin cfg0.N,
    win0_0.index t (0 : Fin 2) = t.val
    ∧ win0_0.index t (1 : Fin 2) = 0
    ∧ win0_1.index t (0 : Fin 2) = t.val
    ∧ win0_1.index t (1 : Fin 2) = 0
    ∧ win0_2.index t (0 : Fin 2) = t.val
    ∧ win0_2.index t (1 : Fin 2) = 0
    ∧ win0_9.index t (0 : Fin 2) = t.val
    ∧ win0_9.index t (1 : Fin 2) = 0
    ∧ win0_10.index t (0 : Fin 2) = t.val
    ∧ win0_10.index t (1 : Fin 2) = 0
    ∧ win0_11.index t (0 : Fin 2) = t.val
    ∧ win0_11.index t (1 : Fin 2) = 0
    ∧ win0_3.index t (0 : Fin 2) = 0
    ∧ win0_3.index t (1 : Fin 2) = 0
    ∧ win0_4.index t (0 : Fin 2) = 0
    ∧ win0_4.index t (1 : Fin 2) = 0
    ∧ win0_5.index t (0 : Fin 2) = 0
    ∧ win0_5.index t (1 : Fin 2) = 0
    ∧ win0_6.index t (0 : Fin 1) = 0
    ∧ win0_7.index t (0 : Fin 1) = 0
    ∧ win0_8.index t (0 : Fin 1) = 0 :=
  (by decide +kernel : ∀ t : Fin grid0.N, _)

/-! A window's block read at literal coordinates is the array at the coordinates the block's position gives. -/

theorem blk0_apply (c : Dev nD) (t : Fin cfg0.N) (a : Fin 512) (k : Fin 1024) :
    blk V c 0 t (ix2 a k) = V c main_v0 (ix2 (rowAt t a) k) := by
  obtain ⟨e0r, e0c, e1r, e1c, e2r, e2c, e9r, e9c, e10r, e10c, e11r, e11c, e3r, e3c, e4r, e4c, e5r, e5c, e6r, e7r, e8r⟩ := idx_facts t
  show V c main_v0 (((cfg0.win 0).blk t).view.emb (ix2 a k)) = _
  refine congrArg (V c main_v0) (funext fun ax => Fin.ext ?_)
  match ax with
  | ⟨0, _⟩ => show win0_0.index t (0 : Fin 2) * 512 + 1 * a.val = 512 * t.val + a.val; omega
  | ⟨1, _⟩ => show win0_0.index t (1 : Fin 2) * 1024 + 1 * k.val = k.val; omega

theorem blk3_apply (c : Dev nD) (t : Fin cfg0.N) (n : Fin 128) (k : Fin 1024) :
    blk V c 3 t (ix2 n k) = V c main_arg3 (ix2 n k) := by
  obtain ⟨e0r, e0c, e1r, e1c, e2r, e2c, e9r, e9c, e10r, e10c, e11r, e11c, e3r, e3c, e4r, e4c, e5r, e5c, e6r, e7r, e8r⟩ := idx_facts t
  show V c main_arg3 (((cfg0.win 3).blk t).view.emb (ix2 n k)) = _
  refine congrArg (V c main_arg3) (funext fun ax => Fin.ext ?_)
  match ax with
  | ⟨0, _⟩ => show win0_3.index t (0 : Fin 2) * 128 + 1 * n.val = n.val; omega
  | ⟨1, _⟩ => show win0_3.index t (1 : Fin 2) * 1024 + 1 * k.val = k.val; omega

theorem blk6_apply (c : Dev nD) (t : Fin cfg0.N) (n : Fin 128) :
    blk V c 6 t (ix1 n) = V c main_arg4 (ix1 n) := by
  obtain ⟨e0r, e0c, e1r, e1c, e2r, e2c, e9r, e9c, e10r, e10c, e11r, e11c, e3r, e3c, e4r, e4c, e5r, e5c, e6r, e7r, e8r⟩ := idx_facts t
  show V c main_arg4 (((cfg0.win 6).blk t).view.emb (ix1 n)) = _
  refine congrArg (V c main_arg4) (funext fun ax => Fin.ext ?_)
  match ax with
  | ⟨0, _⟩ => show win0_6.index t (0 : Fin 1) * 128 + 1 * n.val = n.val; omega

theorem emb9_apply (t : Fin cfg0.N) (a : Fin 512) (n : Fin 128) :
    ((cfg0.win 9).blk t).view.emb (ix2 a n) = ix2 (rowAt t a) n := by
  obtain ⟨e0r, e0c, e1r, e1c, e2r, e2c, e9r, e9c, e10r, e10c, e11r, e11c, e3r, e3c, e4r, e4c, e5r, e5c, e6r, e7r, e8r⟩ := idx_facts t
  refine funext fun ax => Fin.ext ?_
  match ax with
  | ⟨0, _⟩ => show win0_9.index t (0 : Fin 2) * 512 + 1 * a.val = 512 * t.val + a.val; omega
  | ⟨1, _⟩ => show win0_9.index t (1 : Fin 2) * 128 + 1 * n.val = n.val; omega

theorem blk1_apply (c : Dev nD) (t : Fin cfg0.N) (a : Fin 512) (k : Fin 1024) :
    blk V c 1 t (ix2 a k) = V c main_v1 (ix2 (rowAt t a) k) := by
  obtain ⟨e0r, e0c, e1r, e1c, e2r, e2c, e9r, e9c, e10r, e10c, e11r, e11c, e3r, e3c, e4r, e4c, e5r, e5c, e6r, e7r, e8r⟩ := idx_facts t
  show V c main_v1 (((cfg0.win 1).blk t).view.emb (ix2 a k)) = _
  refine congrArg (V c main_v1) (funext fun ax => Fin.ext ?_)
  match ax with
  | ⟨0, _⟩ => show win0_1.index t (0 : Fin 2) * 512 + 1 * a.val = 512 * t.val + a.val; omega
  | ⟨1, _⟩ => show win0_1.index t (1 : Fin 2) * 1024 + 1 * k.val = k.val; omega

theorem blk4_apply (c : Dev nD) (t : Fin cfg0.N) (n : Fin 128) (k : Fin 1024) :
    blk V c 4 t (ix2 n k) = V c main_arg5 (ix2 n k) := by
  obtain ⟨e0r, e0c, e1r, e1c, e2r, e2c, e9r, e9c, e10r, e10c, e11r, e11c, e3r, e3c, e4r, e4c, e5r, e5c, e6r, e7r, e8r⟩ := idx_facts t
  show V c main_arg5 (((cfg0.win 4).blk t).view.emb (ix2 n k)) = _
  refine congrArg (V c main_arg5) (funext fun ax => Fin.ext ?_)
  match ax with
  | ⟨0, _⟩ => show win0_4.index t (0 : Fin 2) * 128 + 1 * n.val = n.val; omega
  | ⟨1, _⟩ => show win0_4.index t (1 : Fin 2) * 1024 + 1 * k.val = k.val; omega

theorem blk7_apply (c : Dev nD) (t : Fin cfg0.N) (n : Fin 128) :
    blk V c 7 t (ix1 n) = V c main_arg6 (ix1 n) := by
  obtain ⟨e0r, e0c, e1r, e1c, e2r, e2c, e9r, e9c, e10r, e10c, e11r, e11c, e3r, e3c, e4r, e4c, e5r, e5c, e6r, e7r, e8r⟩ := idx_facts t
  show V c main_arg6 (((cfg0.win 7).blk t).view.emb (ix1 n)) = _
  refine congrArg (V c main_arg6) (funext fun ax => Fin.ext ?_)
  match ax with
  | ⟨0, _⟩ => show win0_7.index t (0 : Fin 1) * 128 + 1 * n.val = n.val; omega

theorem emb10_apply (t : Fin cfg0.N) (a : Fin 512) (n : Fin 128) :
    ((cfg0.win 10).blk t).view.emb (ix2 a n) = ix2 (rowAt t a) n := by
  obtain ⟨e0r, e0c, e1r, e1c, e2r, e2c, e9r, e9c, e10r, e10c, e11r, e11c, e3r, e3c, e4r, e4c, e5r, e5c, e6r, e7r, e8r⟩ := idx_facts t
  refine funext fun ax => Fin.ext ?_
  match ax with
  | ⟨0, _⟩ => show win0_10.index t (0 : Fin 2) * 512 + 1 * a.val = 512 * t.val + a.val; omega
  | ⟨1, _⟩ => show win0_10.index t (1 : Fin 2) * 128 + 1 * n.val = n.val; omega

theorem blk2_apply (c : Dev nD) (t : Fin cfg0.N) (a : Fin 512) (k : Fin 1024) :
    blk V c 2 t (ix2 a k) = V c main_v2 (ix2 (rowAt t a) k) := by
  obtain ⟨e0r, e0c, e1r, e1c, e2r, e2c, e9r, e9c, e10r, e10c, e11r, e11c, e3r, e3c, e4r, e4c, e5r, e5c, e6r, e7r, e8r⟩ := idx_facts t
  show V c main_v2 (((cfg0.win 2).blk t).view.emb (ix2 a k)) = _
  refine congrArg (V c main_v2) (funext fun ax => Fin.ext ?_)
  match ax with
  | ⟨0, _⟩ => show win0_2.index t (0 : Fin 2) * 512 + 1 * a.val = 512 * t.val + a.val; omega
  | ⟨1, _⟩ => show win0_2.index t (1 : Fin 2) * 1024 + 1 * k.val = k.val; omega

theorem blk5_apply (c : Dev nD) (t : Fin cfg0.N) (n : Fin 128) (k : Fin 1024) :
    blk V c 5 t (ix2 n k) = V c main_arg7 (ix2 n k) := by
  obtain ⟨e0r, e0c, e1r, e1c, e2r, e2c, e9r, e9c, e10r, e10c, e11r, e11c, e3r, e3c, e4r, e4c, e5r, e5c, e6r, e7r, e8r⟩ := idx_facts t
  show V c main_arg7 (((cfg0.win 5).blk t).view.emb (ix2 n k)) = _
  refine congrArg (V c main_arg7) (funext fun ax => Fin.ext ?_)
  match ax with
  | ⟨0, _⟩ => show win0_5.index t (0 : Fin 2) * 128 + 1 * n.val = n.val; omega
  | ⟨1, _⟩ => show win0_5.index t (1 : Fin 2) * 1024 + 1 * k.val = k.val; omega

theorem blk8_apply (c : Dev nD) (t : Fin cfg0.N) (n : Fin 128) :
    blk V c 8 t (ix1 n) = V c main_arg8 (ix1 n) := by
  obtain ⟨e0r, e0c, e1r, e1c, e2r, e2c, e9r, e9c, e10r, e10c, e11r, e11c, e3r, e3c, e4r, e4c, e5r, e5c, e6r, e7r, e8r⟩ := idx_facts t
  show V c main_arg8 (((cfg0.win 8).blk t).view.emb (ix1 n)) = _
  refine congrArg (V c main_arg8) (funext fun ax => Fin.ext ?_)
  match ax with
  | ⟨0, _⟩ => show win0_8.index t (0 : Fin 1) * 128 + 1 * n.val = n.val; omega

theorem emb11_apply (t : Fin cfg0.N) (a : Fin 512) (n : Fin 128) :
    ((cfg0.win 11).blk t).view.emb (ix2 a n) = ix2 (rowAt t a) n := by
  obtain ⟨e0r, e0c, e1r, e1c, e2r, e2c, e9r, e9c, e10r, e10c, e11r, e11c, e3r, e3c, e4r, e4c, e5r, e5c, e6r, e7r, e8r⟩ := idx_facts t
  refine funext fun ax => Fin.ext ?_
  match ax with
  | ⟨0, _⟩ => show win0_11.index t (0 : Fin 2) * 512 + 1 * a.val = 512 * t.val + a.val; omega
  | ⟨1, _⟩ => show win0_11.index t (1 : Fin 2) * 128 + 1 * n.val = n.val; omega

/-! ## The output arrays after the region -/

/-- A buffer's contents read as a function from a literal index type to the extended reals: the buffer's location
    has that shape and a float element type, and the two function types agree by unfolding the location's type. -/
abbrev rd (S : Shape) (f : S.Idx → EReal) : S.Idx → EReal := f

/-- Row `r`, column `n` of output 9 after the region: the projection of row `r`. -/
def val9 (c : Dev nD) (r : Fin 16384) (n : Fin 128) : EReal :=
  (∑ d : Fin 1024, rd S16384x1024 (V c main_v0) (ix2 r d) * rd S128x1024 (V c main_arg3) (ix2 n d)) + rd S128 (V c main_arg4) (ix1 n)

/-- The whole array. -/
def G9 (c : Dev nD) : S16384x128.Idx → EReal := fun i => val9 V c (i 0) (i 1)

/-- What point `t` writes back to output 9 is block `t` of that array. -/
theorem flushed9_eq (c : Dev nD) (t : Fin cfg0.N) :
    (dat (F := Ideal) V c).flushed 9 t = ((cfg0.win 9).blk t).view.read (Elt Ideal) (G9 V c) := by
  show (cfg0.win 9).cut (grid0.coords t) ((dat (F := Ideal) V c).after 9 t) = _
  rw [after_9]
  unfold left9
  rw [View.canon_unit_zero hz2]
  simp only [View.ld_unit_zero (S := S512x1024) hz2, View.ld_unit_zero (S := S128x1024) hz2, View.ld_unit_zero (S := S128) hz1]
  funext j
  obtain ⟨a, n, rfl⟩ : ∃ (a : Fin 512) (n : Fin 128), j = ix2 a n := ⟨j 0, j 1, eq_ix2 j⟩
  show k0_pay1 (blk V c 0 t) (blk V c 3 t) (blk V c 6 t) (ix2 a n) = G9 V c (((cfg0.win 9).blk t).view.emb (ix2 a n))
  rw [pay1_apply, emb9_apply, blk6_apply]
  simp only [blk0_apply, blk3_apply]
  rfl

/-- Every index of output 9 is in the block of the point its row falls in. -/
theorem cover9 (i : S16384x128.Idx) :
    ∃ t : Fin cfg0.N, (cfg0.win 9).flush t = true ∧ i ∈ ((cfg0.win 9).blk t).view.set := by
  have hi0 : (i 0).val < 16384 := idx2_lt0 i
  have hi1 : (i 1).val < 128 := idx2_lt1 i
  have ht : (i 0).val / 512 < cfg0.N := lt_of_lt_of_eq (show (i 0).val / 512 < 32 by omega) N_0.symm
  refine ⟨⟨(i 0).val / 512, ht⟩, flush0_9 _, ?_⟩
  have hf := idx_facts ⟨(i 0).val / 512, ht⟩
  obtain ⟨e0r, e0c, e1r, e1c, e2r, e2c, e9r, e9c, e10r, e10c, e11r, e11c, e3r, e3c, e4r, e4c, e5r, e5c, e6r, e7r, e8r⟩ := hf
  show i ∈ ((View.whole main_v3_0).slice (win0_9.rect ⟨(i 0).val / 512, ht⟩)).set
  rw [View.set_slice_whole, Rect.mem_set_unit]
  intro ax
  match ax with
  | ⟨0, _⟩ =>
    show win0_9.index ⟨(i 0).val / 512, ht⟩ (0 : Fin 2) * 512 ≤ (i 0).val ∧ (i 0).val < win0_9.index ⟨(i 0).val / 512, ht⟩ (0 : Fin 2) * 512 + 512
    rw [e9r]; show (i 0).val / 512 * 512 ≤ (i 0).val ∧ (i 0).val < (i 0).val / 512 * 512 + 512; omega
  | ⟨1, _⟩ =>
    show win0_9.index ⟨(i 0).val / 512, ht⟩ (1 : Fin 2) * 128 ≤ (i 1).val ∧ (i 1).val < win0_9.index ⟨(i 0).val / 512, ht⟩ (1 : Fin 2) * 128 + 128
    rw [e9c]; omega

/-- Output 9 after the region, at row `r` and column `n`. -/
theorem out9 (c : Dev nD) (r : Fin 16384) (n : Fin 128) :
    (dat (F := Ideal) V c).arrAt 9 cfg0.N (ix2 r n)
      = (∑ d : Fin 1024, rd S16384x1024 (V c main_v0) (ix2 r d) * rd S128x1024 (V c main_arg3) (ix2 n d)) + rd S128 (V c main_arg4) (ix1 n) := by
  rw [(dat (F := Ideal) V c).arrAt_eq_of_cover 9 (G9 V c) (fun t _ => flushed9_eq V c t) (cover9)]
  rfl

/-- Row `r`, column `n` of output 10 after the region: the projection of row `r`. -/
def val10 (c : Dev nD) (r : Fin 16384) (n : Fin 128) : EReal :=
  (∑ d : Fin 1024, rd S16384x1024 (V c main_v1) (ix2 r d) * rd S128x1024 (V c main_arg5) (ix2 n d)) + rd S128 (V c main_arg6) (ix1 n)

/-- The whole array. -/
def G10 (c : Dev nD) : S16384x128.Idx → EReal := fun i => val10 V c (i 0) (i 1)

/-- What point `t` writes back to output 10 is block `t` of that array. -/
theorem flushed10_eq (c : Dev nD) (t : Fin cfg0.N) :
    (dat (F := Ideal) V c).flushed 10 t = ((cfg0.win 10).blk t).view.read (Elt Ideal) (G10 V c) := by
  show (cfg0.win 10).cut (grid0.coords t) ((dat (F := Ideal) V c).after 10 t) = _
  rw [after_10]
  unfold left10
  rw [View.canon_unit_zero hz2]
  simp only [View.ld_unit_zero (S := S512x1024) hz2, View.ld_unit_zero (S := S128x1024) hz2, View.ld_unit_zero (S := S128) hz1]
  funext j
  obtain ⟨a, n, rfl⟩ : ∃ (a : Fin 512) (n : Fin 128), j = ix2 a n := ⟨j 0, j 1, eq_ix2 j⟩
  show k0_pay2 (blk V c 1 t) (blk V c 4 t) (blk V c 7 t) (ix2 a n) = G10 V c (((cfg0.win 10).blk t).view.emb (ix2 a n))
  rw [pay2_apply, emb10_apply, blk7_apply]
  simp only [blk1_apply, blk4_apply]
  rfl

/-- Every index of output 10 is in the block of the point its row falls in. -/
theorem cover10 (i : S16384x128.Idx) :
    ∃ t : Fin cfg0.N, (cfg0.win 10).flush t = true ∧ i ∈ ((cfg0.win 10).blk t).view.set := by
  have hi0 : (i 0).val < 16384 := idx2_lt0 i
  have hi1 : (i 1).val < 128 := idx2_lt1 i
  have ht : (i 0).val / 512 < cfg0.N := lt_of_lt_of_eq (show (i 0).val / 512 < 32 by omega) N_0.symm
  refine ⟨⟨(i 0).val / 512, ht⟩, flush0_10 _, ?_⟩
  have hf := idx_facts ⟨(i 0).val / 512, ht⟩
  obtain ⟨e0r, e0c, e1r, e1c, e2r, e2c, e9r, e9c, e10r, e10c, e11r, e11c, e3r, e3c, e4r, e4c, e5r, e5c, e6r, e7r, e8r⟩ := hf
  show i ∈ ((View.whole main_v3_1).slice (win0_10.rect ⟨(i 0).val / 512, ht⟩)).set
  rw [View.set_slice_whole, Rect.mem_set_unit]
  intro ax
  match ax with
  | ⟨0, _⟩ =>
    show win0_10.index ⟨(i 0).val / 512, ht⟩ (0 : Fin 2) * 512 ≤ (i 0).val ∧ (i 0).val < win0_10.index ⟨(i 0).val / 512, ht⟩ (0 : Fin 2) * 512 + 512
    rw [e10r]; show (i 0).val / 512 * 512 ≤ (i 0).val ∧ (i 0).val < (i 0).val / 512 * 512 + 512; omega
  | ⟨1, _⟩ =>
    show win0_10.index ⟨(i 0).val / 512, ht⟩ (1 : Fin 2) * 128 ≤ (i 1).val ∧ (i 1).val < win0_10.index ⟨(i 0).val / 512, ht⟩ (1 : Fin 2) * 128 + 128
    rw [e10c]; omega

/-- Output 10 after the region, at row `r` and column `n`. -/
theorem out10 (c : Dev nD) (r : Fin 16384) (n : Fin 128) :
    (dat (F := Ideal) V c).arrAt 10 cfg0.N (ix2 r n)
      = (∑ d : Fin 1024, rd S16384x1024 (V c main_v1) (ix2 r d) * rd S128x1024 (V c main_arg5) (ix2 n d)) + rd S128 (V c main_arg6) (ix1 n) := by
  rw [(dat (F := Ideal) V c).arrAt_eq_of_cover 10 (G10 V c) (fun t _ => flushed10_eq V c t) (cover10)]
  rfl

/-- Row `r`, column `n` of output 11 after the region: the projection of row `r`. -/
def val11 (c : Dev nD) (r : Fin 16384) (n : Fin 128) : EReal :=
  (∑ d : Fin 1024, rd S16384x1024 (V c main_v2) (ix2 r d) * rd S128x1024 (V c main_arg7) (ix2 n d)) + rd S128 (V c main_arg8) (ix1 n)

/-- The whole array. -/
def G11 (c : Dev nD) : S16384x128.Idx → EReal := fun i => val11 V c (i 0) (i 1)

/-- What point `t` writes back to output 11 is block `t` of that array. -/
theorem flushed11_eq (c : Dev nD) (t : Fin cfg0.N) :
    (dat (F := Ideal) V c).flushed 11 t = ((cfg0.win 11).blk t).view.read (Elt Ideal) (G11 V c) := by
  show (cfg0.win 11).cut (grid0.coords t) ((dat (F := Ideal) V c).after 11 t) = _
  rw [after_11]
  unfold left11
  rw [View.canon_unit_zero hz2]
  simp only [View.ld_unit_zero (S := S512x1024) hz2, View.ld_unit_zero (S := S128x1024) hz2, View.ld_unit_zero (S := S128) hz1]
  funext j
  obtain ⟨a, n, rfl⟩ : ∃ (a : Fin 512) (n : Fin 128), j = ix2 a n := ⟨j 0, j 1, eq_ix2 j⟩
  show k0_pay3 (blk V c 2 t) (blk V c 5 t) (blk V c 8 t) (ix2 a n) = G11 V c (((cfg0.win 11).blk t).view.emb (ix2 a n))
  rw [pay3_apply, emb11_apply, blk8_apply]
  simp only [blk2_apply, blk5_apply]
  rfl

/-- Every index of output 11 is in the block of the point its row falls in. -/
theorem cover11 (i : S16384x128.Idx) :
    ∃ t : Fin cfg0.N, (cfg0.win 11).flush t = true ∧ i ∈ ((cfg0.win 11).blk t).view.set := by
  have hi0 : (i 0).val < 16384 := idx2_lt0 i
  have hi1 : (i 1).val < 128 := idx2_lt1 i
  have ht : (i 0).val / 512 < cfg0.N := lt_of_lt_of_eq (show (i 0).val / 512 < 32 by omega) N_0.symm
  refine ⟨⟨(i 0).val / 512, ht⟩, flush0_11 _, ?_⟩
  have hf := idx_facts ⟨(i 0).val / 512, ht⟩
  obtain ⟨e0r, e0c, e1r, e1c, e2r, e2c, e9r, e9c, e10r, e10c, e11r, e11c, e3r, e3c, e4r, e4c, e5r, e5c, e6r, e7r, e8r⟩ := hf
  show i ∈ ((View.whole main_v3_2).slice (win0_11.rect ⟨(i 0).val / 512, ht⟩)).set
  rw [View.set_slice_whole, Rect.mem_set_unit]
  intro ax
  match ax with
  | ⟨0, _⟩ =>
    show win0_11.index ⟨(i 0).val / 512, ht⟩ (0 : Fin 2) * 512 ≤ (i 0).val ∧ (i 0).val < win0_11.index ⟨(i 0).val / 512, ht⟩ (0 : Fin 2) * 512 + 512
    rw [e11r]; show (i 0).val / 512 * 512 ≤ (i 0).val ∧ (i 0).val < (i 0).val / 512 * 512 + 512; omega
  | ⟨1, _⟩ =>
    show win0_11.index ⟨(i 0).val / 512, ht⟩ (1 : Fin 2) * 128 ≤ (i 1).val ∧ (i 1).val < win0_11.index ⟨(i 0).val / 512, ht⟩ (1 : Fin 2) * 128 + 128
    rw [e11c]; omega

/-- Output 11 after the region, at row `r` and column `n`. -/
theorem out11 (c : Dev nD) (r : Fin 16384) (n : Fin 128) :
    (dat (F := Ideal) V c).arrAt 11 cfg0.N (ix2 r n)
      = (∑ d : Fin 1024, rd S16384x1024 (V c main_v2) (ix2 r d) * rd S128x1024 (V c main_arg7) (ix2 n d)) + rd S128 (V c main_arg8) (ix1 n) := by
  rw [(dat (F := Ideal) V c).arrAt_eq_of_cover 11 (G11 V c) (fun t _ => flushed11_eq V c t) (cover11)]
  rfl

end Cert.KernelIdeal.Reg0

end
-- ==== Proof.LibOnlineSoftmax.lean ====
/-
  The online (blockwise, rescaled) softmax accumulation on the extended reals equals the plain
  softmax-weighted sum.

  A row of n · w real scores t and values v is read as n blocks of w entries. The accumulation keeps a
  running maximum m, a denominator l and an accumulator a, from (−∞, 0, 0); a block with scores S and
  values V moves them to
    m' = max m (max_j S j),   l' = exp (m − m') · l + Σ_j exp (S j − m'),
    a' = exp (m − m') · a + Σ_j exp (S j − m') · V j.
  After k ≥ 1 blocks the state is a real reference point μ with l = Σ exp (t − μ) and
  a = Σ exp (t − μ) · v over the entries of those blocks: the first block starts from exp (−∞) = 0, and a
  later one rescales by exp (μ − μ') · exp (t − μ) = exp (t − μ'). The quotient a / l does not depend on
  the reference point, so after all n blocks it is the softmax-weighted sum Σ_s (exp (t s − M) / Σ exp (t − M)) · v s
  taken at the row's maximum M.
-/
import Idealize.ShloMosaic.PureOps.Ideal

noncomputable section

namespace Cert.OnlineSoftmax

open Idealize.ShloMosaic
open scoped BigOperators

variable {n w : ℕ}

/-- One block: from the running maximum m, denominator l and accumulator a to the next. -/
def step (S Vv : Fin w → EReal) (st : EReal × EReal × EReal) : EReal × EReal × EReal :=
  (max st.1 ((Finset.univ : Finset (Fin w)).fold max ⊥ S),
   Ideal.exp (st.1 - max st.1 ((Finset.univ : Finset (Fin w)).fold max ⊥ S)) * st.2.1 + ∑ j : Fin w, Ideal.exp (S j - max st.1 ((Finset.univ : Finset (Fin w)).fold max ⊥ S)),
   Ideal.exp (st.1 - max st.1 ((Finset.univ : Finset (Fin w)).fold max ⊥ S)) * st.2.2 + ∑ j : Fin w, Ideal.exp (S j - max st.1 ((Finset.univ : Finset (Fin w)).fold max ⊥ S)) * Vv j)

/-- The state after the first k blocks, from (⊥, 0, 0). -/
def run (S Vv : Fin n → Fin w → EReal) : (k : ℕ) → k ≤ n → EReal × EReal × EReal
  | 0, _ => (⊥, 0, 0)
  | k + 1, h => step (S ⟨k, h⟩) (Vv ⟨k, h⟩) (run S Vv k (Nat.le_of_succ_le h))

/-- The coercion of a finite sum of reals is the sum of the coercions. -/
theorem coe_sum {ι : Type*} (s : Finset ι) (f : ι → ℝ) :
    ((∑ i ∈ s, f i : ℝ) : EReal) = ∑ i ∈ s, (f i : EReal) := by
  classical
  refine Finset.induction_on s (by simp) fun a s ha ih => ?_
  rw [Finset.sum_insert ha, Finset.sum_insert ha, EReal.coe_add, ih]

/-- A fold of `max` from `⊥` over a nonempty finite family of reals is a real. -/
theorem fold_max_coe {ι : Type*} (s : Finset ι) (hs : s.Nonempty) (f : ι → ℝ) :
    ∃ x : ℝ, s.fold max ⊥ (fun i => (f i : EReal)) = (x : EReal) := by
  obtain ⟨a, ha⟩ := hs
  have h1 : s.fold max ⊥ (fun i => (f i : EReal)) ≠ ⊤ := by
    apply ne_of_lt
    rw [Finset.fold_max_lt]
    exact ⟨bot_lt_top, fun i _ => EReal.coe_lt_top _⟩
  have h2 : s.fold max ⊥ (fun i => (f i : EReal)) ≠ ⊥ := by
    apply ne_of_gt
    apply lt_of_lt_of_le (EReal.bot_lt_coe (f a))
    rw [Finset.le_fold_max]
    exact Or.inr ⟨a, ha, le_rfl⟩
  exact ⟨_, (EReal.coe_toReal h1 h2).symm⟩

/-- The coercion preserves `max`. -/
theorem coe_max (a b : ℝ) : ((max a b : ℝ) : EReal) = max (a : EReal) (b : EReal) :=
  EReal.coe_strictMono.monotone.map_max

/-- The first block, from the initial state. -/
theorem step_init (s u : Fin w → ℝ) (x : ℝ)
    (hx : (Finset.univ : Finset (Fin w)).fold max ⊥ (fun j => (s j : EReal)) = x) :
    step (fun j => (s j : EReal)) (fun j => (u j : EReal)) (⊥, 0, 0)
      = ((x : EReal), ((∑ j, Real.exp (s j - x) : ℝ) : EReal), ((∑ j, Real.exp (s j - x) * u j : ℝ) : EReal)) := by
  unfold step
  simp only [hx, bot_le, max_eq_right, EReal.bot_sub, Ideal.exp_bot, mul_zero, zero_add, ← EReal.coe_sub,
    Ideal.exp_coe, ← EReal.coe_mul, ← coe_sum]

/-- A later block, from a state of reals. -/
theorem step_coe (s u : Fin w → ℝ) (x μ L A : ℝ)
    (hx : (Finset.univ : Finset (Fin w)).fold max ⊥ (fun j => (s j : EReal)) = x) :
    step (fun j => (s j : EReal)) (fun j => (u j : EReal)) ((μ : EReal), (L : EReal), (A : EReal))
      = (((max μ x : ℝ) : EReal),
         ((Real.exp (μ - max μ x) * L + ∑ j, Real.exp (s j - max μ x) : ℝ) : EReal),
         ((Real.exp (μ - max μ x) * A + ∑ j, Real.exp (s j - max μ x) * u j : ℝ) : EReal)) := by
  unfold step
  simp only [hx, ← coe_max, ← EReal.coe_sub, Ideal.exp_coe, ← EReal.coe_mul, ← coe_sum, ← EReal.coe_add]

/-- The indices of the first k blocks. -/
def pre (n k : ℕ) : Finset (Fin n) := Finset.univ.filter fun i => i.val < k

/-- The first k + 1 blocks are block k and the first k blocks. -/
theorem pre_succ {k : ℕ} (h : k + 1 ≤ n) : pre n (k + 1) = insert ⟨k, h⟩ (pre n k) := by
  ext i
  simp only [pre, Finset.mem_filter, Finset.mem_univ, true_and, Finset.mem_insert, Fin.ext_iff]
  omega

/-- Block k is not among the first k blocks. -/
theorem not_mem_pre {k : ℕ} (h : k + 1 ≤ n) : (⟨k, h⟩ : Fin n) ∉ pre n k := by
  simp [pre]

/-- There is no block before the first. -/
theorem pre_zero : pre n 0 = ∅ := by
  simp [pre]

/-- The first n blocks are all of them. -/
theorem pre_self : pre n n = Finset.univ := by
  ext i; simp [pre]

/-- Moving the reference point of a sum of weighted exponentials from μ to μ'. -/
theorem rescale {ι : Type*} (s : Finset ι) (f g : ι → ℝ) (μ μ' : ℝ) :
    Real.exp (μ - μ') * ∑ i ∈ s, Real.exp (f i - μ) * g i = ∑ i ∈ s, Real.exp (f i - μ') * g i := by
  rw [Finset.mul_sum]
  refine Finset.sum_congr rfl fun i _ => ?_
  rw [← mul_assoc, ← Real.exp_add]
  congr 2
  ring

/-- Moving the reference point of a sum of exponentials from μ to μ'. -/
theorem rescale_one {ι : Type*} (s : Finset ι) (f : ι → ℝ) (μ μ' : ℝ) :
    Real.exp (μ - μ') * ∑ i ∈ s, Real.exp (f i - μ) = ∑ i ∈ s, Real.exp (f i - μ') := by
  simpa using rescale s f (fun _ => 1) μ μ'

/-- After k ≥ 1 blocks of reals the state is a real reference point μ together with the sums, over the
    entries of those blocks, of exp (t − μ) and of exp (t − μ) · v. -/
theorem run_coe (t v : Fin n → Fin w → ℝ) (hw : 0 < w) : ∀ (k : ℕ) (h : k ≤ n), 0 < k →
    ∃ μ : ℝ, run (fun i j => (t i j : EReal)) (fun i j => (v i j : EReal)) k h
      = ((μ : EReal),
         ((∑ p ∈ pre n k ×ˢ (Finset.univ : Finset (Fin w)), Real.exp (t p.1 p.2 - μ) : ℝ) : EReal),
         ((∑ p ∈ pre n k ×ˢ (Finset.univ : Finset (Fin w)), Real.exp (t p.1 p.2 - μ) * v p.1 p.2 : ℝ) : EReal)) := by
  intro k
  induction k with
  | zero => intro _ h0; exact absurd h0 (lt_irrefl 0)
  | succ k ih =>
    intro h _
    haveI : Nonempty (Fin w) := ⟨⟨0, hw⟩⟩
    obtain ⟨x, hx⟩ := fold_max_coe (Finset.univ : Finset (Fin w)) Finset.univ_nonempty (t ⟨k, h⟩)
    have ins : ∀ F : Fin n × Fin w → ℝ, ∑ p ∈ pre n (k + 1) ×ˢ (Finset.univ : Finset (Fin w)), F p
        = ∑ j, F (⟨k, h⟩, j) + ∑ p ∈ pre n k ×ˢ (Finset.univ : Finset (Fin w)), F p := by
      intro F
      rw [pre_succ h, Finset.sum_product, Finset.sum_insert (not_mem_pre h), Finset.sum_product]
    rcases Nat.eq_zero_or_pos k with rfl | hk
    · refine ⟨x, ?_⟩
      show step _ _ (⊥, 0, 0) = _
      rw [step_init _ _ x hx, ins, ins, pre_zero]
      simp
    · obtain ⟨μ, hμ⟩ := ih (Nat.le_of_succ_le h) hk
      refine ⟨max μ x, ?_⟩
      show step _ _ (run _ _ k _) = _
      rw [hμ, step_coe _ _ x μ _ _ hx, rescale_one, rescale, ins, ins]
      exact Prod.ext rfl (Prod.ext (congrArg Real.toEReal (add_comm _ _)) (congrArg Real.toEReal (add_comm _ _)))

/-- The online accumulation over all blocks, divided by its denominator and scaled, is the
    softmax-weighted sum: both are the quotient of Σ exp (t − μ) · v by Σ exp (t − μ), which does not
    depend on the real reference point μ. -/
theorem final (hn : 0 < n) (hw : 0 < w) (T Vv : Fin (n * w) → EReal) (hT : ∀ s, ∃ x : ℝ, T s = (x : EReal)) (hV : ∀ s, ∃ x : ℝ, Vv s = (x : EReal)) (c : EReal) (hc : ∃ x : ℝ, c = (x : EReal)) :
    ((run (fun i j => T (finProdFinEquiv (i, j))) (fun i j => Vv (finProdFinEquiv (i, j))) n le_rfl).2.2
        * Ideal.div 1 (run (fun i j => T (finProdFinEquiv (i, j))) (fun i j => Vv (finProdFinEquiv (i, j))) n le_rfl).2.1) * c
      = ∑ s : Fin (n * w), (Ideal.div (Ideal.exp (T s - (Finset.univ : Finset (Fin (n * w))).fold max ⊥ T))
            (∑ s' : Fin (n * w), Ideal.exp (T s' - (Finset.univ : Finset (Fin (n * w))).fold max ⊥ T)) * c) * Vv s := by
  choose τ hτ using hT
  choose ν hν using hV
  obtain ⟨γ, rfl⟩ := hc
  obtain rfl : T = fun s => (τ s : EReal) := funext hτ
  obtain rfl : Vv = fun s => (ν s : EReal) := funext hν
  haveI : Nonempty (Fin (n * w)) := ⟨⟨0, Nat.mul_pos hn hw⟩⟩
  obtain ⟨M, hM⟩ := fold_max_coe (Finset.univ : Finset (Fin (n * w))) Finset.univ_nonempty τ
  obtain ⟨μ, hμ⟩ := run_coe (fun i j => τ (finProdFinEquiv (i, j))) (fun i j => ν (finProdFinEquiv (i, j))) hw n le_rfl hn
  have tot : ∀ F : Fin (n * w) → ℝ,
      ∑ p ∈ pre n n ×ˢ (Finset.univ : Finset (Fin w)), F (finProdFinEquiv (p.1, p.2)) = ∑ s, F s := by
    intro F
    rw [pre_self, Finset.univ_product_univ]
    exact Equiv.sum_comp finProdFinEquiv F
  have LMpos : 0 < ∑ s, Real.exp (τ s - M) :=
    Finset.sum_pos (fun s _ => Real.exp_pos _) Finset.univ_nonempty
  have Lμ : ∑ p ∈ pre n n ×ˢ (Finset.univ : Finset (Fin w)), Real.exp (τ (finProdFinEquiv (p.1, p.2)) - μ)
      = Real.exp (M - μ) * ∑ s, Real.exp (τ s - M) := by
    rw [tot (fun s => Real.exp (τ s - μ)), rescale_one]
  have Aμ : ∑ p ∈ pre n n ×ˢ (Finset.univ : Finset (Fin w)),
        Real.exp (τ (finProdFinEquiv (p.1, p.2)) - μ) * ν (finProdFinEquiv (p.1, p.2))
      = Real.exp (M - μ) * ∑ s, Real.exp (τ s - M) * ν s := by
    rw [tot (fun s => Real.exp (τ s - μ) * ν s), rescale]
  beta_reduce
  rw [hμ]
  dsimp only
  rw [Lμ, Aμ, hM, Ideal.div_coe (mul_pos (Real.exp_pos _) LMpos).ne']
  have rhs : ∀ s, (Ideal.div (Ideal.exp ((τ s : EReal) - (M : EReal))) (∑ s', Ideal.exp ((τ s' : EReal) - (M : EReal))) * (γ : EReal)) * (ν s : EReal)
      = ((Real.exp (τ s - M) * ν s * ((1 / ∑ s', Real.exp (τ s' - M)) * γ) : ℝ) : EReal) := by
    intro s
    simp only [← EReal.coe_sub, Ideal.exp_coe, ← coe_sum]
    rw [Ideal.div_coe LMpos.ne', ← EReal.coe_mul, ← EReal.coe_mul, ← EReal.coe_mul]
    congr 1
    ring
  simp only [rhs]
  rw [← coe_sum, one_mul, ← EReal.coe_mul, ← EReal.coe_mul, ← Finset.sum_mul]
  congr 1
  have e0 : Real.exp (M - μ) ≠ 0 := (Real.exp_pos _).ne'
  field_simp

/-- The f32 word 0x3F800000 denotes the extended real 1. -/
theorem one_word : Ideal.ofBits .f32 0x3F800000#32 = 1 := by
  simp [Ideal.ofBits, Ideal.ieee]
  rw [← EReal.coe_mul, ← EReal.coe_one]
  congr 1
  norm_num

/-- The f32 word 0x3D000000 denotes a real. -/
theorem scale_real : ∃ x : ℝ, Ideal.ofBits .f32 0x3D000000#32 = (x : EReal) := by
  simp [Ideal.ofBits, Ideal.ieee]
  exact ⟨_, (EReal.coe_mul _ _).symm⟩

end Cert.OnlineSoftmax
-- ==== Proof.Law.lean ====
/-
  The two arrangements of the query-axis softmax agree on real scores.

  For a column t of 4096 real scores write w(q) = exp (t q) / Σ_q' exp (t q').  The kernel forms the column
  statistic μ + log Σ exp (t − μ) chunk by chunk, for the reference point μ its running maximum ends at, and
  weights query q by exp (t q − statistic); the reference subtracts the column maximum M and divides
  exp (t q − M) by Σ exp (t − M).  Both are w(q): a quotient of this kind does not depend on the reference
  point.  A sum over 4096 keys accumulated sixteen chunks at a time is the plain sum.
-/
import proofs.«135563_j8478265442573_2_alg».proof.Proof.Spec
import proofs.«135563_j8478265442573_2_alg».proof.Proof.LibOnlineSoftmax

noncomputable section

namespace Cert.Law

open Idealize.ShloMosaic Cert.Spec Cert.OnlineSoftmax
open scoped BigOperators

/-- The softmax weight of query `q` in a column of real scores. -/
def softw (t : Fin 4096 → ℝ) (q : Fin 4096) : ℝ := Real.exp (t q) / ∑ q', Real.exp (t q')

/-- A column as sixteen blocks of 256. -/
def blk (s : Fin 4096 → EReal) : Fin 16 → Fin 256 → EReal :=
  fun i j => s ⟨256 * i.val + j.val, by have := i.isLt; have := j.isLt; omega⟩

/-- The position of entry `j` of block `i` in the column. -/
def pos : Fin 16 × Fin 256 ≃ Fin 4096 where
  toFun p := ⟨256 * p.1.val + p.2.val, by have := p.1.isLt; have := p.2.isLt; omega⟩
  invFun k := (⟨k.val / 256, by have := k.isLt; omega⟩, ⟨k.val % 256, Nat.mod_lt _ (by norm_num)⟩)
  left_inv p := by
    obtain ⟨⟨i, hi⟩, ⟨j, hj⟩⟩ := p
    refine Prod.ext (Fin.ext ?_) (Fin.ext ?_)
    · show (256 * i + j) / 256 = i; omega
    · show (256 * i + j) % 256 = j; omega
  right_inv k := Fin.ext (by show 256 * (k.val / 256) + k.val % 256 = k.val; omega)

/-- The running pair of `Spec.chunks` is the first two components of the blockwise accumulation. -/
theorem chunks_eq_run (s : Fin 4096 → EReal) : ∀ (k : ℕ) (h : k ≤ 16),
    chunks s k = ((run (blk s) (fun _ _ => 0) k h).1, (run (blk s) (fun _ _ => 0) k h).2.1) := by
  intro k
  induction k with
  | zero => intro _; rfl
  | succ k ih =>
    intro h
    have hk : k < 16 := h
    rw [chunks, dif_pos hk, ih (Nat.le_of_succ_le h)]
    rfl

/-- After all sixteen chunks of a real column the running pair is a real reference point and the sum of
    exp (t − that point) over the whole column. -/
theorem chunks_real (t : Fin 4096 → ℝ) :
    ∃ μ : ℝ, chunks (fun q => (t q : EReal)) 16 = ((μ : EReal), ((∑ q, Real.exp (t q - μ) : ℝ) : EReal)) := by
  obtain ⟨μ, hμ⟩ := run_coe (n := 16) (w := 256) (fun i j => t (pos (i, j))) (fun _ _ => 0) (by norm_num) 16 le_rfl (by norm_num)
  refine ⟨μ, ?_⟩
  rw [chunks_eq_run _ 16 le_rfl]
  have e : run (blk fun q => (t q : EReal)) (fun _ _ => 0) 16 le_rfl
      = run (fun i j => ((t (pos (i, j)) : ℝ) : EReal)) (fun i j => (((0 : ℝ)) : EReal)) 16 le_rfl := by
    congr 1
  rw [e, hμ]
  refine Prod.ext rfl (congrArg Real.toEReal ?_)
  show ∑ p ∈ pre 16 16 ×ˢ (Finset.univ : Finset (Fin 256)), Real.exp (t (pos (p.1, p.2)) - μ) = _
  rw [pre_self, Finset.univ_product_univ]
  exact Equiv.sum_comp pos fun q => Real.exp (t q - μ)

/-- A quotient exp (t q − μ) / Σ exp (t − μ) is the softmax weight, whatever the real reference point. -/
theorem quot_eq_softw (t : Fin 4096 → ℝ) (μ : ℝ) (q : Fin 4096) :
    Real.exp (t q - μ) / ∑ q', Real.exp (t q' - μ) = softw t q := by
  unfold softw
  have h : ∀ x, Real.exp (x - μ) = Real.exp x * Real.exp (-μ) := fun x => by rw [← Real.exp_add]; ring_nf
  simp only [h, ← Finset.sum_mul]
  have e0 : Real.exp (-μ) ≠ 0 := (Real.exp_pos _).ne'
  field_simp

/-- Every sum of exponentials over the column is positive. -/
theorem sum_exp_pos (t : Fin 4096 → ℝ) (μ : ℝ) : 0 < ∑ q', Real.exp (t q' - μ) :=
  Finset.sum_pos (fun _ _ => Real.exp_pos _) ⟨⟨0, by norm_num⟩, Finset.mem_univ _⟩

/-- THE KERNEL'S WEIGHT: exp of the score less the chunkwise column statistic is the softmax weight. -/
theorem kernel_weight (t : Fin 4096 → ℝ) (q : Fin 4096) :
    Ideal.exp ((t q : EReal) - stat (fun q' => (t q' : EReal))) = ((softw t q : ℝ) : EReal) := by
  obtain ⟨μ, hμ⟩ := chunks_real t
  have hpos := sum_exp_pos t μ
  unfold stat
  rw [hμ]
  dsimp only
  rw [Ideal.log_coe, if_neg (not_le.mpr hpos), ← EReal.coe_add, ← EReal.coe_sub, Ideal.exp_coe]
  refine congrArg Real.toEReal ?_
  rw [← quot_eq_softw t μ q, show t q - (μ + Real.log (∑ q', Real.exp (t q' - μ))) = (t q - μ) - Real.log (∑ q', Real.exp (t q' - μ)) by ring,
    Real.exp_sub, Real.exp_log hpos]

/-- THE REFERENCE'S WEIGHT: exp (t q − M) divided by the sum of exp (t − M), for a real M, is the softmax weight. -/
theorem reference_weight (t : Fin 4096 → ℝ) (M : ℝ) (q : Fin 4096) :
    Ideal.div (Ideal.exp ((t q : EReal) - (M : EReal))) (0 + ∑ q', Ideal.exp ((t q' : EReal) - (M : EReal)))
      = ((softw t q : ℝ) : EReal) := by
  have hpos := sum_exp_pos t M
  simp only [← EReal.coe_sub, Ideal.exp_coe, ← coe_sum, zero_add]
  rw [Ideal.div_coe hpos.ne', ← EReal.coe_mul]
  refine congrArg Real.toEReal ?_
  rw [← quot_eq_softw t M q]
  ring

/-- A sum accumulated sixteen chunks of 256 at a time is the sum over the first chunks' entries. -/
theorem chunkSum_eq (f : Fin 4096 → EReal) : ∀ (k : ℕ) (h : k ≤ 16),
    chunkSum f k = ∑ p ∈ pre 16 k ×ˢ (Finset.univ : Finset (Fin 256)), f (pos (p.1, p.2)) := by
  intro k
  induction k with
  | zero => intro _; rw [pre_zero]; simp [chunkSum]
  | succ k ih =>
    intro h
    have hk : k < 16 := h
    rw [chunkSum, dif_pos hk, ih (Nat.le_of_succ_le h), pre_succ h]
    simp only [Finset.sum_product]
    rw [Finset.sum_insert (not_mem_pre h), add_comm]
    rfl

/-- Accumulated over all sixteen chunks, it is the sum over the 4096 keys. -/
theorem chunkSum_all (f : Fin 4096 → EReal) : chunkSum f 16 = ∑ k, f k := by
  rw [chunkSum_eq f 16 le_rfl, pre_self, Finset.univ_product_univ]
  exact Equiv.sum_comp pos f

end Cert.Law

end
-- ==== Proof.Consts.lean ====
/-
  The float words both programs carry, as extended reals.
-/
import Idealize.ShloMosaic.PureOps.Ideal

noncomputable section

namespace Cert.Consts

open Idealize.ShloMosaic

/-- The word of negative infinity is the bottom of the extended reals. -/
theorem ofBits_ninf : Ideal.ofBits .f32 0xFF800000#32 = ⊥ := by
  simp [Ideal.ofBits, Ideal.ieee]

/-- The word of positive infinity is the top. -/
theorem ofBits_pinf : Ideal.ofBits .f32 0x7F800000#32 = ⊤ := by
  simp [Ideal.ofBits, Ideal.ieee]

/-- The zero word is zero. -/
theorem ofBits_zero : Ideal.ofBits .f32 0x00000000#32 = 0 := by
  simp [Ideal.ofBits, Ideal.ieee]

/-- The reference's divisor: the binary32 number nearest the square root of 128, exactly 11863283 / 2^20. -/
theorem ofBits_div : Ideal.ofBits .f32 0x413504F3#32 = ((11863283 / 1048576 : ℝ) : EReal) := by
  simp [Ideal.ofBits, Ideal.ieee, -EReal.coe_mul]
  norm_num

end Cert.Consts

end
-- ==== Proof.Formula.lean ====
/-
  The function both programs compute, on real inputs.

  Q, K, V are the three projections x·Wᵀ + b.  The score of query q against key k is Σ_e Q(q,e)·K(k,e) divided by the
  reference's divisor 11863283 / 2^20; a column of scores (one key, all queries) is turned into softmax weights over
  the QUERY axis, and output row q is the weighted sum over the keys of the rows of V.
-/
import proofs.«135563_j8478265442573_2_alg».proof.Proof.Law
import proofs.«135563_j8478265442573_2_alg».proof.Proof.Consts
import Idealize.ShloMosaic.Lib.ValueIdx

noncomputable section

namespace Cert.Formula

open Idealize.ShloMosaic Idealize.ShloMosaic.ValueIdx Cert.Law
open scoped BigOperators

abbrev I3 : Type := (⟨3, ![4, 4096, 1024]⟩ : Shape).Idx
abbrev I2 : Type := (⟨2, ![128, 1024]⟩ : Shape).Idx
abbrev I1 : Type := (⟨1, ![128]⟩ : Shape).Idx

/-- One entry of a projection: row `l` of batch `bb` against row `n` of the weights, plus the bias. -/
def proj (x : I3 → ℝ) (w : I2 → ℝ) (b : I1 → ℝ) (bb : Fin 4) (l : Fin 4096) (n : Fin 128) : ℝ :=
  (∑ d : Fin 1024, x (ix3 bb l d) * w (ix2 n d)) + b (ix1 n)

/-- The scaled score of query `q` against key `k`. -/
def score (Q K : Fin 4 → Fin 4096 → Fin 128 → ℝ) (bb : Fin 4) (q k : Fin 4096) : ℝ :=
  (∑ e : Fin 128, Q bb q e * K bb k e) * (1048576 / 11863283)

/-- Output entry (q, v): the keys' rows of V weighted by the query-axis softmax of each key's column of scores. -/
def out (Q K V : Fin 4 → Fin 4096 → Fin 128 → ℝ) (bb : Fin 4) (q : Fin 4096) (v : Fin 128) : ℝ :=
  ∑ k : Fin 4096, softw (fun q' => score Q K bb q' k) q * V bb k v

end Cert.Formula

end
-- ==== Proof.LibLayout.lean ====
/-
  Layout operations of small shapes read at an index written by its coordinates: a vector viewed as a column, a column
  repeated along each row, and the row-major regrouping of an array's two leading axes into one axis and back.
  Each is the library's general reading of the operation (equal row-major positions for a cast, trailing coordinates
  for a broadcast) with the two positions worked out for the shapes at hand.
-/
import Idealize.ShloMosaic.Lib.Pipeline.Value
import Idealize.ShloMosaic.Lib.ValueIdx

namespace Cert.LibLayout

open Idealize.ShloMosaic Idealize.ShloMosaic.ValueIdx

variable {α : Type}

/-- An `[a]` array cast to the column `[a, 1]` reads, at `(i, u)`, the operand at `i`: position `i · 1 + 0` is `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[n0, n1, n2]` array with its two leading axes regrouped into one of extent `N` reads, at `(r, c)` with
    `r = s · n1 + b`, the operand at `(s, b, c)`: both sit at row-major position `(s · n1 + b) · n2 + c`. -/
theorem shapeCast_abc_dc_apply {n0 n1 n2 N : ℕ} (x : (⟨3, ![n0, n1, n2]⟩ : Shape).Idx → α)
    (h : (⟨3, ![n0, n1, n2]⟩ : Shape).ShapeCasts ⟨2, ![N, n2]⟩) (r : Fin N) (c : Fin n2) (s : Fin n0) (b : Fin n1)
    (hr : r.val = s.val * n1 + b.val) :
    shapeCast ⟨2, ![N, n2]⟩ x h (ix2 r c) = x (ix3 s b c) :=
  shapeCast_apply x h _ _ (by
    rw [Shape.rowMajor_val_three, Shape.rowMajor_val_two]
    show (s.val * n1 + b.val) * n2 + c.val = r.val * n2 + c.val
    rw [hr])

/-- The way back: an `[N, n2]` array with its leading axis split into `[n0, n1]` reads, at `(s, b, c)`, the operand at
    `(r, c)` for `r = s · n1 + b`. -/
theorem shapeCast_dc_abc_apply {n0 n1 n2 N : ℕ} (x : (⟨2, ![N, n2]⟩ : Shape).Idx → α)
    (h : (⟨2, ![N, n2]⟩ : Shape).ShapeCasts ⟨3, ![n0, n1, n2]⟩) (s : Fin n0) (b : Fin n1) (c : Fin n2) (r : Fin N)
    (hr : r.val = s.val * n1 + b.val) :
    shapeCast ⟨3, ![n0, n1, n2]⟩ x h (ix3 s b c) = x (ix2 r c) :=
  shapeCast_apply x h _ _ (by
    rw [Shape.rowMajor_val_three, Shape.rowMajor_val_two]
    show r.val * n2 + c.val = (s.val * n1 + b.val) * n2 + c.val
    rw [hr])

end Cert.LibLayout
-- ==== Proof.KI.BridgeProj.lean ====
import proofs.«135563_j8478265442573_2_alg».proof.Proof.KI.Frame
import proofs.«135563_j8478265442573_2_alg».proof.Proof.KI.Region0Value
import proofs.«135563_j8478265442573_2_alg».proof.Proof.Formula
import proofs.«135563_j8478265442573_2_alg».proof.Proof.LibLayout
import proofs.«135563_j8478265442573_2_alg».proof.Proof.LibOnlineSoftmax
import Idealize.ShloMosaic.Lib.StableHlo.Run
import Idealize.ShloMosaic.Lib.Tactic

/-! # The projections, from the launch memory to the later regions' entries

The program reshapes each `[4, 4096, 1024]` input to `[16384, 1024]`, runs the projection region, and reshapes each
`[16384, 128]` output back to `[4, 4096, 128]`. A reshape keeps row-major positions, so entry `(b, l, n)` of a
reshaped output is row `b · 4096 + l` of the region's output, and that row of the region's input is entry
`(b, l, ·)` of the launch array. With the launch arrays real-valued, the sums and products of their coercions
are coercions of real sums and products: the entry is the real projection `Σ_d x[b, l, d] · w[n, d] + bias[n]`.
The statistic region writes none of the three arrays, so the output region finds them the same. -/

set_option maxRecDepth 16384

noncomputable section

namespace Cert.KernelIdeal.Bridge

open Cert.KernelIdeal Cert.KernelIdeal.Gen Cert.KernelIdeal.Asm
open Cert.KernelIdeal.Reg0 (rd)
open Cert.Formula (I3 I2 I1 proj)
open Idealize.ShloMosaic Idealize.ShloMosaic.TcCoe Idealize.ShloMosaic.Tactic Idealize.ShloMosaic.ValueIdx
open Idealize.SL.Sem Idealize.ShloMosaic.StableHlo
open scoped BigOperators

/-! ## The reshapes, read off the contents they start from -/

theorem after0_v0 (X : Valuation τ sig (Elt Ideal)) :
    (StableHlo.after hostOps0 X main_v0 : S16384x1024.Idx → EReal)
      = shapeCast S16384x1024 (X main_arg0) shapeCasts_S4x4096x1024_S16384x1024 := by
  dsimp only [hostOps0]; after_results; rfl

theorem after0_v1 (X : Valuation τ sig (Elt Ideal)) :
    (StableHlo.after hostOps0 X main_v1 : S16384x1024.Idx → EReal)
      = shapeCast S16384x1024 (X main_arg1) shapeCasts_S4x4096x1024_S16384x1024 := by
  dsimp only [hostOps0]; after_results; rfl

theorem after0_v2 (X : Valuation τ sig (Elt Ideal)) :
    (StableHlo.after hostOps0 X main_v2 : S16384x1024.Idx → EReal)
      = shapeCast S16384x1024 (X main_arg2) shapeCasts_S4x4096x1024_S16384x1024 := by
  dsimp only [hostOps0]; after_results; rfl

theorem after1_v4 (X : Valuation τ sig (Elt Ideal)) :
    (StableHlo.after hostOps1 X main_v4 : S4x4096x128.Idx → EReal)
      = shapeCast S4x4096x128 (X main_v3_0) shapeCasts_S16384x128_S4x4096x128 := by
  dsimp only [hostOps1]; after_results; rfl

theorem after1_v5 (X : Valuation τ sig (Elt Ideal)) :
    (StableHlo.after hostOps1 X main_v5 : S4x4096x128.Idx → EReal)
      = shapeCast S4x4096x128 (X main_v3_1) shapeCasts_S16384x128_S4x4096x128 := by
  dsimp only [hostOps1]; after_results; rfl

theorem after1_v6 (X : Valuation τ sig (Elt Ideal)) :
    (StableHlo.after hostOps1 X main_v6 : S4x4096x128.Idx → EReal)
      = shapeCast S4x4096x128 (X main_v3_2) shapeCasts_S16384x128_S4x4096x128 := by
  dsimp only [hostOps1]; after_results; rfl

/-- Row `b · 4096 + l` of the regrouped array. -/
def rowOf (b : Fin 4) (l : Fin 4096) : Fin 16384 := ⟨b.val * 4096 + l.val, by have := b.isLt; have := l.isLt; omega⟩

/-- The projection of real operands, computed in the extended reals, is the coercion of the real projection. -/
theorem proj_coe (x : I3 → ℝ) (w : I2 → ℝ) (bv : I1 → ℝ) (b : Fin 4) (l : Fin 4096) (n : Fin 128) :
    (∑ d : Fin 1024, ((x (ix3 b l d) : ℝ) : EReal) * ((w (ix2 n d) : ℝ) : EReal)) + ((bv (ix1 n) : ℝ) : EReal)
      = ((proj x w bv b l n : ℝ) : EReal) := by
  unfold Cert.Formula.proj
  rw [EReal.coe_add, Cert.OnlineSoftmax.coe_sum]
  simp only [EReal.coe_mul]

/-! ## The three projections as the statistic region finds them -/

variable (m : (ℓ : Loc nD τ sig) → Buf (Elt Ideal) ℓ) (c : Dev nD)

/-- The projection region's input `main_v0` is the launch array `main_arg0` regrouped: row `b · 4096 + l` is entry `(b, l, ·)`. -/
theorem E1_main_v0 (r : Fin 16384) (d : Fin 1024) (b : Fin 4) (l : Fin 4096) (hr : r.val = b.val * 4096 + l.val) :
    rd S16384x1024 (E1 m c main_v0) (ix2 r d) = rd S4x4096x1024 (m ((c : Thread nD τ).loc main_arg0)) (ix3 b l d) :=
  (congrFun (after0_v0 (W0 m c)) (ix2 r d)).trans
    (Cert.LibLayout.shapeCast_abc_dc_apply (α := EReal) (n0 := 4) (n1 := 4096) (n2 := 1024) (N := 16384)
      (m ((c : Thread nD τ).loc main_arg0)) shapeCasts_S4x4096x1024_S16384x1024 r d b l hr)

/-- `main_v4` at the statistic region's entry, at `(b, l, n)`, is row `b · 4096 + l` of what the projection region left in `main_v3_0`. -/
theorem E3_main_v4 (b : Fin 4) (l : Fin 4096) (n : Fin 128) :
    rd S4x4096x128 (E3 m Whole.half0 c main_v4) (ix3 b l n)
      = (Reg0.dat (F := Ideal) (E1 m) c).arrAt 9 cfg0.N (ix2 (rowOf b l) n) :=
  (congrFun (after1_v4 (W2 m Whole.half0 c)) (ix3 b l n)).trans <|
    (Cert.LibLayout.shapeCast_dc_abc_apply (α := EReal) (n0 := 4) (n1 := 4096) (n2 := 128) (N := 16384)
      (W2 m Whole.half0 c main_v3_0) shapeCasts_S16384x128_S4x4096x128 b l n (rowOf b l) rfl).trans <|
    congrFun (W2_arr m Whole.half0 c 9) (ix2 (rowOf b l) n)

/-- The projection region's input `main_v1` is the launch array `main_arg1` regrouped: row `b · 4096 + l` is entry `(b, l, ·)`. -/
theorem E1_main_v1 (r : Fin 16384) (d : Fin 1024) (b : Fin 4) (l : Fin 4096) (hr : r.val = b.val * 4096 + l.val) :
    rd S16384x1024 (E1 m c main_v1) (ix2 r d) = rd S4x4096x1024 (m ((c : Thread nD τ).loc main_arg1)) (ix3 b l d) :=
  (congrFun (after0_v1 (W0 m c)) (ix2 r d)).trans
    (Cert.LibLayout.shapeCast_abc_dc_apply (α := EReal) (n0 := 4) (n1 := 4096) (n2 := 1024) (N := 16384)
      (m ((c : Thread nD τ).loc main_arg1)) shapeCasts_S4x4096x1024_S16384x1024 r d b l hr)

/-- `main_v5` at the statistic region's entry, at `(b, l, n)`, is row `b · 4096 + l` of what the projection region left in `main_v3_1`. -/
theorem E3_main_v5 (b : Fin 4) (l : Fin 4096) (n : Fin 128) :
    rd S4x4096x128 (E3 m Whole.half0 c main_v5) (ix3 b l n)
      = (Reg0.dat (F := Ideal) (E1 m) c).arrAt 10 cfg0.N (ix2 (rowOf b l) n) :=
  (congrFun (after1_v5 (W2 m Whole.half0 c)) (ix3 b l n)).trans <|
    (Cert.LibLayout.shapeCast_dc_abc_apply (α := EReal) (n0 := 4) (n1 := 4096) (n2 := 128) (N := 16384)
      (W2 m Whole.half0 c main_v3_1) shapeCasts_S16384x128_S4x4096x128 b l n (rowOf b l) rfl).trans <|
    congrFun (W2_arr m Whole.half0 c 10) (ix2 (rowOf b l) n)

/-- The projection region's input `main_v2` is the launch array `main_arg2` regrouped: row `b · 4096 + l` is entry `(b, l, ·)`. -/
theorem E1_main_v2 (r : Fin 16384) (d : Fin 1024) (b : Fin 4) (l : Fin 4096) (hr : r.val = b.val * 4096 + l.val) :
    rd S16384x1024 (E1 m c main_v2) (ix2 r d) = rd S4x4096x1024 (m ((c : Thread nD τ).loc main_arg2)) (ix3 b l d) :=
  (congrFun (after0_v2 (W0 m c)) (ix2 r d)).trans
    (Cert.LibLayout.shapeCast_abc_dc_apply (α := EReal) (n0 := 4) (n1 := 4096) (n2 := 1024) (N := 16384)
      (m ((c : Thread nD τ).loc main_arg2)) shapeCasts_S4x4096x1024_S16384x1024 r d b l hr)

/-- `main_v6` at the statistic region's entry, at `(b, l, n)`, is row `b · 4096 + l` of what the projection region left in `main_v3_2`. -/
theorem E3_main_v6 (b : Fin 4) (l : Fin 4096) (n : Fin 128) :
    rd S4x4096x128 (E3 m Whole.half0 c main_v6) (ix3 b l n)
      = (Reg0.dat (F := Ideal) (E1 m) c).arrAt 11 cfg0.N (ix2 (rowOf b l) n) :=
  (congrFun (after1_v6 (W2 m Whole.half0 c)) (ix3 b l n)).trans <|
    (Cert.LibLayout.shapeCast_dc_abc_apply (α := EReal) (n0 := 4) (n1 := 4096) (n2 := 128) (N := 16384)
      (W2 m Whole.half0 c main_v3_2) shapeCasts_S16384x128_S4x4096x128 b l n (rowOf b l) rfl).trans <|
    congrFun (W2_arr m Whole.half0 c 11) (ix2 (rowOf b l) n)

variable (a0 a1 a2 : I3 → ℝ) (w3 w5 w7 : I2 → ℝ) (b4 b6 b8 : I1 → ℝ)

/-- With the launch arrays `main_arg0`, `main_arg3`, `main_arg4` real-valued, `main_v4` at the statistic region's entry is their real projection. -/
theorem projQ3
    (hA0 : (m ((c : Thread nD τ).loc main_arg0) : S4x4096x1024.Idx → EReal) = fun i => ((a0 i : ℝ) : EReal))
    (hW3 : (m ((c : Thread nD τ).loc main_arg3) : S128x1024.Idx → EReal) = fun i => ((w3 i : ℝ) : EReal))
    (hB4 : (m ((c : Thread nD τ).loc main_arg4) : S128.Idx → EReal) = fun i => ((b4 i : ℝ) : EReal))
    (b : Fin 4) (q : Fin 4096) (e : Fin 128) :
    rd S4x4096x128 (E3 m Whole.half0 c main_v4) (ix3 b q e) = ((proj a0 w3 b4 b q e : ℝ) : EReal) := by
  have hx : ∀ d : Fin 1024, rd S16384x1024 (E1 m c main_v0) (ix2 (rowOf b q) d) = ((a0 (ix3 b q d) : ℝ) : EReal) := fun d =>
    (E1_main_v0 m c (rowOf b q) d b q rfl).trans (congrFun hA0 (ix3 b q d))
  have hw : ∀ d : Fin 1024, rd S128x1024 (E1 m c main_arg3) (ix2 e d) = ((w3 (ix2 e d) : ℝ) : EReal) := fun d =>
    (congrFun (W1_keep m c main_arg3 (by decide)) (ix2 e d)).trans (congrFun hW3 (ix2 e d))
  have hb : rd S128 (E1 m c main_arg4) (ix1 e) = ((b4 (ix1 e) : ℝ) : EReal) :=
    (congrFun (W1_keep m c main_arg4 (by decide)) (ix1 e)).trans (congrFun hB4 (ix1 e))
  refine (E3_main_v4 m c b q e).trans ((Reg0.out9 (E1 m) c (rowOf b q) e).trans ?_)
  refine (congrArg₂ (· + ·) (Finset.sum_congr rfl fun d _ => congrArg₂ (· * ·) (hx d) (hw d)) hb).trans ?_
  exact proj_coe a0 w3 b4 b q e

/-- With the launch arrays `main_arg1`, `main_arg5`, `main_arg6` real-valued, `main_v5` at the statistic region's entry is their real projection. -/
theorem projK3
    (hA1 : (m ((c : Thread nD τ).loc main_arg1) : S4x4096x1024.Idx → EReal) = fun i => ((a1 i : ℝ) : EReal))
    (hW5 : (m ((c : Thread nD τ).loc main_arg5) : S128x1024.Idx → EReal) = fun i => ((w5 i : ℝ) : EReal))
    (hB6 : (m ((c : Thread nD τ).loc main_arg6) : S128.Idx → EReal) = fun i => ((b6 i : ℝ) : EReal))
    (b : Fin 4) (k : Fin 4096) (e : Fin 128) :
    rd S4x4096x128 (E3 m Whole.half0 c main_v5) (ix3 b k e) = ((proj a1 w5 b6 b k e : ℝ) : EReal) := by
  have hx : ∀ d : Fin 1024, rd S16384x1024 (E1 m c main_v1) (ix2 (rowOf b k) d) = ((a1 (ix3 b k d) : ℝ) : EReal) := fun d =>
    (E1_main_v1 m c (rowOf b k) d b k rfl).trans (congrFun hA1 (ix3 b k d))
  have hw : ∀ d : Fin 1024, rd S128x1024 (E1 m c main_arg5) (ix2 e d) = ((w5 (ix2 e d) : ℝ) : EReal) := fun d =>
    (congrFun (W1_keep m c main_arg5 (by decide)) (ix2 e d)).trans (congrFun hW5 (ix2 e d))
  have hb : rd S128 (E1 m c main_arg6) (ix1 e) = ((b6 (ix1 e) : ℝ) : EReal) :=
    (congrFun (W1_keep m c main_arg6 (by decide)) (ix1 e)).trans (congrFun hB6 (ix1 e))
  refine (E3_main_v5 m c b k e).trans ((Reg0.out10 (E1 m) c (rowOf b k) e).trans ?_)
  refine (congrArg₂ (· + ·) (Finset.sum_congr rfl fun d _ => congrArg₂ (· * ·) (hx d) (hw d)) hb).trans ?_
  exact proj_coe a1 w5 b6 b k e

/-- With the launch arrays `main_arg2`, `main_arg7`, `main_arg8` real-valued, `main_v6` at the statistic region's entry is their real projection. -/
theorem projV3
    (hA2 : (m ((c : Thread nD τ).loc main_arg2) : S4x4096x1024.Idx → EReal) = fun i => ((a2 i : ℝ) : EReal))
    (hW7 : (m ((c : Thread nD τ).loc main_arg7) : S128x1024.Idx → EReal) = fun i => ((w7 i : ℝ) : EReal))
    (hB8 : (m ((c : Thread nD τ).loc main_arg8) : S128.Idx → EReal) = fun i => ((b8 i : ℝ) : EReal))
    (b : Fin 4) (k : Fin 4096) (v : Fin 128) :
    rd S4x4096x128 (E3 m Whole.half0 c main_v6) (ix3 b k v) = ((proj a2 w7 b8 b k v : ℝ) : EReal) := by
  have hx : ∀ d : Fin 1024, rd S16384x1024 (E1 m c main_v2) (ix2 (rowOf b k) d) = ((a2 (ix3 b k d) : ℝ) : EReal) := fun d =>
    (E1_main_v2 m c (rowOf b k) d b k rfl).trans (congrFun hA2 (ix3 b k d))
  have hw : ∀ d : Fin 1024, rd S128x1024 (E1 m c main_arg7) (ix2 v d) = ((w7 (ix2 v d) : ℝ) : EReal) := fun d =>
    (congrFun (W1_keep m c main_arg7 (by decide)) (ix2 v d)).trans (congrFun hW7 (ix2 v d))
  have hb : rd S128 (E1 m c main_arg8) (ix1 v) = ((b8 (ix1 v) : ℝ) : EReal) :=
    (congrFun (W1_keep m c main_arg8 (by decide)) (ix1 v)).trans (congrFun hB8 (ix1 v))
  refine (E3_main_v6 m c b k v).trans ((Reg0.out11 (E1 m) c (rowOf b k) v).trans ?_)
  refine (congrArg₂ (· + ·) (Finset.sum_congr rfl fun d _ => congrArg₂ (· * ·) (hx d) (hw d)) hb).trans ?_
  exact proj_coe a2 w7 b8 b k v

/-! ## The same three arrays as the output region finds them

The statistic region reads `main_v5` and `main_v4` through input windows, which are never written back, and does
not touch `main_v6`. -/

theorem E4_main_v4 : E4 m Whole.half0 Whole.half1 c main_v4 = E3 m Whole.half0 c main_v4 :=
  (W4_arr m Whole.half0 Whole.half1 c 1).trans
    (((Whole.half1.dat (E3 m Whole.half0) c).arrAt_in 1 rfl _).trans (Whole.half1.A_eq (E3 m Whole.half0) c 1))

theorem E4_main_v5 : E4 m Whole.half0 Whole.half1 c main_v5 = E3 m Whole.half0 c main_v5 :=
  (W4_arr m Whole.half0 Whole.half1 c 0).trans
    (((Whole.half1.dat (E3 m Whole.half0) c).arrAt_in 0 rfl _).trans (Whole.half1.A_eq (E3 m Whole.half0) c 0))

theorem E4_main_v6 : E4 m Whole.half0 Whole.half1 c main_v6 = E3 m Whole.half0 c main_v6 :=
  W4_of_ne m Whole.half0 Whole.half1 c main_v6 (by decide)

theorem projQ4
    (hA0 : (m ((c : Thread nD τ).loc main_arg0) : S4x4096x1024.Idx → EReal) = fun i => ((a0 i : ℝ) : EReal))
    (hW3 : (m ((c : Thread nD τ).loc main_arg3) : S128x1024.Idx → EReal) = fun i => ((w3 i : ℝ) : EReal))
    (hB4 : (m ((c : Thread nD τ).loc main_arg4) : S128.Idx → EReal) = fun i => ((b4 i : ℝ) : EReal))
    (b : Fin 4) (q : Fin 4096) (e : Fin 128) :
    rd S4x4096x128 (E4 m Whole.half0 Whole.half1 c main_v4) (ix3 b q e) = ((proj a0 w3 b4 b q e : ℝ) : EReal) :=
  (congrArg (fun f : Buf (Elt Ideal) ((c : Thread nD τ).loc main_v4) => rd S4x4096x128 f (ix3 b q e)) (E4_main_v4 m c)).trans
    (projQ3 m c a0 w3 b4 hA0 hW3 hB4 b q e)

theorem projK4
    (hA1 : (m ((c : Thread nD τ).loc main_arg1) : S4x4096x1024.Idx → EReal) = fun i => ((a1 i : ℝ) : EReal))
    (hW5 : (m ((c : Thread nD τ).loc main_arg5) : S128x1024.Idx → EReal) = fun i => ((w5 i : ℝ) : EReal))
    (hB6 : (m ((c : Thread nD τ).loc main_arg6) : S128.Idx → EReal) = fun i => ((b6 i : ℝ) : EReal))
    (b : Fin 4) (k : Fin 4096) (e : Fin 128) :
    rd S4x4096x128 (E4 m Whole.half0 Whole.half1 c main_v5) (ix3 b k e) = ((proj a1 w5 b6 b k e : ℝ) : EReal) :=
  (congrArg (fun f : Buf (Elt Ideal) ((c : Thread nD τ).loc main_v5) => rd S4x4096x128 f (ix3 b k e)) (E4_main_v5 m c)).trans
    (projK3 m c a1 w5 b6 hA1 hW5 hB6 b k e)

theorem projV4
    (hA2 : (m ((c : Thread nD τ).loc main_arg2) : S4x4096x1024.Idx → EReal) = fun i => ((a2 i : ℝ) : EReal))
    (hW7 : (m ((c : Thread nD τ).loc main_arg7) : S128x1024.Idx → EReal) = fun i => ((w7 i : ℝ) : EReal))
    (hB8 : (m ((c : Thread nD τ).loc main_arg8) : S128.Idx → EReal) = fun i => ((b8 i : ℝ) : EReal))
    (b : Fin 4) (k : Fin 4096) (v : Fin 128) :
    rd S4x4096x128 (E4 m Whole.half0 Whole.half1 c main_v6) (ix3 b k v) = ((proj a2 w7 b8 b k v : ℝ) : EReal) :=
  (congrArg (fun f : Buf (Elt Ideal) ((c : Thread nD τ).loc main_v6) => rd S4x4096x128 f (ix3 b k v)) (E4_main_v6 m c)).trans
    (projV3 m c a2 w7 b8 hA2 hW7 hB8 b k v)

end Cert.KernelIdeal.Bridge

end
-- ==== Proof.KI.Region1Value.lean ====
import proofs.«135563_j8478265442573_2_alg».proof.Proof.Gen.KernelIdeal.Launch
import proofs.«135563_j8478265442573_2_alg».proof.Proof.Gen.KernelIdeal.Skeleton
import proofs.«135563_j8478265442573_2_alg».proof.Proof.Gen.KernelIdeal.Points
import proofs.«135563_j8478265442573_2_alg».proof.Proof.Gen.KernelIdeal.Loops
import proofs.«135563_j8478265442573_2_alg».proof.Proof.KI.Region1
import proofs.«135563_j8478265442573_2_alg».proof.Proof.Spec
import proofs.«135563_j8478265442573_2_alg».proof.Proof.KI.Region0Value
import Idealize.ShloMosaic.Lib.Pipeline.Value
import Idealize.ShloMosaic.Lib.ValueIdx
import Idealize.ShloMosaic.Lib.ValueIdxCoords
import Idealize.ShloMosaic.Lib.ValueLayout
import Idealize.ShloMosaic.PureOps.Ideal
import Idealize.ShloMosaic.PureOps.Ideal.Laws
import Idealize.ShloMosaic.Lib.Pipeline.FrameBody
import Idealize.ShloMosaic.Lib.Pipeline.Frame
import Idealize.ShloMosaic.Lib.Pipeline.Kit
import Idealize.ShloMosaic.Lib.Ring
import Idealize.ShloMosaic.Lib.Tactic

set_option maxRecDepth 16384

noncomputable section

namespace Cert.KernelIdeal.Reg1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! # Pass 1, the value side: what the running pair and the output block hold

First, at any float model: one trip of the chunk loop replaces the running pair by `tripStep`, so a point's
four trips replace it by `pointStep`; each of the three runs leaves exactly that. -/

theorem zeros2 : (![0, 0] : Fin 2 → Nat) = fun _ => 0 := funext fun a => by fin_cases a <;> rfl
theorem zeros3 : (![0, 0, 0] : Fin 3 → Nat) = fun _ => 0 := funext fun a => by fin_cases a <;> rfl

/-- A store over the whole buffer, last, leaves its payload whatever was stored before. -/
theorem read_store_whole {Val : EltTy → Type} {S : Shape} {e : EltTy} {sg : RefSig} {κ : Kind} {sp : Space}
    (v : View sg κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  subst h; funext y
  have e := View.read_writes_cons_emb v f (Rect.whole S) w L y
  rw [Rect.emb_whole_apply] at e
  exact e

/-- Chunk `k` of the query block: 256 consecutive rows. -/
def chunk (xq : Vec F S1x1024x128 .bf16) (k : Fin k1_t1_loop.trips) : Vec F S1x256x128 .bf16 :=
  View.ld xq (Rect.unit (s := S1x1024x128) (k1_off1 k) S1x256x128.size (k1_off1_inb k))

/-- One trip: the new running maximum, and the denominator rescaled to it plus the chunk's terms. -/
def tripStep (xk : Vec F S1x2048x128 .bf16) (ch : Vec F S1x256x128 .bf16) (s : Vec F S1x2048 .f32 × Vec F S1x2048 .f32) :
    Vec F S1x2048 .f32 × Vec F S1x2048 .f32 :=
  (k1_pay6 xk ch s.1, k1_pay5 xk ch s.1 s.1 s.2)

section Fold

variable (c : Dev nD) (i : grid1.Coords)
    (arg3 : Memref sig .tc .vmem S1x2048x128 .bf16) (harg3 : arg3.IsWhole) (arg4 : Memref sig .tc .vmem S1x1024x128 .bf16) (harg4 : arg4.IsWhole)
    (arg5 : Memref sig .tc .vmem S1x1x2048 .f32) (harg5 : arg5.IsWhole) (arg6 : Memref sig .tc .vmem S1x2048 .f32) (harg6 : arg6.IsWhole)
    (arg7 : Memref sig .tc .vmem S1x2048 .f32) (harg7 : arg7.IsWhole) (v3 : Vec F S1x2048x128 .bf16) (xq : Vec F S1x1024x128 .bf16)
  (G6 : BufTy.Contents (Elt F) arg6.view.ty) (G7 : BufTy.Contents (Elt F) arg7.view.ty)

/-- The two running buffers after the first `n` trips, read back. -/
def st (n : ℕ) : Vec F S1x2048 .f32 × Vec F S1x2048 .f32 :=
  (arg6.view.read (Elt F) (arg6.view.writes (Elt F) G6 (pb_k1_t1 (F := F) Variants.none c none i arg3 harg3 arg4 harg4 arg5 harg5 arg6 harg6 arg7 harg7 v3 (harg4.unread xq) G6 G7 n).1),
   arg7.view.read (Elt F) (arg7.view.writes (Elt F) G7 (pb_k1_t1 (F := F) Variants.none c none i arg3 harg3 arg4 harg4 arg5 harg5 arg6 harg6 arg7 harg7 v3 (harg4.unread xq) G6 G7 n).2))

theorem st_zero : st c i arg3 harg3 arg4 harg4 arg5 harg5 arg6 harg6 arg7 harg7 v3 xq G6 G7 0 = (arg6.view.read (Elt F) G6, arg7.view.read (Elt F) G7) := by
  unfold st; rw [pb_k1_t1.eq_1]; rfl

theorem st_succ (k : Fin k1_t1_loop.trips) :
    st c i arg3 harg3 arg4 harg4 arg5 harg5 arg6 harg6 arg7 harg7 v3 xq G6 G7 (k.val + 1) = tripStep v3 (chunk xq k) (st c i arg3 harg3 arg4 harg4 arg5 harg5 arg6 harg6 arg7 harg7 v3 xq G6 G7 k.val) := by
  unfold st tripStep chunk
  rw [pb_k1_t1_succ]
  unfold tripL_k1_t1
  unfold trip_k1_t1
  dsimp only
  simp only [List.cons_append, List.nil_append]
  rw [read_store_whole _ _ zeros2, read_store_whole _ _ zeros2]
  simp only [View.readAt_eq_ld, harg4.read_unread, View.ld_unit_zero (S := S1x2048) zeros2]

end Fold

theorem lt0 : 0 < k1_t1_loop.trips := by decide
theorem lt1 : 1 < k1_t1_loop.trips := by decide
theorem lt2 : 2 < k1_t1_loop.trips := by decide
theorem lt3 : 3 < k1_t1_loop.trips := by decide

/-- The four trips of one point, in order. -/
def pointStep (xk : Vec F S1x2048x128 .bf16) (xq : Vec F S1x1024x128 .bf16) (s : Vec F S1x2048 .f32 × Vec F S1x2048 .f32) :
    Vec F S1x2048 .f32 × Vec F S1x2048 .f32 :=
  tripStep xk (chunk xq ⟨3, lt3⟩) (tripStep xk (chunk xq ⟨2, lt2⟩) (tripStep xk (chunk xq ⟨1, lt1⟩) (tripStep xk (chunk xq ⟨0, lt0⟩) s)))

theorem st_four (c : Dev nD) (i : grid1.Coords)
    (arg3 : Memref sig .tc .vmem S1x2048x128 .bf16) (harg3 : arg3.IsWhole) (arg4 : Memref sig .tc .vmem S1x1024x128 .bf16) (harg4 : arg4.IsWhole)
    (arg5 : Memref sig .tc .vmem S1x1x2048 .f32) (harg5 : arg5.IsWhole) (arg6 : Memref sig .tc .vmem S1x2048 .f32) (harg6 : arg6.IsWhole)
    (arg7 : Memref sig .tc .vmem S1x2048 .f32) (harg7 : arg7.IsWhole) (v3 : Vec F S1x2048x128 .bf16) (xq : Vec F S1x1024x128 .bf16)
    (G6 : BufTy.Contents (Elt F) arg6.view.ty) (G7 : BufTy.Contents (Elt F) arg7.view.ty) :
    st c i arg3 harg3 arg4 harg4 arg5 harg5 arg6 harg6 arg7 harg7 v3 xq G6 G7 4 = pointStep v3 xq (arg6.view.read (Elt F) G6, arg7.view.read (Elt F) G7) := by
  unfold pointStep
  rw [← st_zero c i arg3 harg3 arg4 harg4 arg5 harg5 arg6 harg6 arg7 harg7 v3 xq G6 G7]
  exact (st_succ c i arg3 harg3 arg4 harg4 arg5 harg5 arg6 harg6 arg7 harg7 v3 xq G6 G7 ⟨3, lt3⟩).trans (congrArg (tripStep v3 _)
    ((st_succ c i arg3 harg3 arg4 harg4 arg5 harg5 arg6 harg6 arg7 harg7 v3 xq G6 G7 ⟨2, lt2⟩).trans (congrArg (tripStep v3 _)
      ((st_succ c i arg3 harg3 arg4 harg4 arg5 harg5 arg6 harg6 arg7 harg7 v3 xq G6 G7 ⟨1, lt1⟩).trans (congrArg (tripStep v3 _)
        (st_succ c i arg3 harg3 arg4 harg4 arg5 harg5 arg6 harg6 arg7 harg7 v3 xq G6 G7 ⟨0, lt0⟩))))))

/-- The middle run leaves the pair it found, folded with the point's four chunks. -/
theorem mid_eq (c : Dev nD) (i : grid1.Coords)
    (arg3 : Memref sig .tc .vmem S1x2048x128 .bf16) (harg3 : arg3.IsWhole) (arg4 : Memref sig .tc .vmem S1x1024x128 .bf16) (harg4 : arg4.IsWhole)
    (arg5 : Memref sig .tc .vmem S1x1x2048 .f32) (harg5 : arg5.IsWhole) (arg6 : Memref sig .tc .vmem S1x2048 .f32) (harg6 : arg6.IsWhole)
    (arg7 : Memref sig .tc .vmem S1x2048 .f32) (harg7 : arg7.IsWhole) (h1 : ¬atFirst i) (h2 : ¬atLast i)
    (xk : Vec F S1x2048x128 .bf16) (xq : Vec F S1x1024x128 .bf16) (xm xd : Vec F S1x2048 .f32) :
    (mMid c i arg3 harg3 arg4 harg4 arg5 harg5 arg6 harg6 arg7 harg7 h1 h2 xk xq xm xd, dMid c i arg3 harg3 arg4 harg4 arg5 harg5 arg6 harg6 arg7 harg7 h1 h2 xk xq xm xd) = pointStep xk xq (xm, xd) := by
  unfold mMid dMid
  rw [View.read_writes_of_cover mxV mxV.junk arg6.view (harg6.unread xm) _ (cover_mid_m c i arg3 harg3 arg4 harg4 arg5 harg5 arg6 harg6 arg7 harg7 h1 h2 xk xq xm xd),
    View.read_writes_of_cover dnV dnV.junk arg7.view (harg7.unread xd) _ (cover_mid_d c i arg3 harg3 arg4 harg4 arg5 harg5 arg6 harg6 arg7 harg7 h1 h2 xk xq xm xd)]
  have e := st_four c i arg3 harg3 arg4 harg4 arg5 harg5 arg6 harg6 arg7 harg7 (View.readAt (Elt F) arg3.view
      (Rect.unit (s := S1x2048x128) ![0, 0, 0] S1x2048x128.size inb_S1x2048x128_S1x2048x128_0_0_0).toLoadRect (harg3.unread xk)) xq (harg6.unread xm) (harg7.unread xd)
  simp only [View.readAt_eq_ld, harg3.read_unread, harg6.read_unread, harg7.read_unread, View.ld_unit_zero (S := S1x2048x128) zeros3] at e
  rw [← e]
  unfold runMid st
  dsimp only
  simp only [View.readAt_eq_ld, harg3.read_unread, View.ld_unit_zero (S := S1x2048x128) zeros3]
  rfl

/-- The reset run leaves the reset pair — the maximum's neutral element and zero — folded with the point's four chunks. -/
theorem first_eq (c : Dev nD) (i : grid1.Coords)
    (arg3 : Memref sig .tc .vmem S1x2048x128 .bf16) (harg3 : arg3.IsWhole) (arg4 : Memref sig .tc .vmem S1x1024x128 .bf16) (harg4 : arg4.IsWhole)
    (arg5 : Memref sig .tc .vmem S1x1x2048 .f32) (harg5 : arg5.IsWhole) (arg6 : Memref sig .tc .vmem S1x2048 .f32) (harg6 : arg6.IsWhole)
    (arg7 : Memref sig .tc .vmem S1x2048 .f32) (harg7 : arg7.IsWhole) (h1 : atFirst i) (h2 : ¬atLast i)
    (xk : Vec F S1x2048x128 .bf16) (xq : Vec F S1x1024x128 .bf16) :
    (mFirst c i arg3 harg3 arg4 harg4 arg5 harg5 arg6 harg6 arg7 harg7 h1 h2 xk xq, dFirst c i arg3 harg3 arg4 harg4 arg5 harg5 arg6 harg6 arg7 harg7 h1 h2 xk xq) = pointStep xk xq (k1_pay1 (F := F), k1_pay2 (F := F)) := by
  unfold mFirst dFirst
  rw [View.read_writes_of_cover mxV mxV.junk arg6.view arg6.view.junk _ (cover_first_m c i arg3 harg3 arg4 harg4 arg5 harg5 arg6 harg6 arg7 harg7 h1 h2 xk xq),
    View.read_writes_of_cover dnV dnV.junk arg7.view arg7.view.junk _ (cover_first_d c i arg3 harg3 arg4 harg4 arg5 harg5 arg6 harg6 arg7 harg7 h1 h2 xk xq)]
  have e := st_four c i arg3 harg3 arg4 harg4 arg5 harg5 arg6 harg6 arg7 harg7 (View.readAt (Elt F) arg3.view
      (Rect.unit (s := S1x2048x128) ![0, 0, 0] S1x2048x128.size inb_S1x2048x128_S1x2048x128_0_0_0).toLoadRect (harg3.unread xk)) xq
      (arg6.view.writes (Elt F) arg6.view.junk [⟨Rect.unit (s := S1x2048) ![0, 0] S1x2048.size inb_S1x2048_S1x2048_0_0, k1_pay1 (F := F)⟩])
      (arg7.view.writes (Elt F) arg7.view.junk [⟨Rect.unit (s := S1x2048) ![0, 0] S1x2048.size inb_S1x2048_S1x2048_0_0, k1_pay2 (F := F)⟩])
  simp only [View.readAt_eq_ld, harg3.read_unread, View.ld_unit_zero (S := S1x2048x128) zeros3] at e
  rw [read_store_whole _ _ zeros2, read_store_whole _ _ zeros2] at e
  rw [← e]
  unfold runFirst st
  dsimp only
  sl_unfold_words
  simp only [View.readAt_eq_ld, harg3.read_unread, View.ld_unit_zero (S := S1x2048x128) zeros3, View.writes_append]
  rfl

/-- The write-out run leaves the same pair as a middle run would, -/
theorem last_eq (c : Dev nD) (i : grid1.Coords)
    (arg3 : Memref sig .tc .vmem S1x2048x128 .bf16) (harg3 : arg3.IsWhole) (arg4 : Memref sig .tc .vmem S1x1024x128 .bf16) (harg4 : arg4.IsWhole)
    (arg5 : Memref sig .tc .vmem S1x1x2048 .f32) (harg5 : arg5.IsWhole) (arg6 : Memref sig .tc .vmem S1x2048 .f32) (harg6 : arg6.IsWhole)
    (arg7 : Memref sig .tc .vmem S1x2048 .f32) (harg7 : arg7.IsWhole) (h1 : ¬atFirst i) (h2 : atLast i)
    (xk : Vec F S1x2048x128 .bf16) (xq : Vec F S1x1024x128 .bf16) (xm xd : Vec F S1x2048 .f32) :
    (mLast c i arg3 harg3 arg4 harg4 arg5 harg5 arg6 harg6 arg7 harg7 h1 h2 xk xq xm xd, dLast c i arg3 harg3 arg4 harg4 arg5 harg5 arg6 harg6 arg7 harg7 h1 h2 xk xq xm xd) = pointStep xk xq (xm, xd) := by
  unfold mLast dLast
  rw [View.read_writes_of_cover mxV mxV.junk arg6.view (harg6.unread xm) _ (cover_last_m c i arg3 harg3 arg4 harg4 arg5 harg5 arg6 harg6 arg7 harg7 h1 h2 xk xq xm xd),
    View.read_writes_of_cover dnV dnV.junk arg7.view (harg7.unread xd) _ (cover_last_d c i arg3 harg3 arg4 harg4 arg5 harg5 arg6 harg6 arg7 harg7 h1 h2 xk xq xm xd)]
  have e := st_four c i arg3 harg3 arg4 harg4 arg5 harg5 arg6 harg6 arg7 harg7 (View.readAt (Elt F) arg3.view
      (Rect.unit (s := S1x2048x128) ![0, 0, 0] S1x2048x128.size inb_S1x2048x128_S1x2048x128_0_0_0).toLoadRect (harg3.unread xk)) xq (harg6.unread xm) (harg7.unread xd)
  simp only [View.readAt_eq_ld, harg3.read_unread, harg6.read_unread, harg7.read_unread, View.ld_unit_zero (S := S1x2048x128) zeros3] at e
  rw [← e]
  unfold runLast st
  dsimp only
  simp only [View.readAt_eq_ld, harg3.read_unread, View.ld_unit_zero (S := S1x2048x128) zeros3]
  rfl

/-- and the output block at the statistic of that pair: its maximum plus the logarithm of its denominator. -/
theorem out_eq (c : Dev nD) (i : grid1.Coords)
    (arg3 : Memref sig .tc .vmem S1x2048x128 .bf16) (harg3 : arg3.IsWhole) (arg4 : Memref sig .tc .vmem S1x1024x128 .bf16) (harg4 : arg4.IsWhole)
    (arg5 : Memref sig .tc .vmem S1x1x2048 .f32) (harg5 : arg5.IsWhole) (arg6 : Memref sig .tc .vmem S1x2048 .f32) (harg6 : arg6.IsWhole)
    (arg7 : Memref sig .tc .vmem S1x2048 .f32) (harg7 : arg7.IsWhole) (h1 : ¬atFirst i) (h2 : atLast i)
    (xk : Vec F S1x2048x128 .bf16) (xq : Vec F S1x1024x128 .bf16) (xm xd : Vec F S1x2048 .f32) :
    oLast c i arg3 harg3 arg4 harg4 arg5 harg5 arg6 harg6 arg7 harg7 h1 h2 xk xq xm xd = k1_pay7 (pointStep xk xq (xm, xd)).1 (pointStep xk xq (xm, xd)).2 := by
  unfold oLast
  have e := st_four c i arg3 harg3 arg4 harg4 arg5 harg5 arg6 harg6 arg7 harg7 (View.readAt (Elt F) arg3.view
      (Rect.unit (s := S1x2048x128) ![0, 0, 0] S1x2048x128.size inb_S1x2048x128_S1x2048x128_0_0_0).toLoadRect (harg3.unread xk)) xq (harg6.unread xm) (harg7.unread xd)
  simp only [View.readAt_eq_ld, harg3.read_unread, harg6.read_unread, harg7.read_unread, View.ld_unit_zero (S := S1x2048x128) zeros3] at e
  rw [← e]
  unfold runLast st
  dsimp only
  sl_unfold_words
  rw [read_store_whole _ _ zeros3]
  simp only [View.readAt_eq_ld, harg3.read_unread, View.ld_unit_zero (S := S1x2048x128) zeros3, View.ld_unit_zero (S := S1x2048) zeros2]
  rfl

/-! ## At the extended reals: one trip, column by column, is the specification's chunk step -/

section AtIdeal

open Idealize.ShloMosaic.ValueIdx
open scoped BigOperators

/-- The named scale is the specification's. -/
theorem scale_eq : Named.named (F := Ideal) κ "inv_sqrt_d" (φ := .f32) 0x3DB504F3#32 = Cert.Spec.scale :=
  IdealRules.named_const.ideal_named_scalar _ _ _ _ rfl

/-- The scaled score of row `r` of a query chunk against row `kk` of the key block. -/
def sc (xk : Vec Ideal S1x2048x128 .bf16) (ch : Vec Ideal S1x256x128 .bf16) (kk : Fin 2048) (r : Fin 256) : EReal :=
  (∑ e : Fin 128, ch (ix3 (0 : Fin 1) r e) * xk (ix3 (0 : Fin 1) kk e)) * Cert.Spec.scale

abbrev D1 := dot_S256x128_S2048x128_S256x2048_1_1_0_0_n_n

theorem D1_lhs (r : Fin 256) (kk : Fin 2048) (k : D1.contr.Idx) :
    D1.lhsIdx (ix2 r kk) k = ix2 r ((k ⟨0, by decide⟩).cast (by decide)) := by
  funext a; apply Fin.ext
  match a with
  | ⟨0, _⟩ => simp [DotDims.lhsIdx, D1, dot_S256x128_S2048x128_S256x2048_1_1_0_0_n_n]; rfl
  | ⟨1, _⟩ => simp [DotDims.lhsIdx, D1, dot_S256x128_S2048x128_S256x2048_1_1_0_0_n_n]; rfl

theorem D1_rhs (r : Fin 256) (kk : Fin 2048) (k : D1.contr.Idx) :
    D1.rhsIdx (ix2 r kk) k = ix2 kk ((k ⟨0, by decide⟩).cast (by decide)) := by
  funext a; apply Fin.ext
  match a with
  | ⟨0, _⟩ => simp [DotDims.rhsIdx, D1, dot_S256x128_S2048x128_S256x2048_1_1_0_0_n_n]; rfl
  | ⟨1, _⟩ => simp [DotDims.rhsIdx, D1, dot_S256x128_S2048x128_S256x2048_1_1_0_0_n_n]; rfl

theorem pay3_apply (xk : Vec Ideal S1x2048x128 .bf16) (ch : Vec Ideal S1x256x128 .bf16) (r : Fin 256) (kk : Fin 2048) :
    k1_pay3 (F := Ideal) xk ch (ix2 r kk) = sc xk ch kk r := by
  unfold k1_pay3 sc
  simp only [mulf_apply, broadcast_apply, scale_eq, matmul]
  rw [Ideal.matmul_constant_zero_apply]
  congr 1
  rw [← Equiv.sum_comp (contrEquiv1 D1 128 (by decide) (by decide)).symm]
  refine Finset.sum_congr rfl fun e _ => ?_
  rw [D1_lhs, D1_rhs, shapeCast_1ab_ab_apply, shapeCast_1ab_ab_apply]
  rfl

end AtIdeal

section AtIdeal2

open Idealize.ShloMosaic.ValueIdx
open scoped BigOperators

theorem negInf : Ideal.ofBits .f32 0xFF800000#32 = ⊥ := by simp [Ideal.ofBits, Ideal.ieee]

/-- The reduced index with row `r` put back. -/
theorem red_lift (h : S256x2048.Reduces [0] S2048) (kk : Fin 2048) (r : Fin (S256x2048.size 0)) :
    h.lift (ix1 kk) r = ix2 (⟨r.val, r.isLt⟩ : Fin 256) kk := by
  funext a; apply Fin.ext
  fin_cases a <;> rfl

theorem pay4_apply (xk : Vec Ideal S1x2048x128 .bf16) (ch : Vec Ideal S1x256x128 .bf16) (m : Vec Ideal S1x2048 .f32) (kk : Fin 2048) :
    k1_pay4 (F := Ideal) xk ch m (ix2 (0 : Fin 1) kk) = max (m (ix2 (0 : Fin 1) kk)) (Cert.Spec.chunkMax (sc xk ch kk)) := by
  unfold k1_pay4
  simp only [maximumf_apply]
  rw [shapeCast_a_1a_apply]
  refine congrArg (max (m (ix2 (0 : Fin 1) kk))) ?_
  refine (Ideal.multiReduction_maximumf_single (k1_pay3 (F := Ideal) xk ch) _ reduces_S256x2048_S2048 _ _ (ix1 kk)).trans ?_
  unfold Cert.Spec.chunkMax
  have hf : (k1_pay3 (F := Ideal) xk ch ∘ (reduces_S256x2048_S2048).lift (ix1 kk)) = sc xk ch kk := funext fun r => by
    show k1_pay3 (F := Ideal) xk ch ((reduces_S256x2048_S2048).lift (ix1 kk) r) = _
    rw [red_lift]; exact pay3_apply xk ch _ kk
  rw [hf]
  show Finset.fold max (Ideal.ofBits .f32 0xFF800000#32) _ _ = _
  rw [negInf]
  rfl

theorem pay6_apply (xk : Vec Ideal S1x2048x128 .bf16) (ch : Vec Ideal S1x256x128 .bf16) (m : Vec Ideal S1x2048 .f32) (kk : Fin 2048) :
    k1_pay6 (F := Ideal) xk ch m (ix2 (0 : Fin 1) kk) = max (m (ix2 (0 : Fin 1) kk)) (Cert.Spec.chunkMax (sc xk ch kk)) := by
  unfold k1_pay6
  simp only [shapeCast_self]
  exact pay4_apply xk ch m kk

theorem pay5_apply (xk : Vec Ideal S1x2048x128 .bf16) (ch : Vec Ideal S1x256x128 .bf16) (m l : Vec Ideal S1x2048 .f32) (kk : Fin 2048) :
    k1_pay5 (F := Ideal) xk ch m m l (ix2 (0 : Fin 1) kk)
      = Ideal.exp (m (ix2 (0 : Fin 1) kk) - max (m (ix2 (0 : Fin 1) kk)) (Cert.Spec.chunkMax (sc xk ch kk))) * l (ix2 (0 : Fin 1) kk)
        + ∑ r : Fin 256, Ideal.exp (sc xk ch kk r - max (m (ix2 (0 : Fin 1) kk)) (Cert.Spec.chunkMax (sc xk ch kk))) := by
  unfold k1_pay5
  simp only [shapeCast_self]
  simp only [addf_apply, mulf_apply]
  rw [shapeCast_a_1a_apply]
  refine congr (congrArg HAdd.hAdd ?_) ?_
  · simp only [exp, subf_apply, Ideal.exp_def, pay4_apply]
  · refine (Ideal.multiReduction_add_single _ _ reduces_S256x2048_S2048 _ _ (ix1 kk)).trans (Finset.sum_congr rfl fun r _ => ?_)
    rw [red_lift]
    simp only [exp, subf_apply, Ideal.exp_def]
    rw [broadcastTo_1b_ab_apply, pay4_apply]
    exact congrArg (fun z => Ideal.exp (z - _)) (pay3_apply xk ch _ kk)

theorem pay7_apply (m l : Vec Ideal S1x2048 .f32) (kk : Fin 2048) :
    k1_pay7 (F := Ideal) m l (ix3 (0 : Fin 1) (0 : Fin 1) kk) = m (ix2 (0 : Fin 1) kk) + Ideal.log (l (ix2 (0 : Fin 1) kk)) := by
  unfold k1_pay7
  rw [shapeCast_ab_1ab_apply]
  simp only [addf_apply, log, Ideal.log_def]

/-- A pair of rows read at a column. -/
def col (s : Vec Ideal S1x2048 .f32 × Vec Ideal S1x2048 .f32) (kk : Fin 2048) : EReal × EReal :=
  (s.1 (ix2 (0 : Fin 1) kk), s.2 (ix2 (0 : Fin 1) kk))

/-- ONE TRIP, at a column, is the specification's chunk step on that column's scores. -/
theorem tripStep_col (xk : Vec Ideal S1x2048x128 .bf16) (ch : Vec Ideal S1x256x128 .bf16)
    (s : Vec Ideal S1x2048 .f32 × Vec Ideal S1x2048 .f32) (kk : Fin 2048) :
    col (tripStep xk ch s) kk = Cert.Spec.chunkStep (sc xk ch kk) (col s kk) := by
  unfold tripStep col Cert.Spec.chunkStep
  simp only [pay6_apply, pay5_apply]

end AtIdeal2

/-! ## The blocks at a point, read off the arrays; a point's four trips on a column -/

section Blocks

open Idealize.ShloMosaic.ValueIdx
open scoped BigOperators

variable (V : (c : Dev nD) → (b : Ref sig .tc) → Buf (Elt Ideal) ((c : Thread nD τ).loc b))

/-- Where the three windows' blocks sit at point `t`: batch `t / 8`, key half `t / 4 % 2`, query quarter `t % 4`. -/
theorem idx1 : ∀ t : Fin cfg1.N,
    win1_0.index t (0 : Fin 3) = t.val / 8 ∧ win1_0.index t (1 : Fin 3) = t.val / 4 % 2 ∧ win1_0.index t (2 : Fin 3) = 0
    ∧ win1_1.index t (0 : Fin 3) = t.val / 8 ∧ win1_1.index t (1 : Fin 3) = t.val % 4 ∧ win1_1.index t (2 : Fin 3) = 0
    ∧ win1_2.index t (0 : Fin 3) = t.val / 8 ∧ win1_2.index t (1 : Fin 3) = 0 ∧ win1_2.index t (2 : Fin 3) = t.val / 4 % 2 :=
  (by decide +kernel : ∀ t : Fin grid1.N, _)

theorem t_lt (t : Fin cfg1.N) : t.val < 32 := lt_of_lt_of_eq t.isLt (show cfg1.N = 32 from N_1)

/-- The batch of point `t`, and the key and the query a block row stands for there. -/
def bOf (t : Fin cfg1.N) : Fin 4 := ⟨t.val / 8, by have := t_lt t; omega⟩
def keyAt (t : Fin cfg1.N) (kk : Fin 2048) : Fin 4096 := ⟨2048 * (t.val / 4 % 2) + kk.val, by have := kk.isLt; omega⟩
def qryAt (t : Fin cfg1.N) (q : Fin 1024) : Fin 4096 := ⟨1024 * (t.val % 4) + q.val, by have := q.isLt; omega⟩

theorem blkK_apply (c : Dev nD) (t : Fin cfg1.N) (kk : Fin 2048) (e : Fin 128) :
    blk V c 0 t (ix3 (0 : Fin 1) kk e) = V c main_v5 (ix3 (bOf t) (keyAt t kk) e) := by
  obtain ⟨k0, k1, k2, q0, q1, q2, o0, o1, o2⟩ := idx1 t
  show V c main_v5 (((cfg1.win 0).blk t).view.emb (ix3 (0 : Fin 1) kk e)) = _
  refine congrArg (V c main_v5) (funext fun ax => Fin.ext ?_)
  match ax with
  | ⟨0, _⟩ => show win1_0.index t (0 : Fin 3) * 1 + 1 * 0 = t.val / 8; omega
  | ⟨1, _⟩ => show win1_0.index t (1 : Fin 3) * 2048 + 1 * kk.val = 2048 * (t.val / 4 % 2) + kk.val; omega
  | ⟨2, _⟩ => show win1_0.index t (2 : Fin 3) * 128 + 1 * e.val = e.val; omega

theorem blkQ_apply (c : Dev nD) (t : Fin cfg1.N) (q : Fin 1024) (e : Fin 128) :
    blk V c 1 t (ix3 (0 : Fin 1) q e) = V c main_v4 (ix3 (bOf t) (qryAt t q) e) := by
  obtain ⟨k0, k1, k2, q0, q1, q2, o0, o1, o2⟩ := idx1 t
  show V c main_v4 (((cfg1.win 1).blk t).view.emb (ix3 (0 : Fin 1) q e)) = _
  refine congrArg (V c main_v4) (funext fun ax => Fin.ext ?_)
  match ax with
  | ⟨0, _⟩ => show win1_1.index t (0 : Fin 3) * 1 + 1 * 0 = t.val / 8; omega
  | ⟨1, _⟩ => show win1_1.index t (1 : Fin 3) * 1024 + 1 * q.val = 1024 * (t.val % 4) + q.val; omega
  | ⟨2, _⟩ => show win1_1.index t (2 : Fin 3) * 128 + 1 * e.val = e.val; omega

theorem embO_apply (t : Fin cfg1.N) (kk : Fin 2048) :
    ((cfg1.win 2).blk t).view.emb (ix3 (0 : Fin 1) (0 : Fin 1) kk) = ix3 (bOf t) (0 : Fin 1) (keyAt t kk) := by
  obtain ⟨k0, k1, k2, q0, q1, q2, o0, o1, o2⟩ := idx1 t
  refine funext fun ax => Fin.ext ?_
  match ax with
  | ⟨0, _⟩ => show win1_2.index t (0 : Fin 3) * 1 + 1 * 0 = t.val / 8; omega
  | ⟨1, _⟩ => show win1_2.index t (1 : Fin 3) * 1 + 1 * 0 = 0; omega
  | ⟨2, _⟩ => show win1_2.index t (2 : Fin 3) * 2048 + 1 * kk.val = 2048 * (t.val / 4 % 2) + kk.val; omega

/-- Row `r` of chunk `j` is row `256 j + r` of the query block. -/
theorem chunk_apply (xq : Vec Ideal S1x1024x128 .bf16) (j : Fin k1_t1_loop.trips) (r : Fin 256) (e : Fin 128) :
    chunk xq j (ix3 (0 : Fin 1) r e)
      = xq (ix3 (0 : Fin 1) (⟨256 * j.val + r.val, by have := r.isLt; have : j.val < 4 := lt_of_lt_of_le j.isLt (by decide); omega⟩ : Fin 1024) e) := by
  unfold chunk
  show xq ((Rect.unit (s := S1x1024x128) (k1_off1 j) S1x256x128.size (k1_off1_inb j)).idx (ix3 (0 : Fin 1) r e)) = _
  refine congrArg xq (funext fun ax => Fin.ext ?_)
  have ho := k1_off1_eq j
  match ax with
  | ⟨0, _⟩ => show k1_off1 j 0 + 1 * 0 = 0; rw [ho]; rfl
  | ⟨1, _⟩ => show k1_off1 j 1 + 1 * r.val = 256 * j.val + r.val; rw [ho]; show 256 * j.val + 1 * r.val = _; omega
  | ⟨2, _⟩ => show k1_off1 j 2 + 1 * e.val = e.val; rw [ho]; show 0 + 1 * e.val = _; omega

/-- The scaled scores of key `k` of batch `b` against every query: one column of the score matrix. -/
def scoreCol (c : Dev nD) (b : Fin 4) (k : Fin 4096) : Fin 4096 → EReal :=
  fun q => (∑ e : Fin 128, Reg0.rd S4x4096x128 (V c main_v4) (ix3 b q e) * Reg0.rd S4x4096x128 (V c main_v5) (ix3 b k e)) * Cert.Spec.scale

/-- At point `t`, trip `j`'s scores on block column `kk` are chunk `4 (t % 4) + j` of that key's column. -/
theorem sc_eq_chunkOf (c : Dev nD) (t : Fin cfg1.N) (j : Fin k1_t1_loop.trips) (kk : Fin 2048)
    (h : 4 * (t.val % 4) + j.val < 16) :
    sc (blk V c 0 t) (chunk (blk V c 1 t) j) kk
      = Cert.Spec.chunkOf (scoreCol V c (bOf t) (keyAt t kk)) (4 * (t.val % 4) + j.val) h := by
  funext r
  unfold sc Cert.Spec.chunkOf scoreCol
  refine congrArg (· * Cert.Spec.scale) (Finset.sum_congr rfl fun e _ => ?_)
  rw [chunk_apply, blkQ_apply, blkK_apply]
  have hq : qryAt t (⟨256 * j.val + r.val, by have := r.isLt; have : j.val < 4 := lt_of_lt_of_le j.isLt (by decide); omega⟩ : Fin 1024)
      = (⟨256 * (4 * (t.val % 4) + j.val) + r.val, by have := r.isLt; omega⟩ : Fin 4096) := Fin.ext (by show 1024 * (t.val % 4) + (256 * j.val + r.val) = 256 * (4 * (t.val % 4) + j.val) + r.val; omega)
  rw [hq]

end Blocks

/-! ## The sweep: the carried pair is the specification's running pair, the output its statistic -/

section Sweep

open Idealize.ShloMosaic.ValueIdx
open scoped BigOperators

variable (V : (c : Dev nD) → (b : Ref sig .tc) → Buf (Elt Ideal) ((c : Thread nD τ).loc b))

theorem chunks_succ (s : Fin 4096 → EReal) (n : ℕ) (h : n < 16) :
    Cert.Spec.chunks s (n + 1) = Cert.Spec.chunkStep (Cert.Spec.chunkOf s n h) (Cert.Spec.chunks s n) := by
  rw [Cert.Spec.chunks.eq_2]; exact dif_pos h

theorem chunks_four (s : Fin 4096 → EReal) (n : ℕ) (h : n + 3 < 16) :
    Cert.Spec.chunks s (n + 4)
      = Cert.Spec.chunkStep (Cert.Spec.chunkOf s (n + 3) h) (Cert.Spec.chunkStep (Cert.Spec.chunkOf s (n + 2) (by omega))
          (Cert.Spec.chunkStep (Cert.Spec.chunkOf s (n + 1) (by omega)) (Cert.Spec.chunkStep (Cert.Spec.chunkOf s n (by omega)) (Cert.Spec.chunks s n)))) :=
  (chunks_succ s (n + 3) h).trans (congrArg (Cert.Spec.chunkStep _)
    ((chunks_succ s (n + 2) (by omega)).trans (congrArg (Cert.Spec.chunkStep _)
      ((chunks_succ s (n + 1) (by omega)).trans (congrArg (Cert.Spec.chunkStep _) (chunks_succ s n (by omega)))))))

/-- The reset pair, at a column, is the specification's starting pair. -/
theorem reset_col (kk : Fin 2048) : col (k1_pay1 (F := Ideal), k1_pay2 (F := Ideal)) kk = (⊥, 0) := by
  unfold col k1_pay1 k1_pay2
  simp only [shapeCast_self, broadcast_apply]
  show (Ideal.ofBits .f32 0xFF800000#32, Ideal.ofBits .f32 0x00000000#32) = ((⊥ : EReal), (0 : EReal))
  rw [negInf, Ideal.ofBits_zero_f32]

/-- A POINT's four trips, at a column: four more chunks of that key's column of scores. -/
theorem pointStep_col (c : Dev nD) (t : Fin cfg1.N) (kk : Fin 2048) (s : Vec Ideal S1x2048 .f32 × Vec Ideal S1x2048 .f32)
    (hs : col s kk = Cert.Spec.chunks (scoreCol V c (bOf t) (keyAt t kk)) (4 * (t.val % 4))) :
    col (pointStep (blk V c 0 t) (blk V c 1 t) s) kk
      = Cert.Spec.chunks (scoreCol V c (bOf t) (keyAt t kk)) (4 * (t.val % 4 + 1)) := by
  have hm : t.val % 4 < 4 := Nat.mod_lt _ (by decide)
  unfold pointStep
  rw [tripStep_col, tripStep_col, tripStep_col, tripStep_col, hs]
  rw [sc_eq_chunkOf V c t ⟨0, lt0⟩ kk (by show 4 * (t.val % 4) + 0 < 16; omega),
    sc_eq_chunkOf V c t ⟨1, lt1⟩ kk (by show 4 * (t.val % 4) + 1 < 16; omega),
    sc_eq_chunkOf V c t ⟨2, lt2⟩ kk (by show 4 * (t.val % 4) + 2 < 16; omega),
    sc_eq_chunkOf V c t ⟨3, lt3⟩ kk (by show 4 * (t.val % 4) + 3 < 16; omega)]
  rw [show 4 * (t.val % 4 + 1) = 4 * (t.val % 4) + 4 from by omega, chunks_four _ _ (by omega)]
  rfl

/-- THE SWEEP: after the body at position `n` the carried pair holds, column by column, the specification's running
    pair after the first `4 (n % 4 + 1)` chunks of the column of the key the block column stands for. -/
theorem carry_col (c : Dev nD) (kk : Fin 2048) : ∀ (n : ℕ) (hn : n < cfg1.N),
    col (carry V c n hn) kk = Cert.Spec.chunks (scoreCol V c (bOf ⟨n, hn⟩) (keyAt ⟨n, hn⟩ kk)) (4 * (n % 4 + 1)) := by
  intro n
  induction n using Nat.strong_induction_on with
  | _ n ih =>
    intro hn
    have hN : n < 32 := lt_of_lt_of_eq hn (show cfg1.N = 32 from N_1)
    by_cases h0 : n % 4 = 0
    · have e := carry_first V c ⟨n, hn⟩ h0
      rw [show carry V c n hn = firstAt V c ⟨n, hn⟩ h0 from e]
      unfold firstAt
      rw [first_eq]
      refine pointStep_col V c ⟨n, hn⟩ kk _ ?_
      rw [reset_col, show (⟨n, hn⟩ : Fin cfg1.N).val % 4 = 0 from h0]
      rfl
    · have hz : n ≠ 0 := fun h => h0 (by rw [h])
      have hprev := ih (n - 1) (by omega) (Nat.lt_of_le_of_lt (Nat.sub_le _ _) hn)
      have hb : bOf (⟨n - 1, Nat.lt_of_le_of_lt (Nat.sub_le _ _) hn⟩ : Fin cfg1.N) = bOf ⟨n, hn⟩ := Fin.ext (by show (n - 1) / 8 = n / 8; omega)
      have hk : keyAt (⟨n - 1, Nat.lt_of_le_of_lt (Nat.sub_le _ _) hn⟩ : Fin cfg1.N) kk = keyAt ⟨n, hn⟩ kk := Fin.ext (by show 2048 * ((n - 1) / 4 % 2) + kk.val = 2048 * (n / 4 % 2) + kk.val; omega)
      rw [hb, hk, show 4 * ((n - 1) % 4 + 1) = 4 * (n % 4) from by omega] at hprev
      by_cases h3 : n % 4 = 3
      · have e := carry_last V c ⟨n, hn⟩ h0 h3
        rw [show carry V c n hn = lastAt V c ⟨n, hn⟩ h0 h3 (carry V c (n - 1) _) from e]
        unfold lastAt
        rw [last_eq]
        exact pointStep_col V c ⟨n, hn⟩ kk _ hprev
      · have e := carry_mid V c ⟨n, hn⟩ h0 h3
        rw [show carry V c n hn = midAt V c ⟨n, hn⟩ h0 h3 (carry V c (n - 1) _) from e]
        unfold midAt
        rw [mid_eq]
        exact pointStep_col V c ⟨n, hn⟩ kk _ hprev

/-- At a write-out point the output block holds, column by column, the statistic of that key's column of scores. -/
theorem outAt_apply (c : Dev nD) (t : Fin cfg1.N) (h3 : t.val % 4 = 3) (kk : Fin 2048) :
    outAt V c t (ix3 (0 : Fin 1) (0 : Fin 1) kk) = Cert.Spec.stat (scoreCol V c (bOf t) (keyAt t kk)) := by
  have h0 : ¬t.val % 4 = 0 := by omega
  have e : pointStep (blk V c 0 t) (blk V c 1 t) (carry V c (t.val - 1) (Nat.lt_of_le_of_lt (Nat.sub_le _ _) t.isLt)) = carry V c t.val t.isLt := by
    rw [carry_last V c t h0 h3]; unfold lastAt; exact (last_eq ..).symm
  rw [outAt_last V c t h0 h3]
  unfold outLastAt
  rw [out_eq, e, pay7_apply]
  have hc := carry_col V c kk t.val t.isLt
  rw [h3] at hc
  unfold Cert.Spec.stat
  rw [← show col (carry V c t.val t.isLt) kk = Cert.Spec.chunks (scoreCol V c (bOf t) (keyAt t kk)) 16 from hc]
  rfl

/-- The statistic array: batch `b`, key `k`. -/
def G (c : Dev nD) : S4x1x4096.Idx → EReal := fun i => Cert.Spec.stat (scoreCol V c (i 0) (i 2))

/-- What a write-out point writes back is its block of the statistic array. -/
theorem flushed_eq (c : Dev nD) (t : Fin cfg1.N) (hf : (cfg1.win 2).flush t = true) :
    (dat (F := Ideal) V c).flushed 2 t = ((cfg1.win 2).blk t).view.read (Elt Ideal) (G V c) := by
  have h3 : t.val % 4 = 3 := (flush1_2 t).mp hf
  show (cfg1.win 2).cut (grid1.coords t) ((dat (F := Ideal) V c).after 2 t) = _
  rw [after_O]
  funext j
  obtain ⟨u0, u1, kk, rfl⟩ : ∃ (u0 u1 : Fin 1) (kk : Fin 2048), j = ix3 u0 u1 kk := ⟨j 0, j 1, j 2, eq_ix3 j⟩
  obtain rfl : u0 = 0 := Subsingleton.elim _ _
  obtain rfl : u1 = 0 := Subsingleton.elim _ _
  show outAt V c t (ix3 (0 : Fin 1) (0 : Fin 1) kk) = G V c (((cfg1.win 2).blk t).view.emb (ix3 (0 : Fin 1) (0 : Fin 1) kk))
  rw [outAt_apply V c t h3 kk, embO_apply]
  rfl

/-- Every index of the statistic array is in the block of the write-out point of its batch and key half. -/
theorem cover2 (i : S4x1x4096.Idx) :
    ∃ t : Fin cfg1.N, (cfg1.win 2).flush t = true ∧ i ∈ ((cfg1.win 2).blk t).view.set := by
  have hi0 : (i 0).val < 4 := (i 0).isLt
  have hi1 : (i 1).val < 1 := (i 1).isLt
  have hi2 : (i 2).val < 4096 := (i 2).isLt
  have ht : (i 0).val * 8 + (i 2).val / 2048 * 4 + 3 < cfg1.N := lt_of_lt_of_eq (show (i 0).val * 8 + (i 2).val / 2048 * 4 + 3 < 32 by omega) N_1.symm
  refine ⟨⟨(i 0).val * 8 + (i 2).val / 2048 * 4 + 3, ht⟩, (flush1_2 _).mpr (by show ((i 0).val * 8 + (i 2).val / 2048 * 4 + 3) % 4 = 3; omega), ?_⟩
  obtain ⟨k0, k1, k2, q0, q1, q2, o0, o1, o2⟩ := idx1 ⟨(i 0).val * 8 + (i 2).val / 2048 * 4 + 3, ht⟩
  show i ∈ ((View.whole main_v7).slice (win1_2.rect ⟨(i 0).val * 8 + (i 2).val / 2048 * 4 + 3, ht⟩)).set
  rw [View.set_slice_whole, Rect.mem_set_unit]
  intro ax
  match ax with
  | ⟨0, _⟩ =>
    show win1_2.index ⟨(i 0).val * 8 + (i 2).val / 2048 * 4 + 3, ht⟩ (0 : Fin 3) * 1 ≤ (i 0).val ∧ (i 0).val < win1_2.index ⟨(i 0).val * 8 + (i 2).val / 2048 * 4 + 3, ht⟩ (0 : Fin 3) * 1 + 1
    rw [o0]; show ((i 0).val * 8 + (i 2).val / 2048 * 4 + 3) / 8 * 1 ≤ (i 0).val ∧ (i 0).val < ((i 0).val * 8 + (i 2).val / 2048 * 4 + 3) / 8 * 1 + 1; omega
  | ⟨1, _⟩ =>
    show win1_2.index ⟨(i 0).val * 8 + (i 2).val / 2048 * 4 + 3, ht⟩ (1 : Fin 3) * 1 ≤ (i 1).val ∧ (i 1).val < win1_2.index ⟨(i 0).val * 8 + (i 2).val / 2048 * 4 + 3, ht⟩ (1 : Fin 3) * 1 + 1
    rw [o1]; omega
  | ⟨2, _⟩ =>
    show win1_2.index ⟨(i 0).val * 8 + (i 2).val / 2048 * 4 + 3, ht⟩ (2 : Fin 3) * 2048 ≤ (i 2).val ∧ (i 2).val < win1_2.index ⟨(i 0).val * 8 + (i 2).val / 2048 * 4 + 3, ht⟩ (2 : Fin 3) * 2048 + 2048
    rw [o2]; show ((i 0).val * 8 + (i 2).val / 2048 * 4 + 3) / 4 % 2 * 2048 ≤ (i 2).val ∧ (i 2).val < ((i 0).val * 8 + (i 2).val / 2048 * 4 + 3) / 4 % 2 * 2048 + 2048; omega

/-- THE VALUE OF PASS 1: after the region, entry (b, 0, k) of the statistic array is the specification's statistic of
    the scaled scores of key `k` of batch `b` against all 4096 queries, the operands as the region found them. -/
theorem out2 (c : Dev nD) (b : Fin 4) (k : Fin 4096) :
    (dat (F := Ideal) V c).arrAt 2 cfg1.N (ix3 b (0 : Fin 1) k)
      = Cert.Spec.stat (fun q : Fin 4096 =>
          (∑ e : Fin 128, Reg0.rd S4x4096x128 (V c main_v4) (ix3 b q e) * Reg0.rd S4x4096x128 (V c main_v5) (ix3 b k e)) * Cert.Spec.scale) := by
  rw [(dat (F := Ideal) V c).arrAt_eq_of_cover 2 (G V c) (flushed_eq V c) cover2]
  rfl

end Sweep

end Cert.KernelIdeal.Reg1

end
-- ==== Proof.KI.Region2ValueB.lean ====
import proofs.«135563_j8478265442573_2_alg».proof.Proof.KI.Region2
import proofs.«135563_j8478265442573_2_alg».proof.Proof.KI.Region0Value
import proofs.«135563_j8478265442573_2_alg».proof.Proof.Spec
import Idealize.ShloMosaic.Lib.Pipeline.Value
import Idealize.ShloMosaic.Lib.ValueIdx
import Idealize.ShloMosaic.Lib.ValueIdxCoords
import Idealize.ShloMosaic.Lib.ValueLayout
import Idealize.ShloMosaic.PureOps.Ideal
import Idealize.ShloMosaic.PureOps.Ideal.Laws

/-! # Pass 2 at the extended reals: what the accumulator and the output block hold

At any float model one trip of the chunk loop replaces the accumulator by the trip's payload of it, so a
point's four trips replace it by `pointStep`, and each of the three runs leaves exactly that.  At the extended
reals a trip adds, entry by entry, the 256 terms of one chunk of the row's weighted sum over the keys; the
sweep over a row block's four points therefore leaves `Cert.Spec.chunkSum` after sixteen chunks. -/

set_option maxRecDepth 16384
noncomputable section

namespace Cert.KernelIdeal.Reg2B

open Cert.KernelIdeal Cert.KernelIdeal.Gen Cert.KernelIdeal.Reg2
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

theorem zeros2 : (![0, 0] : Fin 2 → Nat) = fun _ => 0 := funext fun a => by fin_cases a <;> rfl
theorem zeros3 : (![0, 0, 0] : Fin 3 → Nat) = fun _ => 0 := funext fun a => by fin_cases a <;> rfl

/-- A store over the whole buffer, last, leaves its payload whatever was stored before. -/
theorem read_store_whole {Val : EltTy → Type} {S : Shape} {e : EltTy} {sg : RefSig} {κ : Kind} {sp : Space}
    (v : View sg κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  subst h; funext y
  have e := View.read_writes_cons_emb v f (Rect.whole S) w L y
  rw [Rect.emb_whole_apply] at e
  exact e

/-- Chunk `k` of a key or value block: 256 consecutive rows; and of the statistic block: 256 consecutive entries. -/
def chunkR (x : Vec F S1x1024x128 .bf16) (k : Fin k2_t1_loop.trips) : Vec F S1x256x128 .bf16 :=
  View.ld x (Rect.unit (s := S1x1024x128) (k2_off1 k) S1x256x128.size (k2_off1_inb k))
def chunkC (x : Vec F S1x1x1024 .f32) (k : Fin k2_t1_loop.trips) : Vec F S1x1x256 .f32 :=
  View.ld x (Rect.unit (s := S1x1x1024) (k2_off2 k) S1x1x256.size (k2_off2_inb k))

section Fold

variable (c : Dev nD) (i : grid2.Coords)
    (a3 : Memref sig .tc .vmem S1x2048x128 .bf16) (h3 : a3.IsWhole) (a4 : Memref sig .tc .vmem S1x1024x128 .bf16) (h4 : a4.IsWhole)
    (a5 : Memref sig .tc .vmem S1x1024x128 .bf16) (h5 : a5.IsWhole) (a6 : Memref sig .tc .vmem S1x1x1024 .f32) (h6 : a6.IsWhole)
    (a7 : Memref sig .tc .vmem S1x2048x128 .f32) (h7 : a7.IsWhole) (a8 : Memref sig .tc .vmem S2048x128 .f32) (h8 : a8.IsWhole) (v3 : Vec F S1x2048x128 .bf16) (xk xv : Vec F S1x1024x128 .bf16) (xc : Vec F S1x1x1024 .f32)
  (G8 : BufTy.Contents (Elt F) a8.view.ty)

/-- The accumulator after the first `n` trips, read back. -/
def st (n : ℕ) : Vec F S2048x128 .f32 :=
  a8.view.read (Elt F) (a8.view.writes (Elt F) G8 (pb_k2_t1 (F := F) Variants.none c none i a3 h3 a4 h4 a5 h5 a6 h6 a7 h7 a8 h8 v3 (h4.unread xk) (h5.unread xv) (h6.unread xc) G8 n))

theorem st_zero : st c i a3 h3 a4 h4 a5 h5 a6 h6 a7 h7 a8 h8 v3 xk xv xc G8 0 = a8.view.read (Elt F) G8 := by
  unfold st; rw [pb_k2_t1.eq_1]; rfl

theorem st_succ (k : Fin k2_t1_loop.trips) :
    st c i a3 h3 a4 h4 a5 h5 a6 h6 a7 h7 a8 h8 v3 xk xv xc G8 (k.val + 1)
      = k2_pay2 v3 (chunkR xk k) (chunkR xv k) (chunkC xc k) (st c i a3 h3 a4 h4 a5 h5 a6 h6 a7 h7 a8 h8 v3 xk xv xc G8 k.val) := by
  unfold st chunkR chunkC
  rw [pb_k2_t1_succ]
  unfold tripL_k2_t1
  unfold trip_k2_t1
  dsimp only
  simp only [List.cons_append, List.nil_append]
  rw [read_store_whole _ _ zeros2]
  simp only [View.readAt_eq_ld, h4.read_unread, h5.read_unread, h6.read_unread, View.ld_unit_zero (S := S2048x128) zeros2]

end Fold

theorem lt0 : 0 < k2_t1_loop.trips := by decide
theorem lt1 : 1 < k2_t1_loop.trips := by decide
theorem lt2 : 2 < k2_t1_loop.trips := by decide
theorem lt3 : 3 < k2_t1_loop.trips := by decide

/-- One trip on the accumulator, and the four trips of one point, in order. -/
def tripStep (xq : Vec F S1x2048x128 .bf16) (xk xv : Vec F S1x1024x128 .bf16) (xc : Vec F S1x1x1024 .f32) (k : Fin k2_t1_loop.trips) (acc : Vec F S2048x128 .f32) : Vec F S2048x128 .f32 :=
  k2_pay2 xq (chunkR xk k) (chunkR xv k) (chunkC xc k) acc
def pointStep (xq : Vec F S1x2048x128 .bf16) (xk xv : Vec F S1x1024x128 .bf16) (xc : Vec F S1x1x1024 .f32) (acc : Vec F S2048x128 .f32) : Vec F S2048x128 .f32 :=
  tripStep xq xk xv xc ⟨3, lt3⟩ (tripStep xq xk xv xc ⟨2, lt2⟩ (tripStep xq xk xv xc ⟨1, lt1⟩ (tripStep xq xk xv xc ⟨0, lt0⟩ acc)))

theorem st_four (c : Dev nD) (i : grid2.Coords)
    (a3 : Memref sig .tc .vmem S1x2048x128 .bf16) (h3 : a3.IsWhole) (a4 : Memref sig .tc .vmem S1x1024x128 .bf16) (h4 : a4.IsWhole)
    (a5 : Memref sig .tc .vmem S1x1024x128 .bf16) (h5 : a5.IsWhole) (a6 : Memref sig .tc .vmem S1x1x1024 .f32) (h6 : a6.IsWhole)
    (a7 : Memref sig .tc .vmem S1x2048x128 .f32) (h7 : a7.IsWhole) (a8 : Memref sig .tc .vmem S2048x128 .f32) (h8 : a8.IsWhole) (v3 : Vec F S1x2048x128 .bf16) (xk xv : Vec F S1x1024x128 .bf16) (xc : Vec F S1x1x1024 .f32)
    (G8 : BufTy.Contents (Elt F) a8.view.ty) :
    st c i a3 h3 a4 h4 a5 h5 a6 h6 a7 h7 a8 h8 v3 xk xv xc G8 4 = pointStep v3 xk xv xc (a8.view.read (Elt F) G8) := by
  unfold pointStep tripStep
  rw [← st_zero c i a3 h3 a4 h4 a5 h5 a6 h6 a7 h7 a8 h8 v3 xk xv xc G8]
  exact (st_succ c i a3 h3 a4 h4 a5 h5 a6 h6 a7 h7 a8 h8 v3 xk xv xc G8 ⟨3, lt3⟩).trans (congrArg (k2_pay2 v3 _ _ _)
    ((st_succ c i a3 h3 a4 h4 a5 h5 a6 h6 a7 h7 a8 h8 v3 xk xv xc G8 ⟨2, lt2⟩).trans (congrArg (k2_pay2 v3 _ _ _)
      ((st_succ c i a3 h3 a4 h4 a5 h5 a6 h6 a7 h7 a8 h8 v3 xk xv xc G8 ⟨1, lt1⟩).trans (congrArg (k2_pay2 v3 _ _ _)
        (st_succ c i a3 h3 a4 h4 a5 h5 a6 h6 a7 h7 a8 h8 v3 xk xv xc G8 ⟨0, lt0⟩))))))

/-- The middle run leaves the accumulator it found, folded with the point's four chunks. -/
theorem mid_eq (c : Dev nD) (i : grid2.Coords)
    (a3 : Memref sig .tc .vmem S1x2048x128 .bf16) (h3 : a3.IsWhole) (a4 : Memref sig .tc .vmem S1x1024x128 .bf16) (h4 : a4.IsWhole)
    (a5 : Memref sig .tc .vmem S1x1024x128 .bf16) (h5 : a5.IsWhole) (a6 : Memref sig .tc .vmem S1x1x1024 .f32) (h6 : a6.IsWhole)
    (a7 : Memref sig .tc .vmem S1x2048x128 .f32) (h7 : a7.IsWhole) (a8 : Memref sig .tc .vmem S2048x128 .f32) (h8 : a8.IsWhole) (hz : ¬condZ i) (hl : ¬condL i) (xq : Vec F S1x2048x128 .bf16) (xk xv : Vec F S1x1024x128 .bf16) (xc : Vec F S1x1x1024 .f32) (xs : Vec F S2048x128 .f32) :
    sMid c i a3 h3 a4 h4 a5 h5 a6 h6 a7 h7 a8 h8 hz hl xq xk xv xc xs = pointStep xq xk xv xc xs := by
  unfold sMid
  rw [View.read_writes_of_cover VS VS.junk a8.view (h8.unread xs) _ (coverMid c i a3 h3 a4 h4 a5 h5 a6 h6 a7 h7 a8 h8 hz hl xq xk xv xc xs)]
  have e := st_four c i a3 h3 a4 h4 a5 h5 a6 h6 a7 h7 a8 h8 (View.readAt (Elt F) a3.view (Rect.unit (s := S1x2048x128) ![0, 0, 0] S1x2048x128.size inb_S1x2048x128_S1x2048x128_0_0_0).toLoadRect (h3.unread xq)) xk xv xc (h8.unread xs)
  simp only [View.readAt_eq_ld, h3.read_unread, h8.read_unread, View.ld_unit_zero (S := S1x2048x128) zeros3] at e
  rw [← e]
  unfold runMid st
  dsimp only
  simp only [View.readAt_eq_ld, h3.read_unread, View.ld_unit_zero (S := S1x2048x128) zeros3]
  rfl

/-- The first run leaves the zero accumulator folded with the point's four chunks. -/
theorem first_eq (c : Dev nD) (i : grid2.Coords)
    (a3 : Memref sig .tc .vmem S1x2048x128 .bf16) (h3 : a3.IsWhole) (a4 : Memref sig .tc .vmem S1x1024x128 .bf16) (h4 : a4.IsWhole)
    (a5 : Memref sig .tc .vmem S1x1024x128 .bf16) (h5 : a5.IsWhole) (a6 : Memref sig .tc .vmem S1x1x1024 .f32) (h6 : a6.IsWhole)
    (a7 : Memref sig .tc .vmem S1x2048x128 .f32) (h7 : a7.IsWhole) (a8 : Memref sig .tc .vmem S2048x128 .f32) (h8 : a8.IsWhole) (hz : condZ i) (hl : ¬condL i) (xq : Vec F S1x2048x128 .bf16) (xk xv : Vec F S1x1024x128 .bf16) (xc : Vec F S1x1x1024 .f32) :
    sFirst c i a3 h3 a4 h4 a5 h5 a6 h6 a7 h7 a8 h8 hz hl xq xk xv xc = pointStep xq xk xv xc (k2_pay1 (F := F)) := by
  unfold sFirst
  rw [View.read_writes_of_cover VS VS.junk a8.view a8.view.junk _ (coverFirst c i a3 h3 a4 h4 a5 h5 a6 h6 a7 h7 a8 h8 hz hl xq xk xv xc)]
  have e := st_four c i a3 h3 a4 h4 a5 h5 a6 h6 a7 h7 a8 h8 (View.readAt (Elt F) a3.view (Rect.unit (s := S1x2048x128) ![0, 0, 0] S1x2048x128.size inb_S1x2048x128_S1x2048x128_0_0_0).toLoadRect (h3.unread xq)) xk xv xc
      (a8.view.writes (Elt F) a8.view.junk [⟨Rect.unit (s := S2048x128) ![0, 0] S2048x128.size inb_S2048x128_S2048x128_0_0, k2_pay1 (F := F)⟩])
  simp only [View.readAt_eq_ld, h3.read_unread, View.ld_unit_zero (S := S1x2048x128) zeros3] at e
  rw [read_store_whole _ _ zeros2] at e
  rw [← e]
  unfold runFirst st
  dsimp only
  sl_unfold_words
  simp only [View.readAt_eq_ld, h3.read_unread, View.ld_unit_zero (S := S1x2048x128) zeros3, View.writes_append]
  rfl

/-- The last run leaves the same accumulator as a middle run would, -/
theorem last_eq (c : Dev nD) (i : grid2.Coords)
    (a3 : Memref sig .tc .vmem S1x2048x128 .bf16) (h3 : a3.IsWhole) (a4 : Memref sig .tc .vmem S1x1024x128 .bf16) (h4 : a4.IsWhole)
    (a5 : Memref sig .tc .vmem S1x1024x128 .bf16) (h5 : a5.IsWhole) (a6 : Memref sig .tc .vmem S1x1x1024 .f32) (h6 : a6.IsWhole)
    (a7 : Memref sig .tc .vmem S1x2048x128 .f32) (h7 : a7.IsWhole) (a8 : Memref sig .tc .vmem S2048x128 .f32) (h8 : a8.IsWhole) (hz : ¬condZ i) (hl : condL i) (xq : Vec F S1x2048x128 .bf16) (xk xv : Vec F S1x1024x128 .bf16) (xc : Vec F S1x1x1024 .f32) (xs : Vec F S2048x128 .f32) :
    sLast c i a3 h3 a4 h4 a5 h5 a6 h6 a7 h7 a8 h8 hz hl xq xk xv xc xs = pointStep xq xk xv xc xs := by
  unfold sLast
  rw [View.read_writes_of_cover VS VS.junk a8.view (h8.unread xs) _ (coverLastS c i a3 h3 a4 h4 a5 h5 a6 h6 a7 h7 a8 h8 hz hl xq xk xv xc xs)]
  have e := st_four c i a3 h3 a4 h4 a5 h5 a6 h6 a7 h7 a8 h8 (View.readAt (Elt F) a3.view (Rect.unit (s := S1x2048x128) ![0, 0, 0] S1x2048x128.size inb_S1x2048x128_S1x2048x128_0_0_0).toLoadRect (h3.unread xq)) xk xv xc (h8.unread xs)
  simp only [View.readAt_eq_ld, h3.read_unread, h8.read_unread, View.ld_unit_zero (S := S1x2048x128) zeros3] at e
  rw [← e]
  unfold runLast st
  dsimp only
  simp only [View.readAt_eq_ld, h3.read_unread, View.ld_unit_zero (S := S1x2048x128) zeros3]
  rfl

/-- and the output block at that accumulator, under a leading unit axis. -/
theorem out_eq (c : Dev nD) (i : grid2.Coords)
    (a3 : Memref sig .tc .vmem S1x2048x128 .bf16) (h3 : a3.IsWhole) (a4 : Memref sig .tc .vmem S1x1024x128 .bf16) (h4 : a4.IsWhole)
    (a5 : Memref sig .tc .vmem S1x1024x128 .bf16) (h5 : a5.IsWhole) (a6 : Memref sig .tc .vmem S1x1x1024 .f32) (h6 : a6.IsWhole)
    (a7 : Memref sig .tc .vmem S1x2048x128 .f32) (h7 : a7.IsWhole) (a8 : Memref sig .tc .vmem S2048x128 .f32) (h8 : a8.IsWhole) (hz : ¬condZ i) (hl : condL i) (xq : Vec F S1x2048x128 .bf16) (xk xv : Vec F S1x1024x128 .bf16) (xc : Vec F S1x1x1024 .f32) (xs : Vec F S2048x128 .f32) :
    oLast c i a3 h3 a4 h4 a5 h5 a6 h6 a7 h7 a8 h8 hz hl xq xk xv xc xs = k2_pay3 (pointStep xq xk xv xc xs) := by
  unfold oLast
  have e := st_four c i a3 h3 a4 h4 a5 h5 a6 h6 a7 h7 a8 h8 (View.readAt (Elt F) a3.view (Rect.unit (s := S1x2048x128) ![0, 0, 0] S1x2048x128.size inb_S1x2048x128_S1x2048x128_0_0_0).toLoadRect (h3.unread xq)) xk xv xc (h8.unread xs)
  simp only [View.readAt_eq_ld, h3.read_unread, h8.read_unread, View.ld_unit_zero (S := S1x2048x128) zeros3] at e
  rw [← e]
  unfold runLast st
  dsimp only
  sl_unfold_words
  rw [read_store_whole _ _ zeros3]
  simp only [View.readAt_eq_ld, h3.read_unread, View.ld_unit_zero (S := S1x2048x128) zeros3, View.ld_unit_zero (S := S2048x128) zeros2]
  rfl

/-! ## At the extended reals: one trip, entry by entry, adds one chunk of the row's weighted sum -/

section AtIdeal

open Idealize.ShloMosaic.ValueIdx
open scoped BigOperators

/-- The named scale is the specification's. -/
theorem scale_eq : Named.named (F := Ideal) κ "inv_sqrt_d" (φ := .f32) 0x3DB504F3#32 = Cert.Spec.scale :=
  IdealRules.named_const.ideal_named_scalar _ _ _ _ rfl

abbrev D2 := dot_S2048x128_S256x128_S2048x256_1_1_0_0_n_n
abbrev D3 := dot_S2048x256_S256x128_S2048x128_1_0_0_1_n_n

theorem D2_lhs (qq : Fin 2048) (r : Fin 256) (k : D2.contr.Idx) :
    D2.lhsIdx (ix2 qq r) k = ix2 qq ((k ⟨0, by decide⟩).cast (by decide)) := by
  funext a; apply Fin.ext
  match a with
  | ⟨0, _⟩ => simp [DotDims.lhsIdx, D2, dot_S2048x128_S256x128_S2048x256_1_1_0_0_n_n]; rfl
  | ⟨1, _⟩ => simp [DotDims.lhsIdx, D2, dot_S2048x128_S256x128_S2048x256_1_1_0_0_n_n]; rfl

theorem D2_rhs (qq : Fin 2048) (r : Fin 256) (k : D2.contr.Idx) :
    D2.rhsIdx (ix2 qq r) k = ix2 r ((k ⟨0, by decide⟩).cast (by decide)) := by
  funext a; apply Fin.ext
  match a with
  | ⟨0, _⟩ => simp [DotDims.rhsIdx, D2, dot_S2048x128_S256x128_S2048x256_1_1_0_0_n_n]; rfl
  | ⟨1, _⟩ => simp [DotDims.rhsIdx, D2, dot_S2048x128_S256x128_S2048x256_1_1_0_0_n_n]; rfl

theorem D3_lhs (qq : Fin 2048) (v : Fin 128) (k : D3.contr.Idx) :
    D3.lhsIdx (ix2 qq v) k = ix2 qq ((k ⟨0, by decide⟩).cast (by decide)) := by
  funext a; apply Fin.ext
  match a with
  | ⟨0, _⟩ => simp [DotDims.lhsIdx, D3, dot_S2048x256_S256x128_S2048x128_1_0_0_1_n_n]; rfl
  | ⟨1, _⟩ => simp [DotDims.lhsIdx, D3, dot_S2048x256_S256x128_S2048x128_1_0_0_1_n_n]; rfl

theorem D3_rhs (qq : Fin 2048) (v : Fin 128) (k : D3.contr.Idx) :
    D3.rhsIdx (ix2 qq v) k = ix2 ((k ⟨0, by decide⟩).cast (by decide)) v := by
  funext a; apply Fin.ext
  match a with
  | ⟨0, _⟩ => simp [DotDims.rhsIdx, D3, dot_S2048x256_S256x128_S2048x128_1_0_0_1_n_n]; rfl
  | ⟨1, _⟩ => simp [DotDims.rhsIdx, D3, dot_S2048x256_S256x128_S2048x128_1_0_0_1_n_n]; rfl

/-- The scaled score of query row `qq` against row `r` of a key chunk. -/
def sc (xq : Vec Ideal S1x2048x128 .bf16) (kc : Vec Ideal S1x256x128 .bf16) (qq : Fin 2048) (r : Fin 256) : EReal :=
  (∑ e : Fin 128, xq (ix3 (0 : Fin 1) qq e) * kc (ix3 (0 : Fin 1) r e)) * Cert.Spec.scale

theorem score_apply (xq : Vec Ideal S1x2048x128 .bf16) (kc : Vec Ideal S1x256x128 .bf16) (qq : Fin 2048) (r : Fin 256) :
    (mulf (matmul D2 none (shapeCast S2048x128 xq shapeCasts_S1x2048x128_S2048x128 : FVec Ideal S2048x128 .bf16)
        (shapeCast S256x128 kc shapeCasts_S1x256x128_S256x128 : FVec Ideal S256x128 .bf16)
        (constant S2048x256 .f32 0x00000000#32) : FVec Ideal S2048x256 .f32)
      (broadcast S2048x256 (Named.named (F := Ideal) κ "inv_sqrt_d" (φ := .f32) 0x3DB504F3#32)) : FVec Ideal S2048x256 .f32) (ix2 qq r)
      = sc xq kc qq r := by
  unfold sc
  simp only [mulf_apply, broadcast_apply, scale_eq, matmul]
  rw [Ideal.matmul_constant_zero_apply]
  congr 1
  rw [← Equiv.sum_comp (contrEquiv1 D2 128 (by decide) (by decide)).symm]
  refine Finset.sum_congr rfl fun e _ => ?_
  rw [D2_lhs, D2_rhs, shapeCast_1ab_ab_apply, shapeCast_1ab_ab_apply]
  rfl

/-- The weight of row `r` of a chunk for query row `qq`: the exponential of the scaled score less the key's statistic. -/
def wt (xq : Vec Ideal S1x2048x128 .bf16) (kc : Vec Ideal S1x256x128 .bf16) (cc : Vec Ideal S1x1x256 .f32) (qq : Fin 2048) (r : Fin 256) : EReal :=
  Ideal.exp (sc xq kc qq r - cc (ix3 (0 : Fin 1) (0 : Fin 1) r))

/-- ONE TRIP, entry by entry: the accumulator plus the chunk's 256 weighted value rows. -/
theorem pay2_apply (xq : Vec Ideal S1x2048x128 .bf16) (kc vc : Vec Ideal S1x256x128 .bf16) (cc : Vec Ideal S1x1x256 .f32)
    (acc : Vec Ideal S2048x128 .f32) (qq : Fin 2048) (v : Fin 128) :
    k2_pay2 (F := Ideal) xq kc vc cc acc (ix2 qq v) = acc (ix2 qq v) + ∑ r : Fin 256, wt xq kc cc qq r * vc (ix3 (0 : Fin 1) r v) := by
  unfold k2_pay2
  simp only [shapeCast_self]
  simp only [addf_apply, matmul]
  rw [Ideal.matmul_constant_zero_apply]
  refine congrArg (acc (ix2 qq v) + ·) ?_
  rw [← Equiv.sum_comp (contrEquiv1 D3 256 (by decide) (by decide)).symm]
  refine Finset.sum_congr rfl fun r _ => ?_
  rw [D3_lhs, D3_rhs, shapeCast_1ab_ab_apply]
  simp only [truncf_apply, exp, subf_apply, Ideal.exp_def]
  rw [broadcastTo_1b_ab_apply, shapeCast_1ab_ab_apply]
  unfold wt
  refine congrArg (· * _) (congrArg (fun z => Ideal.exp (z - _)) ?_)
  exact score_apply xq kc qq _

theorem pay1_apply (qq : Fin 2048) (v : Fin 128) : k2_pay1 (F := Ideal) (ix2 qq v) = 0 := by
  unfold k2_pay1
  simp only [shapeCast_self, broadcast_apply]
  show Ideal.ofBits .f32 0x00000000#32 = 0
  exact Ideal.ofBits_zero_f32

theorem pay3_apply (acc : Vec Ideal S2048x128 .f32) (qq : Fin 2048) (v : Fin 128) :
    k2_pay3 (F := Ideal) acc (ix3 (0 : Fin 1) qq v) = acc (ix2 qq v) := by
  unfold k2_pay3
  rw [shapeCast_ab_1ab_apply]

end AtIdeal

/-! ## The blocks at a point, read off the arrays; a point's four trips on an entry -/

section Blocks

open Idealize.ShloMosaic.ValueIdx
open scoped BigOperators

variable (V : (c : Dev nD) → (b : Ref sig .tc) → Buf (Elt Ideal) ((c : Thread nD τ).loc b))

/-- Where the five windows' blocks sit at point `t`: batch `t / 8`, query half `t / 4 % 2`, key quarter `t % 4`. -/
theorem idx2 : ∀ t : Fin cfg2.N,
    win2_0.index t (0 : Fin 3) = t.val / 8 ∧ win2_0.index t (1 : Fin 3) = t.val / 4 % 2 ∧ win2_0.index t (2 : Fin 3) = 0
    ∧ win2_1.index t (0 : Fin 3) = t.val / 8 ∧ win2_1.index t (1 : Fin 3) = t.val % 4 ∧ win2_1.index t (2 : Fin 3) = 0
    ∧ win2_2.index t (0 : Fin 3) = t.val / 8 ∧ win2_2.index t (1 : Fin 3) = t.val % 4 ∧ win2_2.index t (2 : Fin 3) = 0
    ∧ win2_3.index t (0 : Fin 3) = t.val / 8 ∧ win2_3.index t (1 : Fin 3) = 0 ∧ win2_3.index t (2 : Fin 3) = t.val % 4
    ∧ win2_4.index t (0 : Fin 3) = t.val / 8 ∧ win2_4.index t (1 : Fin 3) = t.val / 4 % 2 ∧ win2_4.index t (2 : Fin 3) = 0 :=
  (by decide +kernel : ∀ t : Fin grid2.N, _)

theorem t_lt (t : Fin cfg2.N) : t.val < 32 := lt_of_lt_of_eq t.isLt (show cfg2.N = 32 from N_2)

/-- The batch of point `t`, and the query and the key a block row stands for there. -/
def bOf (t : Fin cfg2.N) : Fin 4 := ⟨t.val / 8, by have := t_lt t; omega⟩
def qryAt (t : Fin cfg2.N) (qq : Fin 2048) : Fin 4096 := ⟨2048 * (t.val / 4 % 2) + qq.val, by have := qq.isLt; omega⟩
def keyAt (t : Fin cfg2.N) (k : Fin 1024) : Fin 4096 := ⟨1024 * (t.val % 4) + k.val, by have := k.isLt; omega⟩

theorem blkQ_apply (c : Dev nD) (t : Fin cfg2.N) (qq : Fin 2048) (e : Fin 128) :
    iblk V c 0 t (ix3 (0 : Fin 1) qq e) = V c main_v4 (ix3 (bOf t) (qryAt t qq) e) := by
  obtain ⟨a0, a1, a2, b0, b1, b2, c0, c1, c2, d0, d1, d2, e0, e1, e2⟩ := idx2 t
  show V c main_v4 (((cfg2.win 0).blk t).view.emb (ix3 (0 : Fin 1) qq e)) = _
  refine congrArg (V c main_v4) (funext fun ax => Fin.ext ?_)
  match ax with
  | ⟨0, _⟩ => show win2_0.index t (0 : Fin 3) * 1 + 1 * 0 = t.val / 8; omega
  | ⟨1, _⟩ => show win2_0.index t (1 : Fin 3) * 2048 + 1 * qq.val = 2048 * (t.val / 4 % 2) + qq.val; omega
  | ⟨2, _⟩ => show win2_0.index t (2 : Fin 3) * 128 + 1 * e.val = e.val; omega

theorem blkK_apply (c : Dev nD) (t : Fin cfg2.N) (k : Fin 1024) (e : Fin 128) :
    iblk V c 1 t (ix3 (0 : Fin 1) k e) = V c main_v5 (ix3 (bOf t) (keyAt t k) e) := by
  obtain ⟨a0, a1, a2, b0, b1, b2, c0, c1, c2, d0, d1, d2, e0, e1, e2⟩ := idx2 t
  show V c main_v5 (((cfg2.win 1).blk t).view.emb (ix3 (0 : Fin 1) k e)) = _
  refine congrArg (V c main_v5) (funext fun ax => Fin.ext ?_)
  match ax with
  | ⟨0, _⟩ => show win2_1.index t (0 : Fin 3) * 1 + 1 * 0 = t.val / 8; omega
  | ⟨1, _⟩ => show win2_1.index t (1 : Fin 3) * 1024 + 1 * k.val = 1024 * (t.val % 4) + k.val; omega
  | ⟨2, _⟩ => show win2_1.index t (2 : Fin 3) * 128 + 1 * e.val = e.val; omega

theorem blkV_apply (c : Dev nD) (t : Fin cfg2.N) (k : Fin 1024) (v : Fin 128) :
    iblk V c 2 t (ix3 (0 : Fin 1) k v) = V c main_v6 (ix3 (bOf t) (keyAt t k) v) := by
  obtain ⟨a0, a1, a2, b0, b1, b2, c0, c1, c2, d0, d1, d2, e0, e1, e2⟩ := idx2 t
  show V c main_v6 (((cfg2.win 2).blk t).view.emb (ix3 (0 : Fin 1) k v)) = _
  refine congrArg (V c main_v6) (funext fun ax => Fin.ext ?_)
  match ax with
  | ⟨0, _⟩ => show win2_2.index t (0 : Fin 3) * 1 + 1 * 0 = t.val / 8; omega
  | ⟨1, _⟩ => show win2_2.index t (1 : Fin 3) * 1024 + 1 * k.val = 1024 * (t.val % 4) + k.val; omega
  | ⟨2, _⟩ => show win2_2.index t (2 : Fin 3) * 128 + 1 * v.val = v.val; omega

theorem blkC_apply (c : Dev nD) (t : Fin cfg2.N) (k : Fin 1024) :
    iblk V c 3 t (ix3 (0 : Fin 1) (0 : Fin 1) k) = V c main_v7 (ix3 (bOf t) (0 : Fin 1) (keyAt t k)) := by
  obtain ⟨a0, a1, a2, b0, b1, b2, c0, c1, c2, d0, d1, d2, e0, e1, e2⟩ := idx2 t
  show V c main_v7 (((cfg2.win 3).blk t).view.emb (ix3 (0 : Fin 1) (0 : Fin 1) k)) = _
  refine congrArg (V c main_v7) (funext fun ax => Fin.ext ?_)
  match ax with
  | ⟨0, _⟩ => show win2_3.index t (0 : Fin 3) * 1 + 1 * 0 = t.val / 8; omega
  | ⟨1, _⟩ => show win2_3.index t (1 : Fin 3) * 1 + 1 * 0 = 0; omega
  | ⟨2, _⟩ => show win2_3.index t (2 : Fin 3) * 1024 + 1 * k.val = 1024 * (t.val % 4) + k.val; omega

theorem embO_apply (t : Fin cfg2.N) (qq : Fin 2048) (v : Fin 128) :
    ((cfg2.win 4).blk t).view.emb (ix3 (0 : Fin 1) qq v) = ix3 (bOf t) (qryAt t qq) v := by
  obtain ⟨a0, a1, a2, b0, b1, b2, c0, c1, c2, d0, d1, d2, e0, e1, e2⟩ := idx2 t
  refine funext fun ax => Fin.ext ?_
  match ax with
  | ⟨0, _⟩ => show win2_4.index t (0 : Fin 3) * 1 + 1 * 0 = t.val / 8; omega
  | ⟨1, _⟩ => show win2_4.index t (1 : Fin 3) * 2048 + 1 * qq.val = 2048 * (t.val / 4 % 2) + qq.val; omega
  | ⟨2, _⟩ => show win2_4.index t (2 : Fin 3) * 128 + 1 * v.val = v.val; omega

theorem j_lt (j : Fin k2_t1_loop.trips) : j.val < 4 := lt_of_lt_of_le j.isLt (by decide)

/-- Row `r` of chunk `j` is row `256 j + r` of the block. -/
theorem chunkR_apply (x : Vec Ideal S1x1024x128 .bf16) (j : Fin k2_t1_loop.trips) (r : Fin 256) (e : Fin 128) :
    chunkR x j (ix3 (0 : Fin 1) r e)
      = x (ix3 (0 : Fin 1) (⟨256 * j.val + r.val, by have := r.isLt; have := j_lt j; omega⟩ : Fin 1024) e) := by
  unfold chunkR
  show x ((Rect.unit (s := S1x1024x128) (k2_off1 j) S1x256x128.size (k2_off1_inb j)).idx (ix3 (0 : Fin 1) r e)) = _
  refine congrArg x (funext fun ax => Fin.ext ?_)
  have ho := k2_off1_eq j
  match ax with
  | ⟨0, _⟩ => show k2_off1 j 0 + 1 * 0 = 0; rw [ho]; rfl
  | ⟨1, _⟩ => show k2_off1 j 1 + 1 * r.val = 256 * j.val + r.val; rw [ho]; show 256 * j.val + 1 * r.val = _; omega
  | ⟨2, _⟩ => show k2_off1 j 2 + 1 * e.val = e.val; rw [ho]; show 0 + 1 * e.val = _; omega

theorem chunkC_apply (x : Vec Ideal S1x1x1024 .f32) (j : Fin k2_t1_loop.trips) (r : Fin 256) :
    chunkC x j (ix3 (0 : Fin 1) (0 : Fin 1) r)
      = x (ix3 (0 : Fin 1) (0 : Fin 1) (⟨256 * j.val + r.val, by have := r.isLt; have := j_lt j; omega⟩ : Fin 1024)) := by
  unfold chunkC
  show x ((Rect.unit (s := S1x1x1024) (k2_off2 j) S1x1x256.size (k2_off2_inb j)).idx (ix3 (0 : Fin 1) (0 : Fin 1) r)) = _
  refine congrArg x (funext fun ax => Fin.ext ?_)
  have ho := k2_off2_eq j
  match ax with
  | ⟨0, _⟩ => show k2_off2 j 0 + 1 * 0 = 0; rw [ho]; rfl
  | ⟨1, _⟩ => show k2_off2 j 1 + 1 * 0 = 0; rw [ho]; rfl
  | ⟨2, _⟩ => show k2_off2 j 2 + 1 * r.val = 256 * j.val + r.val; rw [ho]; show 256 * j.val + 1 * r.val = _; omega

/-- The term key `k` contributes to entry (q, v) of batch `b`: its weight times its value row's entry. -/
def term (c : Dev nD) (b : Fin 4) (q : Fin 4096) (v : Fin 128) : Fin 4096 → EReal := fun k =>
  Ideal.exp ((∑ e : Fin 128, Reg0.rd S4x4096x128 (V c main_v4) (ix3 b q e) * Reg0.rd S4x4096x128 (V c main_v5) (ix3 b k e)) * Cert.Spec.scale
      - Reg0.rd S4x1x4096 (V c main_v7) (ix3 b (0 : Fin 1) k)) * Reg0.rd S4x4096x128 (V c main_v6) (ix3 b k v)

/-- At point `t`, trip `j`'s terms for block entry (qq, v) are chunk `4 (t % 4) + j` of that entry's terms. -/
theorem trip_terms (c : Dev nD) (t : Fin cfg2.N) (j : Fin k2_t1_loop.trips) (qq : Fin 2048) (v : Fin 128)
    (h : 4 * (t.val % 4) + j.val < 16) (r : Fin 256) :
    wt (iblk V c 0 t) (chunkR (iblk V c 1 t) j) (chunkC (iblk V c 3 t) j) qq r * chunkR (iblk V c 2 t) j (ix3 (0 : Fin 1) r v)
      = Cert.Spec.chunkOf (term V c (bOf t) (qryAt t qq) v) (4 * (t.val % 4) + j.val) h r := by
  unfold wt sc Cert.Spec.chunkOf term
  have hk : keyAt t (⟨256 * j.val + r.val, by have := r.isLt; have := j_lt j; omega⟩ : Fin 1024)
      = (⟨256 * (4 * (t.val % 4) + j.val) + r.val, by have := r.isLt; omega⟩ : Fin 4096) :=
    Fin.ext (by show 1024 * (t.val % 4) + (256 * j.val + r.val) = 256 * (4 * (t.val % 4) + j.val) + r.val; omega)
  simp only [chunkR_apply, chunkC_apply, blkQ_apply, blkK_apply, blkV_apply, blkC_apply, hk]

end Blocks

/-! ## The sweep: the accumulator is the specification's running sum, the output its value after sixteen chunks -/

section Sweep

open Idealize.ShloMosaic.ValueIdx
open scoped BigOperators

variable (V : (c : Dev nD) → (b : Ref sig .tc) → Buf (Elt Ideal) ((c : Thread nD τ).loc b))

theorem chunkSum_succ (f : Fin 4096 → EReal) (n : ℕ) (h : n < 16) :
    Cert.Spec.chunkSum f (n + 1) = Cert.Spec.chunkSum f n + ∑ i : Fin 256, Cert.Spec.chunkOf f n h i := by
  rw [Cert.Spec.chunkSum.eq_2]; exact dif_pos h

theorem chunkSum_four (f : Fin 4096 → EReal) (n : ℕ) (h : n + 3 < 16) :
    Cert.Spec.chunkSum f (n + 4)
      = (((Cert.Spec.chunkSum f n + ∑ i : Fin 256, Cert.Spec.chunkOf f n (by omega) i)
          + ∑ i : Fin 256, Cert.Spec.chunkOf f (n + 1) (by omega) i)
          + ∑ i : Fin 256, Cert.Spec.chunkOf f (n + 2) (by omega) i)
          + ∑ i : Fin 256, Cert.Spec.chunkOf f (n + 3) h i :=
  (chunkSum_succ f (n + 3) h).trans (congrArg (· + _)
    ((chunkSum_succ f (n + 2) (by omega)).trans (congrArg (· + _)
      ((chunkSum_succ f (n + 1) (by omega)).trans (congrArg (· + _) (chunkSum_succ f n (by omega)))))))

theorem tripStep_apply (xq : Vec Ideal S1x2048x128 .bf16) (xk xv : Vec Ideal S1x1024x128 .bf16) (xc : Vec Ideal S1x1x1024 .f32)
    (j : Fin k2_t1_loop.trips) (acc : Vec Ideal S2048x128 .f32) (qq : Fin 2048) (v : Fin 128) :
    tripStep xq xk xv xc j acc (ix2 qq v)
      = acc (ix2 qq v) + ∑ r : Fin 256, wt xq (chunkR xk j) (chunkC xc j) qq r * chunkR xv j (ix3 (0 : Fin 1) r v) := by
  unfold tripStep; exact pay2_apply ..

/-- A POINT's four trips, at an entry: four more chunks of that entry's terms. -/
theorem pointStep_apply (c : Dev nD) (t : Fin cfg2.N) (qq : Fin 2048) (v : Fin 128) (acc : Vec Ideal S2048x128 .f32)
    (hs : acc (ix2 qq v) = Cert.Spec.chunkSum (term V c (bOf t) (qryAt t qq) v) (4 * (t.val % 4))) :
    pointStep (iblk V c 0 t) (iblk V c 1 t) (iblk V c 2 t) (iblk V c 3 t) acc (ix2 qq v)
      = Cert.Spec.chunkSum (term V c (bOf t) (qryAt t qq) v) (4 * (t.val % 4 + 1)) := by
  have hm : t.val % 4 < 4 := Nat.mod_lt _ (by decide)
  unfold pointStep
  rw [tripStep_apply, tripStep_apply, tripStep_apply, tripStep_apply, hs]
  have e0 := Finset.sum_congr rfl fun r (_ : r ∈ (Finset.univ : Finset (Fin 256))) =>
    trip_terms V c t ⟨0, lt0⟩ qq v (by show 4 * (t.val % 4) + 0 < 16; omega) r
  have e1 := Finset.sum_congr rfl fun r (_ : r ∈ (Finset.univ : Finset (Fin 256))) =>
    trip_terms V c t ⟨1, lt1⟩ qq v (by show 4 * (t.val % 4) + 1 < 16; omega) r
  have e2 := Finset.sum_congr rfl fun r (_ : r ∈ (Finset.univ : Finset (Fin 256))) =>
    trip_terms V c t ⟨2, lt2⟩ qq v (by show 4 * (t.val % 4) + 2 < 16; omega) r
  have e3 := Finset.sum_congr rfl fun r (_ : r ∈ (Finset.univ : Finset (Fin 256))) =>
    trip_terms V c t ⟨3, lt3⟩ qq v (by show 4 * (t.val % 4) + 3 < 16; omega) r
  rw [e0, e1, e2, e3]
  rw [show 4 * (t.val % 4 + 1) = 4 * (t.val % 4) + 4 from by omega, chunkSum_four _ _ (by omega)]
  rfl

/-- THE SWEEP: after the body at position `n` the accumulator holds, entry by entry, the specification's running sum
    after the first `4 (n % 4 + 1)` chunks of the entry's terms. -/
theorem acc_col (c : Dev nD) (qq : Fin 2048) (v : Fin 128) : ∀ (n : ℕ) (hn : n < cfg2.N),
    (stAt V c n hn).2 (ix2 qq v)
      = Cert.Spec.chunkSum (term V c (bOf ⟨n, hn⟩) (qryAt ⟨n, hn⟩ qq) v) (4 * (n % 4 + 1)) := by
  intro n
  induction n using Nat.strong_induction_on with
  | _ n ih =>
    intro hn
    have hN : n < 32 := lt_of_lt_of_eq hn (show cfg2.N = 32 from N_2)
    by_cases h0 : n % 4 = 0
    · rw [show stAt V c n hn = _ from stAt_first V c ⟨n, hn⟩ h0]
      dsimp only
      rw [first_eq]
      refine pointStep_apply V c ⟨n, hn⟩ qq v _ ?_
      rw [pay1_apply, show (⟨n, hn⟩ : Fin cfg2.N).val % 4 = 0 from h0]
      rfl
    · have hz : n ≠ 0 := fun h => h0 (by rw [h])
      have hprev := ih (n - 1) (by omega) (Nat.lt_of_le_of_lt (Nat.sub_le _ _) hn)
      have hb : bOf (⟨n - 1, Nat.lt_of_le_of_lt (Nat.sub_le _ _) hn⟩ : Fin cfg2.N) = bOf ⟨n, hn⟩ := Fin.ext (by show (n - 1) / 8 = n / 8; omega)
      have hq : qryAt (⟨n - 1, Nat.lt_of_le_of_lt (Nat.sub_le _ _) hn⟩ : Fin cfg2.N) qq = qryAt ⟨n, hn⟩ qq :=
        Fin.ext (by show 2048 * ((n - 1) / 4 % 2) + qq.val = 2048 * (n / 4 % 2) + qq.val; omega)
      rw [hb, hq, show 4 * ((n - 1) % 4 + 1) = 4 * (n % 4) from by omega] at hprev
      by_cases h3 : n % 4 = 3
      · rw [show stAt V c n hn = _ from stAt_last V c ⟨n, hn⟩ h0 h3]
        dsimp only
        rw [last_eq]
        exact pointStep_apply V c ⟨n, hn⟩ qq v _ hprev
      · rw [show stAt V c n hn = _ from stAt_mid V c ⟨n, hn⟩ h0 h3]
        dsimp only
        rw [mid_eq]
        exact pointStep_apply V c ⟨n, hn⟩ qq v _ hprev

/-- At a last point of a reduction the output block holds, entry by entry, the sum after all sixteen chunks. -/
theorem out_apply (c : Dev nD) (t : Fin cfg2.N) (h3 : t.val % 4 = 3) (qq : Fin 2048) (v : Fin 128) :
    (stAt V c t.val t.isLt).1 (ix3 (0 : Fin 1) qq v) = Cert.Spec.chunkSum (term V c (bOf t) (qryAt t qq) v) 16 := by
  have h0 : ¬t.val % 4 = 0 := by omega
  have hc := acc_col V c qq v t.val t.isLt
  rw [h3] at hc
  rw [stAt_last V c t h0 h3] at hc ⊢
  dsimp only at hc ⊢
  rw [out_eq, pay3_apply]
  rw [last_eq] at hc
  exact hc

/-- The output array: batch `b`, query `q`, column `v`. -/
def G (c : Dev nD) : S4x4096x128.Idx → EReal := fun i => Cert.Spec.chunkSum (term V c (i 0) (i 1) (i 2)) 16

/-- What a last point writes back is its block of the output array. -/
theorem flushed_eq (c : Dev nD) (t : Fin cfg2.N) (hf : (cfg2.win 4).flush t = true) :
    (Reg2.dat (F := Ideal) V c).flushed 4 t = ((cfg2.win 4).blk t).view.read (Elt Ideal) (G V c) := by
  have h3 : t.val % 4 = 3 := (flush2_4 t).mp hf
  show (cfg2.win 4).cut (grid2.coords t) ((Reg2.dat (F := Ideal) V c).after 4 t) = _
  rw [after4]
  funext j
  obtain ⟨u0, qq, v, rfl⟩ : ∃ (u0 : Fin 1) (qq : Fin 2048) (v : Fin 128), j = ix3 u0 qq v := ⟨j 0, j 1, j 2, eq_ix3 j⟩
  obtain rfl : u0 = 0 := Subsingleton.elim _ _
  show (stAt V c t.val t.isLt).1 (ix3 (0 : Fin 1) qq v) = G V c (((cfg2.win 4).blk t).view.emb (ix3 (0 : Fin 1) qq v))
  rw [out_apply V c t h3 qq v, embO_apply]
  rfl

/-- Every index of the output array is in the block of the last point of its batch and query half. -/
theorem cover4 (i : S4x4096x128.Idx) :
    ∃ t : Fin cfg2.N, (cfg2.win 4).flush t = true ∧ i ∈ ((cfg2.win 4).blk t).view.set := by
  have hi0 : (i 0).val < 4 := (i 0).isLt
  have hi1 : (i 1).val < 4096 := (i 1).isLt
  have hi2 : (i 2).val < 128 := (i 2).isLt
  have ht : (i 0).val * 8 + (i 1).val / 2048 * 4 + 3 < cfg2.N := lt_of_lt_of_eq (show (i 0).val * 8 + (i 1).val / 2048 * 4 + 3 < 32 by omega) N_2.symm
  refine ⟨⟨(i 0).val * 8 + (i 1).val / 2048 * 4 + 3, ht⟩, (flush2_4 _).mpr (by show ((i 0).val * 8 + (i 1).val / 2048 * 4 + 3) % 4 = 3; omega), ?_⟩
  obtain ⟨a0, a1, a2, b0, b1, b2, c0, c1, c2, d0, d1, d2, e0, e1, e2⟩ := idx2 ⟨(i 0).val * 8 + (i 1).val / 2048 * 4 + 3, ht⟩
  show i ∈ ((View.whole main_v8).slice (win2_4.rect ⟨(i 0).val * 8 + (i 1).val / 2048 * 4 + 3, ht⟩)).set
  rw [View.set_slice_whole, Rect.mem_set_unit]
  intro ax
  match ax with
  | ⟨0, _⟩ =>
    show win2_4.index ⟨(i 0).val * 8 + (i 1).val / 2048 * 4 + 3, ht⟩ (0 : Fin 3) * 1 ≤ (i 0).val ∧ (i 0).val < win2_4.index ⟨(i 0).val * 8 + (i 1).val / 2048 * 4 + 3, ht⟩ (0 : Fin 3) * 1 + 1
    rw [e0]; show ((i 0).val * 8 + (i 1).val / 2048 * 4 + 3) / 8 * 1 ≤ (i 0).val ∧ (i 0).val < ((i 0).val * 8 + (i 1).val / 2048 * 4 + 3) / 8 * 1 + 1; omega
  | ⟨1, _⟩ =>
    show win2_4.index ⟨(i 0).val * 8 + (i 1).val / 2048 * 4 + 3, ht⟩ (1 : Fin 3) * 2048 ≤ (i 1).val ∧ (i 1).val < win2_4.index ⟨(i 0).val * 8 + (i 1).val / 2048 * 4 + 3, ht⟩ (1 : Fin 3) * 2048 + 2048
    rw [e1]; show ((i 0).val * 8 + (i 1).val / 2048 * 4 + 3) / 4 % 2 * 2048 ≤ (i 1).val ∧ (i 1).val < ((i 0).val * 8 + (i 1).val / 2048 * 4 + 3) / 4 % 2 * 2048 + 2048; omega
  | ⟨2, _⟩ =>
    show win2_4.index ⟨(i 0).val * 8 + (i 1).val / 2048 * 4 + 3, ht⟩ (2 : Fin 3) * 128 ≤ (i 2).val ∧ (i 2).val < win2_4.index ⟨(i 0).val * 8 + (i 1).val / 2048 * 4 + 3, ht⟩ (2 : Fin 3) * 128 + 128
    rw [e2]; omega

/-- THE VALUE OF PASS 2: after the region, entry (b, q, v) of the output array is the sum over all 4096 keys, sixteen
    chunks at a time, of each key's weight — the exponential of its scaled score with query `q` less its statistic —
    times entry `v` of its value row, the operands as the region found them. -/
theorem out4 (c : Dev nD) (b : Fin 4) (q : Fin 4096) (v : Fin 128) :
    (Reg2.dat (F := Ideal) V c).arrAt 4 cfg2.N (ix3 b q v)
      = Cert.Spec.chunkSum (fun k : Fin 4096 =>
          Ideal.exp ((∑ e : Fin 128, Reg0.rd S4x4096x128 (V c main_v4) (ix3 b q e) * Reg0.rd S4x4096x128 (V c main_v5) (ix3 b k e)) * Cert.Spec.scale
            - Reg0.rd S4x1x4096 (V c main_v7) (ix3 b (0 : Fin 1) k)) * Reg0.rd S4x4096x128 (V c main_v6) (ix3 b k v)) 16 := by
  rw [(Reg2.dat (F := Ideal) V c).arrAt_eq_of_cover 4 (G V c) (flushed_eq V c) cover4]
  rfl

end Sweep

end Cert.KernelIdeal.Reg2B

end
-- ==== Proof.KI.Bridge.lean ====
/-
  The kernel's result array, on real inputs, is the function of Formula.lean, entry by entry.

  The statistic array holds, for key k of batch b, the chunkwise column statistic of the real scores of all queries
  against k; the output region weights key k's row of V by exp (score − statistic), which is the query-axis softmax
  weight, and accumulates over the keys sixteen chunks at a time, which is the plain sum.
-/
import proofs.«135563_j8478265442573_2_alg».proof.Proof.KI.BridgeProj
import proofs.«135563_j8478265442573_2_alg».proof.Proof.KI.Region1Value
import proofs.«135563_j8478265442573_2_alg».proof.Proof.KI.Region2ValueB
import proofs.«135563_j8478265442573_2_alg».proof.Proof.Formula
import proofs.«135563_j8478265442573_2_alg».proof.Proof.Law

noncomputable section

namespace Cert.KernelIdeal.Bridge

open Cert.KernelIdeal Cert.KernelIdeal.Gen Cert.KernelIdeal.Asm
open Cert.KernelIdeal.Reg0 (rd)
open Idealize.ShloMosaic Idealize.ShloMosaic.TcCoe Idealize.ShloMosaic.ValueIdx Idealize.SL.Sem
open Cert.Formula Cert.Law Cert.OnlineSoftmax
open scoped BigOperators

/-- The statistic array at key `k` of batch `b`: the chunkwise column statistic of the real scores against `k`. -/
theorem statAt (m : (ℓ : Loc nD τ sig) → Buf (Elt Ideal) ℓ) (c : Dev nD) (a0 a1 : I3 → ℝ) (w3 w5 : I2 → ℝ) (b4 b6 : I1 → ℝ)
    (hA0 : (m ((c : Thread nD τ).loc main_arg0) : S4x4096x1024.Idx → EReal) = fun i => ((a0 i : ℝ) : EReal))
    (hA1 : (m ((c : Thread nD τ).loc main_arg1) : S4x4096x1024.Idx → EReal) = fun i => ((a1 i : ℝ) : EReal))
    (hW3 : (m ((c : Thread nD τ).loc main_arg3) : S128x1024.Idx → EReal) = fun i => ((w3 i : ℝ) : EReal))
    (hB4 : (m ((c : Thread nD τ).loc main_arg4) : S128.Idx → EReal) = fun i => ((b4 i : ℝ) : EReal))
    (hW5 : (m ((c : Thread nD τ).loc main_arg5) : S128x1024.Idx → EReal) = fun i => ((w5 i : ℝ) : EReal))
    (hB6 : (m ((c : Thread nD τ).loc main_arg6) : S128.Idx → EReal) = fun i => ((b6 i : ℝ) : EReal))
    (b : Fin 4) (k : Fin 4096) :
    rd S4x1x4096 (E4 m Whole.half0 Whole.half1 c main_v7) (ix3 b 0 k)
      = Cert.Spec.stat (fun q : Fin 4096 => ((score (proj a0 w3 b4) (proj a1 w5 b6) b q k : ℝ) : EReal)) := by
  have e : E4 m Whole.half0 Whole.half1 c main_v7 = (Reg1.dat (F := Ideal) (E3 m Whole.half0) c).arrAt 2 cfg1.N :=
    W4_arr m Whole.half0 Whole.half1 c 2
  show (E4 m Whole.half0 Whole.half1 c main_v7) (ix3 b 0 k) = _
  rw [e, Reg1.out2]
  congr 1
  funext q
  simp only [projQ3 m c a0 w3 b4 hA0 hW3 hB4, projK3 m c a1 w5 b6 hA1 hW5 hB6, ← EReal.coe_mul, ← coe_sum, Cert.Spec.scale, score]

/-- THE KERNEL'S RESULT, entry by entry. -/
theorem result (m : (ℓ : Loc nD τ sig) → Buf (Elt Ideal) ℓ) (c : Dev nD) (a0 a1 a2 : I3 → ℝ) (w3 w5 w7 : I2 → ℝ) (b4 b6 b8 : I1 → ℝ)
    (hA0 : (m ((c : Thread nD τ).loc main_arg0) : S4x4096x1024.Idx → EReal) = fun i => ((a0 i : ℝ) : EReal))
    (hA1 : (m ((c : Thread nD τ).loc main_arg1) : S4x4096x1024.Idx → EReal) = fun i => ((a1 i : ℝ) : EReal))
    (hA2 : (m ((c : Thread nD τ).loc main_arg2) : S4x4096x1024.Idx → EReal) = fun i => ((a2 i : ℝ) : EReal))
    (hW3 : (m ((c : Thread nD τ).loc main_arg3) : S128x1024.Idx → EReal) = fun i => ((w3 i : ℝ) : EReal))
    (hB4 : (m ((c : Thread nD τ).loc main_arg4) : S128.Idx → EReal) = fun i => ((b4 i : ℝ) : EReal))
    (hW5 : (m ((c : Thread nD τ).loc main_arg5) : S128x1024.Idx → EReal) = fun i => ((w5 i : ℝ) : EReal))
    (hB6 : (m ((c : Thread nD τ).loc main_arg6) : S128.Idx → EReal) = fun i => ((b6 i : ℝ) : EReal))
    (hW7 : (m ((c : Thread nD τ).loc main_arg7) : S128x1024.Idx → EReal) = fun i => ((w7 i : ℝ) : EReal))
    (hB8 : (m ((c : Thread nD τ).loc main_arg8) : S128.Idx → EReal) = fun i => ((b8 i : ℝ) : EReal))
    (b : Fin 4) (q : Fin 4096) (v : Fin 128) :
    rd S4x4096x128 ((Reg2.dat (F := Ideal) (E4 m Whole.half0 Whole.half1) c).arrAt 4 cfg2.N) (ix3 b q v)
      = ((out (proj a0 w3 b4) (proj a1 w5 b6) (proj a2 w7 b8) b q v : ℝ) : EReal) := by
  show ((Reg2.dat (F := Ideal) (E4 m Whole.half0 Whole.half1) c).arrAt 4 cfg2.N) (ix3 b q v) = _
  rw [Reg2B.out4, chunkSum_all]
  have hterm : ∀ k : Fin 4096,
      Ideal.exp ((∑ e : Fin 128, rd S4x4096x128 (E4 m Whole.half0 Whole.half1 c main_v4) (ix3 b q e) * rd S4x4096x128 (E4 m Whole.half0 Whole.half1 c main_v5) (ix3 b k e)) * Cert.Spec.scale
          - rd S4x1x4096 (E4 m Whole.half0 Whole.half1 c main_v7) (ix3 b 0 k)) * rd S4x4096x128 (E4 m Whole.half0 Whole.half1 c main_v6) (ix3 b k v)
        = ((softw (fun q' => score (proj a0 w3 b4) (proj a1 w5 b6) b q' k) q * proj a2 w7 b8 b k v : ℝ) : EReal) := by
    intro k
    rw [statAt m c a0 a1 w3 w5 b4 b6 hA0 hA1 hW3 hB4 hW5 hB6 b k, projV4 m c a2 w7 b8 hA2 hW7 hB8 b k v]
    simp only [projQ4 m c a0 w3 b4 hA0 hW3 hB4, projK4 m c a1 w5 b6 hA1 hW5 hB6, ← EReal.coe_mul, ← coe_sum, Cert.Spec.scale]
    rw [show ((∑ e : Fin 128, proj a0 w3 b4 b q e * proj a1 w5 b6 b k e) * (1048576 / 11863283) : ℝ)
        = score (proj a0 w3 b4) (proj a1 w5 b6) b q k from rfl,
      kernel_weight (fun q' => score (proj a0 w3 b4) (proj a1 w5 b6) b q' k) q, ← EReal.coe_mul]
  simp only [hterm, ← coe_sum]
  rfl

end Cert.KernelIdeal.Bridge

end
-- ==== Proof.Ref.lean ====
/-
  The reference program's result, on real inputs, is the function of Formula.lean, entry by entry.
-/
import proofs.«135563_j8478265442573_2_alg».proof.Proof.Gen.ReferenceIdeal.Read
import proofs.«135563_j8478265442573_2_alg».proof.Proof.Formula
import Idealize.ShloMosaic.Lib.ValueIdx

noncomputable section

namespace Cert.RefValue

open Idealize.ShloMosaic Idealize.ShloMosaic.ValueIdx Idealize.ShloMosaic.TcCoe
open Cert.ReferenceIdeal Cert.ReferenceIdeal.Gen Cert.ReferenceIdeal.Read Cert.Formula Cert.Law Cert.OnlineSoftmax
open scoped BigOperators

/-- Real arrays read as arrays of extended reals. -/
abbrev up3 (a : I3 → ℝ) : (⟨S4x4096x1024, .f32⟩ : BufTy).Contents (Elt Ideal) := fun i => ((a i : ℝ) : EReal)
abbrev up2 (a : I2 → ℝ) : (⟨S128x1024, .f32⟩ : BufTy).Contents (Elt Ideal) := fun i => ((a i : ℝ) : EReal)
abbrev up1 (a : I1 → ℝ) : (⟨S128, .f32⟩ : BufTy).Contents (Elt Ideal) := fun i => ((a i : ℝ) : EReal)

variable (a0 a1 a2 : I3 → ℝ) (w3 w5 w7 : I2 → ℝ) (b4 b6 b8 : I1 → ℝ)

/-- The query projection. -/
theorem projQ (bb : Fin 4) (l : Fin 4096) (n : Fin 128) :
    val_main_v3 (F := Ideal) (up3 a0) (up2 w3) (up1 b4) (ix3 bb l n) = ((proj a0 w3 b4 bb l n : ℝ) : EReal) := by
  rw [val_main_v3_apply, val_main_v0_apply, val_main_v2_apply, val_main_v1_apply]
  have e1 : ∀ k, lidx_main_v0 (ix3 bb l n) k = ix3 bb l k := fun k => funext fun a => by
    match a with | ⟨0, _⟩ => rfl | ⟨1, _⟩ => rfl | ⟨2, _⟩ => rfl
  have e2 : ∀ k, ridx_main_v0 (ix3 bb l n) k = ix2 n k := fun k => funext fun a => by
    match a with | ⟨0, _⟩ => rfl | ⟨1, _⟩ => rfl
  have e3 : idx_main_v1 (idx_main_v2 (ix3 bb l n)) = ix1 n := funext fun a => by
    match a with | ⟨0, _⟩ => rfl
  simp only [e1, e2, e3, up3, up2, up1, Ideal.addf_def, proj, ← EReal.coe_mul, ← coe_sum, ← EReal.coe_add]

/-- The key projection. -/
theorem projK (bb : Fin 4) (l : Fin 4096) (n : Fin 128) :
    val_main_v7 (F := Ideal) (up3 a1) (up2 w5) (up1 b6) (ix3 bb l n) = ((proj a1 w5 b6 bb l n : ℝ) : EReal) := by
  rw [val_main_v7_apply, val_main_v4_apply, val_main_v6_apply, val_main_v5_apply]
  have e1 : ∀ k, lidx_main_v4 (ix3 bb l n) k = ix3 bb l k := fun k => funext fun a => by
    match a with | ⟨0, _⟩ => rfl | ⟨1, _⟩ => rfl | ⟨2, _⟩ => rfl
  have e2 : ∀ k, ridx_main_v4 (ix3 bb l n) k = ix2 n k := fun k => funext fun a => by
    match a with | ⟨0, _⟩ => rfl | ⟨1, _⟩ => rfl
  have e3 : idx_main_v5 (idx_main_v6 (ix3 bb l n)) = ix1 n := funext fun a => by
    match a with | ⟨0, _⟩ => rfl
  simp only [e1, e2, e3, up3, up2, up1, Ideal.addf_def, proj, ← EReal.coe_mul, ← coe_sum, ← EReal.coe_add]

/-- The value projection. -/
theorem projV (bb : Fin 4) (l : Fin 4096) (n : Fin 128) :
    val_main_v11 (F := Ideal) (up3 a2) (up2 w7) (up1 b8) (ix3 bb l n) = ((proj a2 w7 b8 bb l n : ℝ) : EReal) := by
  rw [val_main_v11_apply, val_main_v8_apply, val_main_v10_apply, val_main_v9_apply]
  have e1 : ∀ k, lidx_main_v8 (ix3 bb l n) k = ix3 bb l k := fun k => funext fun a => by
    match a with | ⟨0, _⟩ => rfl | ⟨1, _⟩ => rfl | ⟨2, _⟩ => rfl
  have e2 : ∀ k, ridx_main_v8 (ix3 bb l n) k = ix2 n k := fun k => funext fun a => by
    match a with | ⟨0, _⟩ => rfl | ⟨1, _⟩ => rfl
  have e3 : idx_main_v9 (idx_main_v10 (ix3 bb l n)) = ix1 n := funext fun a => by
    match a with | ⟨0, _⟩ => rfl
  simp only [e1, e2, e3, up3, up2, up1, Ideal.addf_def, proj, ← EReal.coe_mul, ← coe_sum, ← EReal.coe_add]

/-- The scaled scores: the quotient by the divisor is the product with its reciprocal. -/
theorem scores (bb : Fin 4) (q k : Fin 4096) :
    val_main_v14 (F := Ideal) (up3 a0) (up3 a1) (up2 w3) (up1 b4) (up2 w5) (up1 b6) (ix3 bb q k)
      = ((score (proj a0 w3 b4) (proj a1 w5 b6) bb q k : ℝ) : EReal) := by
  rw [val_main_v14_apply, val_main_v12_apply, val_main_v13_apply, val_main_cst_apply]
  have e1 : ∀ e, lidx_main_v12 (ix3 bb q k) e = ix3 bb q e := fun e => funext fun a => by
    match a with | ⟨0, _⟩ => rfl | ⟨1, _⟩ => rfl | ⟨2, _⟩ => rfl
  have e2 : ∀ e, ridx_main_v12 (ix3 bb q k) e = ix3 bb k e := fun e => funext fun a => by
    match a with | ⟨0, _⟩ => rfl | ⟨1, _⟩ => rfl | ⟨2, _⟩ => rfl
  simp only [e1, e2, projQ, projK, Ideal.hostDivf_def, Ideal.ofBits_def, Cert.Consts.ofBits_div, ← EReal.coe_mul, ← coe_sum]
  rw [Ideal.div_coe (by norm_num), ← EReal.coe_mul]
  refine congrArg Real.toEReal ?_
  unfold score
  norm_num

/-- The column maximum the reference subtracts is a real number. -/
theorem colmax (bb : Fin 4) (k : Fin 4096) :
    ∃ M : ℝ, val_main_v17 (F := Ideal) (up3 a0) (up3 a1) (up2 w3) (up1 b4) (up2 w5) (up1 b6) (ix2 bb k) = (M : EReal) := by
  have h : S4x4096x4096.Reduces [(1 : Fin S4x4096x4096.rank)] S4x4096 := by decide
  rw [val_main_v17_apply, val_main_v16_apply, val_main_cst_1_apply]
  unfold val_main_v15
  rw [Host.reduce_eq_fold_single FloatOps.maximumf _ _ reducesTo_S4x4096x4096_S4x4096_d1 h h_S_ (ix2 bb k), val_main_cst_0_apply]
  have hcol : (val_main_v14 (F := Ideal) (up3 a0) (up3 a1) (up2 w3) (up1 b4) (up2 w5) (up1 b6)) ∘ (h.lift (ix2 bb k))
      = fun q : Fin 4096 => ((score (proj a0 w3 b4) (proj a1 w5 b6) bb q k : ℝ) : EReal) := funext fun q => by
    show val_main_v14 (F := Ideal) (up3 a0) (up3 a1) (up2 w3) (up1 b4) (up2 w5) (up1 b6) (h.lift (ix2 bb k) q) = _
    have e : h.lift (ix2 bb k) q = ix3 bb (q : Fin 4096) k := funext fun a => Fin.ext (by
      match a with | ⟨0, _⟩ => rfl | ⟨1, _⟩ => rfl | ⟨2, _⟩ => rfl)
    rw [e]
    exact scores a0 a1 w3 w5 b4 b6 bb q k
  rw [hcol]
  show ∃ M : ℝ, max (Ideal.ofBits .f32 0xFF800000#32) ((Finset.univ : Finset (Fin 4096)).fold max (Ideal.ofBits .f32 0xFF800000#32)
      (fun q => ((score (proj a0 w3 b4) (proj a1 w5 b6) bb q k : ℝ) : EReal))) = (M : EReal)
  rw [Cert.Consts.ofBits_ninf]
  obtain ⟨x, hx⟩ := fold_max_coe (Finset.univ : Finset (Fin 4096)) ⟨⟨0, by norm_num⟩, Finset.mem_univ _⟩
    (fun q => score (proj a0 w3 b4) (proj a1 w5 b6) bb q k)
  exact ⟨x, by rw [hx]; simp⟩

/-- The exponentials the reference forms, relative to the column maximum `M`. -/
theorem expo (bb : Fin 4) (k : Fin 4096) (M : ℝ)
    (hM : val_main_v17 (F := Ideal) (up3 a0) (up3 a1) (up2 w3) (up1 b4) (up2 w5) (up1 b6) (ix2 bb k) = (M : EReal)) (q : Fin 4096) :
    val_main_v21 (F := Ideal) (up3 a0) (up3 a1) (up2 w3) (up1 b4) (up2 w5) (up1 b6) (ix3 bb q k)
      = Ideal.exp (((score (proj a0 w3 b4) (proj a1 w5 b6) bb q k : ℝ) : EReal) - (M : EReal)) := by
  rw [val_main_v21_apply, val_main_v20_apply, val_main_v19_apply, val_main_v18_apply, scores,
    show idx_main_v18 (idx_main_v19 (ix3 bb q k)) = ix2 bb k from funext fun a => by
      match a with | ⟨0, _⟩ => rfl | ⟨1, _⟩ => rfl, hM]
  rfl

/-- The reference's softmax weight over the query axis. -/
theorem weight (bb : Fin 4) (q k : Fin 4096) :
    val_main_v25 (F := Ideal) (up3 a0) (up3 a1) (up2 w3) (up1 b4) (up2 w5) (up1 b6) (ix3 bb q k)
      = ((softw (fun q' => score (proj a0 w3 b4) (proj a1 w5 b6) bb q' k) q : ℝ) : EReal) := by
  obtain ⟨M, hM⟩ := colmax a0 a1 w3 w5 b4 b6 bb k
  rw [val_main_v25_apply, val_main_v24_apply, val_main_v23_apply, val_main_v22_apply, val_main_cst_2_apply,
    show idx_main_v23 (idx_main_v24 (ix3 bb q k)) = ix2 bb k from funext fun a => by
      match a with | ⟨0, _⟩ => rfl | ⟨1, _⟩ => rfl]
  have e : ∀ q', idx_main_v22 (ix2 bb k) q' = ix3 bb q' k := fun q' => funext fun a => by
    match a with | ⟨0, _⟩ => rfl | ⟨1, _⟩ => rfl | ⟨2, _⟩ => rfl
  simp only [e, expo a0 a1 w3 w5 b4 b6 bb k M hM, Ideal.hostDivf_def, Ideal.ofBits_def, Cert.Consts.ofBits_zero]
  exact reference_weight (fun q' => score (proj a0 w3 b4) (proj a1 w5 b6) bb q' k) M q

/-- THE REFERENCE'S RESULT, entry by entry. -/
theorem result (bb : Fin 4) (q : Fin 4096) (v : Fin 128) :
    val_main_v26 (F := Ideal) (up3 a0) (up3 a1) (up3 a2) (up2 w3) (up1 b4) (up2 w5) (up1 b6) (up2 w7) (up1 b8) (ix3 bb q v)
      = ((out (proj a0 w3 b4) (proj a1 w5 b6) (proj a2 w7 b8) bb q v : ℝ) : EReal) := by
  rw [val_main_v26_apply]
  have e1 : ∀ k, lidx_main_v26 (ix3 bb q v) k = ix3 bb q k := fun k => funext fun a => by
    match a with | ⟨0, _⟩ => rfl | ⟨1, _⟩ => rfl | ⟨2, _⟩ => rfl
  have e2 : ∀ k, ridx_main_v26 (ix3 bb q v) k = ix3 bb k v := fun k => funext fun a => by
    match a with | ⟨0, _⟩ => rfl | ⟨1, _⟩ => rfl | ⟨2, _⟩ => rfl
  simp only [e1, e2, weight, projV, ← EReal.coe_mul, ← coe_sum]
  rfl

end Cert.RefValue

end
-- ==== Proof.Finite.lean ====
/-
  The precondition read back: every entry of every input array is a real number.

  The printed predicate is the conjunction, over the nine arrays, of "every entry's absolute value is below +∞",
  each an and-reduction of an elementwise comparison.  On the extended reals |x| < ⊤ says exactly that x is real.
-/
import proofs.«135563_j8478265442573_2_alg».proof.Pre_finite_inputs
import proofs.«135563_j8478265442573_2_alg».proof.Proof.Consts
import Idealize.ShloMosaic.Lib.ReduceAll
import Idealize.ShloMosaic.Lib.Affine
import Idealize.ShloMosaic.Lib.ValueIdx
import Idealize.ShloMosaic.PureOps.Ideal

noncomputable section

namespace Cert.Finite

open Idealize.ShloMosaic Idealize.ShloMosaic.ValueIdx Cert.Pre_finite_inputs Cert.Pre_finite_inputs.Facts

variable [Cert.Pre_finite_inputs.Facts]

instance : Subsingleton S_.Idx := ⟨fun a b => funext fun d => d.elim0⟩

/-- An extended real whose absolute value is below the top is a real. -/
theorem real_of_abs_lt (x : EReal) (h : max x (-x) < ⊤) : ∃ r : ℝ, x = (r : EReal) := by
  induction x using EReal.rec with
  | bot => simp at h
  | coe r => exact ⟨r, rfl⟩
  | top => simp at h

/-- One conjunct of the predicate gives every entry of its array as a real. -/
theorem real_of_all {s : Shape} {axes : List (Fin s.rank)} (x : FVec Ideal s .f32) (hb : (S_ : Shape).BroadcastsInDim s ![])
    (h : s.ReducesTo axes S_) (hu : 0 < S_.numel)
    (e : Host.reduce IntOp.andi (cmpf .olt (Host.absf x) (broadcastInDim s ![] hb (constant S_ .f32 0x7F800000#32)))
      (constantI S_ 1 1#1) h hu ix0 = 1#1) (i : s.Idx) : ∃ r : ℝ, x i = (r : EReal) := by
  have hi := Host.reduce_andi_all _ _ h hu ix0 e i
  refine real_of_abs_lt (x i) ?_
  simp only [cmpf, Host.absf, broadcastInDim, constant, Ideal.ofBits_def, Cert.Consts.ofBits_pinf] at hi
  revert hi
  show Ideal.cmp .olt (max (x i) (-(x i))) ⊤ = 1#1 → _
  unfold Ideal.cmp
  intro hi
  by_contra hc
  simp [hc] at hi

/-- THE PRECONDITION READ BACK: if the printed predicate is all ones, every entry of each of the nine arrays is real. -/
theorem reals (x0 x1 x2 : FVec Ideal S4x4096x1024 .f32) (x3 : FVec Ideal S128x1024 .f32) (x4 : FVec Ideal S128 .f32)
    (x5 : FVec Ideal S128x1024 .f32) (x6 : FVec Ideal S128 .f32) (x7 : FVec Ideal S128x1024 .f32) (x8 : FVec Ideal S128 .f32)
    (h : fn (F := Ideal) x0 x1 x2 x3 x4 x5 x6 x7 x8 = fun _ => 1#1) :
    (∀ i, ∃ r : ℝ, x0 i = (r : EReal)) ∧ (∀ i, ∃ r : ℝ, x1 i = (r : EReal)) ∧ (∀ i, ∃ r : ℝ, x2 i = (r : EReal))
      ∧ (∀ i, ∃ r : ℝ, x3 i = (r : EReal)) ∧ (∀ i, ∃ r : ℝ, x4 i = (r : EReal)) ∧ (∀ i, ∃ r : ℝ, x5 i = (r : EReal))
      ∧ (∀ i, ∃ r : ℝ, x6 i = (r : EReal)) ∧ (∀ i, ∃ r : ℝ, x7 i = (r : EReal)) ∧ (∀ i, ∃ r : ℝ, x8 i = (r : EReal)) := by
  have h0 := congrFun h ix0
  dsimp only [fn, fn_part1, fn_part2] at h0
  simp only [andi, IntOp.andi_eq_one] at h0
  obtain ⟨⟨⟨⟨⟨⟨⟨⟨e0, e1⟩, e2⟩, e3⟩, e4⟩, e5⟩, e6⟩, e7⟩, e8⟩ := h0
  exact ⟨real_of_all x0 _ _ _ e0, real_of_all x1 _ _ _ e1, real_of_all x2 _ _ _ e2, real_of_all x3 _ _ _ e3,
    real_of_all x4 _ _ _ e4, real_of_all x5 _ _ _ e5, real_of_all x6 _ _ _ e6, real_of_all x7 _ _ _ e7, real_of_all x8 _ _ _ e8⟩

end Cert.Finite

end
-- ==== Proof.lean ====
/- The proof of `Cert.Claim`. The kernel's program is three pipelined regions between reshapes; each of its frame
   claims is the assembly of the three regions' halves. On real inputs the kernel's result array and the reference's
   are, entry by entry, the same real function of the inputs (the three projections, the scaled scores, the softmax
   over the query axis, the weighted sum of the value rows), read as extended reals: that is the algebraic claim.
   The preserved idealization is the one named constant, the reciprocal of the reference's divisor. -/
import proofs.«135563_j8478265442573_2_alg».proof.Defs
import proofs.«135563_j8478265442573_2_alg».proof.Proof.Gen.Kernel
import proofs.«135563_j8478265442573_2_alg».proof.Proof.Gen.KernelIdeal
import proofs.«135563_j8478265442573_2_alg».proof.Proof.Gen.ReferenceIdeal
import proofs.«135563_j8478265442573_2_alg».proof.Proof.Gen.Pre_finite_inputs
import proofs.«135563_j8478265442573_2_alg».proof.Proof.Gen.ReferenceIdeal.Run
import proofs.«135563_j8478265442573_2_alg».proof.Proof.Gen.ReferenceIdeal.Read
import proofs.«135563_j8478265442573_2_alg».proof.Proof.K.Frame
import proofs.«135563_j8478265442573_2_alg».proof.Proof.KI.Frame
import proofs.«135563_j8478265442573_2_alg».proof.Proof.KI.Bridge
import proofs.«135563_j8478265442573_2_alg».proof.Proof.Ref
import proofs.«135563_j8478265442573_2_alg».proof.Proof.Finite
import proofs.«135563_j8478265442573_2_alg».proof.Proof.Formula
import Idealize.ShloMosaic.Lib.ValueIdx
import Idealize.ShloMosaic.Adequacy
import Idealize.ShloMosaic.Init

noncomputable section

namespace Cert.Proof

open Idealize.ShloMosaic Idealize.ShloMosaic.ValueIdx Idealize.SL.Sem
open Cert.Formula (I3 I2 I1 proj out)
open Cert.RefValue (up3 up2 up1)

/-! ## The frames -/

theorem frame_k : Cert.frame_Kernel := fun m ρ _ => Cert.Kernel.Whole.frame m ρ

theorem frame_ki : Cert.frame_KernelIdeal := fun m ρ _ => Cert.KernelIdeal.Whole.frame m ρ

theorem frame_ri : Cert.frame_ReferenceIdeal := fun m ρ _ =>
  (θ_run Cert.ReferenceIdeal.defs _ _).mono (fun _ h c => (h c).2) (Cert.ReferenceIdeal.Value.run (F := Ideal) m ρ)

/-! ## The idealization -/

/-- The kernel's two scale constants are named by the reciprocal of the reference's divisor, `2^20 / 11863283`. -/
theorem preserves : Cert.preserves_Kernel_KernelIdeal :=
  ⟨IdealRules.named_const.statement Cert.KernelIdeal.κ "inv_sqrt_d" .f32 0x3DB504F3#32 ((1048576 / 11863283 : ℝ) : EReal) rfl,
   IdealRules.named_const.statement Cert.KernelIdeal.κ "inv_sqrt_d" .f32 0x3DB504F3#32 ((1048576 / 11863283 : ℝ) : EReal) rfl⟩

/-! ## The two results are one function of the inputs -/

/-- The reference's result on real inputs, entry by entry. -/
theorem ref_result (m' : (ℓ : Loc Cert.ReferenceIdeal.nD Cert.ReferenceIdeal.τ Cert.ReferenceIdeal.sig) → Buf (Elt Ideal) ℓ) (c : Dev Cert.ReferenceIdeal.nD)
    (a0 a1 a2 : I3 → ℝ) (w3 w5 w7 : I2 → ℝ) (b4 b6 b8 : I1 → ℝ)
    (h0 : m' ((c.tc : Thread Cert.ReferenceIdeal.nD Cert.ReferenceIdeal.τ).loc Cert.ReferenceIdeal.main_arg0) = up3 a0)
    (h1 : m' ((c.tc : Thread Cert.ReferenceIdeal.nD Cert.ReferenceIdeal.τ).loc Cert.ReferenceIdeal.main_arg1) = up3 a1)
    (h2 : m' ((c.tc : Thread Cert.ReferenceIdeal.nD Cert.ReferenceIdeal.τ).loc Cert.ReferenceIdeal.main_arg2) = up3 a2)
    (h3 : m' ((c.tc : Thread Cert.ReferenceIdeal.nD Cert.ReferenceIdeal.τ).loc Cert.ReferenceIdeal.main_arg3) = up2 w3)
    (h4 : m' ((c.tc : Thread Cert.ReferenceIdeal.nD Cert.ReferenceIdeal.τ).loc Cert.ReferenceIdeal.main_arg4) = up1 b4)
    (h5 : m' ((c.tc : Thread Cert.ReferenceIdeal.nD Cert.ReferenceIdeal.τ).loc Cert.ReferenceIdeal.main_arg5) = up2 w5)
    (h6 : m' ((c.tc : Thread Cert.ReferenceIdeal.nD Cert.ReferenceIdeal.τ).loc Cert.ReferenceIdeal.main_arg6) = up1 b6)
    (h7 : m' ((c.tc : Thread Cert.ReferenceIdeal.nD Cert.ReferenceIdeal.τ).loc Cert.ReferenceIdeal.main_arg7) = up2 w7)
    (h8 : m' ((c.tc : Thread Cert.ReferenceIdeal.nD Cert.ReferenceIdeal.τ).loc Cert.ReferenceIdeal.main_arg8) = up1 b8)
    (b : Fin 4) (q : Fin 4096) (v : Fin 128) :
    Cert.ReferenceIdeal.Value.res_main_v26 m' c (ix3 b q v)
      = ((out (proj a0 w3 b4) (proj a1 w5 b6) (proj a2 w7 b8) b q v : ℝ) : EReal) := by
  rw [Cert.ReferenceIdeal.Read.val_main_v26_eq, h0, h1, h2, h3, h4, h5, h6, h7, h8]
  exact Cert.RefValue.result a0 a1 a2 w3 w5 w7 b4 b6 b8 b q v

/-- From memories that agree on the nine inputs, all real, both programs run, leave their inputs unchanged, and end
    with the same result array. -/
theorem algebraic : Cert.algebraic_KernelIdeal_ReferenceIdeal := by
  intro m ρ m' ρ' hpre hagree
  refine ⟨fun c => (Cert.KernelIdeal.Whole.half2.dat (Cert.KernelIdeal.Asm.E4 m Cert.KernelIdeal.Whole.half0 Cert.KernelIdeal.Whole.half1) c).arrAt 4 Cert.KernelIdeal.cfg2.N,
    Cert.KernelIdeal.Asm.run_out m ρ Cert.KernelIdeal.Whole.half0 Cert.KernelIdeal.Whole.half1 Cert.KernelIdeal.Whole.half2, ?_⟩
  refine (θ_run Cert.ReferenceIdeal.defs _ _).mono (fun _ h c => ⟨(h c).1.trans ?_, (h c).2⟩)
    (Cert.ReferenceIdeal.Value.run (F := Ideal) m' ρ')
  obtain ⟨r0, r1, r2, r3, r4, r5, r6, r7, r8⟩ := Cert.Finite.reals _ _ _ _ _ _ _ _ _ (hpre c)
  choose a0 ha0 using r0
  choose a1 ha1 using r1
  choose a2 ha2 using r2
  choose w3 hw3 using r3
  choose b4 hb4 using r4
  choose w5 hw5 using r5
  choose b6 hb6 using r6
  choose w7 hw7 using r7
  choose b8 hb8 using r8
  have hA0 : (m ((c.tc : Thread Cert.KernelIdeal.nD Cert.KernelIdeal.τ).loc Cert.KernelIdeal.main_arg0) : Cert.KernelIdeal.S4x4096x1024.Idx → EReal) = fun i => ((a0 i : ℝ) : EReal) := funext ha0
  have hA1 : (m ((c.tc : Thread Cert.KernelIdeal.nD Cert.KernelIdeal.τ).loc Cert.KernelIdeal.main_arg1) : Cert.KernelIdeal.S4x4096x1024.Idx → EReal) = fun i => ((a1 i : ℝ) : EReal) := funext ha1
  have hA2 : (m ((c.tc : Thread Cert.KernelIdeal.nD Cert.KernelIdeal.τ).loc Cert.KernelIdeal.main_arg2) : Cert.KernelIdeal.S4x4096x1024.Idx → EReal) = fun i => ((a2 i : ℝ) : EReal) := funext ha2
  have hW3 : (m ((c.tc : Thread Cert.KernelIdeal.nD Cert.KernelIdeal.τ).loc Cert.KernelIdeal.main_arg3) : Cert.KernelIdeal.S128x1024.Idx → EReal) = fun i => ((w3 i : ℝ) : EReal) := funext hw3
  have hB4 : (m ((c.tc : Thread Cert.KernelIdeal.nD Cert.KernelIdeal.τ).loc Cert.KernelIdeal.main_arg4) : Cert.KernelIdeal.S128.Idx → EReal) = fun i => ((b4 i : ℝ) : EReal) := funext hb4
  have hW5 : (m ((c.tc : Thread Cert.KernelIdeal.nD Cert.KernelIdeal.τ).loc Cert.KernelIdeal.main_arg5) : Cert.KernelIdeal.S128x1024.Idx → EReal) = fun i => ((w5 i : ℝ) : EReal) := funext hw5
  have hB6 : (m ((c.tc : Thread Cert.KernelIdeal.nD Cert.KernelIdeal.τ).loc Cert.KernelIdeal.main_arg6) : Cert.KernelIdeal.S128.Idx → EReal) = fun i => ((b6 i : ℝ) : EReal) := funext hb6
  have hW7 : (m ((c.tc : Thread Cert.KernelIdeal.nD Cert.KernelIdeal.τ).loc Cert.KernelIdeal.main_arg7) : Cert.KernelIdeal.S128x1024.Idx → EReal) = fun i => ((w7 i : ℝ) : EReal) := funext hw7
  have hB8 : (m ((c.tc : Thread Cert.KernelIdeal.nD Cert.KernelIdeal.τ).loc Cert.KernelIdeal.main_arg8) : Cert.KernelIdeal.S128.Idx → EReal) = fun i => ((b8 i : ℝ) : EReal) := funext hb8
  obtain ⟨e0, e1, e2, e3, e4, e5, e6, e7, e8⟩ := hagree c
  funext idx
  have hL := ref_result m' c a0 a1 a2 w3 w5 w7 b4 b6 b8
    (e0.trans hA0) (e1.trans hA1) (e2.trans hA2) (e3.trans hW3) (e4.trans hB4) (e5.trans hW5) (e6.trans hB6) (e7.trans hW7) (e8.trans hB8)
    (idx 0) (idx 1) (idx 2)
  have hK := Cert.KernelIdeal.Bridge.result m c a0 a1 a2 w3 w5 w7 b4 b6 b8 hA0 hA1 hA2 hW3 hB4 hW5 hB6 hW7 hB8
    (idx 0) (idx 1) (idx 2)
  have hidx : idx = ix3 (idx 0) (idx 1) (idx 2) := eq_ix3 idx
  rw [hidx]
  exact hL.trans hK.symm

/-! ## The claim -/

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
